-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S2x1024x1024 : Shape := ⟨3, ![2, 1024, 1024]⟩
abbrev S2x128x64 : Shape := ⟨3, ![2, 128, 64]⟩
abbrev S2x64 : Shape := ⟨2, ![2, 64]⟩
abbrev S128x128 : Shape := ⟨2, ![128, 128]⟩
abbrev S128 : Shape := ⟨1, ![128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S2x128x64 : S_.BroadcastsInDim S2x128x64 (![] : Fin 0 → Fin S2x128x64.rank)
  reducesTo_S2x128x64_S_d0_1_2 : S2x128x64.ReducesTo [0, 1, 2] S_
  bcast_S_S2x64 : S_.BroadcastsInDim S2x64 (![] : Fin 0 → Fin S2x64.rank)
  reducesTo_S2x64_S_d0_1 : S2x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x1024x1024 : S_.BroadcastsInDim S2x1024x1024 (![] : Fin 0 → Fin S2x1024x1024.rank)
  reducesTo_S2x1024x1024_S_d0_1_2 : S2x1024x1024.ReducesTo [0, 1, 2] S_

variable [Facts]

def fn_part2 {F : FTy → Type} [FloatOps F] (main_arg1 : IVec S2x1024x1024 32) (main_arg2 : IVec S2x1024x1024 32) (main_v33 : IVec S_ 1) : IVec S_ 1 :=
  let main_c_12 : IVec S_ 32 := constantI S_ 32 0#32
  let main_v34 : IVec S2x1024x1024 32 := broadcastInDim S2x1024x1024 ![] bcast_S_S2x1024x1024 main_c_12
  let main_v35 : IVec S2x1024x1024 1 := cmpi .eq main_arg1 main_v34
  let main_c_13 : IVec S_ 32 := constantI S_ 32 1#32
  let main_v36 : IVec S2x1024x1024 32 := broadcastInDim S2x1024x1024 ![] bcast_S_S2x1024x1024 main_c_13
  let main_v37 : IVec S2x1024x1024 1 := cmpi .eq main_arg1 main_v36
  let main_v38 : IVec S2x1024x1024 1 := ori main_v35 main_v37
  let main_c_14 : IVec S_ 1 := constantI S_ 1 1#1
  let main_v39 : IVec S_ 1 := (fun x v => Host.reduce IntOp.andi x v reducesTo_S2x1024x1024_S_d0_1_2 h_S_) main_v38 main_c_14
  let main_v40 : IVec S_ 1 := andi main_v33 main_v39
  let main_c_15 : IVec S_ 32 := constantI S_ 32 0#32
  let main_v41 : IVec S2x1024x1024 32 := broadcastInDim S2x1024x1024 ![] bcast_S_S2x1024x1024 main_c_15
  let main_v42 : IVec S2x1024x1024 1 := cmpi .eq main_arg2 main_v41
  let main_c_16 : IVec S_ 32 := constantI S_ 32 1#32
  let main_v43 : IVec S2x1024x1024 32 := broadcastInDim S2x1024x1024 ![] bcast_S_S2x1024x1024 main_c_16
  let main_v44 : IVec S2x1024x1024 1 := cmpi .eq main_arg2 main_v43
  let main_v45 : IVec S2x1024x1024 1 := ori main_v42 main_v44
  let main_c_17 : IVec S_ 1 := constantI S_ 1 1#1
  let main_v46 : IVec S_ 1 := (fun x v => Host.reduce IntOp.andi x v reducesTo_S2x1024x1024_S_d0_1_2 h_S_) main_v45 main_c_17
  let main_v47 : IVec S_ 1 := andi main_v40 main_v46
  main_v47

def fn_part1 {F : FTy → Type} [FloatOps F] (main_arg1 : IVec S2x1024x1024 32) (main_arg2 : IVec S2x1024x1024 32) (main_arg6 : FVec F S2x64 .f32) (main_arg7 : FVec F S128x128 .f32) (main_arg8 : FVec F S128 .f32) (main_v13 : IVec S_ 1) (main_v16 : IVec S2x128x64 1) : IVec S_ 1 :=
  let main_c_5 : IVec S_ 1 := constantI S_ 1 1#1
  let main_v17 : IVec S_ 1 := (fun x v => Host.reduce IntOp.andi x v reducesTo_S2x128x64_S_d0_1_2 h_S_) main_v16 main_c_5
  let main_v18 : IVec S_ 1 := andi main_v13 main_v17
  let main_v19 : FVec F S2x64 .f32 := Host.absf main_arg6
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg2 main_v33

def fn {F : FTy → Type} [FloatOps F] (main_arg0 : FVec F S1024x128 .f32) (main_arg1 : IVec S2x1024x1024 32) (main_arg2 : IVec S2x1024x1024 32) (main_arg3 : FVec F S2x128x64 .f32) (main_arg4 : FVec F S2x64 .f32) (main_arg5 : FVec F S2x128x64 .f32) (main_arg6 : FVec F S2x64 .f32) (main_arg7 : FVec F S128x128 .f32) (main_arg8 : FVec F S128 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S2x128x64 .f32 := Host.absf main_arg3
  let main_cst_0 : FVec F S_ .f32 := constant S_ .f32 0x7F800000#32
  let main_v5 : FVec F S2x128x64 .f32 := broadcastInDim S2x128x64 ![] bcast_S_S2x128x64 main_cst_0
  let main_v6 : IVec S2x128x64 1 := cmpf .olt main_v4 main_v5
  let main_c_1 : IVec S_ 1 := constantI S_ 1 1#1
  let main_v7 : IVec S_ 1 := (fun x v => Host.reduce IntOp.andi x v reducesTo_S2x128x64_S_d0_1_2 h_S_) main_v6 main_c_1
  let main_v8 : IVec S_ 1 := andi main_v3 main_v7
  let main_v9 : FVec F S2x64 .f32 := Host.absf main_arg4
  let main_cst_2 : FVec F S_ .f32 := constant S_ .f32 0x7F800000#32
  let main_v10 : FVec F S2x64 .f32 := broadcastInDim S2x64 ![] bcast_S_S2x64 main_cst_2
  let main_v11 : IVec S2x64 1 := cmpf .olt main_v9 main_v10
  let main_c_3 : IVec S_ 1 := constantI S_ 1 1#1
  let main_v12 : IVec S_ 1 := (fun x v => Host.reduce IntOp.andi x v reducesTo_S2x64_S_d0_1 h_S_) main_v11 main_c_3
  let main_v13 : IVec S_ 1 := andi main_v8 main_v12
  let main_v14 : FVec F S2x128x64 .f32 := Host.absf main_arg5
  let main_cst_4 : FVec F S_ .f32 := constant S_ .f32 0x7F800000#32
  let main_v15 : FVec F S2x128x64 .f32 := broadcastInDim S2x128x64 ![] bcast_S_S2x128x64 main_cst_4
  let main_v16 : IVec S2x128x64 1 := cmpf .olt main_v14 main_v15
  fn_part1 (F := F) main_arg1 main_arg2 main_arg6 main_arg7 main_arg8 main_v13 main_v16
-- ==== Kernel.lean ====
abbrev S1024x128 : Shape := ⟨2, ![1024, 128]⟩
abbrev S2x1024x1024 : Shape := ⟨3, ![2, 1024, 1024]⟩
abbrev S2x128x64 : Shape := ⟨3, ![2, 128, 64]⟩
abbrev S2x64 : Shape := ⟨2, ![2, 64]⟩
abbrev S128x128 : Shape := ⟨2, ![128, 128]⟩
abbrev S128 : Shape := ⟨1, ![128]⟩
abbrev S1x128 : Shape := ⟨2, ![1, 128]⟩
abbrev S2x1024x256 : Shape := ⟨3, ![2, 1024, 256]⟩
abbrev S256x128 : Shape := ⟨2, ![256, 128]⟩
abbrev S64x2048 : Shape := ⟨2, ![64, 2048]⟩
abbrev S1x128x64 : Shape := ⟨3, ![1, 128, 64]⟩
abbrev S128x64 : Shape := ⟨2, ![128, 64]⟩
abbrev S1024x64 : Shape := ⟨2, ![1024, 64]⟩
abbrev S1x64 : Shape := ⟨2, ![1, 64]⟩
abbrev S64x1024 : Shape := ⟨2, ![64, 1024]⟩
abbrev S1x1024x256 : Shape := ⟨3, ![1, 1024, 256]⟩
abbrev S1024x256 : Shape := ⟨2, ![1024, 256]⟩
abbrev S64x256 : Shape := ⟨2, ![64, 256]⟩
abbrev S128x256 : Shape := ⟨2, ![128, 256]⟩

abbrev nBuf : Space → Nat
  | .hbm => 11
  | .vmem => 15
  | .smem => 0
  | _ => 0

abbrev bufTy : (tb : Table) → Fin (tcTables nBuf tb) → BufTy
  | .hbm, ⟨0, _⟩ => ⟨S1024x128, .f32⟩
  | .hbm, ⟨1, _⟩ => ⟨S2x1024x1024, .i32⟩
  | .hbm, ⟨2, _⟩ => ⟨S2x1024x1024, .i32⟩
  | .hbm, ⟨3, _⟩ => ⟨S2x128x64, .f32⟩
  | .hbm, ⟨4, _⟩ => ⟨S2x64, .f32⟩
  | .hbm, ⟨5, _⟩ => ⟨S2x128x64, .f32⟩
  | .hbm, ⟨6, _⟩ => ⟨S2x64, .f32⟩
  | .hbm, ⟨7, _⟩ => ⟨S128x128, .f32⟩
  | .hbm, ⟨8, _⟩ => ⟨S128, .f32⟩
  | .hbm, ⟨9, _⟩ => ⟨S1x128, .f32⟩
  | .hbm, ⟨10, _⟩ => ⟨S1024x128, .f32⟩
  | .local _ .vmem, ⟨0, _⟩ => ⟨S1024x128, .f32⟩
  | .local _ .vmem, ⟨1, _⟩ => ⟨S2x1024x256, .i32⟩
  | .local _ .vmem, ⟨2, _⟩ => ⟨S2x1024x256, .i32⟩
  | .local _ .vmem, ⟨3, _⟩ => ⟨S2x1024x256, .i32⟩
  | .local _ .vmem, ⟨4, _⟩ => ⟨S2x1024x256, .i32⟩
  | .local _ .vmem, ⟨5, _⟩ => ⟨S2x128x64, .f32⟩
  | .local _ .vmem, ⟨6, _⟩ => ⟨S2x64, .f32⟩
  | .local _ .vmem, ⟨7, _⟩ => ⟨S2x128x64, .f32⟩
  | .local _ .vmem, ⟨8, _⟩ => ⟨S2x64, .f32⟩
  | .local _ .vmem, ⟨9, _⟩ => ⟨S128x128, .f32⟩
  | .local _ .vmem, ⟨10, _⟩ => ⟨S1x128, .f32⟩
  | .local _ .vmem, ⟨11, _⟩ => ⟨S256x128, .f32⟩
  | .local _ .vmem, ⟨12, _⟩ => ⟨S256x128, .f32⟩
  | .local _ .vmem, ⟨13, _⟩ => ⟨S64x2048, .bf16⟩
  | .local _ .vmem, ⟨14, _⟩ => ⟨S64x2048, .bf16⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_v0 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let c256_i32 : BitVec 32 := 256#32
  let v34 : BitVec 32 := Scalar.muli arg0 c256_i32
  let v35 : Index := Scalar.indexCast v34
  let c0_25 : Index := 0#32
  ![v35.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x1024x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1024x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  inb_S2x128x64_S1x128x64_0_0_0 : ∀ a, (![0, 0, 0] : Fin 3 → Nat) a + S1x128x64.size a ≤ S2x128x64.size a
  h_S1x128x64 : 0 < S1x128x64.numel
  shapeCasts_S1x128x64_S128x64 : S1x128x64.ShapeCasts S128x64
  inb_S2x64_S1x64_0_0 : ∀ a, (![0, 0] : Fin 2 → Nat) a + S1x64.size a ≤ S2x64.size a
  h_S1x64 : 0 < S1x64.numel
  broadcasts_S1x64_S1024x64 : S1x64.Broadcasts S1024x64
  bitsLt_bf16_f32 : FTy.bits .bf16 < FTy.bits .f32
  transposes_S1024x64_p1_0_S64x1024 : S1024x64.Transposes [1, 0] S64x1024
  inb_S64x2048_S64x1024_0_0 : ∀ a, (![0, 0] : Fin 2 → Nat) a + S64x1024.size a ≤ S64x2048.size a
  h_S64x1024 : 0 < S64x1024.numel
  shapeCasts_S64x1024_S64x1024 : S64x1024.ShapeCasts S64x1024
  packedbf16_S64x2048_S64x1024_0_0 : (Rect.unit (s := S64x2048) ![0, 0] S64x1024.size inb_S64x2048_S64x1024_0_0).PackedRows (EltTy.packing .bf16)
  inb_S2x128x64_S1x128x64_1_0_0 : ∀ a, (![1, 0, 0] : Fin 3 → Nat) a + S1x128x64.size a ≤ S2x128x64.size a
  inb_S2x64_S1x64_1_0 : ∀ a, (![1, 0] : Fin 2 → Nat) a + S1x64.size a ≤ S2x64.size a
  inb_S64x2048_S64x1024_0_1024 : ∀ a, (![0, 1024] : Fin 2 → Nat) a + S64x1024.size a ≤ S64x2048.size a
  packedbf16_S64x2048_S64x1024_0_1024 : (Rect.unit (s := S64x2048) ![0, 1024] S64x1024.size inb_S64x2048_S64x1024_0_1024).PackedRows (EltTy.packing .bf16)
  inb_S2x1024x256_S1x1024x256_0_0_0 : ∀ a, (![0, 0, 0] : Fin 3 → Nat) a + S1x1024x256.size a ≤ S2x1024x256.size a
  h_S1x1024x256 : 0 < S1x1024x256.numel
  shapeCasts_S1x1024x256_S1024x256 : S1x1024x256.ShapeCasts S1024x256
  inb_S2x1024x256_S1x1024x256_1_0_0 : ∀ a, (![1, 0, 0] : Fin 3 → Nat) a + S1x1024x256.size a ≤ S2x1024x256.size a
  concatenates_S64x256_S64x256_S128x256_d0 : Shape.Concatenates [S64x256, S64x256] S128x256 0
  h_S256x128 : 0 < S256x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S256x128_S256x128_0_0 : ∀ a, (![0, 0] : Fin 2 → Nat) a + S256x128.size a ≤ S256x128.size a
  dot_S1024x128_S128x64_S1024x64_1_0_0_1_n_n_wf : DotDims.WF S1024x128 S128x64 S1024x64 [1] [0] [0] [1] [] []
  dot_S64x1024_S1024x256_S64x256_1_0_0_1_n_n_wf : DotDims.WF S64x1024 S1024x256 S64x256 [1] [0] [0] [1] [] []
  dot_S128x256_S128x128_S256x128_0_0_1_1_n_n_wf : DotDims.WF S128x256 S128x128 S256x128 [0] [0] [1] [1] [] []
  hrank0 : 0 < grid0.rank
  k0_off1_inb : ∀ i : grid0.Coords, ∀ a, (k0_off1 i) a + S256x128.size a ≤ S1024x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1024x128.size a
  hwx0_0 : ∀ i : grid0.Coords, EltTy.bits .f32 = 32 ∨ (Rect.block (s := S1024x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x256.size a ≤ S2x1024x1024.size a
  hwx0_1 : ∀ i : grid0.Coords, EltTy.bits .i32 = 32 ∨ (Rect.block (s := S2x1024x1024) S2x1024x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1024x256.size a ≤ S2x1024x1024.size a
  hwx0_2 : ∀ i : grid0.Coords, EltTy.bits .i32 = 32 ∨ (Rect.block (s := S2x1024x1024) S2x1024x256.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x128x64.size a ≤ S2x128x64.size a
  hwx0_3 : ∀ i : grid0.Coords, EltTy.bits .f32 = 32 ∨ (Rect.block (s := S2x128x64) S2x128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x64.size a ≤ S2x64.size a
  hwx0_4 : ∀ i : grid0.Coords, EltTy.bits .f32 = 32 ∨ (Rect.block (s := S2x64) S2x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x128x64.size a ≤ S2x128x64.size a
  hwx0_5 : ∀ i : grid0.Coords, EltTy.bits .f32 = 32 ∨ (Rect.block (s := S2x128x64) S2x128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x64.size a ≤ S2x64.size a
  hwx0_6 : ∀ i : grid0.Coords, EltTy.bits .f32 = 32 ∨ (Rect.block (s := S2x64) S2x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S1024x128.size a
  hwx0_9 : ∀ i : grid0.Coords, EltTy.bits .f32 = 32 ∨ (Rect.block (s := S1024x128) S256x128.size (cc0_transform_9 i) (hinb0_9 i)).WholeWords (EltTy.packing .f32)

variable [Facts₀]

def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S64x1024_S1024x256_S64x256_1_0_0_1_n_n : DotDims S64x1024 S1024x256 S64x256 where
  lhsContracting := [1]
  rhsContracting := [0]
  lhsNonContracting := [0]
  rhsNonContracting := [1]
  lhsBatch := []
  rhsBatch := []
  wf := dot_S64x1024_S1024x256_S64x256_1_0_0_1_n_n_wf
def dot_S128x256_S128x128_S256x128_0_0_1_1_n_n : DotDims S128x256 S128x128 S256x128 where
  lhsContracting := [0]
  rhsContracting := [0]
  lhsNonContracting := [1]
  rhsNonContracting := [1]
  lhsBatch := []
  rhsBatch := []
  wf := dot_S128x256_S128x128_S256x128_0_0_1_1_n_n_wf

abbrev win0_0 : Pipeline.Window sig grid0 :=
  Pipeline.Window.ofSpec (Memref.whole main_arg0) S1024x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2x128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v0) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S256x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1024x128 : Shape := ⟨2, ![1024, 128]⟩
abbrev S2x1024x1024 : Shape := ⟨3, ![2, 1024, 1024]⟩
abbrev S2x128x64 : Shape := ⟨3, ![2, 128, 64]⟩
abbrev S2x64 : Shape := ⟨2, ![2, 64]⟩
abbrev S128x128 : Shape := ⟨2, ![128, 128]⟩
abbrev S128 : Shape := ⟨1, ![128]⟩
abbrev S1x1024x1024 : Shape := ⟨3, ![1, 1024, 1024]⟩
abbrev S1024x1024 : Shape := ⟨2, ![1024, 1024]⟩
abbrev S_ : Shape := ⟨0, ![]⟩
abbrev S1048576 : Shape := ⟨1, ![1048576]⟩
abbrev S1048576x1 : Shape := ⟨2, ![1048576, 1]⟩
abbrev S1x128x64 : Shape := ⟨3, ![1, 128, 64]⟩
abbrev S128x64 : Shape := ⟨2, ![128, 64]⟩
abbrev S1x64 : Shape := ⟨2, ![1, 64]⟩
abbrev S64 : Shape := ⟨1, ![64]⟩
abbrev S1024x64 : Shape := ⟨2, ![1024, 64]⟩
abbrev S1048576x64 : Shape := ⟨2, ![1048576, 64]⟩
abbrev S1x1024x128 : Shape := ⟨3, ![1, 1024, 128]⟩
abbrev S2x1024x128 : Shape := ⟨3, ![2, 1024, 128]⟩
abbrev S1x128 : Shape := ⟨2, ![1, 128]⟩

abbrev nBuf : Space → Nat
  | .hbm => 608
  | .vmem => 0
  | .smem => 0
  | _ => 0

abbrev hbmTy0_0 (i : Nat) : BufTy := match i % 128 with
  | 0 => ⟨S1024x128, .f32⟩
  | 1 => ⟨S2x1024x1024, .i32⟩
  | 2 => ⟨S2x1024x1024, .i32⟩
  | 3 => ⟨S2x128x64, .f32⟩
  | 4 => ⟨S2x64, .f32⟩
  | 5 => ⟨S2x128x64, .f32⟩
  | 6 => ⟨S2x64, .f32⟩
  | 7 => ⟨S128x128, .f32⟩
  | 8 => ⟨S128, .f32⟩
  | 9 => ⟨S1x1024x1024, .i32⟩
  | 10 => ⟨S1024x1024, .i32⟩
  | 11 => ⟨S_, .i32⟩
  | 12 => ⟨S1024x1024, .i32⟩
  | 13 => ⟨S1024x1024, .i1⟩
  | 14 => ⟨S1048576, .i1⟩
  | 15 => ⟨S1048576, .i32⟩
  | 16 => ⟨S_, .i32⟩
  | 17 => ⟨S_, .i32⟩
  | 18 => ⟨S1048576, .i32⟩
  | 19 => ⟨S_, .i32⟩
  | 20 => ⟨S1048576, .i32⟩
  | 21 => ⟨S_, .i32⟩
  | 22 => ⟨S_, .i32⟩
  | 23 => ⟨S1048576, .i32⟩
  | 24 => ⟨S1048576, .i32⟩
  | 25 => ⟨S_, .i32⟩
  | 26 => ⟨S1048576, .i32⟩
  | 27 => ⟨S1048576, .i1⟩
  | 28 => ⟨S_, .i32⟩
  | 29 => ⟨S1048576, .i32⟩
  | 30 => ⟨S1048576, .i32⟩
  | 31 => ⟨S1048576, .i32⟩
  | 32 => ⟨S1048576x1, .i32⟩
  | 33 => ⟨S_, .i32⟩
  | 34 => ⟨S1048576, .i32⟩
  | 35 => ⟨S1048576, .i32⟩
  | 36 => ⟨S_, .i32⟩
  | 37 => ⟨S_, .i32⟩
  | 38 => ⟨S1048576, .i32⟩
  | 39 => ⟨S_, .i32⟩
  | 40 => ⟨S1048576, .i32⟩
  | 41 => ⟨S1048576, .i32⟩
  | 42 => ⟨S1048576, .i32⟩
  | 43 => ⟨S_, .i32⟩
  | 44 => ⟨S1048576, .i32⟩
  | 45 => ⟨S1048576, .i1⟩
  | 46 => ⟨S1048576, .i32⟩
  | 47 => ⟨S1048576, .i32⟩
  | 48 => ⟨S_, .i32⟩
  | 49 => ⟨S1048576, .i32⟩
  | 50 => ⟨S1048576, .i1⟩
  | 51 => ⟨S1048576, .i1⟩
  | 52 => ⟨S_, .i32⟩
  | 53 => ⟨S1048576, .i32⟩
  | 54 => ⟨S1048576, .i32⟩
  | 55 => ⟨S1048576, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S1048576, .i32⟩
  | 63 => ⟨S1048576, .i32⟩
  | 64 => ⟨S_, .i32⟩
  | 65 => ⟨S1048576, .i32⟩
  | 66 => ⟨S1048576, .i1⟩
  | 67 => ⟨S_, .i32⟩
  | 68 => ⟨S1048576, .i32⟩
  | 69 => ⟨S1048576, .i1⟩
  | 70 => ⟨S_, .i32⟩
  | 71 => ⟨S_, .i1⟩
  | 72 => ⟨S1048576, .i1⟩
  | 73 => ⟨S1048576, .i1⟩
  | 74 => ⟨S1048576, .i1⟩
  | 75 => ⟨S1048576, .i32⟩
  | 76 => ⟨S1048576, .i32⟩
  | 77 => ⟨S1048576, .i32⟩
  | 78 => ⟨S_, .i32⟩
  | 79 => ⟨S1048576, .i32⟩
  | 80 => ⟨S1048576, .i32⟩
  | 81 => ⟨S1048576, .i32⟩
  | 82 => ⟨S_, .i32⟩
  | 83 => ⟨S1048576, .i32⟩
  | 84 => ⟨S1048576, .i1⟩
  | 85 => ⟨S1048576, .i32⟩
  | 86 => ⟨S1048576, .i32⟩
  | 87 => ⟨S_, .i32⟩
  | 88 => ⟨S1048576, .i32⟩
  | 89 => ⟨S1048576, .i1⟩
  | 90 => ⟨S1048576, .i1⟩
  | 91 => ⟨S_, .i32⟩
  | 92 => ⟨S1048576, .i32⟩
  | 93 => ⟨S1048576, .i32⟩
  | 94 => ⟨S1048576, .i32⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S1048576, .i32⟩
  | 102 => ⟨S1048576, .i32⟩
  | 103 => ⟨S_, .i32⟩
  | 104 => ⟨S1048576, .i32⟩
  | 105 => ⟨S1048576, .i1⟩
  | 106 => ⟨S_, .i32⟩
  | 107 => ⟨S1048576, .i32⟩
  | 108 => ⟨S1048576, .i1⟩
  | 109 => ⟨S_, .i32⟩
  | 110 => ⟨S_, .i1⟩
  | 111 => ⟨S1048576, .i1⟩
  | 112 => ⟨S1048576, .i1⟩
  | 113 => ⟨S1048576, .i1⟩
  | 114 => ⟨S1048576, .i32⟩
  | 115 => ⟨S1048576, .i32⟩
  | 116 => ⟨S1048576, .i32⟩
  | 117 => ⟨S1048576, .i32⟩
  | 118 => ⟨S1024x1024, .i32⟩
  | 119 => ⟨S_, .i32⟩
  | 120 => ⟨S_, .i32⟩
  | 121 => ⟨S1048576, .i32⟩
  | 122 => ⟨S1048576, .i1⟩
  | 123 => ⟨S_, .i32⟩
  | 124 => ⟨S_, .i32⟩
  | 125 => ⟨S1048576, .i32⟩
  | 126 => ⟨S1048576, .i32⟩
  | 127 => ⟨S_, .i32⟩
  | _ => ⟨S1024x128, .f32⟩

abbrev hbmTy0_1 (i : Nat) : BufTy := match i % 128 with
  | 0 => ⟨S_, .i32⟩
  | 1 => ⟨S1048576, .i32⟩
  | 2 => ⟨S1048576, .i32⟩
  | 3 => ⟨S1x1024x1024, .i32⟩
  | 4 => ⟨S1024x1024, .i32⟩
  | 5 => ⟨S_, .i32⟩
  | 6 => ⟨S1024x1024, .i32⟩
  | 7 => ⟨S1024x1024, .i1⟩
  | 8 => ⟨S1048576, .i1⟩
  | 9 => ⟨S1048576, .i32⟩
  | 10 => ⟨S_, .i32⟩
  | 11 => ⟨S_, .i32⟩
  | 12 => ⟨S1048576, .i32⟩
  | 13 => ⟨S_, .i32⟩
  | 14 => ⟨S1048576, .i32⟩
  | 15 => ⟨S_, .i32⟩
  | 16 => ⟨S_, .i32⟩
  | 17 => ⟨S1048576, .i32⟩
  | 18 => ⟨S1048576, .i32⟩
  | 19 => ⟨S_, .i32⟩
  | 20 => ⟨S1048576, .i32⟩
  | 21 => ⟨S1048576, .i1⟩
  | 22 => ⟨S_, .i32⟩
  | 23 => ⟨S1048576, .i32⟩
  | 24 => ⟨S1048576, .i32⟩
  | 25 => ⟨S1048576, .i32⟩
  | 26 => ⟨S1048576x1, .i32⟩
  | 27 => ⟨S_, .i32⟩
  | 28 => ⟨S1048576, .i32⟩
  | 29 => ⟨S1048576, .i32⟩
  | 30 => ⟨S_, .i32⟩
  | 31 => ⟨S_, .i32⟩
  | 32 => ⟨S1048576, .i32⟩
  | 33 => ⟨S_, .i32⟩
  | 34 => ⟨S1048576, .i32⟩
  | 35 => ⟨S1048576, .i32⟩
  | 36 => ⟨S1048576, .i32⟩
  | 37 => ⟨S_, .i32⟩
  | 38 => ⟨S1048576, .i32⟩
  | 39 => ⟨S1048576, .i1⟩
  | 40 => ⟨S1048576, .i32⟩
  | 41 => ⟨S1048576, .i32⟩
  | 42 => ⟨S_, .i32⟩
  | 43 => ⟨S1048576, .i32⟩
  | 44 => ⟨S1048576, .i1⟩
  | 45 => ⟨S1048576, .i1⟩
  | 46 => ⟨S_, .i32⟩
  | 47 => ⟨S1048576, .i32⟩
  | 48 => ⟨S1048576, .i32⟩
  | 49 => ⟨S1048576, .i32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1048576, .i32⟩
  | 57 => ⟨S1048576, .i32⟩
  | 58 => ⟨S_, .i32⟩
  | 59 => ⟨S1048576, .i32⟩
  | 60 => ⟨S1048576, .i1⟩
  | 61 => ⟨S_, .i32⟩
  | 62 => ⟨S1048576, .i32⟩
  | 63 => ⟨S1048576, .i1⟩
  | 64 => ⟨S_, .i32⟩
  | 65 => ⟨S_, .i1⟩
  | 66 => ⟨S1048576, .i1⟩
  | 67 => ⟨S1048576, .i1⟩
  | 68 => ⟨S1048576, .i1⟩
  | 69 => ⟨S1048576, .i32⟩
  | 70 => ⟨S1048576, .i32⟩
  | 71 => ⟨S1048576, .i32⟩
  | 72 => ⟨S_, .i32⟩
  | 73 => ⟨S1048576, .i32⟩
  | 74 => ⟨S1048576, .i32⟩
  | 75 => ⟨S1048576, .i32⟩
  | 76 => ⟨S_, .i32⟩
  | 77 => ⟨S1048576, .i32⟩
  | 78 => ⟨S1048576, .i1⟩
  | 79 => ⟨S1048576, .i32⟩
  | 80 => ⟨S1048576, .i32⟩
  | 81 => ⟨S_, .i32⟩
  | 82 => ⟨S1048576, .i32⟩
  | 83 => ⟨S1048576, .i1⟩
  | 84 => ⟨S1048576, .i1⟩
  | 85 => ⟨S_, .i32⟩
  | 86 => ⟨S1048576, .i32⟩
  | 87 => ⟨S1048576, .i32⟩
  | 88 => ⟨S1048576, .i32⟩
  | 89 => ⟨S_, .i32⟩
  | 90 => ⟨S_, .i32⟩
  | 91 => ⟨S_, .i32⟩
  | 92 => ⟨S_, .i1⟩
  | 93 => ⟨S_, .i32⟩
  | 94 => ⟨S_, .i32⟩
  | 95 => ⟨S1048576, .i32⟩
  | 96 => ⟨S1048576, .i32⟩
  | 97 => ⟨S_, .i32⟩
  | 98 => ⟨S1048576, .i32⟩
  | 99 => ⟨S1048576, .i1⟩
  | 100 => ⟨S_, .i32⟩
  | 101 => ⟨S1048576, .i32⟩
  | 102 => ⟨S1048576, .i1⟩
  | 103 => ⟨S_, .i32⟩
  | 104 => ⟨S_, .i1⟩
  | 105 => ⟨S1048576, .i1⟩
  | 106 => ⟨S1048576, .i1⟩
  | 107 => ⟨S1048576, .i1⟩
  | 108 => ⟨S1048576, .i32⟩
  | 109 => ⟨S1048576, .i32⟩
  | 110 => ⟨S1048576, .i32⟩
  | 111 => ⟨S1048576, .i32⟩
  | 112 => ⟨S1024x1024, .i32⟩
  | 113 => ⟨S_, .i32⟩
  | 114 => ⟨S_, .i32⟩
  | 115 => ⟨S1048576, .i32⟩
  | 116 => ⟨S1048576, .i1⟩
  | 117 => ⟨S_, .i32⟩
  | 118 => ⟨S_, .i32⟩
  | 119 => ⟨S1048576, .i32⟩
  | 120 => ⟨S1048576, .i32⟩
  | 121 => ⟨S_, .i32⟩
  | 122 => ⟨S_, .i32⟩
  | 123 => ⟨S1048576, .i32⟩
  | 124 => ⟨S1048576, .i32⟩
  | 125 => ⟨S1x128x64, .f32⟩
  | 126 => ⟨S128x64, .f32⟩
  | 127 => ⟨S1x64, .f32⟩
  | _ => ⟨S1024x128, .f32⟩

abbrev hbmTy0_2 (i : Nat) : BufTy := match i % 128 with
  | 0 => ⟨S64, .f32⟩
  | 1 => ⟨S1024x64, .f32⟩
  | 2 => ⟨S1x64, .f32⟩
  | 3 => ⟨S1024x64, .f32⟩
  | 4 => ⟨S1024x64, .f32⟩
  | 5 => ⟨S_, .i32⟩
  | 6 => ⟨S1048576, .i32⟩
  | 7 => ⟨S1048576, .i1⟩
  | 8 => ⟨S_, .i32⟩
  | 9 => ⟨S1048576, .i32⟩
  | 10 => ⟨S1048576, .i32⟩
  | 11 => ⟨S1048576, .i32⟩
  | 12 => ⟨S1048576x1, .i32⟩
  | 13 => ⟨S1048576x64, .f32⟩
  | 14 => ⟨S_, .f32⟩
  | 15 => ⟨S1024x64, .f32⟩
  | 16 => ⟨S1048576x1, .i32⟩
  | 17 => ⟨S1024x64, .f32⟩
  | 18 => ⟨S_, .f32⟩
  | 19 => ⟨S1024x64, .f32⟩
  | 20 => ⟨S1024x64, .f32⟩
  | 21 => ⟨S1x128x64, .f32⟩
  | 22 => ⟨S128x64, .f32⟩
  | 23 => ⟨S1x64, .f32⟩
  | 24 => ⟨S64, .f32⟩
  | 25 => ⟨S1024x64, .f32⟩
  | 26 => ⟨S1x64, .f32⟩
  | 27 => ⟨S1024x64, .f32⟩
  | 28 => ⟨S1024x64, .f32⟩
  | 29 => ⟨S_, .i32⟩
  | 30 => ⟨S1048576, .i32⟩
  | 31 => ⟨S1048576, .i1⟩
  | 32 => ⟨S_, .i32⟩
  | 33 => ⟨S1048576, .i32⟩
  | 34 => ⟨S1048576, .i32⟩
  | 35 => ⟨S1048576, .i32⟩
  | 36 => ⟨S1048576x1, .i32⟩
  | 37 => ⟨S1048576x64, .f32⟩
  | 38 => ⟨S_, .f32⟩
  | 39 => ⟨S1024x64, .f32⟩
  | 40 => ⟨S1048576x1, .i32⟩
  | 41 => ⟨S1024x64, .f32⟩
  | 42 => ⟨S_, .f32⟩
  | 43 => ⟨S1024x64, .f32⟩
  | 44 => ⟨S1024x64, .f32⟩
  | 45 => ⟨S1024x128, .f32⟩
  | 46 => ⟨S1x1024x1024, .i32⟩
  | 47 => ⟨S1024x1024, .i32⟩
  | 48 => ⟨S_, .i32⟩
  | 49 => ⟨S1024x1024, .i32⟩
  | 50 => ⟨S1024x1024, .i1⟩
  | 51 => ⟨S1048576, .i1⟩
  | 52 => ⟨S1048576, .i32⟩
  | 53 => ⟨S_, .i32⟩
  | 54 => ⟨S_, .i32⟩
  | 55 => ⟨S1048576, .i32⟩
  | 56 => ⟨S_, .i32⟩
  | 57 => ⟨S1048576, .i32⟩
  | 58 => ⟨S_, .i32⟩
  | 59 => ⟨S_, .i32⟩
  | 60 => ⟨S1048576, .i32⟩
  | 61 => ⟨S1048576, .i32⟩
  | 62 => ⟨S_, .i32⟩
  | 63 => ⟨S1048576, .i32⟩
  | 64 => ⟨S1048576, .i1⟩
  | 65 => ⟨S_, .i32⟩
  | 66 => ⟨S1048576, .i32⟩
  | 67 => ⟨S1048576, .i32⟩
  | 68 => ⟨S1048576, .i32⟩
  | 69 => ⟨S1048576x1, .i32⟩
  | 70 => ⟨S_, .i32⟩
  | 71 => ⟨S1048576, .i32⟩
  | 72 => ⟨S1048576, .i32⟩
  | 73 => ⟨S_, .i32⟩
  | 74 => ⟨S_, .i32⟩
  | 75 => ⟨S1048576, .i32⟩
  | 76 => ⟨S_, .i32⟩
  | 77 => ⟨S1048576, .i32⟩
  | 78 => ⟨S1048576, .i32⟩
  | 79 => ⟨S1048576, .i32⟩
  | 80 => ⟨S_, .i32⟩
  | 81 => ⟨S1048576, .i32⟩
  | 82 => ⟨S1048576, .i1⟩
  | 83 => ⟨S1048576, .i32⟩
  | 84 => ⟨S1048576, .i32⟩
  | 85 => ⟨S_, .i32⟩
  | 86 => ⟨S1048576, .i32⟩
  | 87 => ⟨S1048576, .i1⟩
  | 88 => ⟨S1048576, .i1⟩
  | 89 => ⟨S_, .i32⟩
  | 90 => ⟨S1048576, .i32⟩
  | 91 => ⟨S1048576, .i32⟩
  | 92 => ⟨S1048576, .i32⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S1048576, .i32⟩
  | 100 => ⟨S1048576, .i32⟩
  | 101 => ⟨S_, .i32⟩
  | 102 => ⟨S1048576, .i32⟩
  | 103 => ⟨S1048576, .i1⟩
  | 104 => ⟨S_, .i32⟩
  | 105 => ⟨S1048576, .i32⟩
  | 106 => ⟨S1048576, .i1⟩
  | 107 => ⟨S_, .i32⟩
  | 108 => ⟨S_, .i1⟩
  | 109 => ⟨S1048576, .i1⟩
  | 110 => ⟨S1048576, .i1⟩
  | 111 => ⟨S1048576, .i1⟩
  | 112 => ⟨S1048576, .i32⟩
  | 113 => ⟨S1048576, .i32⟩
  | 114 => ⟨S1048576, .i32⟩
  | 115 => ⟨S_, .i32⟩
  | 116 => ⟨S1048576, .i32⟩
  | 117 => ⟨S1048576, .i32⟩
  | 118 => ⟨S1048576, .i32⟩
  | 119 => ⟨S_, .i32⟩
  | 120 => ⟨S1048576, .i32⟩
  | 121 => ⟨S1048576, .i1⟩
  | 122 => ⟨S1048576, .i32⟩
  | 123 => ⟨S1048576, .i32⟩
  | 124 => ⟨S_, .i32⟩
  | 125 => ⟨S1048576, .i32⟩
  | 126 => ⟨S1048576, .i1⟩
  | 127 => ⟨S1048576, .i1⟩
  | _ => ⟨S1024x128, .f32⟩

abbrev hbmTy0_3 (i : Nat) : BufTy := match i % 128 with
  | 0 => ⟨S_, .i32⟩
  | 1 => ⟨S1048576, .i32⟩
  | 2 => ⟨S1048576, .i32⟩
  | 3 => ⟨S1048576, .i32⟩
  | 4 => ⟨S_, .i32⟩
  | 5 => ⟨S_, .i32⟩
  | 6 => ⟨S_, .i32⟩
  | 7 => ⟨S_, .i1⟩
  | 8 => ⟨S_, .i32⟩
  | 9 => ⟨S_, .i32⟩
  | 10 => ⟨S1048576, .i32⟩
  | 11 => ⟨S1048576, .i32⟩
  | 12 => ⟨S_, .i32⟩
  | 13 => ⟨S1048576, .i32⟩
  | 14 => ⟨S1048576, .i1⟩
  | 15 => ⟨S_, .i32⟩
  | 16 => ⟨S1048576, .i32⟩
  | 17 => ⟨S1048576, .i1⟩
  | 18 => ⟨S_, .i32⟩
  | 19 => ⟨S_, .i1⟩
  | 20 => ⟨S1048576, .i1⟩
  | 21 => ⟨S1048576, .i1⟩
  | 22 => ⟨S1048576, .i1⟩
  | 23 => ⟨S1048576, .i32⟩
  | 24 => ⟨S1048576, .i32⟩
  | 25 => ⟨S1048576, .i32⟩
  | 26 => ⟨S1048576, .i32⟩
  | 27 => ⟨S1024x1024, .i32⟩
  | 28 => ⟨S_, .i32⟩
  | 29 => ⟨S_, .i32⟩
  | 30 => ⟨S1048576, .i32⟩
  | 31 => ⟨S1048576, .i1⟩
  | 32 => ⟨S_, .i32⟩
  | 33 => ⟨S_, .i32⟩
  | 34 => ⟨S1048576, .i32⟩
  | 35 => ⟨S1048576, .i32⟩
  | 36 => ⟨S_, .i32⟩
  | 37 => ⟨S_, .i32⟩
  | 38 => ⟨S1048576, .i32⟩
  | 39 => ⟨S1048576, .i32⟩
  | 40 => ⟨S1x1024x1024, .i32⟩
  | 41 => ⟨S1024x1024, .i32⟩
  | 42 => ⟨S_, .i32⟩
  | 43 => ⟨S1024x1024, .i32⟩
  | 44 => ⟨S1024x1024, .i1⟩
  | 45 => ⟨S1048576, .i1⟩
  | 46 => ⟨S1048576, .i32⟩
  | 47 => ⟨S_, .i32⟩
  | 48 => ⟨S_, .i32⟩
  | 49 => ⟨S1048576, .i32⟩
  | 50 => ⟨S_, .i32⟩
  | 51 => ⟨S1048576, .i32⟩
  | 52 => ⟨S_, .i32⟩
  | 53 => ⟨S_, .i32⟩
  | 54 => ⟨S1048576, .i32⟩
  | 55 => ⟨S1048576, .i32⟩
  | 56 => ⟨S_, .i32⟩
  | 57 => ⟨S1048576, .i32⟩
  | 58 => ⟨S1048576, .i1⟩
  | 59 => ⟨S_, .i32⟩
  | 60 => ⟨S1048576, .i32⟩
  | 61 => ⟨S1048576, .i32⟩
  | 62 => ⟨S1048576, .i32⟩
  | 63 => ⟨S1048576x1, .i32⟩
  | 64 => ⟨S_, .i32⟩
  | 65 => ⟨S1048576, .i32⟩
  | 66 => ⟨S1048576, .i32⟩
  | 67 => ⟨S_, .i32⟩
  | 68 => ⟨S_, .i32⟩
  | 69 => ⟨S1048576, .i32⟩
  | 70 => ⟨S_, .i32⟩
  | 71 => ⟨S1048576, .i32⟩
  | 72 => ⟨S1048576, .i32⟩
  | 73 => ⟨S1048576, .i32⟩
  | 74 => ⟨S_, .i32⟩
  | 75 => ⟨S1048576, .i32⟩
  | 76 => ⟨S1048576, .i1⟩
  | 77 => ⟨S1048576, .i32⟩
  | 78 => ⟨S1048576, .i32⟩
  | 79 => ⟨S_, .i32⟩
  | 80 => ⟨S1048576, .i32⟩
  | 81 => ⟨S1048576, .i1⟩
  | 82 => ⟨S1048576, .i1⟩
  | 83 => ⟨S_, .i32⟩
  | 84 => ⟨S1048576, .i32⟩
  | 85 => ⟨S1048576, .i32⟩
  | 86 => ⟨S1048576, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S1048576, .i32⟩
  | 94 => ⟨S1048576, .i32⟩
  | 95 => ⟨S_, .i32⟩
  | 96 => ⟨S1048576, .i32⟩
  | 97 => ⟨S1048576, .i1⟩
  | 98 => ⟨S_, .i32⟩
  | 99 => ⟨S1048576, .i32⟩
  | 100 => ⟨S1048576, .i1⟩
  | 101 => ⟨S_, .i32⟩
  | 102 => ⟨S_, .i1⟩
  | 103 => ⟨S1048576, .i1⟩
  | 104 => ⟨S1048576, .i1⟩
  | 105 => ⟨S1048576, .i1⟩
  | 106 => ⟨S1048576, .i32⟩
  | 107 => ⟨S1048576, .i32⟩
  | 108 => ⟨S1048576, .i32⟩
  | 109 => ⟨S_, .i32⟩
  | 110 => ⟨S1048576, .i32⟩
  | 111 => ⟨S1048576, .i32⟩
  | 112 => ⟨S1048576, .i32⟩
  | 113 => ⟨S_, .i32⟩
  | 114 => ⟨S1048576, .i32⟩
  | 115 => ⟨S1048576, .i1⟩
  | 116 => ⟨S1048576, .i32⟩
  | 117 => ⟨S1048576, .i32⟩
  | 118 => ⟨S_, .i32⟩
  | 119 => ⟨S1048576, .i32⟩
  | 120 => ⟨S1048576, .i1⟩
  | 121 => ⟨S1048576, .i1⟩
  | 122 => ⟨S_, .i32⟩
  | 123 => ⟨S1048576, .i32⟩
  | 124 => ⟨S1048576, .i32⟩
  | 125 => ⟨S1048576, .i32⟩
  | 126 => ⟨S_, .i32⟩
  | 127 => ⟨S_, .i32⟩
  | _ => ⟨S1024x128, .f32⟩

abbrev hbmTy0_4 (i : Nat) : BufTy := match i % 128 with
  | 0 => ⟨S_, .i32⟩
  | 1 => ⟨S_, .i1⟩
  | 2 => ⟨S_, .i32⟩
  | 3 => ⟨S_, .i32⟩
  | 4 => ⟨S1048576, .i32⟩
  | 5 => ⟨S1048576, .i32⟩
  | 6 => ⟨S_, .i32⟩
  | 7 => ⟨S1048576, .i32⟩
  | 8 => ⟨S1048576, .i1⟩
  | 9 => ⟨S_, .i32⟩
  | 10 => ⟨S1048576, .i32⟩
  | 11 => ⟨S1048576, .i1⟩
  | 12 => ⟨S_, .i32⟩
  | 13 => ⟨S_, .i1⟩
  | 14 => ⟨S1048576, .i1⟩
  | 15 => ⟨S1048576, .i1⟩
  | 16 => ⟨S1048576, .i1⟩
  | 17 => ⟨S1048576, .i32⟩
  | 18 => ⟨S1048576, .i32⟩
  | 19 => ⟨S1048576, .i32⟩
  | 20 => ⟨S1048576, .i32⟩
  | 21 => ⟨S1024x1024, .i32⟩
  | 22 => ⟨S_, .i32⟩
  | 23 => ⟨S_, .i32⟩
  | 24 => ⟨S1048576, .i32⟩
  | 25 => ⟨S1048576, .i1⟩
  | 26 => ⟨S_, .i32⟩
  | 27 => ⟨S_, .i32⟩
  | 28 => ⟨S1048576, .i32⟩
  | 29 => ⟨S1048576, .i32⟩
  | 30 => ⟨S_, .i32⟩
  | 31 => ⟨S_, .i32⟩
  | 32 => ⟨S1048576, .i32⟩
  | 33 => ⟨S1048576, .i32⟩
  | 34 => ⟨S1x128x64, .f32⟩
  | 35 => ⟨S128x64, .f32⟩
  | 36 => ⟨S1x64, .f32⟩
  | 37 => ⟨S64, .f32⟩
  | 38 => ⟨S1024x64, .f32⟩
  | 39 => ⟨S1x64, .f32⟩
  | 40 => ⟨S1024x64, .f32⟩
  | 41 => ⟨S1024x64, .f32⟩
  | 42 => ⟨S_, .i32⟩
  | 43 => ⟨S1048576, .i32⟩
  | 44 => ⟨S1048576, .i1⟩
  | 45 => ⟨S_, .i32⟩
  | 46 => ⟨S1048576, .i32⟩
  | 47 => ⟨S1048576, .i32⟩
  | 48 => ⟨S1048576, .i32⟩
  | 49 => ⟨S1048576x1, .i32⟩
  | 50 => ⟨S1048576x64, .f32⟩
  | 51 => ⟨S_, .f32⟩
  | 52 => ⟨S1024x64, .f32⟩
  | 53 => ⟨S1048576x1, .i32⟩
  | 54 => ⟨S1024x64, .f32⟩
  | 55 => ⟨S_, .f32⟩
  | 56 => ⟨S1024x64, .f32⟩
  | 57 => ⟨S1024x64, .f32⟩
  | 58 => ⟨S1x128x64, .f32⟩
  | 59 => ⟨S128x64, .f32⟩
  | 60 => ⟨S1x64, .f32⟩
  | 61 => ⟨S64, .f32⟩
  | 62 => ⟨S1024x64, .f32⟩
  | 63 => ⟨S1x64, .f32⟩
  | 64 => ⟨S1024x64, .f32⟩
  | 65 => ⟨S1024x64, .f32⟩
  | 66 => ⟨S_, .i32⟩
  | 67 => ⟨S1048576, .i32⟩
  | 68 => ⟨S1048576, .i1⟩
  | 69 => ⟨S_, .i32⟩
  | 70 => ⟨S1048576, .i32⟩
  | 71 => ⟨S1048576, .i32⟩
  | 72 => ⟨S1048576, .i32⟩
  | 73 => ⟨S1048576x1, .i32⟩
  | 74 => ⟨S1048576x64, .f32⟩
  | 75 => ⟨S_, .f32⟩
  | 76 => ⟨S1024x64, .f32⟩
  | 77 => ⟨S1048576x1, .i32⟩
  | 78 => ⟨S1024x64, .f32⟩
  | 79 => ⟨S_, .f32⟩
  | 80 => ⟨S1024x64, .f32⟩
  | 81 => ⟨S1024x64, .f32⟩
  | 82 => ⟨S1024x128, .f32⟩
  | 83 => ⟨S1x1024x128, .f32⟩
  | 84 => ⟨S1x1024x128, .f32⟩
  | 85 => ⟨S2x1024x128, .f32⟩
  | 86 => ⟨S_, .f32⟩
  | 87 => ⟨S1024x128, .f32⟩
  | 88 => ⟨S_, .f32⟩
  | 89 => ⟨S1024x128, .f32⟩
  | 90 => ⟨S1024x128, .f32⟩
  | 91 => ⟨S1024x128, .f32⟩
  | 92 => ⟨S1x128, .f32⟩
  | 93 => ⟨S1024x128, .f32⟩
  | 94 => ⟨S1024x128, .f32⟩
  | 95 => ⟨S1024x128, .f32⟩
  | _ => ⟨S1024x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_call0_v0 : Ref sig .tc := ⟨.hbm, 14, rfl⟩
abbrev main_call0_v1 : Ref sig .tc := ⟨.hbm, 15, rfl⟩
abbrev main_call0_call0_c : Ref sig .tc := ⟨.hbm, 16, rfl⟩
abbrev main_call0_call0_v0 : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_c_1 : Ref sig .tc := ⟨.hbm, 21, rfl⟩
abbrev main_call1_v0 : Ref sig .tc := ⟨.hbm, 22, rfl⟩
abbrev main_call1_v1 : Ref sig .tc := ⟨.hbm, 23, rfl⟩
abbrev main_v6 : Ref sig .tc := ⟨.hbm, 24, rfl⟩
abbrev main_c_2 : Ref sig .tc := ⟨.hbm, 25, rfl⟩
abbrev main_v7 : Ref sig .tc := ⟨.hbm, 26, rfl⟩
abbrev main_v8 : Ref sig .tc := ⟨.hbm, 27, rfl⟩
abbrev main_c_3 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c_4 : Ref sig .tc := ⟨.hbm, 33, rfl⟩
abbrev main_v13 : Ref sig .tc := ⟨.hbm, 34, rfl⟩
abbrev main_v14 : Ref sig .tc := ⟨.hbm, 35, rfl⟩
abbrev main_call2_call0_c : Ref sig .tc := ⟨.hbm, 36, rfl⟩
abbrev main_call2_call0_v0 : Ref sig .tc := ⟨.hbm, 37, rfl⟩
abbrev main_v15 : Ref sig .tc := ⟨.hbm, 38, rfl⟩
abbrev main_c_5 : Ref sig .tc := ⟨.hbm, 39, rfl⟩
abbrev main_call3_v0 : Ref sig .tc := ⟨.hbm, 40, rfl⟩
abbrev main_call3_v1 : Ref sig .tc := ⟨.hbm, 41, rfl⟩
abbrev main_call3_v2 : Ref sig .tc := ⟨.hbm, 42, rfl⟩
abbrev main_call3_v3 : Ref sig .tc := ⟨.hbm, 43, rfl⟩
abbrev main_call3_v4 : Ref sig .tc := ⟨.hbm, 44, rfl⟩
abbrev main_call3_v5 : Ref sig .tc := ⟨.hbm, 45, rfl⟩
abbrev main_call3_v6 : Ref sig .tc := ⟨.hbm, 46, rfl⟩
abbrev main_call3_v7 : Ref sig .tc := ⟨.hbm, 47, rfl⟩
abbrev main_call3_c : Ref sig .tc := ⟨.hbm, 48, rfl⟩
abbrev main_call3_v8 : Ref sig .tc := ⟨.hbm, 49, rfl⟩
abbrev main_call3_v9 : Ref sig .tc := ⟨.hbm, 50, rfl⟩
abbrev main_call3_v10 : Ref sig .tc := ⟨.hbm, 51, rfl⟩
abbrev main_call3_c_0 : Ref sig .tc := ⟨.hbm, 52, rfl⟩
abbrev main_call3_v11 : Ref sig .tc := ⟨.hbm, 53, rfl⟩
abbrev main_call3_v12 : Ref sig .tc := ⟨.hbm, 54, rfl⟩
abbrev main_v16 : Ref sig .tc := ⟨.hbm, 55, rfl⟩
abbrev main_c_6 : Ref sig .tc := ⟨.hbm, 56, rfl⟩
abbrev main_call4_v0 : Ref sig .tc := ⟨.hbm, 57, rfl⟩
abbrev main_call4_c : Ref sig .tc := ⟨.hbm, 58, rfl⟩
abbrev main_call4_v1 : Ref sig .tc := ⟨.hbm, 59, rfl⟩
abbrev main_call4_c_0 : Ref sig .tc := ⟨.hbm, 60, rfl⟩
abbrev main_call4_v2 : Ref sig .tc := ⟨.hbm, 61, rfl⟩
abbrev main_call4_v3 : Ref sig .tc := ⟨.hbm, 62, rfl⟩
abbrev main_call4_v4 : Ref sig .tc := ⟨.hbm, 63, rfl⟩
abbrev main_call4_c_1 : Ref sig .tc := ⟨.hbm, 64, rfl⟩
abbrev main_call4_v5 : Ref sig .tc := ⟨.hbm, 65, rfl⟩
abbrev main_call4_v6 : Ref sig .tc := ⟨.hbm, 66, rfl⟩
abbrev main_call4_c_2 : Ref sig .tc := ⟨.hbm, 67, rfl⟩
abbrev main_call4_v7 : Ref sig .tc := ⟨.hbm, 68, rfl⟩
abbrev main_call4_v8 : Ref sig .tc := ⟨.hbm, 69, rfl⟩
abbrev main_call4_c_3 : Ref sig .tc := ⟨.hbm, 70, rfl⟩
abbrev main_call4_v9 : Ref sig .tc := ⟨.hbm, 71, rfl⟩
abbrev main_call4_v10 : Ref sig .tc := ⟨.hbm, 72, rfl⟩
abbrev main_call4_v11 : Ref sig .tc := ⟨.hbm, 73, rfl⟩
abbrev main_call4_v12 : Ref sig .tc := ⟨.hbm, 74, rfl⟩
abbrev main_call4_v13 : Ref sig .tc := ⟨.hbm, 75, rfl⟩
abbrev main_call4_v14 : Ref sig .tc := ⟨.hbm, 76, rfl⟩
abbrev main_v17 : Ref sig .tc := ⟨.hbm, 77, rfl⟩
abbrev main_c_7 : Ref sig .tc := ⟨.hbm, 78, rfl⟩
abbrev main_call5_v0 : Ref sig .tc := ⟨.hbm, 79, rfl⟩
abbrev main_call5_v1 : Ref sig .tc := ⟨.hbm, 80, rfl⟩
abbrev main_call5_v2 : Ref sig .tc := ⟨.hbm, 81, rfl⟩
abbrev main_call5_v3 : Ref sig .tc := ⟨.hbm, 82, rfl⟩
abbrev main_call5_v4 : Ref sig .tc := ⟨.hbm, 83, rfl⟩
abbrev main_call5_v5 : Ref sig .tc := ⟨.hbm, 84, rfl⟩
abbrev main_call5_v6 : Ref sig .tc := ⟨.hbm, 85, rfl⟩
abbrev main_call5_v7 : Ref sig .tc := ⟨.hbm, 86, rfl⟩
abbrev main_call5_c : Ref sig .tc := ⟨.hbm, 87, rfl⟩
abbrev main_call5_v8 : Ref sig .tc := ⟨.hbm, 88, rfl⟩
abbrev main_call5_v9 : Ref sig .tc := ⟨.hbm, 89, rfl⟩
abbrev main_call5_v10 : Ref sig .tc := ⟨.hbm, 90, rfl⟩
abbrev main_call5_c_0 : Ref sig .tc := ⟨.hbm, 91, rfl⟩
abbrev main_call5_v11 : Ref sig .tc := ⟨.hbm, 92, rfl⟩
abbrev main_call5_v12 : Ref sig .tc := ⟨.hbm, 93, rfl⟩
abbrev main_v18 : Ref sig .tc := ⟨.hbm, 94, rfl⟩
abbrev main_c_8 : Ref sig .tc := ⟨.hbm, 95, rfl⟩
abbrev main_call6_v0 : Ref sig .tc := ⟨.hbm, 96, rfl⟩
abbrev main_call6_c : Ref sig .tc := ⟨.hbm, 97, rfl⟩
abbrev main_call6_v1 : Ref sig .tc := ⟨.hbm, 98, rfl⟩
abbrev main_call6_c_0 : Ref sig .tc := ⟨.hbm, 99, rfl⟩
abbrev main_call6_v2 : Ref sig .tc := ⟨.hbm, 100, rfl⟩
abbrev main_call6_v3 : Ref sig .tc := ⟨.hbm, 101, rfl⟩
abbrev main_call6_v4 : Ref sig .tc := ⟨.hbm, 102, rfl⟩
abbrev main_call6_c_1 : Ref sig .tc := ⟨.hbm, 103, rfl⟩
abbrev main_call6_v5 : Ref sig .tc := ⟨.hbm, 104, rfl⟩
abbrev main_call6_v6 : Ref sig .tc := ⟨.hbm, 105, rfl⟩
abbrev main_call6_c_2 : Ref sig .tc := ⟨.hbm, 106, rfl⟩
abbrev main_call6_v7 : Ref sig .tc := ⟨.hbm, 107, rfl⟩
abbrev main_call6_v8 : Ref sig .tc := ⟨.hbm, 108, rfl⟩
abbrev main_call6_c_3 : Ref sig .tc := ⟨.hbm, 109, rfl⟩
abbrev main_call6_v9 : Ref sig .tc := ⟨.hbm, 110, rfl⟩
abbrev main_call6_v10 : Ref sig .tc := ⟨.hbm, 111, rfl⟩
abbrev main_call6_v11 : Ref sig .tc := ⟨.hbm, 112, rfl⟩
abbrev main_call6_v12 : Ref sig .tc := ⟨.hbm, 113, rfl⟩
abbrev main_call6_v13 : Ref sig .tc := ⟨.hbm, 114, rfl⟩
abbrev main_call6_v14 : Ref sig .tc := ⟨.hbm, 115, rfl⟩
abbrev main_v19 : Ref sig .tc := ⟨.hbm, 116, rfl⟩
abbrev main_v20 : Ref sig .tc := ⟨.hbm, 117, rfl⟩
abbrev main_v21 : Ref sig .tc := ⟨.hbm, 118, rfl⟩
abbrev main_c_9 : Ref sig .tc := ⟨.hbm, 119, rfl⟩
abbrev main_v22 : Ref sig .tc := ⟨.hbm, 120, rfl⟩
abbrev main_v23 : Ref sig .tc := ⟨.hbm, 121, rfl⟩
abbrev main_v24 : Ref sig .tc := ⟨.hbm, 122, rfl⟩
abbrev main_c_10 : Ref sig .tc := ⟨.hbm, 123, rfl⟩
abbrev main_call7_v0 : Ref sig .tc := ⟨.hbm, 124, rfl⟩
abbrev main_call7_v1 : Ref sig .tc := ⟨.hbm, 125, rfl⟩
abbrev main_v25 : Ref sig .tc := ⟨.hbm, 126, rfl⟩
abbrev main_c_11 : Ref sig .tc := ⟨.hbm, 127, rfl⟩
abbrev main_call8_v0 : Ref sig .tc := ⟨.hbm, 128, rfl⟩
abbrev main_call8_v1 : Ref sig .tc := ⟨.hbm, 129, rfl⟩
abbrev main_v26 : Ref sig .tc := ⟨.hbm, 130, rfl⟩
abbrev main_v27 : Ref sig .tc := ⟨.hbm, 131, rfl⟩
abbrev main_v28 : Ref sig .tc := ⟨.hbm, 132, rfl⟩
abbrev main_c_12 : Ref sig .tc := ⟨.hbm, 133, rfl⟩
abbrev main_v29 : Ref sig .tc := ⟨.hbm, 134, rfl⟩
abbrev main_v30 : Ref sig .tc := ⟨.hbm, 135, rfl⟩
abbrev main_call9_v0 : Ref sig .tc := ⟨.hbm, 136, rfl⟩
abbrev main_call9_v1 : Ref sig .tc := ⟨.hbm, 137, rfl⟩
abbrev main_call9_call0_c : Ref sig .tc := ⟨.hbm, 138, rfl⟩
abbrev main_call9_call0_v0 : Ref sig .tc := ⟨.hbm, 139, rfl⟩
abbrev main_v31 : Ref sig .tc := ⟨.hbm, 140, rfl⟩
abbrev main_c_13 : Ref sig .tc := ⟨.hbm, 141, rfl⟩
abbrev main_v32 : Ref sig .tc := ⟨.hbm, 142, rfl⟩
abbrev main_c_14 : Ref sig .tc := ⟨.hbm, 143, rfl⟩
abbrev main_call10_v0 : Ref sig .tc := ⟨.hbm, 144, rfl⟩
abbrev main_call10_v1 : Ref sig .tc := ⟨.hbm, 145, rfl⟩
abbrev main_v33 : Ref sig .tc := ⟨.hbm, 146, rfl⟩
abbrev main_c_15 : Ref sig .tc := ⟨.hbm, 147, rfl⟩
abbrev main_v34 : Ref sig .tc := ⟨.hbm, 148, rfl⟩
abbrev main_v35 : Ref sig .tc := ⟨.hbm, 149, rfl⟩
abbrev main_c_16 : Ref sig .tc := ⟨.hbm, 150, rfl⟩
abbrev main_v36 : Ref sig .tc := ⟨.hbm, 151, rfl⟩
abbrev main_v37 : Ref sig .tc := ⟨.hbm, 152, rfl⟩
abbrev main_v38 : Ref sig .tc := ⟨.hbm, 153, rfl⟩
abbrev main_v39 : Ref sig .tc := ⟨.hbm, 154, rfl⟩
abbrev main_c_17 : Ref sig .tc := ⟨.hbm, 155, rfl⟩
abbrev main_v40 : Ref sig .tc := ⟨.hbm, 156, rfl⟩
abbrev main_v41 : Ref sig .tc := ⟨.hbm, 157, rfl⟩
abbrev main_call11_call0_c : Ref sig .tc := ⟨.hbm, 158, rfl⟩
abbrev main_call11_call0_v0 : Ref sig .tc := ⟨.hbm, 159, rfl⟩
abbrev main_v42 : Ref sig .tc := ⟨.hbm, 160, rfl⟩
abbrev main_c_18 : Ref sig .tc := ⟨.hbm, 161, rfl⟩
abbrev main_call12_v0 : Ref sig .tc := ⟨.hbm, 162, rfl⟩
abbrev main_call12_v1 : Ref sig .tc := ⟨.hbm, 163, rfl⟩
abbrev main_call12_v2 : Ref sig .tc := ⟨.hbm, 164, rfl⟩
abbrev main_call12_v3 : Ref sig .tc := ⟨.hbm, 165, rfl⟩
abbrev main_call12_v4 : Ref sig .tc := ⟨.hbm, 166, rfl⟩
abbrev main_call12_v5 : Ref sig .tc := ⟨.hbm, 167, rfl⟩
abbrev main_call12_v6 : Ref sig .tc := ⟨.hbm, 168, rfl⟩
abbrev main_call12_v7 : Ref sig .tc := ⟨.hbm, 169, rfl⟩
abbrev main_call12_c : Ref sig .tc := ⟨.hbm, 170, rfl⟩
abbrev main_call12_v8 : Ref sig .tc := ⟨.hbm, 171, rfl⟩
abbrev main_call12_v9 : Ref sig .tc := ⟨.hbm, 172, rfl⟩
abbrev main_call12_v10 : Ref sig .tc := ⟨.hbm, 173, rfl⟩
abbrev main_call12_c_0 : Ref sig .tc := ⟨.hbm, 174, rfl⟩
abbrev main_call12_v11 : Ref sig .tc := ⟨.hbm, 175, rfl⟩
abbrev main_call12_v12 : Ref sig .tc := ⟨.hbm, 176, rfl⟩
abbrev main_v43 : Ref sig .tc := ⟨.hbm, 177, rfl⟩
abbrev main_c_19 : Ref sig .tc := ⟨.hbm, 178, rfl⟩
abbrev main_call13_v0 : Ref sig .tc := ⟨.hbm, 179, rfl⟩
abbrev main_call13_c : Ref sig .tc := ⟨.hbm, 180, rfl⟩
abbrev main_call13_v1 : Ref sig .tc := ⟨.hbm, 181, rfl⟩
abbrev main_call13_c_0 : Ref sig .tc := ⟨.hbm, 182, rfl⟩
abbrev main_call13_v2 : Ref sig .tc := ⟨.hbm, 183, rfl⟩
abbrev main_call13_v3 : Ref sig .tc := ⟨.hbm, 184, rfl⟩
abbrev main_call13_v4 : Ref sig .tc := ⟨.hbm, 185, rfl⟩
abbrev main_call13_c_1 : Ref sig .tc := ⟨.hbm, 186, rfl⟩
abbrev main_call13_v5 : Ref sig .tc := ⟨.hbm, 187, rfl⟩
abbrev main_call13_v6 : Ref sig .tc := ⟨.hbm, 188, rfl⟩
abbrev main_call13_c_2 : Ref sig .tc := ⟨.hbm, 189, rfl⟩
abbrev main_call13_v7 : Ref sig .tc := ⟨.hbm, 190, rfl⟩
abbrev main_call13_v8 : Ref sig .tc := ⟨.hbm, 191, rfl⟩
abbrev main_call13_c_3 : Ref sig .tc := ⟨.hbm, 192, rfl⟩
abbrev main_call13_v9 : Ref sig .tc := ⟨.hbm, 193, rfl⟩
abbrev main_call13_v10 : Ref sig .tc := ⟨.hbm, 194, rfl⟩
abbrev main_call13_v11 : Ref sig .tc := ⟨.hbm, 195, rfl⟩
abbrev main_call13_v12 : Ref sig .tc := ⟨.hbm, 196, rfl⟩
abbrev main_call13_v13 : Ref sig .tc := ⟨.hbm, 197, rfl⟩
abbrev main_call13_v14 : Ref sig .tc := ⟨.hbm, 198, rfl⟩
abbrev main_v44 : Ref sig .tc := ⟨.hbm, 199, rfl⟩
abbrev main_c_20 : Ref sig .tc := ⟨.hbm, 200, rfl⟩
abbrev main_call14_v0 : Ref sig .tc := ⟨.hbm, 201, rfl⟩
abbrev main_call14_v1 : Ref sig .tc := ⟨.hbm, 202, rfl⟩
abbrev main_call14_v2 : Ref sig .tc := ⟨.hbm, 203, rfl⟩
abbrev main_call14_v3 : Ref sig .tc := ⟨.hbm, 204, rfl⟩
abbrev main_call14_v4 : Ref sig .tc := ⟨.hbm, 205, rfl⟩
abbrev main_call14_v5 : Ref sig .tc := ⟨.hbm, 206, rfl⟩
abbrev main_call14_v6 : Ref sig .tc := ⟨.hbm, 207, rfl⟩
abbrev main_call14_v7 : Ref sig .tc := ⟨.hbm, 208, rfl⟩
abbrev main_call14_c : Ref sig .tc := ⟨.hbm, 209, rfl⟩
abbrev main_call14_v8 : Ref sig .tc := ⟨.hbm, 210, rfl⟩
abbrev main_call14_v9 : Ref sig .tc := ⟨.hbm, 211, rfl⟩
abbrev main_call14_v10 : Ref sig .tc := ⟨.hbm, 212, rfl⟩
abbrev main_call14_c_0 : Ref sig .tc := ⟨.hbm, 213, rfl⟩
abbrev main_call14_v11 : Ref sig .tc := ⟨.hbm, 214, rfl⟩
abbrev main_call14_v12 : Ref sig .tc := ⟨.hbm, 215, rfl⟩
abbrev main_v45 : Ref sig .tc := ⟨.hbm, 216, rfl⟩
abbrev main_c_21 : Ref sig .tc := ⟨.hbm, 217, rfl⟩
abbrev main_call15_v0 : Ref sig .tc := ⟨.hbm, 218, rfl⟩
abbrev main_call15_c : Ref sig .tc := ⟨.hbm, 219, rfl⟩
abbrev main_call15_v1 : Ref sig .tc := ⟨.hbm, 220, rfl⟩
abbrev main_call15_c_0 : Ref sig .tc := ⟨.hbm, 221, rfl⟩
abbrev main_call15_v2 : Ref sig .tc := ⟨.hbm, 222, rfl⟩
abbrev main_call15_v3 : Ref sig .tc := ⟨.hbm, 223, rfl⟩
abbrev main_call15_v4 : Ref sig .tc := ⟨.hbm, 224, rfl⟩
abbrev main_call15_c_1 : Ref sig .tc := ⟨.hbm, 225, rfl⟩
abbrev main_call15_v5 : Ref sig .tc := ⟨.hbm, 226, rfl⟩
abbrev main_call15_v6 : Ref sig .tc := ⟨.hbm, 227, rfl⟩
abbrev main_call15_c_2 : Ref sig .tc := ⟨.hbm, 228, rfl⟩
abbrev main_call15_v7 : Ref sig .tc := ⟨.hbm, 229, rfl⟩
abbrev main_call15_v8 : Ref sig .tc := ⟨.hbm, 230, rfl⟩
abbrev main_call15_c_3 : Ref sig .tc := ⟨.hbm, 231, rfl⟩
abbrev main_call15_v9 : Ref sig .tc := ⟨.hbm, 232, rfl⟩
abbrev main_call15_v10 : Ref sig .tc := ⟨.hbm, 233, rfl⟩
abbrev main_call15_v11 : Ref sig .tc := ⟨.hbm, 234, rfl⟩
abbrev main_call15_v12 : Ref sig .tc := ⟨.hbm, 235, rfl⟩
abbrev main_call15_v13 : Ref sig .tc := ⟨.hbm, 236, rfl⟩
abbrev main_call15_v14 : Ref sig .tc := ⟨.hbm, 237, rfl⟩
abbrev main_v46 : Ref sig .tc := ⟨.hbm, 238, rfl⟩
abbrev main_v47 : Ref sig .tc := ⟨.hbm, 239, rfl⟩
abbrev main_v48 : Ref sig .tc := ⟨.hbm, 240, rfl⟩
abbrev main_c_22 : Ref sig .tc := ⟨.hbm, 241, rfl⟩
abbrev main_v49 : Ref sig .tc := ⟨.hbm, 242, rfl⟩
abbrev main_v50 : Ref sig .tc := ⟨.hbm, 243, rfl⟩
abbrev main_v51 : Ref sig .tc := ⟨.hbm, 244, rfl⟩
abbrev main_c_23 : Ref sig .tc := ⟨.hbm, 245, rfl⟩
abbrev main_call16_v0 : Ref sig .tc := ⟨.hbm, 246, rfl⟩
abbrev main_call16_v1 : Ref sig .tc := ⟨.hbm, 247, rfl⟩
abbrev main_v52 : Ref sig .tc := ⟨.hbm, 248, rfl⟩
abbrev main_c_24 : Ref sig .tc := ⟨.hbm, 249, rfl⟩
abbrev main_call17_v0 : Ref sig .tc := ⟨.hbm, 250, rfl⟩
abbrev main_call17_v1 : Ref sig .tc := ⟨.hbm, 251, rfl⟩
abbrev main_v53 : Ref sig .tc := ⟨.hbm, 252, rfl⟩
abbrev main_v54 : Ref sig .tc := ⟨.hbm, 253, rfl⟩
abbrev main_v55 : Ref sig .tc := ⟨.hbm, 254, rfl⟩
abbrev main_v56 : Ref sig .tc := ⟨.hbm, 255, rfl⟩
abbrev main_v57 : Ref sig .tc := ⟨.hbm, 256, rfl⟩
abbrev main_v58 : Ref sig .tc := ⟨.hbm, 257, rfl⟩
abbrev main_v59 : Ref sig .tc := ⟨.hbm, 258, rfl⟩
abbrev main_v60 : Ref sig .tc := ⟨.hbm, 259, rfl⟩
abbrev main_v61 : Ref sig .tc := ⟨.hbm, 260, rfl⟩
abbrev main_c_25 : Ref sig .tc := ⟨.hbm, 261, rfl⟩
abbrev main_v62 : Ref sig .tc := ⟨.hbm, 262, rfl⟩
abbrev main_v63 : Ref sig .tc := ⟨.hbm, 263, rfl⟩
abbrev main_c_26 : Ref sig .tc := ⟨.hbm, 264, rfl⟩
abbrev main_v64 : Ref sig .tc := ⟨.hbm, 265, rfl⟩
abbrev main_v65 : Ref sig .tc := ⟨.hbm, 266, rfl⟩
abbrev main_v66 : Ref sig .tc := ⟨.hbm, 267, rfl⟩
abbrev main_v67 : Ref sig .tc := ⟨.hbm, 268, rfl⟩
abbrev main_v68 : Ref sig .tc := ⟨.hbm, 269, rfl⟩
abbrev main_cst : Ref sig .tc := ⟨.hbm, 270, rfl⟩
abbrev main_v69 : Ref sig .tc := ⟨.hbm, 271, rfl⟩
abbrev main_v70 : Ref sig .tc := ⟨.hbm, 272, rfl⟩
abbrev main_v71 : Ref sig .tc := ⟨.hbm, 273, rfl⟩
abbrev main_call18_cst : Ref sig .tc := ⟨.hbm, 274, rfl⟩
abbrev main_call18_v0 : Ref sig .tc := ⟨.hbm, 275, rfl⟩
abbrev main_v72 : Ref sig .tc := ⟨.hbm, 276, rfl⟩
abbrev main_v73 : Ref sig .tc := ⟨.hbm, 277, rfl⟩
abbrev main_v74 : Ref sig .tc := ⟨.hbm, 278, rfl⟩
abbrev main_v75 : Ref sig .tc := ⟨.hbm, 279, rfl⟩
abbrev main_v76 : Ref sig .tc := ⟨.hbm, 280, rfl⟩
abbrev main_v77 : Ref sig .tc := ⟨.hbm, 281, rfl⟩
abbrev main_v78 : Ref sig .tc := ⟨.hbm, 282, rfl⟩
abbrev main_v79 : Ref sig .tc := ⟨.hbm, 283, rfl⟩
abbrev main_v80 : Ref sig .tc := ⟨.hbm, 284, rfl⟩
abbrev main_c_27 : Ref sig .tc := ⟨.hbm, 285, rfl⟩
abbrev main_v81 : Ref sig .tc := ⟨.hbm, 286, rfl⟩
abbrev main_v82 : Ref sig .tc := ⟨.hbm, 287, rfl⟩
abbrev main_c_28 : Ref sig .tc := ⟨.hbm, 288, rfl⟩
abbrev main_v83 : Ref sig .tc := ⟨.hbm, 289, rfl⟩
abbrev main_v84 : Ref sig .tc := ⟨.hbm, 290, rfl⟩
abbrev main_v85 : Ref sig .tc := ⟨.hbm, 291, rfl⟩
abbrev main_v86 : Ref sig .tc := ⟨.hbm, 292, rfl⟩
abbrev main_v87 : Ref sig .tc := ⟨.hbm, 293, rfl⟩
abbrev main_cst_29 : Ref sig .tc := ⟨.hbm, 294, rfl⟩
abbrev main_v88 : Ref sig .tc := ⟨.hbm, 295, rfl⟩
abbrev main_v89 : Ref sig .tc := ⟨.hbm, 296, rfl⟩
abbrev main_v90 : Ref sig .tc := ⟨.hbm, 297, rfl⟩
abbrev main_call19_cst : Ref sig .tc := ⟨.hbm, 298, rfl⟩
abbrev main_call19_v0 : Ref sig .tc := ⟨.hbm, 299, rfl⟩
abbrev main_v91 : Ref sig .tc := ⟨.hbm, 300, rfl⟩
abbrev main_v92 : Ref sig .tc := ⟨.hbm, 301, rfl⟩
abbrev main_v93 : Ref sig .tc := ⟨.hbm, 302, rfl⟩
abbrev main_v94 : Ref sig .tc := ⟨.hbm, 303, rfl⟩
abbrev main_c_30 : Ref sig .tc := ⟨.hbm, 304, rfl⟩
abbrev main_v95 : Ref sig .tc := ⟨.hbm, 305, rfl⟩
abbrev main_v96 : Ref sig .tc := ⟨.hbm, 306, rfl⟩
abbrev main_call20_v0 : Ref sig .tc := ⟨.hbm, 307, rfl⟩
abbrev main_call20_v1 : Ref sig .tc := ⟨.hbm, 308, rfl⟩
abbrev main_call20_call0_c : Ref sig .tc := ⟨.hbm, 309, rfl⟩
abbrev main_call20_call0_v0 : Ref sig .tc := ⟨.hbm, 310, rfl⟩
abbrev main_v97 : Ref sig .tc := ⟨.hbm, 311, rfl⟩
abbrev main_c_31 : Ref sig .tc := ⟨.hbm, 312, rfl⟩
abbrev main_v98 : Ref sig .tc := ⟨.hbm, 313, rfl⟩
abbrev main_c_32 : Ref sig .tc := ⟨.hbm, 314, rfl⟩
abbrev main_call21_v0 : Ref sig .tc := ⟨.hbm, 315, rfl⟩
abbrev main_call21_v1 : Ref sig .tc := ⟨.hbm, 316, rfl⟩
abbrev main_v99 : Ref sig .tc := ⟨.hbm, 317, rfl⟩
abbrev main_c_33 : Ref sig .tc := ⟨.hbm, 318, rfl⟩
abbrev main_v100 : Ref sig .tc := ⟨.hbm, 319, rfl⟩
abbrev main_v101 : Ref sig .tc := ⟨.hbm, 320, rfl⟩
abbrev main_c_34 : Ref sig .tc := ⟨.hbm, 321, rfl⟩
abbrev main_v102 : Ref sig .tc := ⟨.hbm, 322, rfl⟩
abbrev main_v103 : Ref sig .tc := ⟨.hbm, 323, rfl⟩
abbrev main_v104 : Ref sig .tc := ⟨.hbm, 324, rfl⟩
abbrev main_v105 : Ref sig .tc := ⟨.hbm, 325, rfl⟩
abbrev main_c_35 : Ref sig .tc := ⟨.hbm, 326, rfl⟩
abbrev main_v106 : Ref sig .tc := ⟨.hbm, 327, rfl⟩
abbrev main_v107 : Ref sig .tc := ⟨.hbm, 328, rfl⟩
abbrev main_call22_call0_c : Ref sig .tc := ⟨.hbm, 329, rfl⟩
abbrev main_call22_call0_v0 : Ref sig .tc := ⟨.hbm, 330, rfl⟩
abbrev main_v108 : Ref sig .tc := ⟨.hbm, 331, rfl⟩
abbrev main_c_36 : Ref sig .tc := ⟨.hbm, 332, rfl⟩
abbrev main_call23_v0 : Ref sig .tc := ⟨.hbm, 333, rfl⟩
abbrev main_call23_v1 : Ref sig .tc := ⟨.hbm, 334, rfl⟩
abbrev main_call23_v2 : Ref sig .tc := ⟨.hbm, 335, rfl⟩
abbrev main_call23_v3 : Ref sig .tc := ⟨.hbm, 336, rfl⟩
abbrev main_call23_v4 : Ref sig .tc := ⟨.hbm, 337, rfl⟩
abbrev main_call23_v5 : Ref sig .tc := ⟨.hbm, 338, rfl⟩
abbrev main_call23_v6 : Ref sig .tc := ⟨.hbm, 339, rfl⟩
abbrev main_call23_v7 : Ref sig .tc := ⟨.hbm, 340, rfl⟩
abbrev main_call23_c : Ref sig .tc := ⟨.hbm, 341, rfl⟩
abbrev main_call23_v8 : Ref sig .tc := ⟨.hbm, 342, rfl⟩
abbrev main_call23_v9 : Ref sig .tc := ⟨.hbm, 343, rfl⟩
abbrev main_call23_v10 : Ref sig .tc := ⟨.hbm, 344, rfl⟩
abbrev main_call23_c_0 : Ref sig .tc := ⟨.hbm, 345, rfl⟩
abbrev main_call23_v11 : Ref sig .tc := ⟨.hbm, 346, rfl⟩
abbrev main_call23_v12 : Ref sig .tc := ⟨.hbm, 347, rfl⟩
abbrev main_v109 : Ref sig .tc := ⟨.hbm, 348, rfl⟩
abbrev main_c_37 : Ref sig .tc := ⟨.hbm, 349, rfl⟩
abbrev main_call24_v0 : Ref sig .tc := ⟨.hbm, 350, rfl⟩
abbrev main_call24_c : Ref sig .tc := ⟨.hbm, 351, rfl⟩
abbrev main_call24_v1 : Ref sig .tc := ⟨.hbm, 352, rfl⟩
abbrev main_call24_c_0 : Ref sig .tc := ⟨.hbm, 353, rfl⟩
abbrev main_call24_v2 : Ref sig .tc := ⟨.hbm, 354, rfl⟩
abbrev main_call24_v3 : Ref sig .tc := ⟨.hbm, 355, rfl⟩
abbrev main_call24_v4 : Ref sig .tc := ⟨.hbm, 356, rfl⟩
abbrev main_call24_c_1 : Ref sig .tc := ⟨.hbm, 357, rfl⟩
abbrev main_call24_v5 : Ref sig .tc := ⟨.hbm, 358, rfl⟩
abbrev main_call24_v6 : Ref sig .tc := ⟨.hbm, 359, rfl⟩
abbrev main_call24_c_2 : Ref sig .tc := ⟨.hbm, 360, rfl⟩
abbrev main_call24_v7 : Ref sig .tc := ⟨.hbm, 361, rfl⟩
abbrev main_call24_v8 : Ref sig .tc := ⟨.hbm, 362, rfl⟩
abbrev main_call24_c_3 : Ref sig .tc := ⟨.hbm, 363, rfl⟩
abbrev main_call24_v9 : Ref sig .tc := ⟨.hbm, 364, rfl⟩
abbrev main_call24_v10 : Ref sig .tc := ⟨.hbm, 365, rfl⟩
abbrev main_call24_v11 : Ref sig .tc := ⟨.hbm, 366, rfl⟩
abbrev main_call24_v12 : Ref sig .tc := ⟨.hbm, 367, rfl⟩
abbrev main_call24_v13 : Ref sig .tc := ⟨.hbm, 368, rfl⟩
abbrev main_call24_v14 : Ref sig .tc := ⟨.hbm, 369, rfl⟩
abbrev main_v110 : Ref sig .tc := ⟨.hbm, 370, rfl⟩
abbrev main_c_38 : Ref sig .tc := ⟨.hbm, 371, rfl⟩
abbrev main_call25_v0 : Ref sig .tc := ⟨.hbm, 372, rfl⟩
abbrev main_call25_v1 : Ref sig .tc := ⟨.hbm, 373, rfl⟩
abbrev main_call25_v2 : Ref sig .tc := ⟨.hbm, 374, rfl⟩
abbrev main_call25_v3 : Ref sig .tc := ⟨.hbm, 375, rfl⟩
abbrev main_call25_v4 : Ref sig .tc := ⟨.hbm, 376, rfl⟩
abbrev main_call25_v5 : Ref sig .tc := ⟨.hbm, 377, rfl⟩
abbrev main_call25_v6 : Ref sig .tc := ⟨.hbm, 378, rfl⟩
abbrev main_call25_v7 : Ref sig .tc := ⟨.hbm, 379, rfl⟩
abbrev main_call25_c : Ref sig .tc := ⟨.hbm, 380, rfl⟩
abbrev main_call25_v8 : Ref sig .tc := ⟨.hbm, 381, rfl⟩
abbrev main_call25_v9 : Ref sig .tc := ⟨.hbm, 382, rfl⟩
abbrev main_call25_v10 : Ref sig .tc := ⟨.hbm, 383, rfl⟩
abbrev main_call25_c_0 : Ref sig .tc := ⟨.hbm, 384, rfl⟩
abbrev main_call25_v11 : Ref sig .tc := ⟨.hbm, 385, rfl⟩
abbrev main_call25_v12 : Ref sig .tc := ⟨.hbm, 386, rfl⟩
abbrev main_v111 : Ref sig .tc := ⟨.hbm, 387, rfl⟩
abbrev main_c_39 : Ref sig .tc := ⟨.hbm, 388, rfl⟩
abbrev main_call26_v0 : Ref sig .tc := ⟨.hbm, 389, rfl⟩
abbrev main_call26_c : Ref sig .tc := ⟨.hbm, 390, rfl⟩
abbrev main_call26_v1 : Ref sig .tc := ⟨.hbm, 391, rfl⟩
abbrev main_call26_c_0 : Ref sig .tc := ⟨.hbm, 392, rfl⟩
abbrev main_call26_v2 : Ref sig .tc := ⟨.hbm, 393, rfl⟩
abbrev main_call26_v3 : Ref sig .tc := ⟨.hbm, 394, rfl⟩
abbrev main_call26_v4 : Ref sig .tc := ⟨.hbm, 395, rfl⟩
abbrev main_call26_c_1 : Ref sig .tc := ⟨.hbm, 396, rfl⟩
abbrev main_call26_v5 : Ref sig .tc := ⟨.hbm, 397, rfl⟩
abbrev main_call26_v6 : Ref sig .tc := ⟨.hbm, 398, rfl⟩
abbrev main_call26_c_2 : Ref sig .tc := ⟨.hbm, 399, rfl⟩
abbrev main_call26_v7 : Ref sig .tc := ⟨.hbm, 400, rfl⟩
abbrev main_call26_v8 : Ref sig .tc := ⟨.hbm, 401, rfl⟩
abbrev main_call26_c_3 : Ref sig .tc := ⟨.hbm, 402, rfl⟩
abbrev main_call26_v9 : Ref sig .tc := ⟨.hbm, 403, rfl⟩
abbrev main_call26_v10 : Ref sig .tc := ⟨.hbm, 404, rfl⟩
abbrev main_call26_v11 : Ref sig .tc := ⟨.hbm, 405, rfl⟩
abbrev main_call26_v12 : Ref sig .tc := ⟨.hbm, 406, rfl⟩
abbrev main_call26_v13 : Ref sig .tc := ⟨.hbm, 407, rfl⟩
abbrev main_call26_v14 : Ref sig .tc := ⟨.hbm, 408, rfl⟩
abbrev main_v112 : Ref sig .tc := ⟨.hbm, 409, rfl⟩
abbrev main_v113 : Ref sig .tc := ⟨.hbm, 410, rfl⟩
abbrev main_v114 : Ref sig .tc := ⟨.hbm, 411, rfl⟩
abbrev main_c_40 : Ref sig .tc := ⟨.hbm, 412, rfl⟩
abbrev main_v115 : Ref sig .tc := ⟨.hbm, 413, rfl⟩
abbrev main_v116 : Ref sig .tc := ⟨.hbm, 414, rfl⟩
abbrev main_v117 : Ref sig .tc := ⟨.hbm, 415, rfl⟩
abbrev main_c_41 : Ref sig .tc := ⟨.hbm, 416, rfl⟩
abbrev main_call27_v0 : Ref sig .tc := ⟨.hbm, 417, rfl⟩
abbrev main_call27_v1 : Ref sig .tc := ⟨.hbm, 418, rfl⟩
abbrev main_v118 : Ref sig .tc := ⟨.hbm, 419, rfl⟩
abbrev main_c_42 : Ref sig .tc := ⟨.hbm, 420, rfl⟩
abbrev main_call28_v0 : Ref sig .tc := ⟨.hbm, 421, rfl⟩
abbrev main_call28_v1 : Ref sig .tc := ⟨.hbm, 422, rfl⟩
abbrev main_v119 : Ref sig .tc := ⟨.hbm, 423, rfl⟩
abbrev main_v120 : Ref sig .tc := ⟨.hbm, 424, rfl⟩
abbrev main_v121 : Ref sig .tc := ⟨.hbm, 425, rfl⟩
abbrev main_c_43 : Ref sig .tc := ⟨.hbm, 426, rfl⟩
abbrev main_v122 : Ref sig .tc := ⟨.hbm, 427, rfl⟩
abbrev main_v123 : Ref sig .tc := ⟨.hbm, 428, rfl⟩
abbrev main_call29_v0 : Ref sig .tc := ⟨.hbm, 429, rfl⟩
abbrev main_call29_v1 : Ref sig .tc := ⟨.hbm, 430, rfl⟩
abbrev main_call29_call0_c : Ref sig .tc := ⟨.hbm, 431, rfl⟩
abbrev main_call29_call0_v0 : Ref sig .tc := ⟨.hbm, 432, rfl⟩
abbrev main_v124 : Ref sig .tc := ⟨.hbm, 433, rfl⟩
abbrev main_c_44 : Ref sig .tc := ⟨.hbm, 434, rfl⟩
abbrev main_v125 : Ref sig .tc := ⟨.hbm, 435, rfl⟩
abbrev main_c_45 : Ref sig .tc := ⟨.hbm, 436, rfl⟩
abbrev main_call30_v0 : Ref sig .tc := ⟨.hbm, 437, rfl⟩
abbrev main_call30_v1 : Ref sig .tc := ⟨.hbm, 438, rfl⟩
abbrev main_v126 : Ref sig .tc := ⟨.hbm, 439, rfl⟩
abbrev main_c_46 : Ref sig .tc := ⟨.hbm, 440, rfl⟩
abbrev main_v127 : Ref sig .tc := ⟨.hbm, 441, rfl⟩
abbrev main_v128 : Ref sig .tc := ⟨.hbm, 442, rfl⟩
abbrev main_c_47 : Ref sig .tc := ⟨.hbm, 443, rfl⟩
abbrev main_v129 : Ref sig .tc := ⟨.hbm, 444, rfl⟩
abbrev main_v130 : Ref sig .tc := ⟨.hbm, 445, rfl⟩
abbrev main_v131 : Ref sig .tc := ⟨.hbm, 446, rfl⟩
abbrev main_v132 : Ref sig .tc := ⟨.hbm, 447, rfl⟩
abbrev main_c_48 : Ref sig .tc := ⟨.hbm, 448, rfl⟩
abbrev main_v133 : Ref sig .tc := ⟨.hbm, 449, rfl⟩
abbrev main_v134 : Ref sig .tc := ⟨.hbm, 450, rfl⟩
abbrev main_call31_call0_c : Ref sig .tc := ⟨.hbm, 451, rfl⟩
abbrev main_call31_call0_v0 : Ref sig .tc := ⟨.hbm, 452, rfl⟩
abbrev main_v135 : Ref sig .tc := ⟨.hbm, 453, rfl⟩
abbrev main_c_49 : Ref sig .tc := ⟨.hbm, 454, rfl⟩
abbrev main_call32_v0 : Ref sig .tc := ⟨.hbm, 455, rfl⟩
abbrev main_call32_v1 : Ref sig .tc := ⟨.hbm, 456, rfl⟩
abbrev main_call32_v2 : Ref sig .tc := ⟨.hbm, 457, rfl⟩
abbrev main_call32_v3 : Ref sig .tc := ⟨.hbm, 458, rfl⟩
abbrev main_call32_v4 : Ref sig .tc := ⟨.hbm, 459, rfl⟩
abbrev main_call32_v5 : Ref sig .tc := ⟨.hbm, 460, rfl⟩
abbrev main_call32_v6 : Ref sig .tc := ⟨.hbm, 461, rfl⟩
abbrev main_call32_v7 : Ref sig .tc := ⟨.hbm, 462, rfl⟩
abbrev main_call32_c : Ref sig .tc := ⟨.hbm, 463, rfl⟩
abbrev main_call32_v8 : Ref sig .tc := ⟨.hbm, 464, rfl⟩
abbrev main_call32_v9 : Ref sig .tc := ⟨.hbm, 465, rfl⟩
abbrev main_call32_v10 : Ref sig .tc := ⟨.hbm, 466, rfl⟩
abbrev main_call32_c_0 : Ref sig .tc := ⟨.hbm, 467, rfl⟩
abbrev main_call32_v11 : Ref sig .tc := ⟨.hbm, 468, rfl⟩
abbrev main_call32_v12 : Ref sig .tc := ⟨.hbm, 469, rfl⟩
abbrev main_v136 : Ref sig .tc := ⟨.hbm, 470, rfl⟩
abbrev main_c_50 : Ref sig .tc := ⟨.hbm, 471, rfl⟩
abbrev main_call33_v0 : Ref sig .tc := ⟨.hbm, 472, rfl⟩
abbrev main_call33_c : Ref sig .tc := ⟨.hbm, 473, rfl⟩
abbrev main_call33_v1 : Ref sig .tc := ⟨.hbm, 474, rfl⟩
abbrev main_call33_c_0 : Ref sig .tc := ⟨.hbm, 475, rfl⟩
abbrev main_call33_v2 : Ref sig .tc := ⟨.hbm, 476, rfl⟩
abbrev main_call33_v3 : Ref sig .tc := ⟨.hbm, 477, rfl⟩
abbrev main_call33_v4 : Ref sig .tc := ⟨.hbm, 478, rfl⟩
abbrev main_call33_c_1 : Ref sig .tc := ⟨.hbm, 479, rfl⟩
abbrev main_call33_v5 : Ref sig .tc := ⟨.hbm, 480, rfl⟩
abbrev main_call33_v6 : Ref sig .tc := ⟨.hbm, 481, rfl⟩
abbrev main_call33_c_2 : Ref sig .tc := ⟨.hbm, 482, rfl⟩
abbrev main_call33_v7 : Ref sig .tc := ⟨.hbm, 483, rfl⟩
abbrev main_call33_v8 : Ref sig .tc := ⟨.hbm, 484, rfl⟩
abbrev main_call33_c_3 : Ref sig .tc := ⟨.hbm, 485, rfl⟩
abbrev main_call33_v9 : Ref sig .tc := ⟨.hbm, 486, rfl⟩
abbrev main_call33_v10 : Ref sig .tc := ⟨.hbm, 487, rfl⟩
abbrev main_call33_v11 : Ref sig .tc := ⟨.hbm, 488, rfl⟩
abbrev main_call33_v12 : Ref sig .tc := ⟨.hbm, 489, rfl⟩
abbrev main_call33_v13 : Ref sig .tc := ⟨.hbm, 490, rfl⟩
abbrev main_call33_v14 : Ref sig .tc := ⟨.hbm, 491, rfl⟩
abbrev main_v137 : Ref sig .tc := ⟨.hbm, 492, rfl⟩
abbrev main_c_51 : Ref sig .tc := ⟨.hbm, 493, rfl⟩
abbrev main_call34_v0 : Ref sig .tc := ⟨.hbm, 494, rfl⟩
abbrev main_call34_v1 : Ref sig .tc := ⟨.hbm, 495, rfl⟩
abbrev main_call34_v2 : Ref sig .tc := ⟨.hbm, 496, rfl⟩
abbrev main_call34_v3 : Ref sig .tc := ⟨.hbm, 497, rfl⟩
abbrev main_call34_v4 : Ref sig .tc := ⟨.hbm, 498, rfl⟩
abbrev main_call34_v5 : Ref sig .tc := ⟨.hbm, 499, rfl⟩
abbrev main_call34_v6 : Ref sig .tc := ⟨.hbm, 500, rfl⟩
abbrev main_call34_v7 : Ref sig .tc := ⟨.hbm, 501, rfl⟩
abbrev main_call34_c : Ref sig .tc := ⟨.hbm, 502, rfl⟩
abbrev main_call34_v8 : Ref sig .tc := ⟨.hbm, 503, rfl⟩
abbrev main_call34_v9 : Ref sig .tc := ⟨.hbm, 504, rfl⟩
abbrev main_call34_v10 : Ref sig .tc := ⟨.hbm, 505, rfl⟩
abbrev main_call34_c_0 : Ref sig .tc := ⟨.hbm, 506, rfl⟩
abbrev main_call34_v11 : Ref sig .tc := ⟨.hbm, 507, rfl⟩
abbrev main_call34_v12 : Ref sig .tc := ⟨.hbm, 508, rfl⟩
abbrev main_v138 : Ref sig .tc := ⟨.hbm, 509, rfl⟩
abbrev main_c_52 : Ref sig .tc := ⟨.hbm, 510, rfl⟩
abbrev main_call35_v0 : Ref sig .tc := ⟨.hbm, 511, rfl⟩
abbrev main_call35_c : Ref sig .tc := ⟨.hbm, 512, rfl⟩
abbrev main_call35_v1 : Ref sig .tc := ⟨.hbm, 513, rfl⟩
abbrev main_call35_c_0 : Ref sig .tc := ⟨.hbm, 514, rfl⟩
abbrev main_call35_v2 : Ref sig .tc := ⟨.hbm, 515, rfl⟩
abbrev main_call35_v3 : Ref sig .tc := ⟨.hbm, 516, rfl⟩
abbrev main_call35_v4 : Ref sig .tc := ⟨.hbm, 517, rfl⟩
abbrev main_call35_c_1 : Ref sig .tc := ⟨.hbm, 518, rfl⟩
abbrev main_call35_v5 : Ref sig .tc := ⟨.hbm, 519, rfl⟩
abbrev main_call35_v6 : Ref sig .tc := ⟨.hbm, 520, rfl⟩
abbrev main_call35_c_2 : Ref sig .tc := ⟨.hbm, 521, rfl⟩
abbrev main_call35_v7 : Ref sig .tc := ⟨.hbm, 522, rfl⟩
abbrev main_call35_v8 : Ref sig .tc := ⟨.hbm, 523, rfl⟩
abbrev main_call35_c_3 : Ref sig .tc := ⟨.hbm, 524, rfl⟩
abbrev main_call35_v9 : Ref sig .tc := ⟨.hbm, 525, rfl⟩
abbrev main_call35_v10 : Ref sig .tc := ⟨.hbm, 526, rfl⟩
abbrev main_call35_v11 : Ref sig .tc := ⟨.hbm, 527, rfl⟩
abbrev main_call35_v12 : Ref sig .tc := ⟨.hbm, 528, rfl⟩
abbrev main_call35_v13 : Ref sig .tc := ⟨.hbm, 529, rfl⟩
abbrev main_call35_v14 : Ref sig .tc := ⟨.hbm, 530, rfl⟩
abbrev main_v139 : Ref sig .tc := ⟨.hbm, 531, rfl⟩
abbrev main_v140 : Ref sig .tc := ⟨.hbm, 532, rfl⟩
abbrev main_v141 : Ref sig .tc := ⟨.hbm, 533, rfl⟩
abbrev main_c_53 : Ref sig .tc := ⟨.hbm, 534, rfl⟩
abbrev main_v142 : Ref sig .tc := ⟨.hbm, 535, rfl⟩
abbrev main_v143 : Ref sig .tc := ⟨.hbm, 536, rfl⟩
abbrev main_v144 : Ref sig .tc := ⟨.hbm, 537, rfl⟩
abbrev main_c_54 : Ref sig .tc := ⟨.hbm, 538, rfl⟩
abbrev main_call36_v0 : Ref sig .tc := ⟨.hbm, 539, rfl⟩
abbrev main_call36_v1 : Ref sig .tc := ⟨.hbm, 540, rfl⟩
abbrev main_v145 : Ref sig .tc := ⟨.hbm, 541, rfl⟩
abbrev main_c_55 : Ref sig .tc := ⟨.hbm, 542, rfl⟩
abbrev main_call37_v0 : Ref sig .tc := ⟨.hbm, 543, rfl⟩
abbrev main_call37_v1 : Ref sig .tc := ⟨.hbm, 544, rfl⟩
abbrev main_v146 : Ref sig .tc := ⟨.hbm, 545, rfl⟩
abbrev main_v147 : Ref sig .tc := ⟨.hbm, 546, rfl⟩
abbrev main_v148 : Ref sig .tc := ⟨.hbm, 547, rfl⟩
abbrev main_v149 : Ref sig .tc := ⟨.hbm, 548, rfl⟩
abbrev main_v150 : Ref sig .tc := ⟨.hbm, 549, rfl⟩
abbrev main_v151 : Ref sig .tc := ⟨.hbm, 550, rfl⟩
abbrev main_v152 : Ref sig .tc := ⟨.hbm, 551, rfl⟩
abbrev main_v153 : Ref sig .tc := ⟨.hbm, 552, rfl⟩
abbrev main_v154 : Ref sig .tc := ⟨.hbm, 553, rfl⟩
abbrev main_c_56 : Ref sig .tc := ⟨.hbm, 554, rfl⟩
abbrev main_v155 : Ref sig .tc := ⟨.hbm, 555, rfl⟩
abbrev main_v156 : Ref sig .tc := ⟨.hbm, 556, rfl⟩
abbrev main_c_57 : Ref sig .tc := ⟨.hbm, 557, rfl⟩
abbrev main_v157 : Ref sig .tc := ⟨.hbm, 558, rfl⟩
abbrev main_v158 : Ref sig .tc := ⟨.hbm, 559, rfl⟩
abbrev main_v159 : Ref sig .tc := ⟨.hbm, 560, rfl⟩
abbrev main_v160 : Ref sig .tc := ⟨.hbm, 561, rfl⟩
abbrev main_v161 : Ref sig .tc := ⟨.hbm, 562, rfl⟩
abbrev main_cst_58 : Ref sig .tc := ⟨.hbm, 563, rfl⟩
abbrev main_v162 : Ref sig .tc := ⟨.hbm, 564, rfl⟩
abbrev main_v163 : Ref sig .tc := ⟨.hbm, 565, rfl⟩
abbrev main_v164 : Ref sig .tc := ⟨.hbm, 566, rfl⟩
abbrev main_call38_cst : Ref sig .tc := ⟨.hbm, 567, rfl⟩
abbrev main_call38_v0 : Ref sig .tc := ⟨.hbm, 568, rfl⟩
abbrev main_v165 : Ref sig .tc := ⟨.hbm, 569, rfl⟩
abbrev main_v166 : Ref sig .tc := ⟨.hbm, 570, rfl⟩
abbrev main_v167 : Ref sig .tc := ⟨.hbm, 571, rfl⟩
abbrev main_v168 : Ref sig .tc := ⟨.hbm, 572, rfl⟩
abbrev main_v169 : Ref sig .tc := ⟨.hbm, 573, rfl⟩
abbrev main_v170 : Ref sig .tc := ⟨.hbm, 574, rfl⟩
abbrev main_v171 : Ref sig .tc := ⟨.hbm, 575, rfl⟩
abbrev main_v172 : Ref sig .tc := ⟨.hbm, 576, rfl⟩
abbrev main_v173 : Ref sig .tc := ⟨.hbm, 577, rfl⟩
abbrev main_c_59 : Ref sig .tc := ⟨.hbm, 578, rfl⟩
abbrev main_v174 : Ref sig .tc := ⟨.hbm, 579, rfl⟩
abbrev main_v175 : Ref sig .tc := ⟨.hbm, 580, rfl⟩
abbrev main_c_60 : Ref sig .tc := ⟨.hbm, 581, rfl⟩
abbrev main_v176 : Ref sig .tc := ⟨.hbm, 582, rfl⟩
abbrev main_v177 : Ref sig .tc := ⟨.hbm, 583, rfl⟩
abbrev main_v178 : Ref sig .tc := ⟨.hbm, 584, rfl⟩
abbrev main_v179 : Ref sig .tc := ⟨.hbm, 585, rfl⟩
abbrev main_v180 : Ref sig .tc := ⟨.hbm, 586, rfl⟩
abbrev main_cst_61 : Ref sig .tc := ⟨.hbm, 587, rfl⟩
abbrev main_v181 : Ref sig .tc := ⟨.hbm, 588, rfl⟩
abbrev main_v182 : Ref sig .tc := ⟨.hbm, 589, rfl⟩
abbrev main_v183 : Ref sig .tc := ⟨.hbm, 590, rfl⟩
abbrev main_call39_cst : Ref sig .tc := ⟨.hbm, 591, rfl⟩
abbrev main_call39_v0 : Ref sig .tc := ⟨.hbm, 592, rfl⟩
abbrev main_v184 : Ref sig .tc := ⟨.hbm, 593, rfl⟩
abbrev main_v185 : Ref sig .tc := ⟨.hbm, 594, rfl⟩
abbrev main_v186 : Ref sig .tc := ⟨.hbm, 595, rfl⟩
abbrev main_v187 : Ref sig .tc := ⟨.hbm, 596, rfl⟩
abbrev main_v188 : Ref sig .tc := ⟨.hbm, 597, rfl⟩
abbrev main_cst_62 : Ref sig .tc := ⟨.hbm, 598, rfl⟩
abbrev main_v189 : Ref sig .tc := ⟨.hbm, 599, rfl⟩
abbrev main_call40_cst : Ref sig .tc := ⟨.hbm, 600, rfl⟩
abbrev main_call40_v0 : Ref sig .tc := ⟨.hbm, 601, rfl⟩
abbrev main_v190 : Ref sig .tc := ⟨.hbm, 602, rfl⟩
abbrev main_v191 : Ref sig .tc := ⟨.hbm, 603, rfl⟩
abbrev main_v192 : Ref sig .tc := ⟨.hbm, 604, rfl⟩
abbrev main_v193 : Ref sig .tc := ⟨.hbm, 605, rfl⟩
abbrev main_v194 : Ref sig .tc := ⟨.hbm, 606, rfl⟩
abbrev main_v195 : Ref sig .tc := ⟨.hbm, 607, rfl⟩

abbrev nD : Nat := 1
abbrev τ : Topo := Topo.v7x

variable {F : FTy → Type} [FloatOps F]

class Facts₀ : Prop where
  slices_S2x1024x1024_S1x1024x1024_0_0_0 : S2x1024x1024.Slices ![0, 0, 0] S1x1024x1024
  shapeCasts_S1x1024x1024_S1024x1024 : S1x1024x1024.ShapeCasts S1024x1024
  bcast_S_S1024x1024 : S_.BroadcastsInDim S1024x1024 (![] : Fin 0 → Fin S1024x1024.rank)
  shapeCasts_S1024x1024_S1048576 : S1024x1024.ShapeCasts S1048576
  natLt_1_32 : 1 < 32
  bcast_S_S_ : S_.BroadcastsInDim S_ (![] : Fin 0 → Fin S_.rank)
  reduceWindows_S1048576_S1048576_w1048576s1p1048575_0 : S1048576.ReduceWindows (![1048576] : Fin 1 → Nat) ![1] ![1048575] ![0] S1048576
  h_S_ : 0 < S_.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  reducesTo_S1024x1024_S_d0_1 : S1024x1024.ReducesTo [0, 1] S_
  slices_S2x128x64_S1x128x64_0_0_0 : S2x128x64.Slices ![0, 0, 0] S1x128x64
  shapeCasts_S1x128x64_S128x64 : S1x128x64.ShapeCasts S128x64
  slices_S2x64_S1x64_0_0 : S2x64.Slices ![0, 0] S1x64
  shapeCasts_S1x64_S64 : S1x64.ShapeCasts S64
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  concatenates_S1024x64_S1024x64_S1024x128_d1 : Shape.Concatenates [S1024x64, S1024x64] S1024x128 1
  slices_S2x1024x1024_S1x1024x1024_1_0_0 : S2x1024x1024.Slices ![1, 0, 0] S1x1024x1024
  slices_S2x128x64_S1x128x64_1_0_0 : S2x128x64.Slices ![1, 0, 0] S1x128x64
  slices_S2x64_S1x64_1_0 : S2x64.Slices ![1, 0] S1x64
  bcast_S1024x128_S1x1024x128_1_2 : S1024x128.BroadcastsInDim S1x1024x128 (![1, 2] : Fin 2 → Fin S1x1024x128.rank)
  concatenates_S1x1024x128_S1x1024x128_S2x1024x128_d0 : Shape.Concatenates [S1x1024x128, S1x1024x128] S2x1024x128 0
  reducesTo_S2x1024x128_S1024x128_d0 : S2x1024x128.ReducesTo [0] S1024x128
  bcast_S_S1024x128 : S_.BroadcastsInDim S1024x128 (![] : Fin 0 → Fin S1024x128.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  scatter_S1048576_S1048576x1_S1048576_n_0_0_1_wf : ScatterDims.WF S1048576 S1048576x1 S1048576 [] [0] [0] 1
  dot_S1024x128_S128x64_S1024x64_1_0_0_1_n_n_wf : DotDims.WF S1024x128 S128x64 S1024x64 [1] [0] [0] [1] [] []
  gather_S1024x64_S1048576x1_S1048576x64_1_0_n_n_0_1_164_wf : GatherDims.WF S1024x64 S1048576x1 S1048576x64 [1] [0] [] [0] [] 1 ![1, 64]
  scatter_S1024x64_S1048576x1_S1048576x64_1_0_0_1_wf : ScatterDims.WF S1024x64 S1048576x1 S1048576x64 [1] [0] [0] 1
  dot_S1024x128_S128x128_S1024x128_1_0_0_1_n_n_wf : DotDims.WF S1024x128 S128x128 S1024x128 [1] [0] [0] [1] [] []

variable [Facts₀]

def scatter_S1048576_S1048576x1_S1048576_n_0_0_1 : ScatterDims S1048576 S1048576x1 S1048576 where
  updateWindowDims := []
  insertedWindowDims := [0]
  scatterDimsToOperandDims := [0]
  indexVectorDim := 1
  wf := scatter_S1048576_S1048576x1_S1048576_n_0_0_1_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def gather_S1024x64_S1048576x1_S1048576x64_1_0_n_n_0_1_164 : GatherDims S1024x64 S1048576x1 S1048576x64 where
  offsetDims := [1]
  collapsedSliceDims := [0]
  operandBatchingDims := []
  startIndicesBatchingDims := []
  startIndexMap := [0]
  indexVectorDim := 1
  sliceSizes := ![1, 64]
  wf := gather_S1024x64_S1048576x1_S1048576x64_1_0_n_n_0_1_164_wf
def scatter_S1024x64_S1048576x1_S1048576x64_1_0_0_1 : ScatterDims S1024x64 S1048576x1 S1048576x64 where
  updateWindowDims := [1]
  insertedWindowDims := [0]
  scatterDimsToOperandDims := [0]
  indexVectorDim := 1
  wf := scatter_S1024x64_S1048576x1_S1048576x64_1_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

class Facts : Prop extends Facts₀ where

variable [Facts]
-- ==== Proof.Spec.lean ====
/-
  The layer as one function of its nine arguments, entry by entry, over the extended reals.

  x : 1024 × 128 node features; Afw, Abw : two 1024 × 1024 adjacency word matrices each (forward / backward,
  one per view); Wfw, bfw, Wbw, bbw : per view a 128 × 64 weight matrix and a bias row; W1, b1 : the output layer.

  * `feat x W b i s f`   = Σ_k x(s,k) · W(i,k,f) + b(i,f): node s's transformed feature f in view i.
  * `agg A h i p f`      = Σ_s [A(i,s,p) ≠ 0] · h(s,f): the sum of h over the sources s of the edges s → p.
  * `dirSum A x W b p f` = max(agg in view 0, 0) + max(agg in view 1, 0).
  * `summed … p k`       = the backward sum for k < 64, the forward sum at k − 64 otherwise.
  * `G … (p, q)`         = (Σ_k summed(p,k) · W1(k,q) + b1(q)) + x(p,q).
-/
import Idealize.ShloMosaic.PureOps.Ideal
import Idealize.ShloMosaic.Lib.ValueIdx

noncomputable section

namespace Cert.BiGnn

open Idealize.ShloMosaic Idealize.ShloMosaic.ValueIdx
open scoped BigOperators

/-- Node s's transformed feature f in view i: Σ_k x(s,k)·W(i,k,f) + b(i,f). -/
def feat (x : FVec Ideal ⟨2, ![1024, 128]⟩ .f32) (W : FVec Ideal ⟨3, ![2, 128, 64]⟩ .f32) (b : FVec Ideal ⟨2, ![2, 64]⟩ .f32)
    (i : Fin 2) (s : Fin 1024) (f : Fin 64) : EReal :=
  (∑ k : Fin 128, x (ix2 s k) * W (ix3 i k f)) + b (ix2 i f)

/-- The sum of h(s, f) over the sources s with a nonzero adjacency word at (i, s, p). -/
def agg (A : IVec ⟨3, ![2, 1024, 1024]⟩ 32) (h : Fin 1024 → Fin 64 → EReal) (i : Fin 2) (p : Fin 1024) (f : Fin 64) : EReal :=
  ∑ s : Fin 1024, if A (ix3 i s p) = 0#32 then 0 else h s f

/-- One direction: the two views' aggregates, each clamped below at 0, added. -/
def dirSum (A : IVec ⟨3, ![2, 1024, 1024]⟩ 32) (x : FVec Ideal ⟨2, ![1024, 128]⟩ .f32) (W : FVec Ideal ⟨3, ![2, 128, 64]⟩ .f32)
    (b : FVec Ideal ⟨2, ![2, 64]⟩ .f32) (p : Fin 1024) (f : Fin 64) : EReal :=
  max (agg A (feat x W b 0) 0 p f) 0 + max (agg A (feat x W b 1) 1 p f) 0

/-- Hidden unit k of node p: the backward direction for k < 64, the forward direction at k − 64 otherwise. -/
def summed (x : FVec Ideal ⟨2, ![1024, 128]⟩ .f32) (Afw Abw : IVec ⟨3, ![2, 1024, 1024]⟩ 32)
    (Wfw : FVec Ideal ⟨3, ![2, 128, 64]⟩ .f32) (bfw : FVec Ideal ⟨2, ![2, 64]⟩ .f32)
    (Wbw : FVec Ideal ⟨3, ![2, 128, 64]⟩ .f32) (bbw : FVec Ideal ⟨2, ![2, 64]⟩ .f32) (p : Fin 1024) (k : Fin 128) : EReal :=
  if h : k.val < 64 then dirSum Abw x Wbw bbw p ⟨k.val, h⟩ else dirSum Afw x Wfw bfw p ⟨k.val - 64, by omega⟩

/-- Entry (p, q) of the layer's output. -/
def Gat (x : FVec Ideal ⟨2, ![1024, 128]⟩ .f32) (Afw Abw : IVec ⟨3, ![2, 1024, 1024]⟩ 32)
    (Wfw : FVec Ideal ⟨3, ![2, 128, 64]⟩ .f32) (bfw : FVec Ideal ⟨2, ![2, 64]⟩ .f32)
    (Wbw : FVec Ideal ⟨3, ![2, 128, 64]⟩ .f32) (bbw : FVec Ideal ⟨2, ![2, 64]⟩ .f32)
    (W1 : FVec Ideal ⟨2, ![128, 128]⟩ .f32) (b1 : FVec Ideal ⟨1, ![128]⟩ .f32) (p : Fin 1024) (q : Fin 128) : EReal :=
  ((∑ k : Fin 128, summed x Afw Abw Wfw bfw Wbw bbw p k * W1 (ix2 k q)) + b1 (ix1 q)) + x (ix2 p q)

/-- The layer's output array. -/
def G (x : FVec Ideal ⟨2, ![1024, 128]⟩ .f32) (Afw Abw : IVec ⟨3, ![2, 1024, 1024]⟩ 32)
    (Wfw : FVec Ideal ⟨3, ![2, 128, 64]⟩ .f32) (bfw : FVec Ideal ⟨2, ![2, 64]⟩ .f32)
    (Wbw : FVec Ideal ⟨3, ![2, 128, 64]⟩ .f32) (bbw : FVec Ideal ⟨2, ![2, 64]⟩ .f32)
    (W1 : FVec Ideal ⟨2, ![128, 128]⟩ .f32) (b1 : FVec Ideal ⟨1, ![128]⟩ .f32) : FVec Ideal ⟨2, ![1024, 128]⟩ .f32 :=
  fun j => Gat x Afw Abw Wfw bfw Wbw bbw W1 b1 (j 0) (j 1)

theorem G_ix2 (x : FVec Ideal ⟨2, ![1024, 128]⟩ .f32) (Afw Abw : IVec ⟨3, ![2, 1024, 1024]⟩ 32)
    (Wfw : FVec Ideal ⟨3, ![2, 128, 64]⟩ .f32) (bfw : FVec Ideal ⟨2, ![2, 64]⟩ .f32)
    (Wbw : FVec Ideal ⟨3, ![2, 128, 64]⟩ .f32) (bbw : FVec Ideal ⟨2, ![2, 64]⟩ .f32)
    (W1 : FVec Ideal ⟨2, ![128, 128]⟩ .f32) (b1 : FVec Ideal ⟨1, ![128]⟩ .f32) (p : Fin 1024) (q : Fin 128) :
    G x Afw Abw Wfw bfw Wbw bbw W1 b1 (ix2 p q) = Gat x Afw Abw Wfw bfw Wbw bbw W1 b1 p q := rfl

end Cert.BiGnn

end
-- ==== Proof.PreDecode.lean ====
/-
  What the precondition says of the adjacency words: its last two conjuncts are, for each of the two adjacency
  stacks, "every word equals 0 or equals 1" tested entrywise and and-reduced to one bit; the bit being 1 makes
  every word 0 or 1.
-/
import proofs.«121984_g44616120271338_cont_sun_m_526_12_alg».proof.Pre_finite_inputs
import Idealize.ShloMosaic.Lib.ReduceAll
import Idealize.ShloMosaic.Lib.ValueIdx

noncomputable section

namespace Cert.BiGnn

open Idealize.ShloMosaic Cert.Pre_finite_inputs

instance : Subsingleton S_.Idx := ⟨fun a b => funext fun d => d.elim0⟩

/-- An equality test of two words that came out 1 compared equal words. -/
theorem eq_of_cmpi_eq_one {x y : BitVec 32} (h : IntOp.cmpi .eq x y = 1#1) : x = y := by
  have h' : BitVec.ofBool (x == y) = 1#1 := h
  by_contra hne
  have hb : (x == y) = false := by simpa using hne
  rw [hb] at h'
  exact absurd h' (by decide)

/-- The entrywise test "the word is 0 or the word is 1", and-reduced to a bit that is 1, holds of every word. -/
theorem all01_of_reduce [Facts] (a : IVec S2x1024x1024 32)
    (h : Host.reduce IntOp.andi
        (ori (cmpi .eq a (broadcastInDim S2x1024x1024 ![] Facts.bcast_S_S2x1024x1024 (constantI S_ 32 0#32)))
          (cmpi .eq a (broadcastInDim S2x1024x1024 ![] Facts.bcast_S_S2x1024x1024 (constantI S_ 32 1#32))))
        (constantI S_ 1 1#1) Facts.reducesTo_S2x1024x1024_S_d0_1_2 Facts.h_S_ ValueIdx.ix0 = 1#1)
    (i : S2x1024x1024.Idx) : a i = 0#32 ∨ a i = 1#32 := by
  have hi := Host.reduce_andi_all _ _ _ _ _ h i
  rcases IntOp.ori_eq_one.1 (show IntOp.ori (IntOp.cmpi .eq (a i) 0#32) (IntOp.cmpi .eq (a i) 1#32) = 1#1 from hi) with h0 | h1
  · exact Or.inl (eq_of_cmpi_eq_one h0)
  · exact Or.inr (eq_of_cmpi_eq_one h1)

/-- Under the precondition every word of both adjacency stacks is 0 or 1. -/
theorem adj01_of_pre {F : FTy → Type} [FloatOps F] [Facts] (a0 : FVec F S1024x128 .f32) (a1 a2 : IVec S2x1024x1024 32)
    (a3 : FVec F S2x128x64 .f32) (a4 : FVec F S2x64 .f32) (a5 : FVec F S2x128x64 .f32) (a6 : FVec F S2x64 .f32)
    (a7 : FVec F S128x128 .f32) (a8 : FVec F S128 .f32)
    (h : fn (F := F) a0 a1 a2 a3 a4 a5 a6 a7 a8 = fun _ => 1#1) :
    (∀ i, a1 i = 0#32 ∨ a1 i = 1#32) ∧ (∀ i, a2 i = 0#32 ∨ a2 i = 1#32) := by
  have h0 := congrFun h ValueIdx.ix0
  obtain ⟨h40, h46⟩ := IntOp.andi_eq_one.1 (show IntOp.andi _ _ = 1#1 from h0)
  obtain ⟨_, h39⟩ := IntOp.andi_eq_one.1 (show IntOp.andi _ _ = 1#1 from h40)
  exact ⟨fun i => all01_of_reduce a1 h39 i, fun i => all01_of_reduce a2 h46 i⟩

end Cert.BiGnn

end
-- ==== Proof.KPieces.lean ====
/-
  What each case of the body leaves in the two carried buffers and in the output block, as pure functions of the
  blocks it is run on (any float instance).

  The first grid point fills each carried buffer [64, 2048] by two stores of [64, 1024] column halves: the transposed
  features of view 0 at columns 0 … 1023 and of view 1 at columns 1024 … 2047. Every point then stores one output
  block [256, 128] whose payload reads the two carried buffers through their column halves, the two adjacency blocks
  through their view slabs, a 256-row band of the node features, and the output layer's weights and bias row.
-/
import proofs.«121984_g44616120271338_cont_sun_m_526_12_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)
open scoped BigOperators

namespace Cert.BiGnn.K

open Cert.KernelIdeal Cert.KernelIdeal.Gen

variable {F : FTy → Type} [FloatOps F]

theorem hz2 : (![0, 0] : Fin 2 → Nat) = fun _ => 0 := funext fun a => by fin_cases a <;> rfl

/-- The view slabs of a stacked weight array, of a stacked bias array and of an adjacency block; the column halves of a
    carried buffer; the band of rows of the node features a point adds back. -/
abbrev rW0 : Rect S2x128x64 := Rect.unit (s := S2x128x64) ![0, 0, 0] S1x128x64.size inb_S2x128x64_S1x128x64_0_0_0
abbrev rW1 : Rect S2x128x64 := Rect.unit (s := S2x128x64) ![1, 0, 0] S1x128x64.size inb_S2x128x64_S1x128x64_1_0_0
abbrev rB0 : Rect S2x64 := Rect.unit (s := S2x64) ![0, 0] S1x64.size inb_S2x64_S1x64_0_0
abbrev rB1 : Rect S2x64 := Rect.unit (s := S2x64) ![1, 0] S1x64.size inb_S2x64_S1x64_1_0
abbrev rA0 : Rect S2x1024x256 := Rect.unit (s := S2x1024x256) ![0, 0, 0] S1x1024x256.size inb_S2x1024x256_S1x1024x256_0_0_0
abbrev rA1 : Rect S2x1024x256 := Rect.unit (s := S2x1024x256) ![1, 0, 0] S1x1024x256.size inb_S2x1024x256_S1x1024x256_1_0_0
abbrev rL : Rect S64x2048 := Rect.unit (s := S64x2048) ![0, 0] S64x1024.size inb_S64x2048_S64x1024_0_0
abbrev rR : Rect S64x2048 := Rect.unit (s := S64x2048) ![0, 1024] S64x1024.size inb_S64x2048_S64x1024_0_1024
abbrev rX (i : grid0.Coords) : Rect S1024x128 := Rect.unit (s := S1024x128) (k0_off1 i) S256x128.size (k0_off1_inb i)

/-- The forward carried buffer after the first point: the two stores' pieces, the later one first. -/
def scrFw (x0 : Vec F S1024x128 .f32) (x3 : Vec F S2x128x64 .f32) (x4 : Vec F S2x64 .f32) : Vec F S64x2048 .bf16 :=
  View.canon [⟨rR, k0_pay3 x0 (View.ld x3 rW1) (View.ld x4 rB1)⟩, ⟨rL, k0_pay2 x0 (View.ld x3 rW0) (View.ld x4 rB0)⟩]

/-- The backward carried buffer after the first point. -/
def scrBw (x0 : Vec F S1024x128 .f32) (x5 : Vec F S2x128x64 .f32) (x6 : Vec F S2x64 .f32) : Vec F S64x2048 .bf16 :=
  View.canon [⟨rR, k0_pay6 x0 (View.ld x5 rW1) (View.ld x6 rB1)⟩, ⟨rL, k0_pay5 (k0_pay4 x0 (View.ld x5 rW0) (View.ld x6 rB0))⟩]

/-- The output block a point stores, from its blocks and the two carried buffers' contents. -/
def outBlk (i : grid0.Coords) (x0 : Vec F S1024x128 .f32) (x1 x2 : Vec F S2x1024x256 .i32) (x7 : Vec F S128x128 .f32)
    (x8 : Vec F S1x128 .f32) (s0 s1 : Vec F S64x2048 .bf16) : Vec F S256x128 .f32 :=
  k0_pay1 (k0_pay7 (View.ld x2 rA0) (View.ld s1 rL) (View.ld x2 rA1) (View.ld s1 rR))
    (k0_pay8 (View.ld x1 rA0) (View.ld s0 rL)) (k0_pay9 (View.ld x1 rA1)) (View.ld s0 rR)
    (constant S64x256 .f32 0x00000000#32) (View.ld x0 (rX i)) x7 x8

theorem sout_A_0 (c : Dev nD) (i : grid0.Coords) (arg1 : Memref sig .tc .vmem S1024x128 .f32) (harg1 : arg1.IsWhole) (arg2 : Memref sig .tc .vmem S2x1024x256 .i32) (harg2 : arg2.IsWhole) (arg3 : Memref sig .tc .vmem S2x1024x256 .i32) (harg3 : arg3.IsWhole) (arg4 : Memref sig .tc .vmem S2x128x64 .f32) (harg4 : arg4.IsWhole) (arg5 : Memref sig .tc .vmem S2x64 .f32) (harg5 : arg5.IsWhole) (arg6 : Memref sig .tc .vmem S2x128x64 .f32) (harg6 : arg6.IsWhole) (arg7 : Memref sig .tc .vmem S2x64 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S64x2048 .bf16) (harg11 : arg11.IsWhole) (arg12 : Memref sig .tc .vmem S64x2048 .bf16) (harg12 : arg12.IsWhole) (hc0 : cond0_0 i) (x0 : Vec F S1024x128 .f32) (x1 : Vec F S2x1024x256 .i32) (x2 : Vec F S2x1024x256 .i32) (x3 : Vec F S2x128x64 .f32) (x4 : Vec F S2x64 .f32) (x5 : Vec F S2x128x64 .f32) (x6 : Vec F S2x64 .f32) (x7 : Vec F S128x128 .f32) (x8 : Vec F S1x128 .f32) :
    sout0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 = scrFw x0 x3 x4 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold kernelRun0_A
  dsimp only
  sl_unfold_words
  simp only [View.readAt_eq_ld, harg1.read_unread, harg4.read_unread, harg5.read_unread, View.ld_unit_zero (S := S1024x128) hz2]
  rfl

theorem sout_A_1 (c : Dev nD) (i : grid0.Coords) (arg1 : Memref sig .tc .vmem S1024x128 .f32) (harg1 : arg1.IsWhole) (arg2 : Memref sig .tc .vmem S2x1024x256 .i32) (harg2 : arg2.IsWhole) (arg3 : Memref sig .tc .vmem S2x1024x256 .i32) (harg3 : arg3.IsWhole) (arg4 : Memref sig .tc .vmem S2x128x64 .f32) (harg4 : arg4.IsWhole) (arg5 : Memref sig .tc .vmem S2x64 .f32) (harg5 : arg5.IsWhole) (arg6 : Memref sig .tc .vmem S2x128x64 .f32) (harg6 : arg6.IsWhole) (arg7 : Memref sig .tc .vmem S2x64 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S64x2048 .bf16) (harg11 : arg11.IsWhole) (arg12 : Memref sig .tc .vmem S64x2048 .bf16) (harg12 : arg12.IsWhole) (hc0 : cond0_0 i) (x0 : Vec F S1024x128 .f32) (x1 : Vec F S2x1024x256 .i32) (x2 : Vec F S2x1024x256 .i32) (x3 : Vec F S2x128x64 .f32) (x4 : Vec F S2x64 .f32) (x5 : Vec F S2x128x64 .f32) (x6 : Vec F S2x64 .f32) (x7 : Vec F S128x128 .f32) (x8 : Vec F S1x128 .f32) :
    sout0_A_1 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 = scrBw x0 x5 x6 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold kernelRun0_A
  dsimp only
  sl_unfold_words
  simp only [View.readAt_eq_ld, harg1.read_unread, harg6.read_unread, harg7.read_unread, View.ld_unit_zero (S := S1024x128) hz2]
  rfl

theorem out_A (c : Dev nD) (i : grid0.Coords) (arg1 : Memref sig .tc .vmem S1024x128 .f32) (harg1 : arg1.IsWhole) (arg2 : Memref sig .tc .vmem S2x1024x256 .i32) (harg2 : arg2.IsWhole) (arg3 : Memref sig .tc .vmem S2x1024x256 .i32) (harg3 : arg3.IsWhole) (arg4 : Memref sig .tc .vmem S2x128x64 .f32) (harg4 : arg4.IsWhole) (arg5 : Memref sig .tc .vmem S2x64 .f32) (harg5 : arg5.IsWhole) (arg6 : Memref sig .tc .vmem S2x128x64 .f32) (harg6 : arg6.IsWhole) (arg7 : Memref sig .tc .vmem S2x64 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S64x2048 .bf16) (harg11 : arg11.IsWhole) (arg12 : Memref sig .tc .vmem S64x2048 .bf16) (harg12 : arg12.IsWhole) (hc0 : cond0_0 i) (x0 : Vec F S1024x128 .f32) (x1 : Vec F S2x1024x256 .i32) (x2 : Vec F S2x1024x256 .i32) (x3 : Vec F S2x128x64 .f32) (x4 : Vec F S2x64 .f32) (x5 : Vec F S2x128x64 .f32) (x6 : Vec F S2x64 .f32) (x7 : Vec F S128x128 .f32) (x8 : Vec F S1x128 .f32) :
    out0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 = outBlk i x0 x1 x2 x7 x8 (scrFw x0 x3 x4) (scrBw x0 x5 x6) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold kernelRun0_A
  dsimp only
  sl_unfold_words
  rw [View.canon_unit_zero hz2]
  simp only [View.readCov_eq_canon', View.readAt_eq_ld, harg1.read_unread, harg2.read_unread, harg3.read_unread, harg4.read_unread,
    harg5.read_unread, harg6.read_unread, harg7.read_unread, harg8.read_unread, harg9.read_unread,
    View.ld_unit_zero (S := S1024x128) hz2, View.ld_unit_zero (S := S128x128) hz2, View.ld_unit_zero (S := S1x128) hz2]
  rfl

theorem out_B (c : Dev nD) (i : grid0.Coords) (arg1 : Memref sig .tc .vmem S1024x128 .f32) (harg1 : arg1.IsWhole) (arg2 : Memref sig .tc .vmem S2x1024x256 .i32) (harg2 : arg2.IsWhole) (arg3 : Memref sig .tc .vmem S2x1024x256 .i32) (harg3 : arg3.IsWhole) (arg4 : Memref sig .tc .vmem S2x128x64 .f32) (harg4 : arg4.IsWhole) (arg5 : Memref sig .tc .vmem S2x64 .f32) (harg5 : arg5.IsWhole) (arg6 : Memref sig .tc .vmem S2x128x64 .f32) (harg6 : arg6.IsWhole) (arg7 : Memref sig .tc .vmem S2x64 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S64x2048 .bf16) (harg11 : arg11.IsWhole) (arg12 : Memref sig .tc .vmem S64x2048 .bf16) (harg12 : arg12.IsWhole) (hc0 : ¬cond0_0 i) (x0 : Vec F S1024x128 .f32) (x1 : Vec F S2x1024x256 .i32) (x2 : Vec F S2x1024x256 .i32) (x3 : Vec F S2x128x64 .f32) (x4 : Vec F S2x64 .f32) (x5 : Vec F S2x128x64 .f32) (x6 : Vec F S2x64 .f32) (x7 : Vec F S128x128 .f32) (x8 : Vec F S1x128 .f32) (xs0 xs1 : Vec F S64x2048 .bf16) :
    out0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xs0 xs1 = outBlk i x0 x1 x2 x7 x8 xs0 xs1 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xs0 xs1)]
  unfold kernelRun0_B
  dsimp only
  sl_unfold_words
  rw [View.canon_unit_zero hz2]
  simp only [View.readAt_eq_ld, harg1.read_unread, harg2.read_unread, harg3.read_unread, harg8.read_unread, harg9.read_unread,
    harg11.read_unread, harg12.read_unread,
    View.ld_unit_zero (S := S128x128) hz2, View.ld_unit_zero (S := S1x128) hz2]
  rfl

end Cert.BiGnn.K

end
-- ==== Proof.KLoads.lean ====
/-
  The loads of the body read at an index: a view slab of a stacked array reads the array at that view; a column half of
  a carried buffer [64, 2048] reads column 1024·v + s; the 256-row band of the node features a point loads reads row
  (row offset) + r. And the carried buffers after the first point, read at column 1024·v + s: view v's payload at s.
-/
import proofs.«121984_g44616120271338_cont_sun_m_526_12_alg».proof.Proof.KPieces
import Idealize.ShloMosaic.Lib.ValueIdx

noncomputable section

open Idealize.ShloMosaic Idealize.ShloMosaic.TcCoe Idealize.SL.Sem
open Idealize.ShloMosaic.Pipeline (Dat)
open scoped BigOperators

namespace Cert.BiGnn.K

open Cert.KernelIdeal Cert.KernelIdeal.Gen

open Idealize.ShloMosaic.ValueIdx

variable {Val : EltTy → Type}

/-- Column 1024·v + s of a carried buffer. -/
abbrev col (v : Fin 2) (s : Fin 1024) : Fin 2048 := ⟨1024 * v.val + s.val, by have := v.isLt; have := s.isLt; omega⟩

/-- Row 256·T + r of the node arrays. -/
abbrev row (T : ℕ) (hT : T < 4) (r : Fin 256) : Fin 1024 := ⟨256 * T + r.val, by have := r.isLt; omega⟩

theorem idx_rW0 (k : Fin 128) (f : Fin 64) : rW0.idx (ix3 (0 : Fin 1) k f) = ix3 (0 : Fin 2) k f :=
  funext fun a => Fin.ext (by
    match a with
    | ⟨0, _⟩ => rfl
    | ⟨1, _⟩ => show 0 + 1 * k.val = k.val; omega
    | ⟨2, _⟩ => show 0 + 1 * f.val = f.val; omega)

theorem idx_rW1 (k : Fin 128) (f : Fin 64) : rW1.idx (ix3 (0 : Fin 1) k f) = ix3 (1 : Fin 2) k f :=
  funext fun a => Fin.ext (by
    match a with
    | ⟨0, _⟩ => rfl
    | ⟨1, _⟩ => show 0 + 1 * k.val = k.val; omega
    | ⟨2, _⟩ => show 0 + 1 * f.val = f.val; omega)

theorem idx_rB0 (f : Fin 64) : rB0.idx (ix2 (0 : Fin 1) f) = ix2 (0 : Fin 2) f :=
  funext fun a => Fin.ext (by
    match a with
    | ⟨0, _⟩ => rfl
    | ⟨1, _⟩ => show 0 + 1 * f.val = f.val; omega)

theorem idx_rB1 (f : Fin 64) : rB1.idx (ix2 (0 : Fin 1) f) = ix2 (1 : Fin 2) f :=
  funext fun a => Fin.ext (by
    match a with
    | ⟨0, _⟩ => rfl
    | ⟨1, _⟩ => show 0 + 1 * f.val = f.val; omega)

theorem idx_rA0 (s : Fin 1024) (r : Fin 256) : rA0.idx (ix3 (0 : Fin 1) s r) = ix3 (0 : Fin 2) s r :=
  funext fun a => Fin.ext (by
    match a with
    | ⟨0, _⟩ => rfl
    | ⟨1, _⟩ => show 0 + 1 * s.val = s.val; omega
    | ⟨2, _⟩ => show 0 + 1 * r.val = r.val; omega)

theorem idx_rA1 (s : Fin 1024) (r : Fin 256) : rA1.idx (ix3 (0 : Fin 1) s r) = ix3 (1 : Fin 2) s r :=
  funext fun a => Fin.ext (by
    match a with
    | ⟨0, _⟩ => rfl
    | ⟨1, _⟩ => show 0 + 1 * s.val = s.val; omega
    | ⟨2, _⟩ => show 0 + 1 * r.val = r.val; omega)

theorem idx_rL (f : Fin 64) (s : Fin 1024) : rL.idx (ix2 f s) = ix2 f (col 0 s) :=
  funext fun a => Fin.ext (by
    match a with
    | ⟨0, _⟩ => show 0 + 1 * f.val = f.val; omega
    | ⟨1, _⟩ => show 0 + 1 * s.val = 1024 * 0 + s.val; omega)

theorem idx_rR (f : Fin 64) (s : Fin 1024) : rR.idx (ix2 f s) = ix2 f (col 1 s) :=
  funext fun a => Fin.ext (by
    match a with
    | ⟨0, _⟩ => show 0 + 1 * f.val = f.val; omega
    | ⟨1, _⟩ => show 1024 + 1 * s.val = 1024 * 1 + s.val; omega)

/-- The band of rows point i loads: rows 256·(i 0) + r. -/
theorem idx_rX (i : grid0.Coords) (T : ℕ) (hT : T < 4) (hi : (i 0).val = T) (r : Fin 256) (q : Fin 128) :
    (rX i).idx (ix2 r q) = ix2 (row T hT r) q :=
  funext fun a => Fin.ext (by
    match a with
    | ⟨0, _⟩ => show k0_off1 i 0 + 1 * r.val = 256 * T + r.val; rw [k0_off1_eq i, ← hi]; show 256 * (i 0).val + 1 * r.val = _; omega
    | ⟨1, _⟩ => show k0_off1 i 1 + 1 * q.val = q.val; rw [k0_off1_eq i]; show 0 + 1 * q.val = _; omega)

section Scr
variable {F : FTy → Type} [FloatOps F]

/-- A column of the left half is not in the right half's rectangle. -/
theorem not_mem_rR (f : Fin 64) (s : Fin 1024) : (ix2 f (col 0 s) : S64x2048.Idx) ∉ rR.set := by
  rw [Rect.mem_set_unit]
  intro h
  have h1 := (h 1).1
  have : (1024 : ℕ) ≤ 1024 * 0 + s.val := h1
  have := s.isLt
  omega

theorem scrFw_left (x0 : Vec F S1024x128 .f32) (x3 : Vec F S2x128x64 .f32) (x4 : Vec F S2x64 .f32) (f : Fin 64) (s : Fin 1024) :
    scrFw x0 x3 x4 (ix2 f (col 0 s)) = k0_pay2 x0 (View.ld x3 rW0) (View.ld x4 rB0) (ix2 f s) := by
  unfold scrFw
  have hnm : (ix2 f (col 0 s) : S64x2048.Idx)
      ∉ (⟨rR, k0_pay3 x0 (View.ld x3 rW1) (View.ld x4 rB1)⟩ : View.Piece (Elt F) S64x2048 .bf16).1.set := not_mem_rR f s
  refine (View.canon_cons_of_not_mem _ _ hnm).trans ?_
  have e := View.canon_cons_emb (Val := Elt F) (s := S64x2048) (e := .bf16) rL (k0_pay2 x0 (View.ld x3 rW0) (View.ld x4 rB0)) [] (ix2 f s)
  rw [show rL.emb (ix2 f s) = ix2 f (col 0 s) from idx_rL f s] at e
  exact e

theorem scrFw_right (x0 : Vec F S1024x128 .f32) (x3 : Vec F S2x128x64 .f32) (x4 : Vec F S2x64 .f32) (f : Fin 64) (s : Fin 1024) :
    scrFw x0 x3 x4 (ix2 f (col 1 s)) = k0_pay3 x0 (View.ld x3 rW1) (View.ld x4 rB1) (ix2 f s) := by
  unfold scrFw
  have e := View.canon_cons_emb (Val := Elt F) (s := S64x2048) (e := .bf16) rR (k0_pay3 x0 (View.ld x3 rW1) (View.ld x4 rB1))
    [⟨rL, k0_pay2 x0 (View.ld x3 rW0) (View.ld x4 rB0)⟩] (ix2 f s)
  rw [show rR.emb (ix2 f s) = ix2 f (col 1 s) from idx_rR f s] at e
  exact e

theorem scrBw_left (x0 : Vec F S1024x128 .f32) (x5 : Vec F S2x128x64 .f32) (x6 : Vec F S2x64 .f32) (f : Fin 64) (s : Fin 1024) :
    scrBw x0 x5 x6 (ix2 f (col 0 s)) = k0_pay5 (k0_pay4 x0 (View.ld x5 rW0) (View.ld x6 rB0)) (ix2 f s) := by
  unfold scrBw
  have hnm : (ix2 f (col 0 s) : S64x2048.Idx)
      ∉ (⟨rR, k0_pay6 x0 (View.ld x5 rW1) (View.ld x6 rB1)⟩ : View.Piece (Elt F) S64x2048 .bf16).1.set := not_mem_rR f s
  refine (View.canon_cons_of_not_mem _ _ hnm).trans ?_
  have e := View.canon_cons_emb (Val := Elt F) (s := S64x2048) (e := .bf16) rL (k0_pay5 (k0_pay4 x0 (View.ld x5 rW0) (View.ld x6 rB0))) [] (ix2 f s)
  rw [show rL.emb (ix2 f s) = ix2 f (col 0 s) from idx_rL f s] at e
  exact e

theorem scrBw_right (x0 : Vec F S1024x128 .f32) (x5 : Vec F S2x128x64 .f32) (x6 : Vec F S2x64 .f32) (f : Fin 64) (s : Fin 1024) :
    scrBw x0 x5 x6 (ix2 f (col 1 s)) = k0_pay6 x0 (View.ld x5 rW1) (View.ld x6 rB1) (ix2 f s) := by
  unfold scrBw
  have e := View.canon_cons_emb (Val := Elt F) (s := S64x2048) (e := .bf16) rR (k0_pay6 x0 (View.ld x5 rW1) (View.ld x6 rB1))
    [⟨rL, k0_pay5 (k0_pay4 x0 (View.ld x5 rW0) (View.ld x6 rB0))⟩] (ix2 f s)
  rw [show rR.emb (ix2 f s) = ix2 f (col 1 s) from idx_rR f s] at e
  exact e

end Scr

end Cert.BiGnn.K

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.KDot.lean ====
/-
  The three matrix products of the body read at an index, over the extended reals: the two plain products
  (rows × contraction times contraction × columns), and the product that contracts the FIRST axis of both operands
  (the [128, 256] hidden block against the [128, 128] output weights): entry (r, q) of the latter is the sum over k of
  lhs (k, r) · rhs (k, q).
-/
import proofs.«121984_g44616120271338_cont_sun_m_526_12_alg».proof.Proof.Gen.KernelIdeal
import proofs.«121984_g44616120271338_cont_sun_m_526_12_alg».proof.Proof.LibPlainDot

noncomputable section

open Idealize.ShloMosaic Idealize.SL.Sem
open scoped BigOperators

namespace Cert.BiGnn.K

open Cert.KernelIdeal Cert.KernelIdeal.Gen

open Idealize.ShloMosaic.ValueIdx

/-- The aggregation product [64, 1024] · [1024, 256] into the zero block, at (f, r). -/
theorem aggDot_apply (lhs : FVec Ideal S64x1024 .bf16) (rhs : FVec Ideal S1024x256 .bf16) (f : Fin 64) (r : Fin 256) :
    matmul dot_S64x1024_S1024x256_S64x256_1_0_0_1_n_n none lhs rhs (constant S64x256 .f32 0x00000000#32) (ix2 f r)
      = ∑ s : Fin 1024, lhs (ix2 f s) * rhs (ix2 s r) :=
  PlainDot.matmul_zero_apply (M := 64) (K := 1024) (N := 256) none lhs rhs f r

/-- The feature product [1024, 128] · [128, 64] into the zero block, at (s, f). -/
theorem featDot_apply (lhs : FVec Ideal S1024x128 .f32) (rhs : FVec Ideal S128x64 .f32) (s : Fin 1024) (f : Fin 64) :
    matmul dot_S1024x128_S128x64_S1024x64_1_0_0_1_n_n none lhs rhs (constant S1024x64 .f32 0x00000000#32) (ix2 s f)
      = ∑ k : Fin 128, lhs (ix2 s k) * rhs (ix2 k f) :=
  PlainDot.matmul_zero_apply (M := 1024) (K := 128) (N := 64) none lhs rhs s f

abbrev outDims := dot_S128x256_S128x128_S256x128_0_0_1_1_n_n

theorem out_lhs0 (j : S256x128.Idx) (q : outDims.contr.Idx) :
    (outDims.lhsIdx j q 0).val = (q ⟨0, show 0 < outDims.contr.rank from Nat.one_pos⟩).val :=
  outDims.lhsIdx_val_of_single rfl j q

theorem out_lhs1 (j : S256x128.Idx) (q : outDims.contr.Idx) : (outDims.lhsIdx j q 1).val = (j 0).val := by
  unfold DotDims.lhsIdx
  rw [dif_neg (show ¬(1 : Fin S128x256.rank) ∈ outDims.lhsBatch from List.not_mem_nil),
    dif_pos (show (1 : Fin S128x256.rank) ∈ outDims.lhsNonContracting from List.mem_singleton.mpr rfl)]
  rfl

theorem out_rhs0 (j : S256x128.Idx) (q : outDims.contr.Idx) :
    (outDims.rhsIdx j q 0).val = (q ⟨0, show 0 < outDims.contr.rank from Nat.one_pos⟩).val :=
  outDims.rhsIdx_val_of_single rfl j q

theorem out_rhs1 (j : S256x128.Idx) (q : outDims.contr.Idx) : (outDims.rhsIdx j q 1).val = (j 1).val := by
  unfold DotDims.rhsIdx
  rw [dif_neg (show ¬(1 : Fin S128x128.rank) ∈ outDims.rhsBatch from List.not_mem_nil),
    dif_pos (show (1 : Fin S128x128.rank) ∈ outDims.rhsNonContracting from List.mem_singleton.mpr rfl)]
  rfl

/-- The output product, contracting the first axis of both operands, into the zero block, at (r, q). -/
theorem outDot_apply (lhs : FVec Ideal S128x256 .f32) (rhs : FVec Ideal S128x128 .f32) (r : Fin 256) (q : Fin 128) :
    matmul dot_S128x256_S128x128_S256x128_0_0_1_1_n_n none lhs rhs (constant S256x128 .f32 0x00000000#32) (ix2 r q)
      = ∑ k : Fin 128, lhs (ix2 k r) * rhs (ix2 k q) := by
  refine (Ideal.matmul_constant_zero_apply outDims none lhs rhs (ix2 r q)).trans ?_
  rw [← Equiv.sum_comp (contrEquiv1 outDims 128 rfl rfl).symm]
  refine Finset.sum_congr rfl fun k _ => ?_
  have hk := contrEquiv1_symm_val outDims 128 rfl rfl k
  have el : outDims.lhsIdx (ix2 r q) ((contrEquiv1 outDims 128 rfl rfl).symm k) = ix2 k r :=
    funext fun a => Fin.ext (by
      match a with
      | ⟨0, _⟩ => exact (out_lhs0 _ _).trans hk
      | ⟨1, _⟩ => exact out_lhs1 _ _)
  have er : outDims.rhsIdx (ix2 r q) ((contrEquiv1 outDims 128 rfl rfl).symm k) = ix2 k q :=
    funext fun a => Fin.ext (by
      match a with
      | ⟨0, _⟩ => exact (out_rhs0 _ _).trans hk
      | ⟨1, _⟩ => exact out_rhs1 _ _)
  rw [el, er]

end Cert.BiGnn.K

end
-- ==== Proof.KPay.lean ====
/-
  The body's payloads read at an index, over the extended reals.

  * The transposed features: entry (f, s) of the stored [64, 1024] piece is Σ_k x(s,k)·W(0,k,f) + b(0,f) of the
    view slab (W, b) it is computed from — the conversion to the narrower float format and the same-shape casts are
    the identity here.
  * A clamped aggregation: entry (f, r) of max(hᵀ · float(A), 0) is max(Σ_s hᵀ(f,s) · float(A(0,s,r)), 0).
  * The stored output block: entry (r, q) is (Σ_k hid(k,r) · W1(k,q) + b1(0,q)) + x(r,q), where hid stacks the backward
    sum (k < 64) on the forward sum (at k − 64).
-/
import proofs.«121984_g44616120271338_cont_sun_m_526_12_alg».proof.Proof.Gen.KernelIdeal.Skeleton
import proofs.«121984_g44616120271338_cont_sun_m_526_12_alg».proof.Proof.KDot
import Idealize.ShloMosaic.Lib.ValueLayout
import Idealize.ShloMosaic.Lib.Pipeline.Value

noncomputable section

open Idealize.ShloMosaic Idealize.ShloMosaic.TcCoe Idealize.SL.Sem
open scoped BigOperators

namespace Cert.BiGnn.K

open Cert.KernelIdeal Cert.KernelIdeal.Gen

open Idealize.ShloMosaic.ValueIdx

/-- Entry (f, s) of the transposed features computed from one view slab. -/
theorem featT_apply (x : FVec Ideal S1024x128 .f32) (w : FVec Ideal S1x128x64 .f32) (b : FVec Ideal S1x64 .f32)
    (f : Fin 64) (s : Fin 1024) :
    transpose S64x1024 [1, 0]
        (truncf .bf16 (addf (matmul dot_S1024x128_S128x64_S1024x64_1_0_0_1_n_n none x
            (shapeCast S128x64 w shapeCasts_S1x128x64_S128x64) (constant S1024x64 .f32 0x00000000#32))
          (broadcastTo S1024x64 b broadcasts_S1x64_S1024x64)) bitsLt_bf16_f32 : FVec Ideal S1024x64 .bf16)
        transposes_S1024x64_p1_0_S64x1024 (ix2 f s)
      = (∑ k : Fin 128, x (ix2 s k) * w (ix3 (0 : Fin 1) k f)) + b (ix2 (0 : Fin 1) f) := by
  refine (transpose_ix2_apply _ transposes_S1024x64_p1_0_S64x1024 f s).trans ?_
  show matmul dot_S1024x128_S128x64_S1024x64_1_0_0_1_n_n none x (shapeCast S128x64 w shapeCasts_S1x128x64_S128x64)
      (constant S1024x64 .f32 0x00000000#32) (ix2 s f) + broadcastTo S1024x64 b broadcasts_S1x64_S1024x64 (ix2 s f) = _
  refine congrArg₂ (· + ·) ((featDot_apply x _ s f).trans (Finset.sum_congr rfl fun k _ => ?_))
    (broadcastTo_1b_ab_apply b broadcasts_S1x64_S1024x64 s f)
  exact congrArg (x (ix2 s k) * ·) (shapeCast_1ab_ab_apply w shapeCasts_S1x128x64_S128x64 k f)

theorem pay2_apply (x : FVec Ideal S1024x128 .f32) (w : FVec Ideal S1x128x64 .f32) (b : FVec Ideal S1x64 .f32)
    (f : Fin 64) (s : Fin 1024) :
    k0_pay2 (F := Ideal) x w b (ix2 f s) = (∑ k : Fin 128, x (ix2 s k) * w (ix3 (0 : Fin 1) k f)) + b (ix2 (0 : Fin 1) f) := by
  unfold k0_pay2
  exact (congrFun (shapeCast_self _ shapeCasts_S64x1024_S64x1024) (ix2 f s)).trans (featT_apply x w b f s)

theorem pay3_apply (x : FVec Ideal S1024x128 .f32) (w : FVec Ideal S1x128x64 .f32) (b : FVec Ideal S1x64 .f32)
    (f : Fin 64) (s : Fin 1024) :
    k0_pay3 (F := Ideal) x w b (ix2 f s) = (∑ k : Fin 128, x (ix2 s k) * w (ix3 (0 : Fin 1) k f)) + b (ix2 (0 : Fin 1) f) := by
  unfold k0_pay3
  exact (congrFun (shapeCast_self _ shapeCasts_S64x1024_S64x1024) (ix2 f s)).trans (featT_apply x w b f s)

theorem pay5_apply (x : FVec Ideal S1024x128 .f32) (w : FVec Ideal S1x128x64 .f32) (b : FVec Ideal S1x64 .f32)
    (f : Fin 64) (s : Fin 1024) :
    k0_pay5 (F := Ideal) (k0_pay4 x w b) (ix2 f s) = (∑ k : Fin 128, x (ix2 s k) * w (ix3 (0 : Fin 1) k f)) + b (ix2 (0 : Fin 1) f) := by
  unfold k0_pay5 k0_pay4
  exact (congrFun (shapeCast_self _ shapeCasts_S64x1024_S64x1024) (ix2 f s)).trans (featT_apply x w b f s)

theorem pay6_apply (x : FVec Ideal S1024x128 .f32) (w : FVec Ideal S1x128x64 .f32) (b : FVec Ideal S1x64 .f32)
    (f : Fin 64) (s : Fin 1024) :
    k0_pay6 (F := Ideal) x w b (ix2 f s) = (∑ k : Fin 128, x (ix2 s k) * w (ix3 (0 : Fin 1) k f)) + b (ix2 (0 : Fin 1) f) := by
  unfold k0_pay6
  exact (congrFun (shapeCast_self _ shapeCasts_S64x1024_S64x1024) (ix2 f s)).trans (featT_apply x w b f s)

/-- An adjacency word as an extended real. -/
def wordR (b : BitVec 32) : EReal := ((b.toInt : ℝ) : EReal)

/-- Entry (f, r) of one view's clamped aggregate. -/
def aggT (h : FVec Ideal S64x1024 .bf16) (a : IVec S1x1024x256 32) (f : Fin 64) (r : Fin 256) : EReal :=
  max (∑ s : Fin 1024, h (ix2 f s) * wordR (a (ix3 (0 : Fin 1) s r))) 0

theorem aggRelu_apply (h : FVec Ideal S64x1024 .bf16) (a : IVec S1x1024x256 32) (f : Fin 64) (r : Fin 256) :
    maximumf (matmul dot_S64x1024_S1024x256_S64x256_1_0_0_1_n_n none h
        (sitofp .bf16 (shapeCast S1024x256 a shapeCasts_S1x1024x256_S1024x256) : FVec Ideal S1024x256 .bf16)
        (constant S64x256 .f32 0x00000000#32))
      (broadcast S64x256 (Scalar.ofBits (F := Ideal) .f32 0x00000000#32)) (ix2 f r) = aggT h a f r := by
  show max (matmul dot_S64x1024_S1024x256_S64x256_1_0_0_1_n_n none h
        (sitofp .bf16 (shapeCast S1024x256 a shapeCasts_S1x1024x256_S1024x256) : FVec Ideal S1024x256 .bf16)
        (constant S64x256 .f32 0x00000000#32) (ix2 f r)) (Ideal.ofBits .f32 0x00000000#32) = _
  rw [Ideal.ofBits_zero_f32]
  unfold aggT
  refine congrArg (max · 0) ((aggDot_apply h _ f r).trans (Finset.sum_congr rfl fun s _ => ?_))
  refine congrArg (h (ix2 f s) * ·) ?_
  show wordR (shapeCast S1024x256 a shapeCasts_S1x1024x256_S1024x256 (ix2 s r)) = _
  exact congrArg wordR (shapeCast_1ab_ab_apply a shapeCasts_S1x1024x256_S1024x256 s r)

theorem pay7_apply (v3 : IVec S1x1024x256 32) (v6 : FVec Ideal S64x1024 .bf16) (v10 : IVec S1x1024x256 32)
    (v13 : FVec Ideal S64x1024 .bf16) (f : Fin 64) (r : Fin 256) :
    k0_pay7 (F := Ideal) v3 v6 v10 v13 (ix2 f r) = aggT v6 v3 f r + aggT v13 v10 f r := by
  unfold k0_pay7
  exact congrArg₂ (· + ·) (aggRelu_apply v6 v3 f r) (aggRelu_apply v13 v10 f r)

theorem pay8_apply (v18 : IVec S1x1024x256 32) (v21 : FVec Ideal S64x1024 .bf16) (f : Fin 64) (r : Fin 256) :
    k0_pay8 (F := Ideal) v18 v21 (ix2 f r) = aggT v21 v18 f r := by
  unfold k0_pay8
  exact aggRelu_apply v21 v18 f r

/-- Hidden unit k of column r: the first block for k < 64, the second at k − 64. -/
def hid (u w : FVec Ideal S64x256 .f32) (k : Fin 128) (r : Fin 256) : EReal :=
  if h : k.val < 64 then u (ix2 ⟨k.val, h⟩ r) else w (ix2 ⟨k.val - 64, by have := k.isLt; omega⟩ r)

theorem concat_apply (u w : FVec Ideal S64x256 .f32) (k : Fin 128) (r : Fin 256) :
    concatenate S128x256 0 [⟨S64x256, u⟩, ⟨S64x256, w⟩] concatenates_S64x256_S64x256_S128x256_d0 (ix2 k r) = hid u w k r := by
  unfold hid
  split
  · next h =>
    exact concatenate_pair_apply_left (0 : Fin S128x256.rank) u w concatenates_S64x256_S64x256_S128x256_d0 (ix2 k r) rfl
      (ix2 ⟨k.val, h⟩ r) (fun b => by
        match b with
        | ⟨0, _⟩ => rfl
        | ⟨1, _⟩ => rfl)
  · next h =>
    exact concatenate_pair_apply_right (0 : Fin S128x256.rank) u w concatenates_S64x256_S64x256_S128x256_d0 (ix2 k r) rfl rfl
      (ix2 ⟨k.val - 64, by have := k.isLt; omega⟩ r) (fun b hb => by
        match b with
        | ⟨0, _⟩ => exact absurd rfl hb
        | ⟨1, _⟩ => rfl)
      (by show k.val - 64 + 64 = k.val; omega)

/-- The second block of the stack: the first view's clamped aggregate plus the second's. -/
def fwSum (v24 : FVec Ideal S64x256 .f32) (v27 : FVec Ideal S1024x256 .bf16) (v28 : FVec Ideal S64x1024 .bf16) :
    FVec Ideal S64x256 .f32 :=
  addf v24 (maximumf (matmul dot_S64x1024_S1024x256_S64x256_1_0_0_1_n_n none v28 v27 (constant S64x256 .f32 0x00000000#32))
    (broadcast S64x256 (Scalar.ofBits (F := Ideal) .f32 0x00000000#32)))

theorem fwSum_apply (v24 : FVec Ideal S64x256 .f32) (v25 : IVec S1x1024x256 32) (v28 : FVec Ideal S64x1024 .bf16)
    (f : Fin 64) (r : Fin 256) :
    fwSum v24 (k0_pay9 (F := Ideal) v25) v28 (ix2 f r) = v24 (ix2 f r) + aggT v28 v25 f r := by
  unfold fwSum k0_pay9
  exact congrArg (v24 (ix2 f r) + ·) (aggRelu_apply v28 v25 f r)

theorem pay1_apply (v17 v24 : FVec Ideal S64x256 .f32) (v27 : FVec Ideal S1024x256 .bf16) (v28 : FVec Ideal S64x1024 .bf16)
    (v36 : FVec Ideal S256x128 .f32) (v37 : FVec Ideal S128x128 .f32) (v39 : FVec Ideal S1x128 .f32) (r : Fin 256) (q : Fin 128) :
    k0_pay1 (F := Ideal) v17 v24 v27 v28 (constant S64x256 .f32 0x00000000#32) v36 v37 v39 (ix2 r q)
      = ((∑ k : Fin 128, hid v17 (fwSum v24 v27 v28) k r * v37 (ix2 k q)) + v39 (ix2 (0 : Fin 1) q)) + v36 (ix2 r q) := by
  unfold k0_pay1
  show (matmul dot_S128x256_S128x128_S256x128_0_0_1_1_n_n none
          (concatenate S128x256 0 [⟨S64x256, v17⟩, ⟨S64x256, fwSum v24 v27 v28⟩] concatenates_S64x256_S64x256_S128x256_d0) v37
          (constant S256x128 .f32 0x00000000#32) (ix2 r q)
        + broadcastTo S256x128 (shapeCast S1x128 v39 shapeCasts_S1x128_S1x128) broadcasts_S1x128_S256x128 (ix2 r q))
      + v36 (ix2 r q) = _
  refine congrArg (· + v36 (ix2 r q)) (congrArg₂ (· + ·) ?_ ?_)
  · refine (outDot_apply _ v37 r q).trans (Finset.sum_congr rfl fun k _ => ?_)
    exact congrArg (· * v37 (ix2 k q)) (concat_apply v17 (fwSum v24 v27 v28) k r)
  · refine (broadcastTo_1b_ab_apply _ broadcasts_S1x128_S256x128 r q).trans ?_
    exact congrFun (shapeCast_self v39 shapeCasts_S1x128_S1x128) (ix2 (0 : Fin 1) q)

end Cert.BiGnn.K

end
-- ==== Proof.KVal.lean ====
/-
  The stored output block is the layer's output on its rows.

  With the carried buffers holding the transposed features (column 1024·v + s of row f is feat(v, s, f)), the adjacency
  blocks holding columns 256·T + r of the adjacency matrices, and every adjacency word 0 or 1, entry (r, q) of the block
  point T stores is entry (256·T + r, q) of the layer's output: each product hᵀ(f,s) · float(A(v,s,p)) is hᵀ(f,s) or 0
  according to the word, the two clamped view aggregates add to the direction's sum, and the stack of the backward sum
  on the forward sum is the hidden vector the output layer contracts.
-/
import proofs.«121984_g44616120271338_cont_sun_m_526_12_alg».proof.Proof.Spec
import proofs.«121984_g44616120271338_cont_sun_m_526_12_alg».proof.Proof.KLoads
import proofs.«121984_g44616120271338_cont_sun_m_526_12_alg».proof.Proof.KPay

noncomputable section

open Idealize.ShloMosaic Idealize.ShloMosaic.TcCoe Idealize.SL.Sem
open Idealize.ShloMosaic.Pipeline (Dat)
open scoped BigOperators

namespace Cert.BiGnn.K

open Cert.KernelIdeal Cert.KernelIdeal.Gen

open Idealize.ShloMosaic.ValueIdx
open Cert.BiGnn (feat agg dirSum summed Gat)

/-- A carried buffer's column half read at (f, s). -/
theorem ld_rL (S : FVec Ideal S64x2048 .bf16) (f : Fin 64) (s : Fin 1024) : (View.ld (Val := Elt Ideal) (e' := .bf16) S rL) (ix2 f s) = S (ix2 f (col 0 s)) :=
  congrArg S (idx_rL f s)
theorem ld_rR (S : FVec Ideal S64x2048 .bf16) (f : Fin 64) (s : Fin 1024) : (View.ld (Val := Elt Ideal) (e' := .bf16) S rR) (ix2 f s) = S (ix2 f (col 1 s)) :=
  congrArg S (idx_rR f s)

/-- The forward carried buffer holds the transposed forward features. -/
theorem scrFw_feat (x : FVec Ideal S1024x128 .f32) (W : FVec Ideal S2x128x64 .f32) (b : FVec Ideal S2x64 .f32)
    (v : Fin 2) (f : Fin 64) (s : Fin 1024) : scrFw (F := Ideal) x W b (ix2 f (col v s)) = feat x W b v s f := by
  have hv : v = 0 ∨ v = 1 := by
    rcases v with ⟨_ | _ | n, hn⟩
    · exact Or.inl rfl
    · exact Or.inr rfl
    · omega
  rcases hv with rfl | rfl
  · have e1 := scrFw_left (F := Ideal) x W b f s
    have e2 := pay2_apply x (View.ld (Val := Elt Ideal) (e' := .f32) W rW0) (View.ld (Val := Elt Ideal) (e' := .f32) b rB0) f s
    have e3 : (∑ k : Fin 128, x (ix2 s k) * (View.ld (Val := Elt Ideal) (e' := .f32) W rW0) (ix3 (0 : Fin 1) k f)) + (View.ld (Val := Elt Ideal) (e' := .f32) b rB0) (ix2 (0 : Fin 1) f)
        = feat x W b 0 s f := by
      unfold feat
      refine congrArg₂ (· + ·) (Finset.sum_congr rfl fun k _ => ?_) ?_
      · exact congrArg (x (ix2 s k) * ·) (congrArg W (idx_rW0 k f))
      · exact congrArg b (idx_rB0 f)
    exact e1.trans (e2.trans e3)
  · have e1 := scrFw_right (F := Ideal) x W b f s
    have e2 := pay3_apply x (View.ld (Val := Elt Ideal) (e' := .f32) W rW1) (View.ld (Val := Elt Ideal) (e' := .f32) b rB1) f s
    have e3 : (∑ k : Fin 128, x (ix2 s k) * (View.ld (Val := Elt Ideal) (e' := .f32) W rW1) (ix3 (0 : Fin 1) k f)) + (View.ld (Val := Elt Ideal) (e' := .f32) b rB1) (ix2 (0 : Fin 1) f)
        = feat x W b 1 s f := by
      unfold feat
      refine congrArg₂ (· + ·) (Finset.sum_congr rfl fun k _ => ?_) ?_
      · exact congrArg (x (ix2 s k) * ·) (congrArg W (idx_rW1 k f))
      · exact congrArg b (idx_rB1 f)
    exact e1.trans (e2.trans e3)

/-- The backward carried buffer holds the transposed backward features. -/
theorem scrBw_feat (x : FVec Ideal S1024x128 .f32) (W : FVec Ideal S2x128x64 .f32) (b : FVec Ideal S2x64 .f32)
    (v : Fin 2) (f : Fin 64) (s : Fin 1024) : scrBw (F := Ideal) x W b (ix2 f (col v s)) = feat x W b v s f := by
  have hv : v = 0 ∨ v = 1 := by
    rcases v with ⟨_ | _ | n, hn⟩
    · exact Or.inl rfl
    · exact Or.inr rfl
    · omega
  rcases hv with rfl | rfl
  · have e1 := scrBw_left (F := Ideal) x W b f s
    have e2 := pay5_apply x (View.ld (Val := Elt Ideal) (e' := .f32) W rW0) (View.ld (Val := Elt Ideal) (e' := .f32) b rB0) f s
    have e3 : (∑ k : Fin 128, x (ix2 s k) * (View.ld (Val := Elt Ideal) (e' := .f32) W rW0) (ix3 (0 : Fin 1) k f)) + (View.ld (Val := Elt Ideal) (e' := .f32) b rB0) (ix2 (0 : Fin 1) f)
        = feat x W b 0 s f := by
      unfold feat
      refine congrArg₂ (· + ·) (Finset.sum_congr rfl fun k _ => ?_) ?_
      · exact congrArg (x (ix2 s k) * ·) (congrArg W (idx_rW0 k f))
      · exact congrArg b (idx_rB0 f)
    exact e1.trans (e2.trans e3)
  · have e1 := scrBw_right (F := Ideal) x W b f s
    have e2 := pay6_apply x (View.ld (Val := Elt Ideal) (e' := .f32) W rW1) (View.ld (Val := Elt Ideal) (e' := .f32) b rB1) f s
    have e3 : (∑ k : Fin 128, x (ix2 s k) * (View.ld (Val := Elt Ideal) (e' := .f32) W rW1) (ix3 (0 : Fin 1) k f)) + (View.ld (Val := Elt Ideal) (e' := .f32) b rB1) (ix2 (0 : Fin 1) f)
        = feat x W b 1 s f := by
      unfold feat
      refine congrArg₂ (· + ·) (Finset.sum_congr rfl fun k _ => ?_) ?_
      · exact congrArg (x (ix2 s k) * ·) (congrArg W (idx_rW1 k f))
      · exact congrArg b (idx_rB1 f)
    exact e1.trans (e2.trans e3)

/-- A feature times an adjacency word that is 0 or 1: the feature where the word is not 0. -/
theorem mul_word (h : EReal) (a : BitVec 32) (ha : a = 0#32 ∨ a = 1#32) : h * wordR a = if a = 0#32 then 0 else h := by
  rcases ha with rfl | rfl
  · rw [if_pos rfl]
    show h * (((0#32 : BitVec 32).toInt : ℝ) : EReal) = 0
    rw [show (0#32 : BitVec 32).toInt = 0 from by decide]
    simp
  · rw [if_neg (by decide)]
    show h * (((1#32 : BitVec 32).toInt : ℝ) : EReal) = h
    rw [show (1#32 : BitVec 32).toInt = 1 from by decide]
    simp

/-- One view's clamped aggregate, from what its two operands read. -/
theorem aggT_eq (hv : FVec Ideal S64x1024 .bf16) (av : IVec S1x1024x256 32) (A : IVec ⟨3, ![2, 1024, 1024]⟩ 32)
    (hh : Fin 1024 → Fin 64 → EReal) (v : Fin 2) (p : Fin 1024) (f : Fin 64) (r : Fin 256)
    (e1 : ∀ s : Fin 1024, hv (ix2 f s) = hh s f) (e2 : ∀ s : Fin 1024, av (ix3 (0 : Fin 1) s r) = A (ix3 v s p))
    (hA : ∀ j, A j = 0#32 ∨ A j = 1#32) : aggT hv av f r = max (agg A hh v p f) 0 := by
  unfold aggT agg
  refine congrArg (max · 0) (Finset.sum_congr rfl fun s _ => ?_)
  rw [e1 s, e2 s]
  exact mul_word _ _ (hA _)

/-- One direction's two clamped aggregates, from a carried buffer and an adjacency block. -/
theorem dir_eq (x : FVec Ideal S1024x128 .f32) (W : FVec Ideal S2x128x64 .f32) (b : FVec Ideal S2x64 .f32)
    (S : FVec Ideal S64x2048 .bf16) (hS : ∀ (v : Fin 2) (f : Fin 64) (s : Fin 1024), S (ix2 f (col v s)) = feat x W b v s f)
    (xa : IVec S2x1024x256 32) (A : IVec ⟨3, ![2, 1024, 1024]⟩ 32) (p : Fin 1024)
    (r : Fin 256) (ha : ∀ (v : Fin 2) (s : Fin 1024), xa (ix3 v s r) = A (ix3 v s p))
    (hA : ∀ j, A j = 0#32 ∨ A j = 1#32) (f : Fin 64) :
    aggT (View.ld (Val := Elt Ideal) (e' := .bf16) S rL) (View.ld (Val := Elt Ideal) (e' := .i32) xa rA0) f r + aggT (View.ld (Val := Elt Ideal) (e' := .bf16) S rR) (View.ld (Val := Elt Ideal) (e' := .i32) xa rA1) f r = dirSum A x W b p f := by
  unfold dirSum
  refine congrArg₂ (· + ·) ?_ ?_
  · exact aggT_eq _ _ A (feat x W b 0) 0 p f r (fun s => (ld_rL S f s).trans (hS 0 f s))
      (fun s => (congrArg xa (idx_rA0 s r)).trans (ha 0 s)) hA
  · exact aggT_eq _ _ A (feat x W b 1) 1 p f r (fun s => (ld_rR S f s).trans (hS 1 f s))
      (fun s => (congrArg xa (idx_rA1 s r)).trans (ha 1 s)) hA

/-- THE BLOCK: entry (r, q) of what point T stores is entry (256·T + r, q) of the layer's output. -/
theorem outBlk_apply (X : FVec Ideal ⟨2, ![1024, 128]⟩ .f32) (Afw Abw : IVec ⟨3, ![2, 1024, 1024]⟩ 32)
    (Wfw : FVec Ideal ⟨3, ![2, 128, 64]⟩ .f32) (bfw : FVec Ideal ⟨2, ![2, 64]⟩ .f32)
    (Wbw : FVec Ideal ⟨3, ![2, 128, 64]⟩ .f32) (bbw : FVec Ideal ⟨2, ![2, 64]⟩ .f32)
    (W1 : FVec Ideal ⟨2, ![128, 128]⟩ .f32) (b1 : FVec Ideal ⟨1, ![128]⟩ .f32)
    (i : grid0.Coords) (T : ℕ) (hT : T < 4) (hi : (i 0).val = T)
    (x1 x2 : IVec S2x1024x256 32) (x8 : FVec Ideal S1x128 .f32) (r : Fin 256) (q : Fin 128)
    (h1 : ∀ (v : Fin 2) (s : Fin 1024), x1 (ix3 v s r) = Afw (ix3 v s (row T hT r)))
    (h2 : ∀ (v : Fin 2) (s : Fin 1024), x2 (ix3 v s r) = Abw (ix3 v s (row T hT r)))
    (h8 : x8 (ix2 (0 : Fin 1) q) = b1 (ix1 q))
    (hfw : ∀ j, Afw j = 0#32 ∨ Afw j = 1#32) (hbw : ∀ j, Abw j = 0#32 ∨ Abw j = 1#32) :
    outBlk (F := Ideal) i X x1 x2 W1 x8 (scrFw X Wfw bfw) (scrBw X Wbw bbw) (ix2 r q)
      = Gat X Afw Abw Wfw bfw Wbw bbw W1 b1 (row T hT r) q := by
  unfold outBlk
  refine (pay1_apply _ _ _ _ _ _ _ r q).trans ?_
  unfold Gat
  refine congrArg₂ (· + ·) (congrArg₂ (· + ·) (Finset.sum_congr rfl fun k _ => congrArg (· * W1 (ix2 k q)) ?_) h8)
    (congrArg X (idx_rX i T hT hi r q))
  unfold hid summed
  by_cases hk : k.val < 64
  · rw [dif_pos hk, dif_pos hk]
    have e1 := pay7_apply (View.ld (Val := Elt Ideal) (e' := .i32) x2 rA0) (View.ld (Val := Elt Ideal) (e' := .bf16) (scrBw (F := Ideal) X Wbw bbw) rL) (View.ld (Val := Elt Ideal) (e' := .i32) x2 rA1) (View.ld (Val := Elt Ideal) (e' := .bf16) (scrBw (F := Ideal) X Wbw bbw) rR) ⟨k.val, hk⟩ r
    have hd := dir_eq X Wbw bbw (scrBw (F := Ideal) X Wbw bbw) (scrBw_feat X Wbw bbw) x2 Abw (row T hT r) r h2 hbw ⟨k.val, hk⟩
    exact e1.trans hd
  · rw [dif_neg hk, dif_neg hk]
    have hf : k.val - 64 < 64 := by have := k.isLt; omega
    have e1 := fwSum_apply (k0_pay8 (F := Ideal) (View.ld (Val := Elt Ideal) (e' := .i32) x1 rA0) (View.ld (Val := Elt Ideal) (e' := .bf16) (scrFw (F := Ideal) X Wfw bfw) rL)) (View.ld (Val := Elt Ideal) (e' := .i32) x1 rA1)
      (View.ld (Val := Elt Ideal) (e' := .bf16) (scrFw (F := Ideal) X Wfw bfw) rR) ⟨k.val - 64, hf⟩ r
    have e2 := pay8_apply (View.ld (Val := Elt Ideal) (e' := .i32) x1 rA0) (View.ld (Val := Elt Ideal) (e' := .bf16) (scrFw (F := Ideal) X Wfw bfw) rL) ⟨k.val - 64, hf⟩ r
    have hd := dir_eq X Wfw bfw (scrFw (F := Ideal) X Wfw bfw) (scrFw_feat X Wfw bfw) x1 Afw (row T hT r) r h1 hfw ⟨k.val - 64, hf⟩
    exact e1.trans ((congrArg (· + aggT (View.ld (Val := Elt Ideal) (e' := .bf16) (scrFw (F := Ideal) X Wfw bfw) rR) (View.ld (Val := Elt Ideal) (e' := .i32) x1 rA1) ⟨k.val - 64, hf⟩ r) e2).trans hd)

end Cert.BiGnn.K

end
-- ==== Proof.KBlocks.lean ====
/-
  The windows' blocks read at an index, as entries of the argument arrays.

  The node features, the four weight and bias stacks and the output weights are staged whole: their block at any point is
  the array. An adjacency block at point T holds columns 256·T + r of both views. The output bias reaches the region as
  a [1, 128] row that the host reshaped from the [128] vector before the region: its entry (0, q) is entry q.
-/
import proofs.«121984_g44616120271338_cont_sun_m_526_12_alg».proof.Proof.Gen.KernelIdeal.Frame.Runs
import proofs.«121984_g44616120271338_cont_sun_m_526_12_alg».proof.Proof.KLoads
import Idealize.ShloMosaic.Lib.ValueLayout
import Idealize.ShloMosaic.Lib.Tactic

noncomputable section

open Idealize.ShloMosaic Idealize.ShloMosaic.TcCoe Idealize.SL.Sem
open Idealize.ShloMosaic.Pipeline (Dat)
open scoped BigOperators

namespace Cert.BiGnn.K

open Cert.KernelIdeal Cert.KernelIdeal.Gen

open Idealize.ShloMosaic.ValueIdx

variable (m : (ℓ : Loc nD τ sig) → Buf (Elt Ideal) ℓ)

theorem coords_val : ∀ t : Fin cfg0.N, (grid0.coords t 0).val = t.val :=
  (by decide +kernel : ∀ t : Fin grid0.N, (grid0.coords t 0).val = t.val)

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = t.val :=
  (by decide +kernel : ∀ t : Fin grid0.N, _)
theorem idx2 : ∀ t : Fin cfg0.N, win0_2.index t (0 : Fin 3) = 0 ∧ win0_2.index t (1 : Fin 3) = 0 ∧ win0_2.index t (2 : Fin 3) = t.val :=
  (by decide +kernel : ∀ t : Fin grid0.N, _)
theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)

/-- The node features' block is the array. -/
theorem blk0 (c : Dev nD) (t : Fin cfg0.N) :
    (iblk m c 0 t : FVec Ideal S1024x128 .f32) = m ((c : Thread nD τ).loc main_arg0) := by
  obtain ⟨e0, e1⟩ := idx0 t
  funext j
  show V m c main_arg0 (((cfg0.win 0).blk t).view.emb j) = _
  rw [V_main_arg0]
  refine congrArg _ (funext fun a => Fin.ext ?_)
  match a with
  | ⟨0, _⟩ => show win0_0.index t (0 : Fin 2) * 1024 + 1 * (j 0).val = (j 0).val; rw [e0]; omega
  | ⟨1, _⟩ => show win0_0.index t (1 : Fin 2) * 128 + 1 * (j 1).val = (j 1).val; rw [e1]; omega

/-- The forward weights' block is the array. -/
theorem blk3 (c : Dev nD) (t : Fin cfg0.N) :
    (iblk m c 3 t : FVec Ideal S2x128x64 .f32) = m ((c : Thread nD τ).loc main_arg3) := by
  obtain ⟨e0, e1, e2⟩ := idx3 t
  funext j
  show V m c main_arg3 (((cfg0.win 3).blk t).view.emb j) = _
  rw [V_main_arg3]
  refine congrArg _ (funext fun a => Fin.ext ?_)
  match a with
  | ⟨0, _⟩ => show win0_3.index t (0 : Fin 3) * 2 + 1 * (j 0).val = (j 0).val; rw [e0]; omega
  | ⟨1, _⟩ => show win0_3.index t (1 : Fin 3) * 128 + 1 * (j 1).val = (j 1).val; rw [e1]; omega
  | ⟨2, _⟩ => show win0_3.index t (2 : Fin 3) * 64 + 1 * (j 2).val = (j 2).val; rw [e2]; omega

/-- The forward biases' block is the array. -/
theorem blk4 (c : Dev nD) (t : Fin cfg0.N) :
    (iblk m c 4 t : FVec Ideal S2x64 .f32) = m ((c : Thread nD τ).loc main_arg4) := by
  obtain ⟨e0, e1⟩ := idx4 t
  funext j
  show V m c main_arg4 (((cfg0.win 4).blk t).view.emb j) = _
  rw [V_main_arg4]
  refine congrArg _ (funext fun a => Fin.ext ?_)
  match a with
  | ⟨0, _⟩ => show win0_4.index t (0 : Fin 2) * 2 + 1 * (j 0).val = (j 0).val; rw [e0]; omega
  | ⟨1, _⟩ => show win0_4.index t (1 : Fin 2) * 64 + 1 * (j 1).val = (j 1).val; rw [e1]; omega

/-- The backward weights' block is the array. -/
theorem blk5 (c : Dev nD) (t : Fin cfg0.N) :
    (iblk m c 5 t : FVec Ideal S2x128x64 .f32) = m ((c : Thread nD τ).loc main_arg5) := by
  obtain ⟨e0, e1, e2⟩ := idx5 t
  funext j
  show V m c main_arg5 (((cfg0.win 5).blk t).view.emb j) = _
  rw [V_main_arg5]
  refine congrArg _ (funext fun a => Fin.ext ?_)
  match a with
  | ⟨0, _⟩ => show win0_5.index t (0 : Fin 3) * 2 + 1 * (j 0).val = (j 0).val; rw [e0]; omega
  | ⟨1, _⟩ => show win0_5.index t (1 : Fin 3) * 128 + 1 * (j 1).val = (j 1).val; rw [e1]; omega
  | ⟨2, _⟩ => show win0_5.index t (2 : Fin 3) * 64 + 1 * (j 2).val = (j 2).val; rw [e2]; omega

/-- The backward biases' block is the array. -/
theorem blk6 (c : Dev nD) (t : Fin cfg0.N) :
    (iblk m c 6 t : FVec Ideal S2x64 .f32) = m ((c : Thread nD τ).loc main_arg6) := by
  obtain ⟨e0, e1⟩ := idx6 t
  funext j
  show V m c main_arg6 (((cfg0.win 6).blk t).view.emb j) = _
  rw [V_main_arg6]
  refine congrArg _ (funext fun a => Fin.ext ?_)
  match a with
  | ⟨0, _⟩ => show win0_6.index t (0 : Fin 2) * 2 + 1 * (j 0).val = (j 0).val; rw [e0]; omega
  | ⟨1, _⟩ => show win0_6.index t (1 : Fin 2) * 64 + 1 * (j 1).val = (j 1).val; rw [e1]; omega

/-- The output weights' block is the array. -/
theorem blk7 (c : Dev nD) (t : Fin cfg0.N) :
    (iblk m c 7 t : FVec Ideal S128x128 .f32) = m ((c : Thread nD τ).loc main_arg7) := by
  obtain ⟨e0, e1⟩ := idx7 t
  funext j
  show V m c main_arg7 (((cfg0.win 7).blk t).view.emb j) = _
  rw [V_main_arg7]
  refine congrArg _ (funext fun a => Fin.ext ?_)
  match a with
  | ⟨0, _⟩ => show win0_7.index t (0 : Fin 2) * 128 + 1 * (j 0).val = (j 0).val; rw [e0]; omega
  | ⟨1, _⟩ => show win0_7.index t (1 : Fin 2) * 128 + 1 * (j 1).val = (j 1).val; rw [e1]; omega

/-- The forward adjacency block at point T: columns 256·T + r. -/
theorem blk1 (c : Dev nD) (t : Fin cfg0.N) (T : ℕ) (hT : T < 4) (ht : t.val = T) (v : Fin 2) (s : Fin 1024) (r : Fin 256) :
    (iblk m c 1 t : IVec S2x1024x256 32) (ix3 v s r) = m ((c : Thread nD τ).loc main_arg1) (ix3 v s (row T hT r)) := by
  obtain ⟨e0, e1, e2⟩ := idx1 t
  show V m c main_arg1 (((cfg0.win 1).blk t).view.emb (ix3 v s r)) = _
  rw [V_main_arg1]
  refine congrArg _ (funext fun a => Fin.ext ?_)
  match a with
  | ⟨0, _⟩ => show win0_1.index t (0 : Fin 3) * 2 + 1 * v.val = v.val; rw [e0]; omega
  | ⟨1, _⟩ => show win0_1.index t (1 : Fin 3) * 1024 + 1 * s.val = s.val; rw [e1]; omega
  | ⟨2, _⟩ => show win0_1.index t (2 : Fin 3) * 256 + 1 * r.val = 256 * T + r.val; rw [e2, ht]; omega

/-- The backward adjacency block at point T: columns 256·T + r. -/
theorem blk2 (c : Dev nD) (t : Fin cfg0.N) (T : ℕ) (hT : T < 4) (ht : t.val = T) (v : Fin 2) (s : Fin 1024) (r : Fin 256) :
    (iblk m c 2 t : IVec S2x1024x256 32) (ix3 v s r) = m ((c : Thread nD τ).loc main_arg2) (ix3 v s (row T hT r)) := by
  obtain ⟨e0, e1, e2⟩ := idx2 t
  show V m c main_arg2 (((cfg0.win 2).blk t).view.emb (ix3 v s r)) = _
  rw [V_main_arg2]
  refine congrArg _ (funext fun a => Fin.ext ?_)
  match a with
  | ⟨0, _⟩ => show win0_2.index t (0 : Fin 3) * 2 + 1 * v.val = v.val; rw [e0]; omega
  | ⟨1, _⟩ => show win0_2.index t (1 : Fin 3) * 1024 + 1 * s.val = s.val; rw [e1]; omega
  | ⟨2, _⟩ => show win0_2.index t (2 : Fin 3) * 256 + 1 * r.val = 256 * T + r.val; rw [e2, ht]; omega

/-- The bias row the region finds: the host's reshape of the bias vector. -/
theorem V_bias (c : Dev nD) :
    (V m c main_call0_v0 : S1x128.Idx → EReal) = shapeCast S1x128 (m ((c : Thread nD τ).loc main_arg8)) shapeCasts_S128_S1x128 := by
  dsimp only [Gen.V, Gen.hostOps0]
  after_results
  rfl

/-- The bias row's block at (0, q): entry q of the bias vector. -/
theorem blk8 (c : Dev nD) (t : Fin cfg0.N) (q : Fin 128) :
    (iblk m c 8 t : FVec Ideal S1x128 .f32) (ix2 (0 : Fin 1) q) = m ((c : Thread nD τ).loc main_arg8) (ix1 q) := by
  obtain ⟨e0, e1⟩ := idx8 t
  show V m c main_call0_v0 (((cfg0.win 8).blk t).view.emb (ix2 (0 : Fin 1) q)) = _
  have hemb : ((cfg0.win 8).blk t).view.emb (ix2 (0 : Fin 1) q) = (ix2 (0 : Fin 1) q : S1x128.Idx) :=
    funext fun a => Fin.ext (by
      match a with
      | ⟨0, _⟩ => show win0_8.index t (0 : Fin 2) * 1 + 1 * 0 = 0; rw [e0]
      | ⟨1, _⟩ => show win0_8.index t (1 : Fin 2) * 128 + 1 * q.val = q.val; rw [e1]; omega)
  rw [hemb]
  exact (congrFun (V_bias m c) (ix2 (0 : Fin 1) q)).trans (shapeCast_a_1a_apply _ shapeCasts_S128_S1x128 (0 : Fin 1) q)

end Cert.BiGnn.K

end
-- ==== Proof.KInv.lean ====
/-
  What the run leaves point by point.

  After any grid point the two carried buffers hold what the first point stored — the transposed forward and backward
  features of the argument arrays —: the first point stores them, every later point leaves them as they were
  (induction on the point). And the output block point t stores is the body's block function of the argument arrays, the
  point's two adjacency blocks and bias row, and those carried contents.
-/
import proofs.«121984_g44616120271338_cont_sun_m_526_12_alg».proof.Proof.Gen.KernelIdeal.Frame
import proofs.«121984_g44616120271338_cont_sun_m_526_12_alg».proof.Proof.KPieces
import proofs.«121984_g44616120271338_cont_sun_m_526_12_alg».proof.Proof.KBlocks

noncomputable section

open Idealize.ShloMosaic Idealize.ShloMosaic.TcCoe Idealize.SL.Sem
open Idealize.ShloMosaic.Pipeline (Dat)
open scoped BigOperators

namespace Cert.BiGnn.K

open Cert.KernelIdeal Cert.KernelIdeal.Gen

open Idealize.ShloMosaic.ValueIdx

theorem scrFw_congr {F : FTy → Type} [FloatOps F] {x x' : Vec F S1024x128 .f32} {w w' : Vec F S2x128x64 .f32} {b b' : Vec F S2x64 .f32}
    (hx : x = x') (hw : w = w') (hb : b = b') : scrFw x w b = scrFw x' w' b' := by subst hx hw hb; rfl

theorem scrBw_congr {F : FTy → Type} [FloatOps F] {x x' : Vec F S1024x128 .f32} {w w' : Vec F S2x128x64 .f32} {b b' : Vec F S2x64 .f32}
    (hx : x = x') (hw : w = w') (hb : b = b') : scrBw x w b = scrBw x' w' b' := by subst hx hw hb; rfl

theorem outBlk_congr {F : FTy → Type} [FloatOps F] (i : grid0.Coords) {x x' : Vec F S1024x128 .f32} (x1 x2 : Vec F S2x1024x256 .i32)
    {w w' : Vec F S128x128 .f32} (x8 : Vec F S1x128 .f32) {s0 s0' s1 s1' : Vec F S64x2048 .bf16}
    (hx : x = x') (hw : w = w') (h0 : s0 = s0') (h1 : s1 = s1') :
    outBlk i x x1 x2 w x8 s0 s1 = outBlk i x' x1 x2 w' x8 s0' s1' := by subst hx hw h0 h1; rfl

variable (m : (ℓ : Loc nD τ sig) → Buf (Elt Ideal) ℓ)

/-- The carried forward buffer's contents: the transposed forward features of the argument arrays. -/
abbrev carriedFw (c : Dev nD) : Vec Ideal S64x2048 .bf16 := scrFw (F := Ideal) (m ((c : Thread nD τ).loc main_arg0)) (m ((c : Thread nD τ).loc main_arg3)) (m ((c : Thread nD τ).loc main_arg4))
/-- The carried backward buffer's contents. -/
abbrev carriedBw (c : Dev nD) : Vec Ideal S64x2048 .bf16 := scrBw (F := Ideal) (m ((c : Thread nD τ).loc main_arg0)) (m ((c : Thread nD τ).loc main_arg5)) (m ((c : Thread nD τ).loc main_arg6))

/-- After any point the carried buffers hold the transposed features. -/
theorem carried_eq (c : Dev nD) : ∀ (n : ℕ) (h : n < cfg0.N),
    (outsAt0 m c n h).2.1 = carriedFw m c ∧ (outsAt0 m c n h).2.2 = carriedBw m c
  | 0, h => by
    have e := outsAt0_A m c ⟨0, h⟩ rfl
    have hA0 := sout_A_0 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) scM0_0 (Memref.isWhole_whole _) scM0_1 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (iblk m c 8 ⟨0, h⟩)
    have hA1 := sout_A_1 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) scM0_0 (Memref.isWhole_whole _) scM0_1 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (iblk m c 8 ⟨0, h⟩)
    have c0 := scrFw_congr (blk0 m c ⟨0, h⟩) (blk3 m c ⟨0, h⟩) (blk4 m c ⟨0, h⟩)
    have c1 := scrBw_congr (blk0 m c ⟨0, h⟩) (blk5 m c ⟨0, h⟩) (blk6 m c ⟨0, h⟩)
    have e0 := congrArg (fun p => p.2.1) e
    have e1 := congrArg (fun p => p.2.2) e
    dsimp only at e0 e1
    have r0 := hA0.trans c0
    have r1 := hA1.trans c1
    exact ⟨e0.trans r0, e1.trans r1⟩
  | n + 1, h => by
    have hN : cfg0.N = 4 := N_0
    have hB : ¬(⟨n + 1, h⟩ : Fin cfg0.N).val % 4 = 0 := by dsimp only; omega
    have e := outsAt0_B m c ⟨n + 1, h⟩ hB
    have ih := carried_eq c n (Nat.lt_of_succ_lt h)
    constructor
    · refine (congrArg (fun p => p.2.1) e).trans ?_
      show (outsAt0 m c n _).2.1 = _
      exact ih.1
    · refine (congrArg (fun p => p.2.2) e).trans ?_
      show (outsAt0 m c n _).2.2 = _
      exact ih.2

/-- The output block point t stores. -/
theorem out_eq (c : Dev nD) (t : Fin cfg0.N) :
    (outsAt0 m c t.val t.isLt).1
      = outBlk (F := Ideal) (grid0.coords t) (m ((c : Thread nD τ).loc main_arg0)) (iblk m c 1 t) (iblk m c 2 t) (m ((c : Thread nD τ).loc main_arg7)) (iblk m c 8 t) (carriedFw m c) (carriedBw m c) := by
  by_cases h0 : t.val % 4 = 0
  · have e := congrArg (fun p => p.1) (outsAt0_A m c t h0)
    dsimp only at e
    have hA := out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)
    have hc := outBlk_congr (grid0.coords t) (iblk m c 1 t) (iblk m c 2 t) (iblk m c 8 t) (blk0 m c t) (blk7 m c t)
        (scrFw_congr (blk0 m c t) (blk3 m c t) (blk4 m c t)) (scrBw_congr (blk0 m c t) (blk5 m c t) (blk6 m c t))
    have r := hA.trans hc
    exact e.trans r
  · have e := congrArg (fun p => p.1) (outsAt0_B m c t h0)
    dsimp only at e
    have ih := carried_eq m c (t.val - 1) (Nat.lt_of_le_of_lt (Nat.sub_le _ _) t.isLt)
    have hB := out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2
    have hc := outBlk_congr (grid0.coords t) (iblk m c 1 t) (iblk m c 2 t) (iblk m c 8 t) (blk0 m c t) (blk7 m c t) ih.1 ih.2
    have r := hB.trans hc
    exact e.trans r

end Cert.BiGnn.K

end
-- ==== Proof.KernelRun.lean ====
/-
  The kernel's run: the result array ends holding the layer's output G of the nine argument arrays, the arguments
  unchanged.

  Point t writes back the output block it stored, which is rows 256·t … 256·t + 255 of G; the four points' blocks tile
  the [1024, 128] result (row p lies in the block of point p / 256), so the array after the run is G.
-/
import proofs.«121984_g44616120271338_cont_sun_m_526_12_alg».proof.Proof.Gen.KernelIdeal.Value
import proofs.«121984_g44616120271338_cont_sun_m_526_12_alg».proof.Proof.Spec
import proofs.«121984_g44616120271338_cont_sun_m_526_12_alg».proof.Proof.KVal
import proofs.«121984_g44616120271338_cont_sun_m_526_12_alg».proof.Proof.KInv

noncomputable section

open Idealize.ShloMosaic Idealize.ShloMosaic.TcCoe Idealize.SL.Sem
open Idealize.ShloMosaic.Pipeline (Dat)
open scoped BigOperators

namespace Cert.BiGnn

open Cert.KernelIdeal Cert.KernelIdeal.Gen

open Idealize.ShloMosaic.ValueIdx
open Cert.BiGnn.K

variable (m : (ℓ : Loc Cert.KernelIdeal.nD Cert.KernelIdeal.τ Cert.KernelIdeal.sig) → Buf (Elt Ideal) ℓ) (ρ : Dev Cert.KernelIdeal.nD → PrngReg)

/-- The layer's output of the launch contents of the nine arguments. -/
abbrev Gm (c : Dev Cert.KernelIdeal.nD) : Buf (Elt Ideal) ((c.tc : Thread Cert.KernelIdeal.nD Cert.KernelIdeal.τ).loc Cert.KernelIdeal.main_v0) :=
  Cert.BiGnn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))

/-- What point t writes back is block t of the layer's output. -/
theorem flushed_eq (hfw : ∀ (c : Dev Cert.KernelIdeal.nD) (i : Cert.KernelIdeal.S2x1024x1024.Idx), m ((c.tc : Thread Cert.KernelIdeal.nD Cert.KernelIdeal.τ).loc Cert.KernelIdeal.main_arg1) i = 0#32 ∨ m ((c.tc : Thread Cert.KernelIdeal.nD Cert.KernelIdeal.τ).loc Cert.KernelIdeal.main_arg1) i = 1#32)
    (hbw : ∀ (c : Dev Cert.KernelIdeal.nD) (i : Cert.KernelIdeal.S2x1024x1024.Idx), m ((c.tc : Thread Cert.KernelIdeal.nD Cert.KernelIdeal.τ).loc Cert.KernelIdeal.main_arg2) i = 0#32 ∨ m ((c.tc : Thread Cert.KernelIdeal.nD Cert.KernelIdeal.τ).loc Cert.KernelIdeal.main_arg2) i = 1#32)
    (c : Dev nD) (t : Fin cfg0.N) :
    (dats m 0 c).flushed 9 t = ((cfg0.win 9).blk t).view.read (Elt Ideal) (Gm m c) := by
  have hN : t.val < 4 := lt_of_lt_of_eq t.isLt N_0
  obtain ⟨e0, e1⟩ := idx9 t
  rw [Cert.KernelIdeal.Value.flushed9 m c t, out_eq m c t]
  funext j
  have hj := eq_ix2 (n0 := 256) (n1 := 128) j
  have hemb : ((cfg0.win 9).blk t).view.emb j = (ix2 (row t.val hN (j 0)) (j 1) : S1024x128.Idx) :=
    funext fun a => Fin.ext (by
      match a with
      | ⟨0, _⟩ => show win0_9.index t (0 : Fin 2) * 256 + 1 * (j 0).val = 256 * t.val + (j 0).val; rw [e0]; omega
      | ⟨1, _⟩ => show win0_9.index t (1 : Fin 2) * 128 + 1 * (j 1).val = (j 1).val; rw [e1]; omega)
  have key := outBlk_apply (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
    (grid0.coords t) t.val hN (coords_val t) (iblk m c 1 t) (iblk m c 2 t) (iblk m c 8 t) (j 0) (j 1)
    (fun v s => blk1 m c t t.val hN rfl v s (j 0)) (fun v s => blk2 m c t t.val hN rfl v s (j 0)) (blk8 m c t (j 1)) (hfw c) (hbw c)
  show outBlk (F := Ideal) (grid0.coords t) (m ((c.tc : Thread Cert.KernelIdeal.nD Cert.KernelIdeal.τ).loc Cert.KernelIdeal.main_arg0)) (iblk m c 1 t) (iblk m c 2 t) (m ((c.tc : Thread Cert.KernelIdeal.nD Cert.KernelIdeal.τ).loc Cert.KernelIdeal.main_arg7)) (iblk m c 8 t) (carriedFw m c) (carriedBw m c) j
    = Gm m c (((cfg0.win 9).blk t).view.emb j)
  rw [hemb]
  exact (congrArg (outBlk (F := Ideal) (grid0.coords t) (m ((c.tc : Thread Cert.KernelIdeal.nD Cert.KernelIdeal.τ).loc Cert.KernelIdeal.main_arg0)) (iblk m c 1 t) (iblk m c 2 t) (m ((c.tc : Thread Cert.KernelIdeal.nD Cert.KernelIdeal.τ).loc Cert.KernelIdeal.main_arg7)) (iblk m c 8 t) (carriedFw m c) (carriedBw m c)) hj).trans key

/-- An index of the result is in point t's block iff its row is in the block's band. -/
theorem mem_blk (t : Fin cfg0.N) (i : S1024x128.Idx) :
    i ∈ ((cfg0.win 9).blk t).view.set ↔ ∀ a : Fin 2, win0_9.index t a * S256x128.size a ≤ (i a).val ∧ (i a).val < win0_9.index t a * S256x128.size a + S256x128.size a := by
  show i ∈ ((View.whole main_v0).slice (win0_9.rect t)).set ↔ _
  rw [View.set_slice_whole, Rect.mem_set_unit]
  exact Iff.rfl

/-- The result array after the run. -/
theorem final (hfw : ∀ (c : Dev Cert.KernelIdeal.nD) (i : Cert.KernelIdeal.S2x1024x1024.Idx), m ((c.tc : Thread Cert.KernelIdeal.nD Cert.KernelIdeal.τ).loc Cert.KernelIdeal.main_arg1) i = 0#32 ∨ m ((c.tc : Thread Cert.KernelIdeal.nD Cert.KernelIdeal.τ).loc Cert.KernelIdeal.main_arg1) i = 1#32)
    (hbw : ∀ (c : Dev Cert.KernelIdeal.nD) (i : Cert.KernelIdeal.S2x1024x1024.Idx), m ((c.tc : Thread Cert.KernelIdeal.nD Cert.KernelIdeal.τ).loc Cert.KernelIdeal.main_arg2) i = 0#32 ∨ m ((c.tc : Thread Cert.KernelIdeal.nD Cert.KernelIdeal.τ).loc Cert.KernelIdeal.main_arg2) i = 1#32)
    (c : Dev nD) : (dats m 0 c).arrAt 9 cfg0.N = Gm m c :=
  (dats m 0 c).arrAt_eq_of_cover 9 (Gm m c) (fun t _ => flushed_eq m hfw hbw c t) fun i => by
    have hi0 : (i 0 : Nat) < 1024 := (i 0).isLt
    have hi1 : (i 1 : Nat) < 128 := (i 1).isLt
    have hN : cfg0.N = 4 := N_0
    have ht : (i 0 : Nat) / 256 < cfg0.N := by rw [hN]; omega
    obtain ⟨e0, e1⟩ := idx9 ⟨(i 0 : Nat) / 256, ht⟩
    refine ⟨⟨(i 0 : Nat) / 256, ht⟩, flush0_9 _, ?_⟩
    rw [mem_blk]
    intro a
    match a with
    | ⟨0, _⟩ =>
      show win0_9.index ⟨(i 0 : Nat) / 256, ht⟩ (0 : Fin 2) * 256 ≤ (i 0 : Nat) ∧ (i 0 : Nat) < win0_9.index ⟨(i 0 : Nat) / 256, ht⟩ (0 : Fin 2) * 256 + 256
      rw [e0]; dsimp only; omega
    | ⟨1, _⟩ =>
      show win0_9.index ⟨(i 0 : Nat) / 256, ht⟩ (1 : Fin 2) * 128 ≤ (i 1 : Nat) ∧ (i 1 : Nat) < win0_9.index ⟨(i 0 : Nat) / 256, ht⟩ (1 : Fin 2) * 128 + 128
      rw [e1]; omega

/-- THE KERNEL'S RUN. -/
theorem kernel_run
    (m : (ℓ : Loc Cert.KernelIdeal.nD Cert.KernelIdeal.τ Cert.KernelIdeal.sig) → Buf (Elt Ideal) ℓ) (ρ : Dev Cert.KernelIdeal.nD → PrngReg)
    (hfw : ∀ (c : Dev Cert.KernelIdeal.nD) (i : Cert.KernelIdeal.S2x1024x1024.Idx), m ((c.tc : Thread Cert.KernelIdeal.nD Cert.KernelIdeal.τ).loc Cert.KernelIdeal.main_arg1) i = 0#32 ∨ m ((c.tc : Thread Cert.KernelIdeal.nD Cert.KernelIdeal.τ).loc Cert.KernelIdeal.main_arg1) i = 1#32)
    (hbw : ∀ (c : Dev Cert.KernelIdeal.nD) (i : Cert.KernelIdeal.S2x1024x1024.Idx), m ((c.tc : Thread Cert.KernelIdeal.nD Cert.KernelIdeal.τ).loc Cert.KernelIdeal.main_arg2) i = 0#32 ∨ m ((c.tc : Thread Cert.KernelIdeal.nD Cert.KernelIdeal.τ).loc Cert.KernelIdeal.main_arg2) i = 1#32) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v0)
        = Cert.BiGnn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) :=
  (θ_run Cert.KernelIdeal.defs _ _).mono (fun r h c => ⟨(h c).1.trans (final m hfw hbw c), (h c).2⟩)
    (Cert.KernelIdeal.Value.run_blocks m ρ)

end Cert.BiGnn

end
-- ==== Proof.RefStages.lean ====
/-
  The reference program's host operations grouped into named stages, each stage the composition of the
  operations it stands for, applied to the stage's inputs.

  Enumerating the nonzero entries of a 1024 × 1024 word matrix A (row-major flat position k = 1024·s + p):
  * `maskFlat A`  — 1 at the flat positions whose word is not 0, else 0;
  * `cum`         — the inclusive running sum of a vector of 2^20 words;
  * `counts A`    — for each value v, how many positions have running count v (a scatter of ones);
  * `flat A`      — the running sum of the counts: entry e is the number of positions whose running count is ≤ e,
                     which for e below the number of nonzeros is the flat position of the (e+1)-th nonzero;
  * `nzRow A`, `nzCol A` — that position divided by / taken modulo 1024 (floor division and the
                     sign-corrected remainder, as the array library spells them), replaced by the fill pair
                     (0, 1024) from the number of nonzeros on.
  One graph convolution `gnn A h`: the rows of h gathered at the enumerated sources, summed into the
  enumerated destinations (out-of-range destinations dropped), clamped below at 0.
  `refOut` is the whole layer.
-/
import proofs.«121984_g44616120271338_cont_sun_m_526_12_alg».proof.Proof.Gen.ReferenceIdeal
import Idealize.ShloMosaic.PureOps

noncomputable section

namespace Cert.ReferenceIdeal.Stages

open Idealize.ShloMosaic Cert.ReferenceIdeal Cert.ReferenceIdeal.Facts₀

/-! ## Word-level stages -/

/-- A 32-bit word spread over the 2^20 positions. -/
def splat (b : BitVec 32) : IVec S1048576 32 := broadcastInDim S1048576 ![] bcast_S_S1048576 (constantI S_ 32 b)

/-- The inclusive running sum: a window of 2^20 entries ending at each position, the positions before the
    start holding 0. -/
def cum (x : IVec S1048576 32) : IVec S1048576 32 :=
  Host.reduceWindow IntOp.addi ![1048576] ![1] ![1048575] ![0] x
    (broadcastInDim S_ ![] bcast_S_S_ (constantI S_ 32 0#32)) reduceWindows_S1048576_S1048576_w1048576s1p1048575_0 h_S_

/-- Bit 1 where the adjacency word is not 0. -/
def mask (A : IVec S1024x1024 32) : IVec S1024x1024 1 :=
  cmpi .ne A (broadcastInDim S1024x1024 ![] bcast_S_S1024x1024 (constantI S_ 32 0#32))

/-- The mask flattened row-major and widened to 32 bits. -/
def maskFlat (A : IVec S1024x1024 32) : IVec S1048576 32 :=
  extui 32 (shapeCast S1048576 (mask A) shapeCasts_S1024x1024_S1048576) natLt_1_32

/-- The running count of nonzeros, clamped below at 0. -/
def clipped (A : IVec S1024x1024 32) : IVec S1048576 32 :=
  maxsi (broadcastInDim S1048576 ![] bcast_S_S1048576 (id (constantI S_ 32 0#32))) (cum (maskFlat A))

/-- The running count as a scatter index (a negative one wrapped by 2^20). -/
def binIdx (A : IVec S1024x1024 32) : IVec S1048576 32 :=
  select (cmpi .slt (clipped A) (splat 0#32)) (addi (clipped A) (splat 1048576#32)) (clipped A)

/-- How many positions have each running count. -/
def counts (A : IVec S1024x1024 32) : IVec S1048576 32 :=
  Host.scatter scatter_S1048576_S1048576x1_S1048576_n_0_0_1 IntOp.addi (splat 0#32)
    (broadcastInDim S1048576x1 ![0] bcast_S1048576_S1048576x1_0 (binIdx A)) (splat 1#32)

/-- Entry e: the number of positions whose running count is at most e. -/
def flat (A : IVec S1024x1024 32) : IVec S1048576 32 := cum (counts A)

/-- Floor division by the word d (the truncating quotient, less one where the signs differ and the
    remainder is not 0). -/
def floorDiv (x : IVec S1048576 32) (d : BitVec 32) : IVec S1048576 32 :=
  select
    (andi (cmpi .ne (signi x) (broadcastInDim S1048576 ![] bcast_S_S1048576 (signi (constantI S_ 32 d))))
      (cmpi .ne (Host.remsi x (splat d)) (splat 0#32)))
    (subi (Host.divsi x (splat d)) (splat 1#32))
    (Host.divsi x (splat d))

/-- The divisor the remainder uses: d, or 1 when d is 0. -/
def divisor (d : BitVec 32) : IVec S_ 32 :=
  select (cmpi .eq (id (constantI S_ 32 d)) (constantI S_ 32 0#32)) (constantI S_ 32 1#32) (id (constantI S_ 32 d))

/-- The remainder with the sign of the divisor. -/
def pyRem (x : IVec S1048576 32) (d : BitVec 32) : IVec S1048576 32 :=
  select
    (andi
      (cmpi .ne (cmpi .slt (Host.remsi x (broadcastInDim S1048576 ![] bcast_S_S1048576 (divisor d))) (splat 0#32))
        (broadcastInDim S1048576 ![] bcast_S_S1048576 (cmpi .slt (divisor d) (constantI S_ 32 0#32))))
      (cmpi .ne (Host.remsi x (broadcastInDim S1048576 ![] bcast_S_S1048576 (divisor d))) (splat 0#32)))
    (addi (Host.remsi x (broadcastInDim S1048576 ![] bcast_S_S1048576 (divisor d)))
      (broadcastInDim S1048576 ![] bcast_S_S1048576 (divisor d)))
    (Host.remsi x (broadcastInDim S1048576 ![] bcast_S_S1048576 (divisor d)))

/-- The number of nonzero words. -/
def total (A : IVec S1024x1024 32) : IVec S_ 32 :=
  Host.reduce IntOp.addi (extui 32 (mask A) natLt_1_32) (constantI S_ 32 0#32) reducesTo_S1024x1024_S_d0_1 h_S_

/-- Bit 1 from the number of nonzeros on. -/
def isFill (A : IVec S1024x1024 32) : IVec S1048576 1 :=
  cmpi .sge (iotaInDim S1048576 32 0) (broadcastInDim S1048576 ![] bcast_S_S1048576 (total A))

/-- The row (source) of the e-th nonzero; 0 past the last. -/
def nzRow (A : IVec S1024x1024 32) : IVec S1048576 32 :=
  select (isFill A) (broadcastInDim S1048576 ![] bcast_S_S1048576 (id (constantI S_ 32 0#32)))
    (pyRem (floorDiv (flat A) 1024#32) 1024#32)

/-- The column (destination) of the e-th nonzero; 1024 past the last. -/
def nzCol (A : IVec S1024x1024 32) : IVec S1048576 32 :=
  select (isFill A) (broadcastInDim S1048576 ![] bcast_S_S1048576 (id (constantI S_ 32 1024#32)))
    (pyRem (floorDiv (flat A) 1#32) 1024#32)

/-- A gather index: a negative one wrapped by 1024. -/
def normIdx (r : IVec S1048576 32) : IVec S1048576 32 :=
  select (cmpi .slt r (splat 0#32)) (addi r (splat 1024#32)) r

/-- View 0 / view 1 of a stack of two adjacency matrices. -/
def view0 (a : IVec S2x1024x1024 32) : IVec S1024x1024 32 :=
  shapeCast S1024x1024 (extractStridedSlice S1x1024x1024 ![0, 0, 0] a slices_S2x1024x1024_S1x1024x1024_0_0_0)
    shapeCasts_S1x1024x1024_S1024x1024
def view1 (a : IVec S2x1024x1024 32) : IVec S1024x1024 32 :=
  shapeCast S1024x1024 (extractStridedSlice S1x1024x1024 ![1, 0, 0] a slices_S2x1024x1024_S1x1024x1024_1_0_0)
    shapeCasts_S1x1024x1024_S1024x1024

/-! ## Float stages -/

variable {F : FTy → Type} [FloatOps F]

/-- The all-zero 1024 × 64 array. -/
def zeros64 : FVec F S1024x64 .f32 := broadcastInDim S1024x64 ![] bcast_S_S1024x64 (constant S_ .f32 0x00000000#32)

/-- x · W_0 + b_0 and x · W_1 + b_1 for a stack of two weight matrices and two bias rows. -/
def feat0 (x : FVec F S1024x128 .f32) (W : FVec F S2x128x64 .f32) (b : FVec F S2x64 .f32) : FVec F S1024x64 .f32 :=
  addf
    (Host.dotGeneral dot_S1024x128_S128x64_S1024x64_1_0_0_1_n_n none x
      (shapeCast S128x64 (extractStridedSlice S1x128x64 ![0, 0, 0] W slices_S2x128x64_S1x128x64_0_0_0) shapeCasts_S1x128x64_S128x64))
    (broadcastInDim S1024x64 ![0, 1] bcast_S1x64_S1024x64_0_1
      (broadcastInDim S1x64 ![1] bcast_S64_S1x64_1
        (shapeCast S64 (extractStridedSlice S1x64 ![0, 0] b slices_S2x64_S1x64_0_0) shapeCasts_S1x64_S64)))
def feat1 (x : FVec F S1024x128 .f32) (W : FVec F S2x128x64 .f32) (b : FVec F S2x64 .f32) : FVec F S1024x64 .f32 :=
  addf
    (Host.dotGeneral dot_S1024x128_S128x64_S1024x64_1_0_0_1_n_n none x
      (shapeCast S128x64 (extractStridedSlice S1x128x64 ![1, 0, 0] W slices_S2x128x64_S1x128x64_1_0_0) shapeCasts_S1x128x64_S128x64))
    (broadcastInDim S1024x64 ![0, 1] bcast_S1x64_S1024x64_0_1
      (broadcastInDim S1x64 ![1] bcast_S64_S1x64_1
        (shapeCast S64 (extractStridedSlice S1x64 ![1, 0] b slices_S2x64_S1x64_1_0) shapeCasts_S1x64_S64)))

/-- One graph convolution: gather the rows of h at the sources, sum them into the destinations, clamp at 0. -/
def gnn (A : IVec S1024x1024 32) (h : FVec F S1024x64 .f32) : FVec F S1024x64 .f32 :=
  maximumf
    (Host.scatterAdd scatter_S1024x64_S1048576x1_S1048576x64_1_0_0_1 zeros64
      (broadcastInDim S1048576x1 ![0] bcast_S1048576_S1048576x1_0 (nzCol A))
      (Host.gather gather_S1024x64_S1048576x1_S1048576x64_1_0_n_n_0_1_164 h
        (broadcastInDim S1048576x1 ![0] bcast_S1048576_S1048576x1_0 (normIdx (nzRow A)))))
    zeros64

/-- One view's output: the backward half beside the forward half. -/
def viewOut (bw fw : FVec F S1024x64 .f32) : FVec F S1024x128 .f32 :=
  concatenate S1024x128 1 [⟨S1024x64, bw⟩, ⟨S1024x64, fw⟩] concatenates_S1024x64_S1024x64_S1024x128_d1

/-- The two views stacked and summed over the views. -/
def viewSum (o0 o1 : FVec F S1024x128 .f32) : FVec F S1024x128 .f32 :=
  Host.reduceAdd
    (concatenate S2x1024x128 0
      [⟨S1x1024x128, broadcastInDim S1x1024x128 ![1, 2] bcast_S1024x128_S1x1024x128_1_2 o0⟩,
       ⟨S1x1024x128, broadcastInDim S1x1024x128 ![1, 2] bcast_S1024x128_S1x1024x128_1_2 o1⟩]
      concatenates_S1x1024x128_S1x1024x128_S2x1024x128_d0)
    (constant S_ .f32 0x00000000#32) reducesTo_S2x1024x128_S1024x128_d0 h_S_

/-- The output layer: clamp at 0, times W1, plus b1, plus the input. -/
def outLayer (s x : FVec F S1024x128 .f32) (W1 : FVec F S128x128 .f32) (b1 : FVec F S128 .f32) : FVec F S1024x128 .f32 :=
  addf
    (addf
      (Host.dotGeneral dot_S1024x128_S128x128_S1024x128_1_0_0_1_n_n none
        (maximumf s (broadcastInDim S1024x128 ![] bcast_S_S1024x128 (constant S_ .f32 0x00000000#32))) W1)
      (broadcastInDim S1024x128 ![0, 1] bcast_S1x128_S1024x128_0_1 (broadcastInDim S1x128 ![1] bcast_S128_S1x128_1 b1)))
    x

/-- The reference's result as a function of its nine arguments. -/
def refOut (x : FVec F S1024x128 .f32) (afw abw : IVec S2x1024x1024 32) (Wfw : FVec F S2x128x64 .f32) (bfw : FVec F S2x64 .f32)
    (Wbw : FVec F S2x128x64 .f32) (bbw : FVec F S2x64 .f32) (W1 : FVec F S128x128 .f32) (b1 : FVec F S128 .f32) :
    FVec F S1024x128 .f32 :=
  outLayer
    (viewSum
      (viewOut (gnn (view0 abw) (feat0 x Wbw bbw)) (gnn (view0 afw) (feat0 x Wfw bfw)))
      (viewOut (gnn (view1 abw) (feat1 x Wbw bbw)) (gnn (view1 afw) (feat1 x Wfw bfw))))
    x W1 b1

end Cert.ReferenceIdeal.Stages

end
-- ==== Proof.LibNonzeroEnum.lean ====
/-
  Counting along a finite 0/1 sequence (pure combinatorics on natural numbers, no words).

  For a decidable property P of positions 0, 1, 2, …:
  * cnt P k    — the number of positions j ≤ k with P j (the inclusive running count);
  * tot P n    — the number of positions j < n with P j;
  * pos P n e  — the number of positions k < n whose running count is at most e.
  For e < tot P n, pos P n e is the position of the (e+1)-th position with P. The law proved here is the
  re-indexing that follows: summing g (pos P n e) over e < tot P n is summing g k over the positions k < n with P k.
-/
import Mathlib.Algebra.BigOperators.Fin
import Mathlib.Algebra.Order.BigOperators.Group.Finset

namespace Cert.NzComb

open Finset

variable (P : ℕ → Prop) [DecidablePred P]

/-- The number of positions j ≤ k with P j. -/
def cnt (k : ℕ) : ℕ := ((range (k + 1)).filter P).card

/-- The number of positions j < n with P j. -/
def tot (n : ℕ) : ℕ := ((range n).filter P).card

/-- The number of positions k < n whose running count is at most e. -/
def pos (n e : ℕ) : ℕ := ((range n).filter fun k => cnt P k ≤ e).card

theorem cnt_eq_tot (n : ℕ) : cnt P n = tot P (n + 1) := rfl

theorem tot_le (n : ℕ) : tot P n ≤ n := (card_filter_le _ _).trans (card_range n).le

theorem cnt_le_tot {n k : ℕ} (h : k < n) : cnt P k ≤ tot P n :=
  card_le_card (filter_subset_filter _ (range_mono (by omega)))

theorem tot_succ (n : ℕ) : tot P (n + 1) = tot P n + if P n then 1 else 0 := by
  unfold tot
  rw [range_add_one, filter_insert]
  by_cases h : P n
  · rw [if_pos h, if_pos h, card_insert_of_notMem (by simp)]
  · rw [if_neg h, if_neg h, add_zero]

theorem pos_succ (n e : ℕ) : pos P (n + 1) e = pos P n e + if cnt P n ≤ e then 1 else 0 := by
  unfold pos
  rw [range_add_one, filter_insert]
  by_cases h : cnt P n ≤ e
  · rw [if_pos h, if_pos h, card_insert_of_notMem (by simp)]
  · rw [if_neg h, if_neg h, add_zero]

/-- Every position below n has running count at most the total, so all n of them are counted. -/
theorem pos_tot (n : ℕ) : pos P n (tot P n) = n := by
  unfold pos
  rw [filter_true_of_mem (fun k hk => cnt_le_tot P (mem_range.1 hk)), card_range]

/-- Below the total, a longer sequence has the same positions. -/
theorem pos_succ_of_lt {n e : ℕ} (h : e < tot P (n + 1)) : pos P (n + 1) e = pos P n e := by
  rw [pos_succ, if_neg (by rw [cnt_eq_tot]; omega), add_zero]

/-- The re-indexing law over ranges of naturals. -/
theorem sum_pos {M : Type*} [AddCommMonoid M] (g : ℕ → M) (n : ℕ) :
    ∑ e ∈ range (tot P n), g (pos P n e) = ∑ k ∈ (range n).filter P, g k := by
  induction n with
  | zero => simp [tot]
  | succ n ih =>
    have hcongr : ∑ e ∈ range (tot P (n + 1)), g (pos P (n + 1) e) = ∑ e ∈ range (tot P (n + 1)), g (pos P n e) :=
      sum_congr rfl fun e he => by rw [pos_succ_of_lt P (mem_range.1 he)]
    rw [hcongr, tot_succ, range_add_one (n := n), filter_insert]
    by_cases h : P n
    · rw [if_pos h, if_pos h, sum_range_succ, ih, pos_tot, sum_insert (by simp), add_comm]
    · rw [if_neg h, if_neg h, add_zero, ih]

/-- The re-indexing law over Fin n, the entries from the total on contributing nothing. -/
theorem sum_fin_pos {M : Type*} [AddCommMonoid M] (g : ℕ → M) (n : ℕ) :
    ∑ e : Fin n, (if e.val < tot P n then g (pos P n e.val) else 0) = ∑ k : Fin n, if P k.val then g k.val else 0 := by
  rw [Fin.sum_univ_eq_sum_range (fun e => if e < tot P n then g (pos P n e) else 0) n,
    Fin.sum_univ_eq_sum_range (fun k => if P k then g k else 0) n, ← sum_filter, ← sum_filter, ← sum_pos P g n]
  refine sum_congr ?_ fun _ _ => rfl
  ext e
  have := tot_le P n
  simp only [mem_filter, mem_range]
  omega

/-- Counting the positions by their running count: those with count at most e are those with count v, over v ≤ e. -/
theorem pos_eq_sum (n e : ℕ) :
    pos P n e = ∑ v ∈ range (e + 1), ((range n).filter fun k => cnt P k = v).card := by
  unfold pos
  rw [card_eq_sum_card_fiberwise (f := cnt P) (t := range (e + 1))
    (fun k hk => mem_range.2 (Nat.lt_succ_of_le (mem_filter.1 hk).2))]
  refine sum_congr rfl fun v hv => ?_
  congr 1
  ext k
  simp only [mem_filter, mem_range] at hv ⊢
  constructor
  · rintro ⟨⟨hk, _⟩, rfl⟩; exact ⟨hk, rfl⟩
  · rintro ⟨hk, rfl⟩; exact ⟨⟨hk, by omega⟩, rfl⟩

/-- A sum over Fin n of the terms at positions up to e is the sum over the first e + 1 naturals. -/
theorem sum_fin_le (f : ℕ → ℕ) {n e : ℕ} (he : e < n) :
    ∑ k : Fin n, (if k.val ≤ e then f k.val else 0) = ∑ k ∈ range (e + 1), f k := by
  rw [Fin.sum_univ_eq_sum_range (fun k => if k ≤ e then f k else 0) n, ← sum_filter]
  refine sum_congr ?_ fun _ _ => rfl
  ext k
  simp only [mem_filter, mem_range]
  omega

/-- Counting over Fin n is counting over the first n naturals. -/
theorem card_fin_filter (n : ℕ) (p : ℕ → Prop) [DecidablePred p] :
    (univ.filter fun k : Fin n => p k.val).card = ((range n).filter p).card := by
  rw [card_filter, card_filter, Fin.sum_univ_eq_sum_range (fun k => if p k then 1 else 0) n]

end Cert.NzComb
-- ==== Proof.LibFloorDivRem.lean ====
/-
  Signed 32-bit word arithmetic on small nonnegative values, as the array library spells floor division and the
  sign-corrected remainder: on a dividend below 2^31 and a divisor strictly between 0 and 2^31 the truncating quotient
  and remainder are the natural-number quotient and remainder and no sign correction fires; a nonnegative word is its
  own maximum with 0 and is never signed-below 0.
-/
import Idealize.ShloMosaic.PureOps
import Idealize.ShloMosaic.Lib.WordArith

namespace Cert.NzScalar

open Idealize.ShloMosaic

/-- The sign of a word: 0, −1 or 1. -/
def sgnW (x : BitVec 32) : BitVec 32 := if x = 0 then 0 else if x.msb then -1 else 1

/-- Floor division of words: the truncating quotient, less one where the signs differ and the remainder is not 0. -/
def floorDivW (x d : BitVec 32) : BitVec 32 :=
  Scalar.select
    (IntOp.andi (IntOp.cmpi .ne (sgnW x) (sgnW d)) (IntOp.cmpi .ne (IntOp.remsi .host x d) 0#32))
    (IntOp.subi (IntOp.divsi .host x d) 1#32)
    (IntOp.divsi .host x d)

/-- The divisor the remainder uses: d, or 1 when d is 0. -/
def dvW (d : BitVec 32) : BitVec 32 := Scalar.select (IntOp.cmpi .eq d 0#32) 1#32 d

/-- The remainder with the sign of the divisor. -/
def pyRemW (x d : BitVec 32) : BitVec 32 :=
  Scalar.select
    (IntOp.andi
      (IntOp.cmpi .ne (IntOp.cmpi .slt (IntOp.remsi .host x (dvW d)) 0#32) (IntOp.cmpi .slt (dvW d) 0#32))
      (IntOp.cmpi .ne (IntOp.remsi .host x (dvW d)) 0#32))
    (IntOp.addi (IntOp.remsi .host x (dvW d)) (dvW d))
    (IntOp.remsi .host x (dvW d))

theorem msb_false_of_lt {x : BitVec 32} (hx : x.toNat < 2 ^ 31) : x.msb = false := by
  rw [BitVec.msb_eq_false_iff_two_mul_lt]; omega

theorem not_corner {x d : BitVec 32} (hd0 : 0 < d.toNat) (hd : d.toNat < 2 ^ 31) : ¬ IntOp.SDivCorner x d := by
  rintro (h | ⟨_, h⟩)
  · rw [h] at hd0; simp at hd0
  · rw [h] at hd; revert hd; decide

theorem divsi_small {x d : BitVec 32} (hx : x.toNat < 2 ^ 31) (hd0 : 0 < d.toNat) (hd : d.toNat < 2 ^ 31) :
    IntOp.divsi .host x d = BitVec.ofNat 32 (x.toNat / d.toNat) := by
  unfold IntOp.divsi
  rw [if_neg (not_corner hd0 hd), BitVec.sdiv_eq, msb_false_of_lt hx, msb_false_of_lt hd]
  apply BitVec.eq_of_toNat_eq
  have : x.toNat / d.toNat < 4294967296 := lt_of_le_of_lt (Nat.div_le_self _ _) (by omega)
  simp [BitVec.toNat_udiv]
  exact (Nat.mod_eq_of_lt this).symm

theorem remsi_small {x d : BitVec 32} (hx : x.toNat < 2 ^ 31) (hd0 : 0 < d.toNat) (hd : d.toNat < 2 ^ 31) :
    IntOp.remsi .host x d = BitVec.ofNat 32 (x.toNat % d.toNat) := by
  unfold IntOp.remsi
  rw [if_neg (not_corner hd0 hd), BitVec.srem_eq, msb_false_of_lt hx, msb_false_of_lt hd]
  apply BitVec.eq_of_toNat_eq
  have : x.toNat % d.toNat < 4294967296 := lt_of_le_of_lt (Nat.mod_le _ _) (by omega)
  simp [BitVec.toNat_umod]
  exact (Nat.mod_eq_of_lt this).symm

theorem sgnW_pos {x : BitVec 32} (hx0 : x ≠ 0) (hx : x.toNat < 2 ^ 31) : sgnW x = 1 := by
  unfold sgnW; rw [if_neg hx0, msb_false_of_lt hx]; rfl

theorem floorDivW_small {x d : BitVec 32} (hx : x.toNat < 2 ^ 31) (hd0 : 0 < d.toNat) (hd : d.toNat < 2 ^ 31) :
    floorDivW x d = BitVec.ofNat 32 (x.toNat / d.toNat) := by
  have hdne : d ≠ 0 := by rintro rfl; simp at hd0
  have hc : IntOp.andi (IntOp.cmpi .ne (sgnW x) (sgnW d)) (IntOp.cmpi .ne (IntOp.remsi .host x d) 0#32) = 0#1 := by
    by_cases hx0 : x = 0
    · subst hx0
      rw [remsi_small hx hd0 hd]
      simp [IntOp.cmpi, IntOp.andi]
    · rw [sgnW_pos hx0 hx, sgnW_pos hdne hd]
      simp [IntOp.cmpi, IntOp.andi]
  unfold floorDivW
  rw [hc, divsi_small hx hd0 hd]
  rfl

theorem pyRemW_small {x d : BitVec 32} (hx : x.toNat < 2 ^ 31) (hd0 : 0 < d.toNat) (hd : d.toNat < 2 ^ 31) :
    pyRemW x d = BitVec.ofNat 32 (x.toNat % d.toNat) := by
  have hdne : d ≠ 0 := by rintro rfl; simp at hd0
  have hdv : dvW d = d := by
    unfold dvW
    have hb : (d == 0#32) = false := by simpa using hdne
    have : IntOp.cmpi .eq d 0#32 = 0#1 := by simp [IntOp.cmpi, hb]
    rw [this]; rfl
  have hr : (BitVec.ofNat 32 (x.toNat % d.toNat)).toNat < 2 ^ 31 := by
    rw [BitVec.toNat_ofNat]
    have := Nat.mod_lt x.toNat hd0
    have h2 : x.toNat % d.toNat % 2 ^ 32 = x.toNat % d.toNat := Nat.mod_eq_of_lt (by omega)
    omega
  have hslt : ∀ y : BitVec 32, y.toNat < 2 ^ 31 → IntOp.cmpi .slt y 0#32 = 0#1 := by
    intro y hy
    have : y.slt 0#32 = false := by
      rw [← Bool.not_eq_true, BitVec.slt_iff_toInt_lt, BitVec.toInt_eq_toNat_cond, if_pos (by omega)]
      simp
    simp [IntOp.cmpi, this]
  unfold pyRemW
  rw [hdv, remsi_small hx hd0 hd, hslt _ hr, hslt _ hd]
  simp [IntOp.cmpi, IntOp.andi]
  rfl

/-- A word below 2^31 is not signed-below 0. -/
theorem cmpi_slt_zero_small {y : BitVec 32} (hy : y.toNat < 2 ^ 31) : IntOp.cmpi .slt y 0#32 = 0#1 := by
  have : y.slt 0#32 = false := by
    rw [← Bool.not_eq_true, BitVec.slt_iff_toInt_lt, BitVec.toInt_eq_toNat_cond, if_pos (by omega)]
    simp
  simp [IntOp.cmpi, this]

/-- A word below 2^31 is its own signed maximum with 0. -/
theorem maxsi_zero_small {x : BitVec 32} (hx : x.toNat < 2 ^ 31) : IntOp.maxsi 0#32 x = x := by
  apply BitVec.eq_of_toNat_eq
  rw [WordArith.toNat_maxsi_zero, BitVec.toInt_eq_toNat_cond, if_pos (by omega)]
  simp

end Cert.NzScalar
-- ==== Proof.LibRunningSum.lean ====
/-
  The inclusive running sum of a vector of n words, as a windowed reduction by addition (a window of n entries ending
  at each position, the n − 1 positions before the start holding the initial value 0): entry e is the sum of the
  entries at positions k ≤ e. Stated for an arbitrary length n, so that using it is a rewrite and never an enumeration.
-/
import Idealize.ShloMosaic.PureOps
import Idealize.ShloMosaic.Lib.ValueIdx
import Mathlib.Algebra.BigOperators.Fin
import Mathlib.Data.BitVec

namespace Cert.NzCum

open Idealize.ShloMosaic Idealize.ShloMosaic.ValueIdx

/-- Folding word addition over a list, from v, is v plus the sum of the list's terms. -/
theorem foldl_addi {ι : Type} (l : List ι) (t : ι → BitVec 32) (v : BitVec 32) :
    l.foldl (fun r n => IntOp.addi r (t n)) v = v + (l.map t).sum := by
  induction l generalizing v with
  | nil => simp
  | cons a l ih =>
    rw [List.foldl_cons, ih, List.map_cons, List.sum_cons]
    simp only [IntOp.addi]
    exact BitVec.add_assoc _ _ _

/-- A rank-1 index set is its coordinate range. -/
def idxEquiv1 (n : ℕ) : (⟨1, ![n]⟩ : Shape).Idx ≃ Fin n where
  toFun i := i 0
  invFun k := ix1 k
  left_inv i := (eq_ix1 i).symm
  right_inv _ := rfl

/-- The window's term at offset i: the entry at position e + i − lo when that is a position, else 0. -/
def shifted (n lo : ℕ) (x : (⟨1, ![n]⟩ : Shape).Idx → BitVec 32) (e i : Fin n) : BitVec 32 :=
  if h : lo ≤ e.val + i.val ∧ e.val + i.val - lo < n then x (ix1 ⟨e.val + i.val - lo, h.2⟩) else 0

/-- The offsets of a window of n entries ending at e, matched with the positions: offset i names position e + i − lo
    when that is not negative (the positions up to e), and the remaining offsets name the positions after e. -/
def shiftEquiv (n lo : ℕ) (hlo : lo + 1 = n) (e : Fin n) : Fin n ≃ Fin n where
  toFun i := ⟨if lo ≤ e.val + i.val then e.val + i.val - lo else e.val + i.val + 1, by
    have := e.isLt; have := i.isLt; split_ifs <;> omega⟩
  invFun k := ⟨if k.val ≤ e.val then k.val + lo - e.val else k.val - e.val - 1, by
    have := e.isLt; have := k.isLt; split_ifs <;> omega⟩
  left_inv i := by
    apply Fin.ext
    have := e.isLt; have := i.isLt
    simp only
    split_ifs <;> omega
  right_inv k := by
    apply Fin.ext
    have := e.isLt; have := k.isLt
    simp only
    split_ifs <;> omega

theorem sum_shifted (n lo : ℕ) (hlo : lo + 1 = n) (x : (⟨1, ![n]⟩ : Shape).Idx → BitVec 32) (e : Fin n) :
    ∑ i : Fin n, shifted n lo x e i = ∑ k : Fin n, if k.val ≤ e.val then x (ix1 k) else 0 := by
  refine Fintype.sum_equiv (shiftEquiv n lo hlo e) _ _ fun i => ?_
  have := e.isLt; have := i.isLt
  unfold shifted
  by_cases hc : lo ≤ e.val + i.val
  · have h2 : e.val + i.val - lo < n := by omega
    have hk : shiftEquiv n lo hlo e i = ⟨e.val + i.val - lo, h2⟩ := by
      apply Fin.ext; simp [shiftEquiv, hc]
    rw [dif_pos ⟨hc, h2⟩, hk, if_pos (show e.val + i.val - lo ≤ e.val by omega)]
  · have hk : (shiftEquiv n lo hlo e i).val = e.val + i.val + 1 := by simp [shiftEquiv, hc]
    rw [dif_neg (fun h => hc h.1), if_neg (by omega)]

/-- The windowed sum at e is the sum of the entries at positions k ≤ e. -/
theorem reduceWindow_cumsum (n lo : ℕ) (hlo : lo + 1 = n) (x : (⟨1, ![n]⟩ : Shape).Idx → BitVec 32)
    (init : (⟨0, ![]⟩ : Shape).Idx → BitVec 32)
    (h : (⟨1, ![n]⟩ : Shape).ReduceWindows ![n] ![1] ![lo] ![0] ⟨1, ![n]⟩) (hu : 0 < (⟨0, ![]⟩ : Shape).numel)
    (hinit : init (Shape.Idx.first hu) = 0#32) (e : Fin n) :
    Host.reduceWindow IntOp.addi ![n] ![1] ![lo] ![0] x init h hu (ix1 e)
      = ∑ k : Fin n, if k.val ≤ e.val then x (ix1 k) else 0 := by
  unfold Host.reduceWindow
  simp only []
  rw [hinit, foldl_addi, ← Fin.sum_univ_def, BitVec.zero_add, ← sum_shifted n lo hlo x e]
  refine Fintype.sum_equiv ((Shape.rowMajor (⟨1, ![n]⟩ : Shape)).symm.trans (idxEquiv1 n)) _ _ fun i => ?_
  let j := (Shape.rowMajor (⟨1, ![n]⟩ : Shape)).symm i
  have hσ : ((Shape.rowMajor (⟨1, ![n]⟩ : Shape)).symm.trans (idxEquiv1 n)) i = j 0 := rfl
  rw [hσ]
  have hj0 : (j 0).val < n := (j 0).isLt
  have := e.isLt
  unfold shifted
  split
  · rename_i hall
    have h0 := hall 0
    change lo ≤ e.val * 1 + (j 0).val ∧ e.val * 1 + (j 0).val - lo < n at h0
    rw [dif_pos ⟨by omega, by omega⟩]
    refine congrArg x (funext fun a => ?_)
    obtain rfl : a = 0 := Subsingleton.elim _ _
    apply Fin.ext
    change e.val * 1 + (j 0).val - lo = e.val + (j 0).val - lo
    omega
  · rename_i hnall
    have hneg : ¬ (lo ≤ e.val + (j 0).val ∧ e.val + (j 0).val - lo < n) := by
      rintro ⟨h1, h2⟩
      apply hnall
      intro a
      obtain rfl : a = 0 := Subsingleton.elim _ _
      change lo ≤ e.val * 1 + (j 0).val ∧ e.val * 1 + (j 0).val - lo < n
      omega
    rw [dif_neg hneg]
    rfl

end Cert.NzCum
-- ==== Proof.NzWordsA.lean ====
/-
  The enumeration of the nonzero words of a 1024 × 1024 matrix, first stages read at an index as natural numbers.

  With k a row-major flat position (k = 1024·s + p), NZ A k says the word at k is not 0. The flattened mask at k is
  the indicator of NZ A k; its running sum at k is cnt (NZ A) k, the number of nonzero positions up to k — at most
  2^20, so no word sum wraps, and the clamp at 0 and the negative-index wrap do nothing.
-/
import proofs.«121984_g44616120271338_cont_sun_m_526_12_alg».proof.Proof.RefStages
import proofs.«121984_g44616120271338_cont_sun_m_526_12_alg».proof.Proof.LibNonzeroEnum
import proofs.«121984_g44616120271338_cont_sun_m_526_12_alg».proof.Proof.LibFloorDivRem
import proofs.«121984_g44616120271338_cont_sun_m_526_12_alg».proof.Proof.LibRunningSum
import Idealize.ShloMosaic.Lib.ValueIdx
import Idealize.ShloMosaic.Lib.WordArith

noncomputable section

namespace Cert.ReferenceIdeal.Stages

open Idealize.ShloMosaic Idealize.ShloMosaic.ValueIdx Cert.ReferenceIdeal Cert.ReferenceIdeal.Facts₀
open Cert.NzComb Cert.NzScalar
open Finset

/-- The word at row-major flat position k. -/
def aAt (A : IVec S1024x1024 32) (k : ℕ) : BitVec 32 :=
  A (ix2 (⟨k / 1024 % 1024, Nat.mod_lt _ (by norm_num)⟩ : Fin 1024) (⟨k % 1024, Nat.mod_lt _ (by norm_num)⟩ : Fin 1024))

/-- The word at flat position k is not 0. -/
def NZ (A : IVec S1024x1024 32) (k : ℕ) : Prop := ¬ aAt A k = 0#32

instance (A : IVec S1024x1024 32) : DecidablePred (NZ A) := fun k => inferInstanceAs (Decidable (¬ aAt A k = 0#32))

/-- The 0/1 indicator of a nonzero word at flat position k. -/
def ind (A : IVec S1024x1024 32) (k : ℕ) : ℕ := if NZ A k then 1 else 0

theorem aAt_mk (A : IVec S1024x1024 32) (a b : Fin 1024) : aAt A (b.val + 1024 * a.val) = A (ix2 a b) := by
  unfold aAt
  have ha := a.isLt; have hb := b.isLt
  congr 2 <;> apply Fin.ext <;> simp only <;> omega

theorem ofBool_setWidth (b : Bool) : (BitVec.ofBool b).setWidth 32 = BitVec.ofNat 32 (if b then 1 else 0) := by
  cases b <;> rfl

theorem toNat_ofNat_small {m : ℕ} (h : m ≤ 1048576) : (BitVec.ofNat 32 m).toNat = m := by
  rw [BitVec.toNat_ofNat]; omega

theorem ofNat_sum {ι : Type} (s : Finset ι) (f : ι → ℕ) :
    BitVec.ofNat 32 (∑ i ∈ s, f i) = ∑ i ∈ s, BitVec.ofNat 32 (f i) := by
  simp only [← BitVec.natCast_eq_ofNat, Nat.cast_sum]

/-! ## The mask and the running count -/

theorem mask_apply (A : IVec S1024x1024 32) (j : S1024x1024.Idx) : mask A j = BitVec.ofBool (A j != 0#32) := rfl

theorem maskFlat_apply (A : IVec S1024x1024 32) (k : Fin 1048576) :
    maskFlat A (ix1 k) = BitVec.ofNat 32 (ind A k.val) := by
  have hk := k.isLt
  have h1 : shapeCast S1048576 (mask A) shapeCasts_S1024x1024_S1048576 (ix1 k)
      = mask A (ix2 (⟨k.val / 1024 % 1024, Nat.mod_lt _ (by norm_num)⟩ : Fin 1024)
          (⟨k.val % 1024, Nat.mod_lt _ (by norm_num)⟩ : Fin 1024)) := by
    unfold shapeCast
    refine congrArg (mask A) (Shape.reshapeEquiv_eq_of_rowMajor shapeCasts_S1024x1024_S1048576 ?_)
    rw [Shape.rowMajor_val_two, Shape.rowMajor_val_one]
    show (k.val / 1024 % 1024) * 1024 + k.val % 1024 = k.val
    omega
  show (shapeCast S1048576 (mask A) shapeCasts_S1024x1024_S1048576 (ix1 k)).setWidth 32 = _
  rw [h1, mask_apply, ofBool_setWidth]
  show BitVec.ofNat 32 (if (aAt A k.val != 0#32) = true then 1 else 0) = _
  unfold ind NZ
  by_cases h : aAt A k.val = 0#32 <;> simp [h]

theorem cum_apply (x : IVec S1048576 32) (e : Fin 1048576) :
    cum x (ix1 e) = ∑ k : Fin 1048576, if k.val ≤ e.val then x (ix1 k) else 0 :=
  Cert.NzCum.reduceWindow_cumsum 1048576 1048575 (by norm_num) x _ _ _ rfl e

/-- The running sum of a vector of words holding small naturals is the word of the naturals' running sum. -/
theorem cum_ofNat (f : ℕ → ℕ) (x : IVec S1048576 32) (hx : ∀ k : Fin 1048576, x (ix1 k) = BitVec.ofNat 32 (f k.val))
    (e : Fin 1048576) : cum x (ix1 e) = BitVec.ofNat 32 (∑ k ∈ range (e.val + 1), f k) := by
  rw [cum_apply, ← sum_fin_le f e.isLt, ofNat_sum]
  refine Finset.sum_congr rfl fun k _ => ?_
  rw [hx k]
  split_ifs <;> rfl

theorem cnt_eq_sum (A : IVec S1024x1024 32) (k : ℕ) : cnt (NZ A) k = ∑ j ∈ range (k + 1), ind A j := by
  unfold cnt ind; rw [card_filter]

theorem cnt_le (A : IVec S1024x1024 32) {k : ℕ} (hk : k < 1048576) : cnt (NZ A) k ≤ 1048576 :=
  (cnt_le_tot (NZ A) hk).trans (tot_le _ _)

theorem runCount_apply (A : IVec S1024x1024 32) (k : Fin 1048576) :
    cum (maskFlat A) (ix1 k) = BitVec.ofNat 32 (cnt (NZ A) k.val) := by
  rw [cum_ofNat (ind A) _ (maskFlat_apply A) k, cnt_eq_sum]

theorem binIdx_apply (A : IVec S1024x1024 32) (k : Fin 1048576) :
    binIdx A (ix1 k) = BitVec.ofNat 32 (cnt (NZ A) k.val) := by
  have hc := cnt_le A k.isLt
  have hsm : (BitVec.ofNat 32 (cnt (NZ A) k.val)).toNat < 2 ^ 31 := by rw [toNat_ofNat_small hc]; omega
  have hcl : clipped A (ix1 k) = BitVec.ofNat 32 (cnt (NZ A) k.val) := by
    show IntOp.maxsi 0#32 (cum (maskFlat A) (ix1 k)) = _
    rw [runCount_apply, maxsi_zero_small hsm]
  show Scalar.select (IntOp.cmpi .slt (clipped A (ix1 k)) 0#32) (IntOp.addi (clipped A (ix1 k)) 1048576#32)
    (clipped A (ix1 k)) = _
  rw [hcl, cmpi_slt_zero_small hsm]
  rfl

end Cert.ReferenceIdeal.Stages

end
-- ==== Proof.LibScatterCount.lean ====
/-
  Counting by scatter: an integer scatter-add of ones into zeros, read as a signed 32-bit
  integer, is the number of update positions whose result index is the element at hand, as long
  as there are fewer than 2^31 updates; converted to an extended real it is therefore the exact
  (float-side) scatter-add of ones into zeros.
-/
import Idealize.ShloMosaic.PureOps.Ideal

noncomputable section

namespace Idealize.ShloMosaic.ScatterCount

open scoped BigOperators

variable {s si u : Shape} {w : Nat}

/-- One step of the integer scatter of ones: the update at row-major position n adds one to the
    element its result index names, and is dropped when that index lies outside the operand. -/
def step (d : ScatterDims s si u) (idx : IVec si w) (r : s.Idx → BitVec 32) (n : Fin u.numel) :
    s.Idx → BitVec 32 :=
  match d.resultIdx? (u.rowMajor.symm n) idx with
  | some i => fun i' => if i' = i then IntOp.addi (r i) (1#32) else r i'
  | none => r

/-- The integer scatter of ones is the left fold of that step over all row-major positions. -/
theorem scatter_eq_foldl (d : ScatterDims s si u) (idx : IVec si w) (x : s.Idx → BitVec 32) :
    Host.scatter d IntOp.addi x idx (fun _ => (1#32 : BitVec 32))
      = (List.finRange u.numel).foldl (step d idx) x := rfl

/-- Pointwise, one step adds the 0/1 indicator of "position n lands on i". -/
theorem step_apply (d : ScatterDims s si u) (idx : IVec si w) (r : s.Idx → BitVec 32) (n : Fin u.numel)
    (i : s.Idx) :
    step d idx r n i
      = r i + BitVec.ofNat 32 (if d.resultIdx? (u.rowMajor.symm n) idx = some i then 1 else 0) := by
  unfold step
  cases h : d.resultIdx? (u.rowMajor.symm n) idx with
  | none => simp
  | some k =>
    by_cases hik : i = k
    · subst hik
      simp [IntOp.addi]
    · have hki : ¬ k = i := fun e => hik e.symm
      simp [hik, hki]

/-- Folding the step over any list of positions, from any start, adds at each element the number
    of listed positions that land on it (as a 32-bit word). -/
theorem foldl_step (d : ScatterDims s si u) (idx : IVec si w) (l : List (Fin u.numel))
    (r : s.Idx → BitVec 32) (i : s.Idx) :
    l.foldl (step d idx) r i
      = r i + BitVec.ofNat 32
          (l.countP fun n => decide (d.resultIdx? (u.rowMajor.symm n) idx = some i)) := by
  induction l generalizing r with
  | nil => simp
  | cons n l ih =>
    rw [List.foldl_cons, ih, step_apply, List.countP_cons]
    by_cases h : d.resultIdx? (u.rowMajor.symm n) idx = some i
    · simp only [h, if_true, decide_true]
      rw [BitVec.add_assoc, ← BitVec.ofNat_add, Nat.add_comm]
    · simp only [h, if_false, decide_false]
      simp

/-- Over the list of all positions of Fin n, in order, counting a predicate is the cardinality
    of the subset it cuts out. -/
theorem countP_finRange (n : Nat) (p : Fin n → Prop) [DecidablePred p] :
    (List.finRange n).countP (fun k => decide (p k)) = (Finset.univ.filter p).card := by
  rw [List.countP_eq_length_filter]
  simp [Finset.card, Finset.filter, Fin.univ_def]

/-- The positions (in row-major numbering) landing on i correspond one-to-one, through the
    row-major bijection, to the update indices landing on i. -/
theorem card_rowMajor (d : ScatterDims s si u) (idx : IVec si w) (i : s.Idx) :
    (Finset.univ.filter fun n : Fin u.numel => d.resultIdx? (u.rowMajor.symm n) idx = some i).card
      = (Finset.univ.filter fun j : u.Idx => d.resultIdx? j idx = some i).card :=
  Finset.card_equiv u.rowMajor.symm (by intro n; simp)

/-- The number of update indices landing on any one element is at most the number of updates. -/
theorem card_le_numel (d : ScatterDims s si u) (idx : IVec si w) (i : s.Idx) :
    (Finset.univ.filter fun j : u.Idx => d.resultIdx? j idx = some i).card ≤ u.numel := by
  rw [← card_rowMajor]
  calc _ ≤ (Finset.univ : Finset (Fin u.numel)).card := Finset.card_filter_le _ _
    _ = u.numel := by simp

/-- A natural number below 2^31, as a 32-bit word read signed, is itself. -/
theorem toInt_ofNat_of_lt {k : Nat} (hk : k < 2 ^ 31) : (BitVec.ofNat 32 k).toInt = (k : ℤ) := by
  have h32 : k % 2 ^ 32 = k := Nat.mod_eq_of_lt (by omega)
  rw [BitVec.toInt, BitVec.toNat_ofNat, h32]
  split <;> omega

/-- The integer scatter-add of ones into zeros holds, at each element, the number of update
    indices that land on it, as a 32-bit word. -/
theorem scatter_ones_eq_ofNat (d : ScatterDims s si u) (idx : IVec si w) (i : s.Idx) :
    Host.scatter d IntOp.addi (fun _ => (0#32 : BitVec 32)) idx (fun _ => (1#32 : BitVec 32)) i
      = BitVec.ofNat 32 (Finset.univ.filter fun j : u.Idx => d.resultIdx? j idx = some i).card := by
  rw [scatter_eq_foldl, foldl_step, countP_finRange, card_rowMajor]
  simp

/-- Read signed, that word is the count itself when there are fewer than 2^31 updates: the count
    is at most the number of updates, so it neither wraps nor reads negative. -/
theorem scatter_ones_toInt (d : ScatterDims s si u) (idx : IVec si w) (hu : u.numel < 2 ^ 31) (i : s.Idx) :
    (Host.scatter d IntOp.addi (fun _ => (0#32 : BitVec 32)) idx (fun _ => (1#32 : BitVec 32)) i).toInt
      = ((Finset.univ.filter (fun j : u.Idx => d.resultIdx? j idx = some i)).card : ℤ) := by
  rw [scatter_ones_eq_ofNat]
  exact toInt_ofNat_of_lt (lt_of_le_of_lt (card_le_numel d idx i) hu)

/-- Over the extended reals the integer count, converted to a float, equals the float scatter-add
    of ones into zeros: both are the number of update indices landing on each element. -/
theorem degree_eq (d : ScatterDims s si u) (idx : IVec si w) (hu : u.numel < 2 ^ 31) :
    sitofp (F := Ideal) .f32 (Host.scatter d IntOp.addi (fun _ => (0#32 : BitVec 32)) idx (fun _ => (1#32 : BitVec 32)))
      = Host.scatterAdd (F := Ideal) (φ := .f32) d (fun _ => (0 : EReal)) idx (fun _ => (1 : EReal)) := by
  funext i
  show (((Host.scatter d IntOp.addi (fun _ => (0#32 : BitVec 32)) idx (fun _ => (1#32 : BitVec 32)) i).toInt : ℝ) : EReal)
      = (0 : EReal) + ∑ j ∈ Finset.univ.filter (fun j : u.Idx => d.resultIdx? j idx = some i), (1 : EReal)
  rw [scatter_ones_toInt d idx hu i, Finset.sum_const, nsmul_one, zero_add, Int.cast_natCast,
    EReal.coe_natCast]

end Idealize.ShloMosaic.ScatterCount
-- ==== Proof.NzScatter.lean ====
/-
  Counting by scatter into a vector: E ones are added into a vector of N zeros at the positions idx[k, 0], read as
  signed integers and not clamped (an update whose index is outside [0, N) is dropped). Entry v of the result is the
  number of updates k with idx[k, 0] = v, as a 32-bit word.
-/
import proofs.«121984_g44616120271338_cont_sun_m_526_12_alg».proof.Proof.LibScatterCount
import proofs.«121984_g44616120271338_cont_sun_m_526_12_alg».proof.Proof.LibRunningSum
import Idealize.ShloMosaic.Lib.ValueIdx

noncomputable section

namespace Cert.NzScatter

open Idealize.ShloMosaic Idealize.ShloMosaic.ValueIdx

/-- The dimension numbers of an entry scatter: operand [N], scatter indices [E, 1], updates [E]. -/
abbrev cntDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (k : Fin E)

theorem cnt_start0 : (cntDims N E wf).start (ix1 k) idx 0 = (idx (ix2 k (0 : Fin 1))).toInt := by
  unfold ScatterDims.start
  rw [dif_pos (show (0 : Fin 1) ∈ (cntDims N E wf).scatterDimsToOperandDims from List.mem_singleton.mpr rfl)]
  have hsi : (cntDims N E wf).siIdx (ix1 k) ⟨List.idxOf (0 : Fin 1) (cntDims N E wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

theorem cnt_window0 : (cntDims N E wf).window (ix1 k) 0 = 0 := by
  unfold ScatterDims.window
  rw [dif_neg (show ¬ (0 : Fin 1) ∈ (cntDims N E wf).sKept from by
    simp [ScatterDims.sKept, Shape.kept])]

/-- Update k lands on entry v exactly when its index, read signed, is v. -/
theorem cnt_resultIdx (v : Fin N) :
    (cntDims N E wf).resultIdx? (ix1 k) idx = some (ix1 v) ↔ (idx (ix2 k (0 : Fin 1))).toInt = (v.val : ℤ) := by
  have hv := v.isLt
  unfold ScatterDims.resultIdx?
  split
  · rename_i hall
    have h0 := hall 0
    rw [cnt_start0, cnt_window0] at h0
    change 0 ≤ (idx (ix2 k (0 : Fin 1))).toInt + ((0 : ℕ) : ℤ) ∧ (idx (ix2 k (0 : Fin 1))).toInt + ((0 : ℕ) : ℤ) < (N : ℤ) at h0
    rw [Option.some.injEq]
    constructor
    · intro hf
      have := congrArg (fun f => (f 0).val) hf
      simp only at this
      rw [cnt_start0, cnt_window0] at this
      change ((idx (ix2 k (0 : Fin 1))).toInt + ((0 : ℕ) : ℤ)).toNat = v.val at this
      omega
    · intro hi
      funext a
      obtain rfl : a = 0 := Subsingleton.elim _ _
      apply Fin.ext
      show (((cntDims N E wf).start (ix1 k) idx 0 + ((cntDims N E wf).window (ix1 k) 0 : ℕ) : ℤ)).toNat = v.val
      rw [cnt_start0, cnt_window0]
      omega
  · rename_i hnall
    constructor
    · intro h; exact absurd h (by simp)
    · intro hi
      exfalso
      apply hnall
      intro a
      obtain rfl : a = 0 := Subsingleton.elim _ _
      rw [cnt_start0, cnt_window0]
      change 0 ≤ (idx (ix2 k (0 : Fin 1))).toInt + ((0 : ℕ) : ℤ) ∧ (idx (ix2 k (0 : Fin 1))).toInt + ((0 : ℕ) : ℤ) < (N : ℤ)
      omega

/-- The scatter of ones into zeros holds at v the number of updates whose index is v. -/
theorem scatter_count (v : Fin N) :
    Host.scatter (cntDims N E wf) IntOp.addi (fun _ => (0#32 : BitVec 32)) idx (fun _ => (1#32 : BitVec 32)) (ix1 v)
      = BitVec.ofNat 32 (Finset.univ.filter fun k : Fin E => (idx (ix2 k (0 : Fin 1))).toInt = (v.val : ℤ)).card := by
  rw [ScatterCount.scatter_ones_eq_ofNat]
  congr 1
  refine (Finset.card_equiv (Cert.NzCum.idxEquiv1 E).symm fun k => ?_).symm
  rw [Finset.mem_filter, Finset.mem_filter]
  show _ ∧ _ ↔ _ ∧ (cntDims N E wf).resultIdx? (ix1 k) idx = some (ix1 v)
  rw [cnt_resultIdx]
  simp

end Cert.NzScatter

end
-- ==== Proof.NzWordsB.lean ====
/-
  The counts of the running counts and their running sum. The scatter of ones at the running counts holds at v the
  number of positions whose running count is v; its running sum at e is pos (NZ A) 2^20 e, the number of positions
  whose running count is at most e.
-/
import proofs.«121984_g44616120271338_cont_sun_m_526_12_alg».proof.Proof.NzWordsA
import proofs.«121984_g44616120271338_cont_sun_m_526_12_alg».proof.Proof.NzScatter

noncomputable section

namespace Cert.ReferenceIdeal.Stages

open Idealize.ShloMosaic Idealize.ShloMosaic.ValueIdx Cert.ReferenceIdeal Cert.ReferenceIdeal.Facts₀
open Cert.NzComb Cert.NzScalar
open Finset

/-! ## The counts and their running sum -/

/-- The number of positions whose running count is v. -/
def fiber (A : IVec S1024x1024 32) (v : ℕ) : ℕ := ((range 1048576).filter fun k => cnt (NZ A) k = v).card

theorem counts_apply (A : IVec S1024x1024 32) (v : Fin 1048576) :
    counts A (ix1 v) = BitVec.ofNat 32 (fiber A v.val) := by
  have hidx : ∀ k : Fin 1048576,
      (broadcastInDim S1048576x1 ![0] bcast_S1048576_S1048576x1_0 (binIdx A)) (ix2 k (0 : Fin 1)) = binIdx A (ix1 k) := by
    intro k
    unfold broadcastInDim
    refine congrArg (binIdx A) (funext fun a => Fin.ext ?_)
    obtain rfl : a = 0 := Subsingleton.elim _ _
    have h1 : ¬ (S1048576.size 0 = 1) := by show ¬ ((1048576 : ℕ) = 1); norm_num
    rw [dif_neg h1]
    rfl
  have h := Cert.NzScatter.scatter_count scatter_S1048576_S1048576x1_S1048576_n_0_0_1_wf
    (broadcastInDim S1048576x1 ![0] bcast_S1048576_S1048576x1_0 (binIdx A)) v
  have h0 : counts A (ix1 v) = Host.scatter (Cert.NzScatter.cntDims 1048576 1048576 scatter_S1048576_S1048576x1_S1048576_n_0_0_1_wf)
      IntOp.addi (fun _ => (0#32 : BitVec 32)) (broadcastInDim S1048576x1 ![0] bcast_S1048576_S1048576x1_0 (binIdx A))
      (fun _ => (1#32 : BitVec 32)) (ix1 v) := rfl
  rw [h0, h]
  unfold fiber
  rw [← card_fin_filter 1048576 (fun k => cnt (NZ A) k = v.val)]
  refine congrArg (fun s : Finset (Fin 1048576) => BitVec.ofNat 32 s.card) (Finset.filter_congr fun k _ => ?_)
  rw [hidx, binIdx_apply, WordArith.toInt_ofNat_small _ (by have := cnt_le A k.isLt; omega)]
  exact Nat.cast_inj

theorem flat_apply (A : IVec S1024x1024 32) (e : Fin 1048576) :
    flat A (ix1 e) = BitVec.ofNat 32 (pos (NZ A) 1048576 e.val) := by
  show cum (counts A) (ix1 e) = _
  rw [cum_ofNat (fiber A) _ (counts_apply A) e, pos_eq_sum]
  rfl

theorem pos_le (A : IVec S1024x1024 32) (e : ℕ) : pos (NZ A) 1048576 e ≤ 1048576 :=
  (card_filter_le _ _).trans (card_range _).le

end Cert.ReferenceIdeal.Stages

end
-- ==== Proof.LibSums.lean ====
/-
  General lemmas on finite sums used by this unit's algebra: the coercion of a sum of naturals into the extended
  reals, splitting a sum over `Fin N` when `N` is a product or a sum, a sum of 32-bit words that does not wrap read as
  a sum of naturals, and the host's integer sum-reduction into a one-element result as the sum of its operand.
  Everything is stated over arbitrary index types or sizes, so that using it is a rewrite and never an enumeration.
-/
import Idealize.ShloMosaic.PureOps.Ideal
import Idealize.ShloMosaic.PureOps.Reduce
import Mathlib.Data.BitVec
import Mathlib.Algebra.BigOperators.Fin
import Mathlib.Algebra.Order.BigOperators.Group.Finset

namespace Cert.LibSums

open Idealize.ShloMosaic

/-- The extended real of a sum of naturals is the sum of their extended reals. -/
theorem coe_nat_sum {ι : Type} (s : Finset ι) (f : ι → ℕ) :
    (((∑ i ∈ s, f i : ℕ) : ℝ) : EReal) = ∑ i ∈ s, (((f i : ℕ) : ℝ) : EReal) := by
  classical
  induction s using Finset.induction_on with
  | empty => simp
  | insert a s ha ih => rw [Finset.sum_insert ha, Finset.sum_insert ha, Nat.cast_add, EReal.coe_add, ih]

/-- A sum over `Fin N` with `N = m * n` is the double sum over quotient and remainder. -/
theorem sum_fin_mul {M : Type} [AddCommMonoid M] {N : ℕ} (m n : ℕ) (h : N = m * n) (g : Fin N → M) :
    ∑ i : Fin N, g i = ∑ a : Fin m, ∑ b : Fin n,
      g ⟨b.val + n * a.val, by subst h; exact (finProdFinEquiv (a, b)).isLt⟩ := by
  subst h
  rw [← finProdFinEquiv.sum_comp, Fintype.sum_prod_type]
  rfl

/-- A sum over `Fin N` with `N = m + n` is the sum over the first `m` plus the sum over the last `n`. -/
theorem sum_fin_add {M : Type} [AddCommMonoid M] {N : ℕ} (m n : ℕ) (h : N = m + n) (g : Fin N → M) :
    ∑ i : Fin N, g i = ∑ a : Fin m, g ⟨a.val, by have := a.isLt; omega⟩
      + ∑ b : Fin n, g ⟨m + b.val, by have := b.isLt; omega⟩ := by
  subst h
  rw [Fin.sum_univ_add]
  rfl

/-- A sum of 32-bit words whose values, read as naturals, add up to less than 2³² is that natural. -/
theorem toNat_sum_eq {ι : Type} (s : Finset ι) (f : ι → BitVec 32) (n : ι → ℕ)
    (hf : ∀ i ∈ s, (f i).toNat = n i) (hb : ∑ i ∈ s, n i < 2 ^ 32) : (∑ i ∈ s, f i).toNat = ∑ i ∈ s, n i := by
  classical
  induction s using Finset.induction_on with
  | empty => simp
  | insert a s ha ih =>
    rw [Finset.sum_insert ha] at hb ⊢
    rw [Finset.sum_insert ha, BitVec.toNat_add, hf a (Finset.mem_insert_self a s),
      ih (fun i hi => hf i (Finset.mem_insert_of_mem hi)) (by omega)]
    exact Nat.mod_eq_of_lt hb

/-- A 32-bit word below 2³¹ read signed is the word read as a natural. -/
theorem toInt_eq_toNat_of_lt (w : BitVec 32) (h : w.toNat < 2 ^ 31) : w.toInt = (w.toNat : Int) := by
  rw [BitVec.toInt_eq_toNat_cond, if_pos (by omega)]

/-- Folding word addition from `init` over a finite set is `init` plus the sum. -/
theorem fold_addi_eq_sum {ι : Type} (s : Finset ι) (init : BitVec 32) (v : ι → BitVec 32) :
    s.fold IntOp.addi init v = init + ∑ i ∈ s, v i := by
  induction s using Finset.cons_induction with
  | empty => simp
  | cons a S ha ih =>
    rw [Finset.fold_cons, Finset.sum_cons, ih]
    exact add_left_comm _ _ _

end Cert.LibSums
-- ==== Proof.NzWordsC.lean ====
/-
  The number of nonzero words is tot (NZ A) 2^20 (a sum of 0/1 indicators is a count), and the fill bit at e says
  that e is at least that number (a signed comparison of two words below 2^31).
-/
import proofs.«121984_g44616120271338_cont_sun_m_526_12_alg».proof.Proof.NzWordsA
import proofs.«121984_g44616120271338_cont_sun_m_526_12_alg».proof.Proof.LibSums
import Idealize.ShloMosaic.Lib.IndicatorCount

noncomputable section

namespace Cert.ReferenceIdeal.Stages

open Idealize.ShloMosaic Idealize.ShloMosaic.ValueIdx Cert.ReferenceIdeal Cert.ReferenceIdeal.Facts₀
open Cert.NzComb Cert.NzScalar
open Finset

/-! ## The total and the fill bit -/

theorem total_apply (A : IVec S1024x1024 32) : total A ix0 = BitVec.ofNat 32 (tot (NZ A) 1048576) := by
  unfold total
  rw [Host.reduce_eq_fold, Finset.filter_true_of_mem (fun i _ => Subsingleton.elim _ _)]
  have h := IndicatorCount.fold_addi_setWidth_eq_card (w := 32) (mask A) univ
  refine h.trans (congrArg _ ?_)
  unfold tot
  rw [card_filter, card_filter, sum_idx2, ← Fin.sum_univ_eq_sum_range (fun k => if NZ A k then 1 else 0) 1048576,
    Cert.LibSums.sum_fin_mul (N := 1048576) 1024 1024 (by norm_num)]
  refine Finset.sum_congr rfl fun a _ => Finset.sum_congr rfl fun b _ => ?_
  show (if mask A (ix2 a b) = 1#1 then 1 else 0) = if NZ A (b.val + 1024 * a.val) then 1 else 0
  have hnz : NZ A (b.val + 1024 * a.val) ↔ ¬ A (ix2 a b) = 0#32 := by unfold NZ; rw [aAt_mk]
  have hm : mask A (ix2 a b) = 1#1 ↔ ¬ A (ix2 a b) = 0#32 := by
    rw [mask_apply, WordArith.ofBool_eq_one_iff]; simp
  by_cases h : A (ix2 a b) = 0#32
  · rw [if_neg (fun hh => (hm.1 hh) h), if_neg (fun hh => (hnz.1 hh) h)]
  · rw [if_pos (hm.2 h), if_pos (hnz.2 h)]

theorem isFill_apply (A : IVec S1024x1024 32) (e : Fin 1048576) :
    isFill A (ix1 e) = BitVec.ofBool (decide (tot (NZ A) 1048576 ≤ e.val)) := by
  have hb : broadcastInDim S1048576 ![] bcast_S_S1048576 (total A) (ix1 e) = total A ix0 := by
    unfold broadcastInDim; exact congrArg _ (funext fun a => a.elim0)
  have he := e.isLt
  have ht := tot_le (NZ A) 1048576
  show IntOp.cmpi .sge (BitVec.ofNat 32 e.val) (broadcastInDim S1048576 ![] bcast_S_S1048576 (total A) (ix1 e)) = _
  rw [hb, total_apply]
  show BitVec.ofBool ((BitVec.ofNat 32 (tot (NZ A) 1048576)).sle (BitVec.ofNat 32 e.val)) = _
  refine congrArg BitVec.ofBool ?_
  rw [Bool.eq_iff_iff, BitVec.sle_iff_toInt_le, WordArith.toInt_ofNat_small _ (by omega),
    WordArith.toInt_ofNat_small _ (by omega), decide_eq_true_iff]
  exact Nat.cast_le

end Cert.ReferenceIdeal.Stages

end
-- ==== Proof.NzWords.lean ====
/-
  The enumerated row and column at entry e: the fill pair (0, 1024) from the number of nonzero words on, and below it
  the quotient (reduced modulo 1024) and the remainder by 1024 of pos (NZ A) 2^20 e, the position of the (e+1)-th
  nonzero word. Floor division and the sign-corrected remainder act on words below 2^31, where they are the natural
  quotient and remainder.
-/
import proofs.«121984_g44616120271338_cont_sun_m_526_12_alg».proof.Proof.NzWordsB
import proofs.«121984_g44616120271338_cont_sun_m_526_12_alg».proof.Proof.NzWordsC

noncomputable section

namespace Cert.ReferenceIdeal.Stages

open Idealize.ShloMosaic Idealize.ShloMosaic.ValueIdx Cert.ReferenceIdeal Cert.ReferenceIdeal.Facts₀
open Cert.NzComb Cert.NzScalar
open Finset

/-! ## The enumerated rows and columns -/

theorem floorDiv_apply (x : IVec S1048576 32) (d : BitVec 32) (j : S1048576.Idx) :
    floorDiv x d j = floorDivW (x j) d := rfl

theorem pyRem_apply (x : IVec S1048576 32) (d : BitVec 32) (j : S1048576.Idx) :
    pyRem x d j = pyRemW (x j) d := rfl

theorem select_ofBool_true {α : Type} (a b : α) : Scalar.select (BitVec.ofBool true) a b = a := rfl

theorem select_ofBool_false {α : Type} (a b : α) : Scalar.select (BitVec.ofBool false) a b = b := rfl

/-- A select between a splat word and a vector, read at an index. -/
theorem select_splat_apply (c : IVec S1048576 1) (w : BitVec 32) (y : IVec S1048576 32) (j : S1048576.Idx) :
    select c (broadcastInDim S1048576 ![] bcast_S_S1048576 (id (constantI S_ 32 w))) y j = Scalar.select (c j) w (y j) := rfl

theorem nzRow_apply (A : IVec S1024x1024 32) (j : S1048576.Idx) :
    nzRow A j = Scalar.select (isFill A j) 0#32 (pyRemW (floorDivW (flat A j) 1024#32) 1024#32) := by
  unfold nzRow
  rw [select_splat_apply, pyRem_apply, floorDiv_apply]

theorem nzCol_apply (A : IVec S1024x1024 32) (j : S1048576.Idx) :
    nzCol A j = Scalar.select (isFill A j) 1024#32 (pyRemW (floorDivW (flat A j) 1#32) 1024#32) := by
  unfold nzCol
  rw [select_splat_apply, pyRem_apply, floorDiv_apply]

theorem nzRow_fill (A : IVec S1024x1024 32) (e : Fin 1048576) (h : tot (NZ A) 1048576 ≤ e.val) :
    nzRow A (ix1 e) = 0#32 := by
  rw [nzRow_apply, isFill_apply, decide_eq_true h, select_ofBool_true]

theorem nzCol_fill (A : IVec S1024x1024 32) (e : Fin 1048576) (h : tot (NZ A) 1048576 ≤ e.val) :
    nzCol A (ix1 e) = 1024#32 := by
  rw [nzCol_apply, isFill_apply, decide_eq_true h, select_ofBool_true]

theorem toNat_1024 : (1024#32 : BitVec 32).toNat = 1024 := rfl

theorem toNat_1 : (1#32 : BitVec 32).toNat = 1 := rfl

/-- Floor division by 1024 of a word holding a natural up to 2^20. -/
theorem floorDivW_1024 {m : ℕ} (hm : m ≤ 1048576) : floorDivW (BitVec.ofNat 32 m) 1024#32 = BitVec.ofNat 32 (m / 1024) := by
  rw [floorDivW_small (by rw [toNat_ofNat_small hm]; omega) (by rw [toNat_1024]; omega) (by rw [toNat_1024]; omega),
    toNat_ofNat_small hm, toNat_1024]

/-- Floor division by 1 of a word holding a natural up to 2^20. -/
theorem floorDivW_1 {m : ℕ} (hm : m ≤ 1048576) : floorDivW (BitVec.ofNat 32 m) 1#32 = BitVec.ofNat 32 m := by
  rw [floorDivW_small (by rw [toNat_ofNat_small hm]; omega) (by rw [toNat_1]; omega) (by rw [toNat_1]; omega),
    toNat_ofNat_small hm, toNat_1, Nat.div_one]

/-- The remainder by 1024 of a word holding a natural up to 2^20. -/
theorem pyRemW_1024 {m : ℕ} (hm : m ≤ 1048576) : pyRemW (BitVec.ofNat 32 m) 1024#32 = BitVec.ofNat 32 (m % 1024) := by
  rw [pyRemW_small (by rw [toNat_ofNat_small hm]; omega) (by rw [toNat_1024]; omega) (by rw [toNat_1024]; omega),
    toNat_ofNat_small hm, toNat_1024]

theorem nzRow_lt (A : IVec S1024x1024 32) (e : Fin 1048576) (h : e.val < tot (NZ A) 1048576) :
    nzRow A (ix1 e) = BitVec.ofNat 32 (pos (NZ A) 1048576 e.val / 1024 % 1024) := by
  have hp := pos_le A e.val
  have hq : pos (NZ A) 1048576 e.val / 1024 ≤ 1048576 := by omega
  rw [nzRow_apply, isFill_apply, decide_eq_false (by omega), select_ofBool_false, flat_apply,
    floorDivW_1024 hp, pyRemW_1024 hq]

theorem nzCol_lt (A : IVec S1024x1024 32) (e : Fin 1048576) (h : e.val < tot (NZ A) 1048576) :
    nzCol A (ix1 e) = BitVec.ofNat 32 (pos (NZ A) 1048576 e.val % 1024) := by
  have hp := pos_le A e.val
  rw [nzCol_apply, isFill_apply, decide_eq_false (by omega), select_ofBool_false, flat_apply,
    floorDivW_1 hp, pyRemW_1024 hp]

end Cert.ReferenceIdeal.Stages

end
-- ==== Proof.NzLaw.lean ====
/-
  The enumeration law. Summing any g (row, column) over the 2^20 enumerated entries of a 1024 × 1024 word matrix A —
  the positions of its nonzero words in row-major order, padded with the fill pair (0, 1024) — is summing g (s, p)
  over the positions (s, p) whose word is not 0, provided g vanishes at the fill pair.

  Below the number T of nonzero words, entry e is the position of the (e+1)-th nonzero word, split into quotient and
  remainder by 1024; from T on it is the fill pair, which contributes nothing. Re-indexing the entries below T by
  their positions (a bijection onto the nonzero positions) gives the sum over the nonzero positions, and splitting a
  flat position k = 1024·s + p gives the double sum.
-/
import proofs.«121984_g44616120271338_cont_sun_m_526_12_alg».proof.Proof.NzWords

noncomputable section

namespace Cert.ReferenceIdeal.Stages

open Idealize.ShloMosaic Idealize.ShloMosaic.ValueIdx Cert.ReferenceIdeal Cert.NzComb
open Finset

/-- g at the row and the column of the row-major flat position k. -/
def atPos {M : Type} (g : BitVec 32 → BitVec 32 → M) (k : ℕ) : M :=
  g (BitVec.ofNat 32 (k / 1024 % 1024)) (BitVec.ofNat 32 (k % 1024))

theorem atPos_eq {M : Type} (g : BitVec 32 → BitVec 32 → M) (k : ℕ) :
    atPos g k = g (BitVec.ofNat 32 (k / 1024 % 1024)) (BitVec.ofNat 32 (k % 1024)) := rfl

theorem nz_sum {M : Type} [AddCommMonoid M] (A : IVec S1024x1024 32) (g : BitVec 32 → BitVec 32 → M) (hfill : g 0#32 1024#32 = 0) :
    ∑ e : Fin 1048576, g (nzRow A (ValueIdx.ix1 e)) (nzCol A (ValueIdx.ix1 e))
      = ∑ s : Fin 1024, ∑ p : Fin 1024, if A (ValueIdx.ix2 s p) = 0#32 then 0 else g (BitVec.ofNat 32 s.val) (BitVec.ofNat 32 p.val) := by
  have hL : ∀ e : Fin 1048576, g (nzRow A (ix1 e)) (nzCol A (ix1 e))
      = if e.val < tot (NZ A) 1048576 then atPos g (pos (NZ A) 1048576 e.val) else 0 := by
    intro e
    by_cases h : e.val < tot (NZ A) 1048576
    · rw [if_pos h, nzRow_lt A e h, nzCol_lt A e h, atPos_eq]
    · rw [if_neg h, nzRow_fill A e (by omega), nzCol_fill A e (by omega), hfill]
  rw [Finset.sum_congr rfl fun e _ => hL e, sum_fin_pos (NZ A) (atPos g) 1048576,
    Cert.LibSums.sum_fin_mul (N := 1048576) 1024 1024 (by norm_num)]
  refine Finset.sum_congr rfl fun s _ => Finset.sum_congr rfl fun p _ => ?_
  show (if NZ A (p.val + 1024 * s.val) then atPos g (p.val + 1024 * s.val) else 0) = _
  have hs := s.isLt
  have hp := p.isLt
  have e1 : (p.val + 1024 * s.val) / 1024 % 1024 = s.val := by omega
  have e2 : (p.val + 1024 * s.val) % 1024 = p.val := by omega
  have hnz : NZ A (p.val + 1024 * s.val) ↔ ¬ A (ix2 s p) = 0#32 := by unfold NZ; rw [aAt_mk]
  by_cases h : A (ix2 s p) = 0#32
  · rw [if_pos h, if_neg (fun hh => (hnz.1 hh) h)]
  · rw [if_neg h, if_pos (hnz.2 h), atPos_eq, e1, e2]

end Cert.ReferenceIdeal.Stages

end
-- ==== Proof.RefReadLayout.lean ====
/-
  The reference's layout and arithmetic stages read at an index, over the extended reals.
-/
import proofs.«121984_g44616120271338_cont_sun_m_526_12_alg».proof.Proof.RefStages
import proofs.«121984_g44616120271338_cont_sun_m_526_12_alg».proof.Proof.Spec
import proofs.«121984_g44616120271338_cont_sun_m_526_12_alg».proof.Proof.LibPlainDot
import Idealize.ShloMosaic.Lib.Pipeline.Value
import Idealize.ShloMosaic.Lib.ValueLayout
import Idealize.ShloMosaic.Lib.IdealHost
import Idealize.ShloMosaic.PureOps.Ideal.Laws

noncomputable section

namespace Cert.ReferenceIdeal.Stages

open Idealize.ShloMosaic Idealize.ShloMosaic.ValueIdx Cert.ReferenceIdeal
open scoped BigOperators

/-- View 0 of a stack of two matrices, entry (s, p), is the stack's entry (0, s, p). -/
theorem view0_apply (a : IVec S2x1024x1024 32) (s p : Fin 1024) : view0 a (ix2 s p) = a (ix3 (0 : Fin 2) s p) := by
  unfold view0
  refine (shapeCast_1ab_ab_apply _ _ s p).trans ?_
  exact extractStridedSlice_apply _ _ _ _ _ (fun d => by
    match d with
    | ⟨0, _⟩ => rfl
    | ⟨1, _⟩ => exact (Nat.zero_add _).symm
    | ⟨2, _⟩ => exact (Nat.zero_add _).symm)

/-- View 1 of a stack of two matrices, entry (s, p), is the stack's entry (1, s, p). -/
theorem view1_apply (a : IVec S2x1024x1024 32) (s p : Fin 1024) : view1 a (ix2 s p) = a (ix3 (1 : Fin 2) s p) := by
  unfold view1
  refine (shapeCast_1ab_ab_apply _ _ s p).trans ?_
  exact extractStridedSlice_apply _ _ _ _ _ (fun d => by
    match d with
    | ⟨0, _⟩ => rfl
    | ⟨1, _⟩ => exact (Nat.zero_add _).symm
    | ⟨2, _⟩ => exact (Nat.zero_add _).symm)

/-- x · W_0 + b_0 at (s, f) is Σ_k x(s,k) · W(0,k,f) + b(0,f). -/
theorem feat0_apply (x : FVec Ideal S1024x128 .f32) (W : FVec Ideal S2x128x64 .f32) (b : FVec Ideal S2x64 .f32)
    (s : Fin 1024) (f : Fin 64) : feat0 x W b (ix2 s f) = Cert.BiGnn.feat x W b 0 s f := by
  unfold feat0 Cert.BiGnn.feat
  rw [addf_apply]
  refine congrArg₂ (· + ·) ?_ ?_
  · refine (PlainDot.dotGeneral_apply none .single x _ s f).trans ?_
    refine Finset.sum_congr rfl fun k _ => congrArg (x (ix2 s k) * ·) ?_
    refine (shapeCast_1ab_ab_apply _ _ k f).trans ?_
    exact extractStridedSlice_apply _ _ _ _ _ (fun d => by
      match d with
      | ⟨0, _⟩ => rfl
      | ⟨1, _⟩ => exact (Nat.zero_add _).symm
      | ⟨2, _⟩ => exact (Nat.zero_add _).symm)
  · refine (broadcastInDim_apply _ _ _ _ (ix2 (0 : Fin 1) f) (fun a => by
      match a with
      | ⟨0, _⟩ => rfl
      | ⟨1, _⟩ => rfl)).trans ?_
    refine (broadcastInDim_apply _ _ _ _ (ix1 f) (fun a => by
      match a with
      | ⟨0, _⟩ => rfl)).trans ?_
    refine (shapeCast_1a_a_apply _ _ f).trans ?_
    exact extractStridedSlice_apply _ _ _ _ _ (fun d => by
      match d with
      | ⟨0, _⟩ => rfl
      | ⟨1, _⟩ => exact (Nat.zero_add _).symm)

/-- x · W_1 + b_1 at (s, f) is Σ_k x(s,k) · W(1,k,f) + b(1,f). -/
theorem feat1_apply (x : FVec Ideal S1024x128 .f32) (W : FVec Ideal S2x128x64 .f32) (b : FVec Ideal S2x64 .f32)
    (s : Fin 1024) (f : Fin 64) : feat1 x W b (ix2 s f) = Cert.BiGnn.feat x W b 1 s f := by
  unfold feat1 Cert.BiGnn.feat
  rw [addf_apply]
  refine congrArg₂ (· + ·) ?_ ?_
  · refine (PlainDot.dotGeneral_apply none .single x _ s f).trans ?_
    refine Finset.sum_congr rfl fun k _ => congrArg (x (ix2 s k) * ·) ?_
    refine (shapeCast_1ab_ab_apply _ _ k f).trans ?_
    exact extractStridedSlice_apply _ _ _ _ _ (fun d => by
      match d with
      | ⟨0, _⟩ => rfl
      | ⟨1, _⟩ => exact (Nat.zero_add _).symm
      | ⟨2, _⟩ => exact (Nat.zero_add _).symm)
  · refine (broadcastInDim_apply _ _ _ _ (ix2 (0 : Fin 1) f) (fun a => by
      match a with
      | ⟨0, _⟩ => rfl
      | ⟨1, _⟩ => rfl)).trans ?_
    refine (broadcastInDim_apply _ _ _ _ (ix1 f) (fun a => by
      match a with
      | ⟨0, _⟩ => rfl)).trans ?_
    refine (shapeCast_1a_a_apply _ _ f).trans ?_
    exact extractStridedSlice_apply _ _ _ _ _ (fun d => by
      match d with
      | ⟨0, _⟩ => rfl
      | ⟨1, _⟩ => exact (Nat.zero_add _).symm)

/-- Two 1024 × 64 halves side by side: column k of the left half for k < 64. -/
theorem viewOut_apply_left (bw fw : FVec Ideal S1024x64 .f32) (p : Fin 1024) (k : Fin 128) (hk : k.val < 64) :
    viewOut bw fw (ix2 p k) = bw (ix2 p (⟨k.val, hk⟩ : Fin 64)) := by
  unfold viewOut
  exact concatenate_pair_apply_left (1 : Fin 2) bw fw _ (ix2 p k) rfl (ix2 p (⟨k.val, hk⟩ : Fin 64)) (fun b => by
    match b with
    | ⟨0, _⟩ => rfl
    | ⟨1, _⟩ => rfl)

/-- … and column k − 64 of the right half for k ≥ 64. -/
theorem viewOut_apply_right (bw fw : FVec Ideal S1024x64 .f32) (p : Fin 1024) (k : Fin 128) (hk : ¬ k.val < 64) :
    viewOut bw fw (ix2 p k) = fw (ix2 p (⟨k.val - 64, by omega⟩ : Fin 64)) := by
  unfold viewOut
  refine concatenate_pair_apply_right (1 : Fin 2) bw fw _ (ix2 p k) rfl rfl (ix2 p (⟨k.val - 64, by omega⟩ : Fin 64)) (fun b hb => ?_) ?_
  · match b with
    | ⟨0, _⟩ => rfl
    | ⟨1, _⟩ => exact absurd rfl hb
  · show (k.val - 64) + 64 = k.val
    omega

/-- The f32 zero word is 0. -/
theorem zero_const_apply (j : S_.Idx) : constant (F := Ideal) S_ .f32 0x00000000#32 j = 0 := by
  rw [constant_apply]; exact Ideal.ofBits_zero_f32

/-- The two views stacked and summed over the views: 0 + (o0 + o1), entry by entry. -/
theorem viewSum_apply (o0 o1 : FVec Ideal S1024x128 .f32) (p : Fin 1024) (k : Fin 128) :
    viewSum o0 o1 (ix2 p k) = 0 + (o0 (ix2 p k) + o1 (ix2 p k)) := by
  unfold viewSum
  rw [hostReduceAdd_apply]
  have hred : S2x1024x128.Reduces [0] S1024x128 := by decide
  refine (Ideal.hostReduceAdd_single _ hred _ _ (ix2 p k)).trans ?_
  rw [zero_const_apply]
  refine congrArg (0 + ·) ?_
  show ∑ v : Fin 2, _ = _
  rw [Fin.sum_univ_two]
  have l0 : hred.lift (ix2 p k) (0 : Fin 2) = ix3 (0 : Fin 2) p k := by
    funext d; refine Fin.ext ?_
    match d with
    | ⟨0, _⟩ => rfl
    | ⟨1, _⟩ => rfl
    | ⟨2, _⟩ => rfl
  have l1 : hred.lift (ix2 p k) (1 : Fin 2) = ix3 (1 : Fin 2) p k := by
    funext d; refine Fin.ext ?_
    match d with
    | ⟨0, _⟩ => rfl
    | ⟨1, _⟩ => rfl
    | ⟨2, _⟩ => rfl
  have b0 : ∀ (o : FVec Ideal S1024x128 .f32) (h : S1024x128.BroadcastsInDim S1x1024x128 ![1, 2]),
      broadcastInDim S1x1024x128 ![1, 2] h o (ix3 (0 : Fin 1) p k) = o (ix2 p k) := fun o h =>
    broadcastInDim_apply _ _ _ _ (ix2 p k) (fun a => by
      match a with
      | ⟨0, _⟩ => rfl
      | ⟨1, _⟩ => rfl)
  refine congrArg₂ (· + ·) ?_ ?_
  · rw [l0]
    refine (concatenate_pair_apply_left (t := S2x1024x128) (s₁ := S1x1024x128) (s₂ := S1x1024x128) (0 : Fin 3) _ _ _ (ix3 (0 : Fin 2) p k) rfl (ix3 (0 : Fin 1) p k) (fun b => by
      match b with
      | ⟨0, _⟩ => rfl
      | ⟨1, _⟩ => rfl
      | ⟨2, _⟩ => rfl)).trans (b0 o0 _)
  · rw [l1]
    refine (concatenate_pair_apply_right (t := S2x1024x128) (s₁ := S1x1024x128) (s₂ := S1x1024x128) (0 : Fin 3) _ _ _ (ix3 (1 : Fin 2) p k) rfl rfl (ix3 (0 : Fin 1) p k) (fun b hb => ?_) rfl).trans (b0 o1 _)
    match b with
    | ⟨0, _⟩ => exact absurd rfl hb
    | ⟨1, _⟩ => rfl
    | ⟨2, _⟩ => rfl

/-- The output layer at (p, q): (Σ_k max(s(p,k), 0) · W1(k,q) + b1(q)) + x(p,q). -/
theorem outLayer_apply (s x : FVec Ideal S1024x128 .f32) (W1 : FVec Ideal S128x128 .f32) (b1 : FVec Ideal S128 .f32)
    (p : Fin 1024) (q : Fin 128) :
    outLayer s x W1 b1 (ix2 p q)
      = ((∑ k : Fin 128, max (s (ix2 p k)) 0 * W1 (ix2 k q)) + b1 (ix1 q)) + x (ix2 p q) := by
  unfold outLayer
  rw [addf_apply, addf_apply]
  refine congrArg (· + x (ix2 p q)) ?_
  refine congrArg₂ (· + ·) ?_ ?_
  · refine (PlainDot.dotGeneral_apply none .single _ W1 p q).trans ?_
    refine Finset.sum_congr rfl fun k _ => congrArg (· * W1 (ix2 k q)) ?_
    rw [maximumf_apply, broadcastInDim_scalar_apply, zero_const_apply]
  · refine (broadcastInDim_apply _ _ _ _ (ix2 (0 : Fin 1) q) (fun a => by
      match a with
      | ⟨0, _⟩ => rfl
      | ⟨1, _⟩ => rfl)).trans ?_
    exact broadcastInDim_apply _ _ _ _ (ix1 q) (fun a => by
      match a with
      | ⟨0, _⟩ => rfl)

end Cert.ReferenceIdeal.Stages

end
-- ==== Proof.LibGatherRows.lean ====
/-
  A gather of whole rows, and of single entries, at a column of start indices, read at an index.

  What x[idx] lowers to for an N × D matrix x (or a vector x of N entries) and E integer indices kept as an
  E × 1 column: result row e is the row of x whose number is the index idx[e, 0] read as a signed integer and
  clamped into [0, N − 1].
-/
import Idealize.ShloMosaic.Lib.ValueIdx

noncomputable section

namespace Idealize.ShloMosaic.GatherRows

open Idealize.ShloMosaic Idealize.ShloMosaic.ValueIdx

variable {α : Type}

/-- The dimension numbers of a row gather: operand [N, D], start indices [E, 1], result [E, D]. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Row e, column q of the gathered rows is x at (the clamped index of e, q). -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowDims N D E wf) x idx (ix2 e q)
      = x (ix2 (⟨min (idx (ix2 e (0 : Fin 1))).toInt.toNat (N - 1), by omega⟩ : Fin N) q) := by
  unfold Host.gather
  congr 1
  funext a
  refine Fin.ext ?_
  match a with
  | ⟨0, _⟩ =>
    show (rowDims N D E wf).start (ix2 e q) idx 0 + (rowDims N D E wf).batchCoord (ix2 e q) 0
        + (rowDims N D E wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D E wf).startIndexMap from List.mem_singleton.mpr rfl)]
    have hsi : (rowDims N D E wf).siIdx (ix2 e q) ⟨List.idxOf (0 : Fin 2) (rowDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N D E wf).start (ix2 e q) idx 1 + (rowDims N D E wf).batchCoord (ix2 e q) 1
        + (rowDims N D E wf).offCoord (ix2 e q) 1 = q.val
    rw [GatherDims.batchCoord_eq_zero _ _ _ List.not_mem_nil]
    have hs : (rowDims N D E wf).start (ix2 e q) idx 1 = 0 := by
      unfold GatherDims.start
      rw [dif_neg (show ¬ (1 : Fin 2) ∈ (rowDims N D E wf).startIndexMap from by
        show ¬ (1 : Fin 2) ∈ ([0] : List (Fin 2)); decide)]
    rw [hs]
    simp only [Nat.add_zero, Nat.zero_add]
    unfold GatherDims.offCoord
    rw [dif_pos (show (1 : Fin 2) ∈ (rowDims N D E wf).sKept from
      (GatherDims.mem_sKept _ _).mpr ⟨by show ¬ (1 : Fin 2) ∈ ([0] : List (Fin 2)); decide, List.not_mem_nil⟩)]
    rfl

/-- The dimension numbers of an entry gather: operand [N], start indices [E, 1], result [E]. -/
abbrev entryDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry e of the gathered entries is x at the clamped index of e. -/
theorem gather_entries_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entryDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (entryDims N E wf).start (ix1 e) idx 0 + (entryDims N E wf).batchCoord (ix1 e) 0
      + (entryDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryDims N E wf).startIndexMap from List.mem_singleton.mpr rfl)]
  have hsi : (entryDims N E wf).siIdx (ix1 e) ⟨List.idxOf (0 : Fin 1) (entryDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Idealize.ShloMosaic.GatherRows

end
-- ==== Proof.LibScatterRows.lean ====
/-
  An accumulating scatter of rows, and of single entries, at a column of indices, read at an index, over the
  extended reals.

  What segment_sum lowers to: E update rows (or E update entries) are added into an N × D matrix (a vector of N
  entries) at the row numbers idx[e, 0], read as signed integers and NOT clamped: an update whose index is outside
  [0, N) is dropped. At (p, q) the result is the operand's entry plus the sum over the updates e of
  (the update's entry (e, q) if idx[e, 0] = p, else 0).
-/
import Idealize.ShloMosaic.Lib.ValueIdx
import Idealize.ShloMosaic.PureOps.Ideal.Laws

noncomputable section

open scoped BigOperators

namespace Idealize.ShloMosaic.ScatterRows

open Idealize.ShloMosaic Idealize.ShloMosaic.ValueIdx

/-- The dimension numbers of a row scatter: operand [N, D], scatter indices [E, 1], updates [E, D]. -/
abbrev rowDims (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Rows
variable {N D E w : Nat} (wf : ScatterDims.WF ⟨2, ![N, D]⟩ ⟨2, ![E, 1]⟩ ⟨2, ![E, D]⟩ [1] [0] [0] 1)
  (idx : IVec ⟨2, ![E, 1]⟩ w) (e : Fin E) (q' : Fin D)

theorem row_start0 : (rowDims N D E wf).start (ix2 e q') idx 0 = (idx (ix2 e (0 : Fin 1))).toInt := by
  unfold ScatterDims.start
  rw [dif_pos (show (0 : Fin 2) ∈ (rowDims N D E wf).scatterDimsToOperandDims from List.mem_singleton.mpr rfl)]
  have hsi : (rowDims N D E wf).siIdx (ix2 e q') ⟨List.idxOf (0 : Fin 2) (rowDims N D E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem row_start1 : (rowDims N D E wf).start (ix2 e q') idx 1 = 0 := by
  unfold ScatterDims.start
  rw [dif_neg (show ¬ (1 : Fin 2) ∈ (rowDims N D E wf).scatterDimsToOperandDims from by
    show ¬ (1 : Fin 2) ∈ ([0] : List (Fin 2)); decide)]

theorem row_window0 : (rowDims N D E wf).window (ix2 e q') 0 = 0 := by
  unfold ScatterDims.window
  rw [dif_neg (show ¬ (0 : Fin 2) ∈ (rowDims N D E wf).sKept from by
    simp [ScatterDims.sKept, Shape.kept])]

theorem row_window1 : (rowDims N D E wf).window (ix2 e q') 1 = q'.val := by
  unfold ScatterDims.window
  rw [dif_pos (show (1 : Fin 2) ∈ (rowDims N D E wf).sKept from by
    simp [ScatterDims.sKept, Shape.kept])]
  rfl

/-- An update entry (e, q') lands on (p, q) exactly when its row index is p and its column is q. -/
theorem row_resultIdx_iff (p : Fin N) (q : Fin D) :
    (rowDims N D E wf).resultIdx? (ix2 e q') idx = some (ix2 p q)
      ↔ (idx (ix2 e (0 : Fin 1))).toInt = (p.val : Int) ∧ q' = q := by
  unfold ScatterDims.resultIdx?
  constructor
  · intro h
    split at h
    · next hall =>
      have h0 := congrFun (Option.some.inj h) 0
      have h1 := congrFun (Option.some.inj h) 1
      have e0 := congrArg Fin.val h0
      have e1 := congrArg Fin.val h1
      simp only [row_start0, row_start1, row_window0, row_window1] at e0 e1 hall
      have hb := (hall 0).1
      simp only [row_start0, row_window0] at hb
      refine ⟨?_, Fin.ext ?_⟩
      · have : ((idx (ix2 e (0 : Fin 1))).toInt + ((0 : Nat) : Int)).toNat = p.val := e0
        omega
      · have : ((0 : Int) + (q'.val : Int)).toNat = q.val := e1
        omega
    · exact absurd h (by simp)
  · rintro ⟨hp, rfl⟩
    have hall : ∀ a : Fin 2, 0 ≤ (rowDims N D E wf).start (ix2 e q') idx a + ((rowDims N D E wf).window (ix2 e q') a : Int)
        ∧ (rowDims N D E wf).start (ix2 e q') idx a + ((rowDims N D E wf).window (ix2 e q') a : Int)
          < ((⟨2, ![N, D]⟩ : Shape).size a : Int) := by
      intro a
      match a with
      | ⟨0, _⟩ =>
        show 0 ≤ (rowDims N D E wf).start (ix2 e q') idx 0 + ((rowDims N D E wf).window (ix2 e q') 0 : Int)
          ∧ (rowDims N D E wf).start (ix2 e q') idx 0 + ((rowDims N D E wf).window (ix2 e q') 0 : Int) < (N : Int)
        rw [row_start0, row_window0, hp]
        have := p.isLt
        omega
      | ⟨1, _⟩ =>
        show 0 ≤ (rowDims N D E wf).start (ix2 e q') idx 1 + ((rowDims N D E wf).window (ix2 e q') 1 : Int)
          ∧ (rowDims N D E wf).start (ix2 e q') idx 1 + ((rowDims N D E wf).window (ix2 e q') 1 : Int) < (D : Int)
        rw [row_start1, row_window1]
        have := q'.isLt
        omega
    rw [dif_pos hall]
    refine congrArg some (funext fun a => Fin.ext ?_)
    match a with
    | ⟨0, _⟩ =>
      show ((rowDims N D E wf).start (ix2 e q') idx 0 + ((rowDims N D E wf).window (ix2 e q') 0 : Int)).toNat = p.val
      rw [row_start0, row_window0, hp]; omega
    | ⟨1, _⟩ =>
      show ((rowDims N D E wf).start (ix2 e q') idx 1 + ((rowDims N D E wf).window (ix2 e q') 1 : Int)).toNat = q'.val
      rw [row_start1, row_window1]; omega

end Rows

/-- THE ROW SCATTER READ AT (p, q): the operand's entry plus, over the updates e, the entry (e, q) of the updates
    whose row index is p. -/
theorem scatterAdd_rows_apply {N D E w : Nat} (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32)
    (p : Fin N) (q : Fin D) :
    Host.scatterAdd (rowDims N D E wf) x idx upd (ix2 p q)
      = x (ix2 p q) + ∑ e : Fin E, if (idx (ix2 e (0 : Fin 1))).toInt = (p.val : Int) then upd (ix2 e q) else 0 := by
  show Ideal.hostScatterAdd (rowDims N D E wf) x idx upd (ix2 p q) = _
  unfold Ideal.hostScatterAdd
  refine congrArg (x (ix2 p q) + ·) ?_
  rw [Finset.sum_filter, sum_idx2]
  refine Finset.sum_congr rfl fun e _ => ?_
  simp only [row_resultIdx_iff wf idx e _ p q]
  by_cases hp : (idx (ix2 e (0 : Fin 1))).toInt = (p.val : Int)
  · simp only [hp, true_and, if_true]
    rw [Finset.sum_ite_eq' Finset.univ q (fun b => upd (ix2 e b))]
    simp
  · simp only [hp, false_and, if_false, Finset.sum_const_zero]

/-- The dimension numbers of an entry scatter: operand [N], scatter indices [E, 1], updates [E]. -/
abbrev entryDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Entries
variable {N E w : Nat} (wf : ScatterDims.WF ⟨1, ![N]⟩ ⟨2, ![E, 1]⟩ ⟨1, ![E]⟩ [] [0] [0] 1)
  (idx : IVec ⟨2, ![E, 1]⟩ w) (e : Fin E)

theorem entry_start0 : (entryDims N E wf).start (ix1 e) idx 0 = (idx (ix2 e (0 : Fin 1))).toInt := by
  unfold ScatterDims.start
  rw [dif_pos (show (0 : Fin 1) ∈ (entryDims N E wf).scatterDimsToOperandDims from List.mem_singleton.mpr rfl)]
  have hsi : (entryDims N E wf).siIdx (ix1 e) ⟨List.idxOf (0 : Fin 1) (entryDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem entry_window0 : (entryDims N E wf).window (ix1 e) 0 = 0 := by
  unfold ScatterDims.window
  rw [dif_neg (show ¬ (0 : Fin 1) ∈ (entryDims N E wf).sKept from by
    simp [ScatterDims.sKept, Shape.kept])]

/-- An update entry e lands on p exactly when its index is p. -/
theorem entry_resultIdx_iff (p : Fin N) :
    (entryDims N E wf).resultIdx? (ix1 e) idx = some (ix1 p) ↔ (idx (ix2 e (0 : Fin 1))).toInt = (p.val : Int) := by
  unfold ScatterDims.resultIdx?
  constructor
  · intro h
    split at h
    · next hall =>
      have h0 := congrFun (Option.some.inj h) 0
      have e0 := congrArg Fin.val h0
      have hb := (hall 0).1
      simp only [entry_start0, entry_window0] at hb
      have : ((entryDims N E wf).start (ix1 e) idx 0 + ((entryDims N E wf).window (ix1 e) 0 : Int)).toNat = p.val := e0
      rw [entry_start0, entry_window0] at this
      omega
    · exact absurd h (by simp)
  · intro hp
    have hall : ∀ a : Fin 1, 0 ≤ (entryDims N E wf).start (ix1 e) idx a + ((entryDims N E wf).window (ix1 e) a : Int)
        ∧ (entryDims N E wf).start (ix1 e) idx a + ((entryDims N E wf).window (ix1 e) a : Int)
          < ((⟨1, ![N]⟩ : Shape).size a : Int) := by
      intro a
      obtain rfl : a = 0 := Subsingleton.elim _ _
      rw [entry_start0, entry_window0, hp]
      have := p.isLt
      show (0 : Int) ≤ (p.val : Int) + ((0 : Nat) : Int) ∧ (p.val : Int) + ((0 : Nat) : Int) < (N : Int)
      omega
    rw [dif_pos hall]
    refine congrArg some (funext fun a => Fin.ext ?_)
    obtain rfl : a = 0 := Subsingleton.elim _ _
    show ((entryDims N E wf).start (ix1 e) idx 0 + ((entryDims N E wf).window (ix1 e) 0 : Int)).toNat = p.val
    rw [entry_start0, entry_window0, hp]; omega

end Entries

/-- A sum over a rank-1 index is the sum over its coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- THE ENTRY SCATTER READ AT p: the operand's entry plus, over the updates e, the update whose index is p. -/
theorem scatterAdd_entries_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (p : Fin N) :
    Host.scatterAdd (entryDims N E wf) x idx upd (ix1 p)
      = x (ix1 p) + ∑ e : Fin E, if (idx (ix2 e (0 : Fin 1))).toInt = (p.val : Int) then upd (ix1 e) else 0 := by
  show Ideal.hostScatterAdd (entryDims N E wf) x idx upd (ix1 p) = _
  unfold Ideal.hostScatterAdd
  refine congrArg (x (ix1 p) + ·) ?_
  rw [Finset.sum_filter, sum_idx1]
  refine Finset.sum_congr rfl fun e _ => ?_
  simp only [entry_resultIdx_iff wf idx e p]

end Idealize.ShloMosaic.ScatterRows

end
-- ==== Proof.RefReadGnn.lean ====
/-
  One graph convolution of the reference read at an index: gather at the enumerated sources, sum into the
  enumerated destinations, clamp at 0 — given the enumeration law, it is the sum of h over the sources of the
  nonzero adjacency words in the destination's column.
-/
import proofs.«121984_g44616120271338_cont_sun_m_526_12_alg».proof.Proof.RefStages
import proofs.«121984_g44616120271338_cont_sun_m_526_12_alg».proof.Proof.LibGatherRows
import proofs.«121984_g44616120271338_cont_sun_m_526_12_alg».proof.Proof.LibScatterRows
import Idealize.ShloMosaic.Lib.Pipeline.Value
import Idealize.ShloMosaic.Lib.ValueLayout
import Idealize.ShloMosaic.Lib.IdealHost
import Idealize.ShloMosaic.PureOps.Ideal.Laws

noncomputable section

namespace Cert.ReferenceIdeal.Stages

open Idealize.ShloMosaic Idealize.ShloMosaic.ValueIdx Cert.ReferenceIdeal Cert.ReferenceIdeal.Facts₀
open scoped BigOperators

/-- A natural below 1024 as a 32-bit word reads back signed as itself. -/
theorem toInt_ofNat_small (n : Nat) (h : n < 1024) : (BitVec.ofNat 32 n).toInt = (n : Int) := by
  have h2 : (BitVec.ofNat 32 n).toNat = n := by rw [BitVec.toNat_ofNat]; omega
  rw [BitVec.toInt_eq_toNat_cond, h2]; split <;> omega

/-- The index wrap of a gather leaves a word that is not negative as it is. -/
def wrapWord (r : BitVec 32) : BitVec 32 := Scalar.select (IntOp.cmpi .slt r 0#32) (IntOp.addi r 1024#32) r

theorem wrapWord_small (n : Nat) (h : n < 1024) : wrapWord (BitVec.ofNat 32 n) = BitVec.ofNat 32 n := by
  unfold wrapWord IntOp.cmpi
  have : (BitVec.ofNat 32 n).slt 0#32 = false := by
    rw [BitVec.slt, toInt_ofNat_small n h]; simp
  show Scalar.select (BitVec.ofBool ((BitVec.ofNat 32 n).slt 0#32)) _ _ = _
  rw [this]
  exact select_zero _ _

theorem normIdx_apply (r : IVec S1048576 32) (e : Fin 1048576) : normIdx r (ix1 e) = wrapWord (r (ix1 e)) := rfl

/-- The all-zero array reads 0. -/
theorem zeros64_apply (j : S1024x64.Idx) : (zeros64 (F := Ideal)) j = 0 := by
  unfold zeros64
  rw [broadcastInDim_scalar_apply, constant_apply]
  exact Ideal.ofBits_zero_f32

/-- A vector of 2^20 words kept as a column reads, at (e, 0), its entry e. -/
theorem column_apply (v : IVec S1048576 32) (h : S1048576.BroadcastsInDim S1048576x1 ![0]) (e : Fin 1048576) :
    broadcastInDim S1048576x1 ![0] h v (ix2 e (0 : Fin 1)) = v (ix1 e) :=
  broadcastInDim_apply _ _ _ _ (ix1 e) (fun a => by
    match a with
    | ⟨0, _⟩ => rfl)

attribute [local irreducible] nzRow nzCol

/-- The enumeration law, as this module uses it. -/
def NzLaw (A : IVec S1024x1024 32) : Prop :=
  ∀ g : BitVec 32 → BitVec 32 → EReal, g 0#32 1024#32 = 0 →
    ∑ e : Fin 1048576, g (nzRow A (ix1 e)) (nzCol A (ix1 e))
      = ∑ s : Fin 1024, ∑ p' : Fin 1024,
          if A (ix2 s p') = 0#32 then 0 else g (BitVec.ofNat 32 s.val) (BitVec.ofNat 32 p'.val)

/-- Entry (p, f) of a graph convolution: the sum of h(s, f) over the sources s whose adjacency word at (s, p)
    is not 0, clamped below at 0. -/
theorem gnn_apply_of (A : IVec S1024x1024 32) (h : FVec Ideal S1024x64 .f32) (p : Fin 1024) (f : Fin 64)
    (hnz : NzLaw A) :
    gnn A h (ix2 p f) = max (∑ s : Fin 1024, if A (ix2 s p) = 0#32 then 0 else h (ix2 s f)) 0 := by
  unfold gnn
  rw [maximumf_apply, zeros64_apply]
  refine congrArg (max · 0) ?_
  refine (ScatterRows.scatterAdd_rows_apply _ _ _ _ p f).trans ?_
  rw [zeros64_apply, zero_add]
  -- each update row is the gathered row of h at the enumerated source
  let g : BitVec 32 → BitVec 32 → EReal := fun r c =>
    if c.toInt = (p.val : Int) then
      h (ix2 (⟨min (wrapWord r).toInt.toNat (1024 - 1), by omega⟩ : Fin 1024) f) else 0
  have hsum : ∀ e : Fin 1048576,
      (if (broadcastInDim S1048576x1 ![0] bcast_S1048576_S1048576x1_0 (nzCol A) (ix2 e (0 : Fin 1))).toInt = (p.val : Int) then
        Host.gather gather_S1024x64_S1048576x1_S1048576x64_1_0_n_n_0_1_164 h
          (broadcastInDim S1048576x1 ![0] bcast_S1048576_S1048576x1_0 (normIdx (nzRow A))) (ix2 e f) else 0)
        = g (nzRow A (ix1 e)) (nzCol A (ix1 e)) := by
    intro e
    rw [column_apply]
    show _ = if (nzCol A (ix1 e)).toInt = (p.val : Int) then _ else 0
    refine if_congr Iff.rfl ?_ rfl
    refine (GatherRows.gather_rows_apply (by decide) _ h _ e f).trans ?_
    refine congrArg (fun k => h (ix2 k f)) (Fin.ext ?_)
    show min (broadcastInDim S1048576x1 ![0] bcast_S1048576_S1048576x1_0 (normIdx (nzRow A)) (ix2 e (0 : Fin 1))).toInt.toNat (1024 - 1)
      = min (wrapWord (nzRow A (ix1 e))).toInt.toNat (1024 - 1)
    rw [column_apply, normIdx_apply]
  rw [Finset.sum_congr rfl fun e _ => hsum e]
  rw [hnz g (by
    show (if (1024#32 : BitVec 32).toInt = (p.val : Int) then _ else 0) = 0
    rw [if_neg]
    have : (1024#32 : BitVec 32).toInt = 1024 := by decide
    rw [this]; have := p.isLt; omega)]
  refine Finset.sum_congr rfl fun s _ => ?_
  -- only the destination p contributes
  rw [Finset.sum_eq_single p]
  · by_cases hA : A (ix2 s p) = 0#32
    · rw [if_pos hA, if_pos hA]
    · rw [if_neg hA, if_neg hA]
      show (if (BitVec.ofNat 32 p.val).toInt = (p.val : Int) then _ else 0) = _
      rw [if_pos (toInt_ofNat_small _ p.isLt)]
      refine congrArg (fun k => h (ix2 k f)) (Fin.ext ?_)
      show min (wrapWord (BitVec.ofNat 32 s.val)).toInt.toNat (1024 - 1) = s.val
      rw [wrapWord_small _ s.isLt, toInt_ofNat_small _ s.isLt]
      have := s.isLt
      simp only [Int.toNat_natCast]
      omega
  · intro p' _ hp'
    by_cases hA : A (ix2 s p') = 0#32
    · rw [if_pos hA]
    · rw [if_neg hA]
      show (if (BitVec.ofNat 32 p'.val).toInt = (p.val : Int) then _ else 0) = 0
      rw [if_neg]
      rw [toInt_ofNat_small _ p'.isLt]
      intro hc
      exact hp' (Fin.ext (by exact_mod_cast hc))
  · intro hp; exact absurd (Finset.mem_univ p) hp

end Cert.ReferenceIdeal.Stages

end
-- ==== Proof.RefRead.lean ====
/-
  The reference's result is the specification: entry (p, q) of `refOut` is (Σ_k summed(p,k) · W1(k,q) + b1(q)) + x(p,q).

  Each graph convolution is, by the enumeration law, the clamped sum of the transformed features over the
  sources of the nonzero adjacency words; the two directions sit side by side in the 128 hidden units; the sum
  over the two views starts from 0; and the second clamp is the identity on a sum of two clamped values.
-/
import proofs.«121984_g44616120271338_cont_sun_m_526_12_alg».proof.Proof.RefReadLayout
import proofs.«121984_g44616120271338_cont_sun_m_526_12_alg».proof.Proof.RefReadGnn

noncomputable section

namespace Cert.ReferenceIdeal.Stages

open Idealize.ShloMosaic Idealize.ShloMosaic.ValueIdx Cert.ReferenceIdeal
open scoped BigOperators

attribute [local irreducible] nzRow nzCol gnn

/-- View 0's convolution is the clamped aggregate of view 0's features. -/
theorem gnn_agg0 (a : IVec S2x1024x1024 32) (x : FVec Ideal S1024x128 .f32) (W : FVec Ideal S2x128x64 .f32)
    (b : FVec Ideal S2x64 .f32) (hnz : NzLaw (view0 a)) (p : Fin 1024) (f : Fin 64) :
    gnn (view0 a) (feat0 x W b) (ix2 p f) = max (Cert.BiGnn.agg a (Cert.BiGnn.feat x W b 0) 0 p f) 0 := by
  refine (gnn_apply_of _ _ p f hnz).trans ?_
  unfold Cert.BiGnn.agg
  refine congrArg (max · 0) (Finset.sum_congr rfl fun s _ => ?_)
  rw [view0_apply, feat0_apply]

/-- View 1's convolution is the clamped aggregate of view 1's features. -/
theorem gnn_agg1 (a : IVec S2x1024x1024 32) (x : FVec Ideal S1024x128 .f32) (W : FVec Ideal S2x128x64 .f32)
    (b : FVec Ideal S2x64 .f32) (hnz : NzLaw (view1 a)) (p : Fin 1024) (f : Fin 64) :
    gnn (view1 a) (feat1 x W b) (ix2 p f) = max (Cert.BiGnn.agg a (Cert.BiGnn.feat x W b 1) 1 p f) 0 := by
  refine (gnn_apply_of _ _ p f hnz).trans ?_
  unfold Cert.BiGnn.agg
  refine congrArg (max · 0) (Finset.sum_congr rfl fun s _ => ?_)
  rw [view1_apply, feat1_apply]

/-- A direction's sum of two clamped aggregates is not negative. -/
theorem dirSum_nonneg (A : IVec S2x1024x1024 32) (x : FVec Ideal S1024x128 .f32) (W : FVec Ideal S2x128x64 .f32)
    (b : FVec Ideal S2x64 .f32) (p : Fin 1024) (f : Fin 64) : 0 ≤ Cert.BiGnn.dirSum A x W b p f :=
  add_nonneg (le_max_right _ _) (le_max_right _ _)

/-- The reference's result array is the specification's. -/
theorem refOut_eq_G (x : FVec Ideal S1024x128 .f32) (afw abw : IVec S2x1024x1024 32) (Wfw : FVec Ideal S2x128x64 .f32)
    (bfw : FVec Ideal S2x64 .f32) (Wbw : FVec Ideal S2x128x64 .f32) (bbw : FVec Ideal S2x64 .f32)
    (W1 : FVec Ideal S128x128 .f32) (b1 : FVec Ideal S128 .f32) (hnz : ∀ A : IVec S1024x1024 32, NzLaw A) :
    refOut (F := Ideal) x afw abw Wfw bfw Wbw bbw W1 b1 = Cert.BiGnn.G x afw abw Wfw bfw Wbw bbw W1 b1 := by
  funext j
  obtain ⟨p, q, rfl⟩ : ∃ (p : Fin 1024) (q : Fin 128), j = ix2 p q := ⟨j 0, j 1, eq_ix2 j⟩
  rw [Cert.BiGnn.G_ix2]
  unfold refOut Cert.BiGnn.Gat
  rw [outLayer_apply]
  refine congrArg (· + x (ix2 p q)) (congrArg (· + b1 (ix1 q)) ?_)
  refine Finset.sum_congr rfl fun k _ => congrArg (· * W1 (ix2 k q)) ?_
  rw [viewSum_apply, zero_add]
  unfold Cert.BiGnn.summed
  by_cases hk : k.val < 64
  · rw [dif_pos hk, viewOut_apply_left _ _ p k hk, viewOut_apply_left _ _ p k hk,
      gnn_agg0 abw x Wbw bbw (hnz _), gnn_agg1 abw x Wbw bbw (hnz _)]
    exact max_eq_left (dirSum_nonneg abw x Wbw bbw p _)
  · rw [dif_neg hk, viewOut_apply_right _ _ p k hk, viewOut_apply_right _ _ p k hk,
      gnn_agg0 afw x Wfw bfw (hnz _), gnn_agg1 afw x Wfw bfw (hnz _)]
    exact max_eq_left (dirSum_nonneg afw x Wfw bfw p _)

end Cert.ReferenceIdeal.Stages

end
-- ==== Proof.RefRunOps0.lean ====
/- GENERATED by: bun scratch/mkops.js proof/Proof — a TABLE: the operations of window 0 of the program's @main, in order, each callee's operations
   written at its call site over that call's buffer record, cut into consecutive pieces; and the references each piece writes. -/
import proofs.«121984_g44616120271338_cont_sun_m_526_12_alg».proof.Proof.RefStages
import Idealize.ShloMosaic.Lib.StableHlo.Run

noncomputable section

namespace Cert.ReferenceIdeal.Stages

open Idealize.ShloMosaic Idealize.ShloMosaic.TcCoe Idealize.SL.Sem Idealize.ShloMosaic.StableHlo Cert.ReferenceIdeal Cert.ReferenceIdeal.Facts₀

variable {F : FTy → Type} [FloatOps F]

abbrev pAm1 : List (HloOp τ sig (Elt F)) :=
  [ unary main_arg1 main_v0 ((extractStridedSlice S1x1024x1024 ![0, 0, 0] · slices_S2x1024x1024_S1x1024x1024_0_0_0) : (⟨S2x1024x1024, .i32⟩ : BufTy).Contents (Elt F) → (⟨S1x1024x1024, .i32⟩ : BufTy).Contents (Elt F)),
    reshape main_v0 main_v1 rfl shapeCasts_S1x1024x1024_S1024x1024,
    nullary main_c (constantI S_ 32 0#32),
    unary main_c main_v2 (broadcastInDim S1024x1024 ![] bcast_S_S1024x1024 : (⟨S_, .i32⟩ : BufTy).Contents (Elt F) → (⟨S1024x1024, .i32⟩ : BufTy).Contents (Elt F)),
    binary main_v1 main_v2 main_v3 (cmpi .ne : (⟨S1024x1024, .i32⟩ : BufTy).Contents (Elt F) → (⟨S1024x1024, .i32⟩ : BufTy).Contents (Elt F) → (⟨S1024x1024, .i1⟩ : BufTy).Contents (Elt F)) ]

abbrev pAm1_W : List (Ref sig .tc) := [main_v0, main_v1, main_c, main_v2, main_v3]

abbrev pAu1 : List (HloOp τ sig (Elt F)) :=
  [ TRef.reshape (.of main_v3 : TRef sig ⟨S1024x1024, .i1⟩) main_call0.v0 rfl shapeCasts_S1024x1024_S1048576,
    TRef.unary main_call0.v0 main_call0.v1 (extui 32 · natLt_1_32),
    TRef.nullary main_call0.call0.c (constantI S_ 32 0#32),
    TRef.unary main_call0.call0.c main_call0.call0.v0 (broadcastInDim S_ ![] bcast_S_S_),
    TRef.binary (main_call0.v1 : TRef sig ⟨S1048576, .i32⟩) main_call0.call0.v0 main_call0.call0.v1 (fun x v => Host.reduceWindow IntOp.addi ![1048576] ![1] ![1048575] ![0] x v reduceWindows_S1048576_S1048576_w1048576s1p1048575_0 h_S_) ]

abbrev pAu1_W : List (Ref sig .tc) := [main_call0_v0, main_call0_v1, main_call0_call0_c, main_call0_call0_v0, main_v4]

abbrev pAl1 : List (HloOp τ sig (Elt F)) :=
  [ nullary main_c_0 (constantI S_ 32 0#32),
    unary main_c_0 main_v5 (broadcastInDim S1048576 ![] bcast_S_S1048576 : (⟨S_, .i32⟩ : BufTy).Contents (Elt F) → (⟨S1048576, .i32⟩ : BufTy).Contents (Elt F)),
    nullary main_c_1 (constantI S_ 32 0#32),
    TRef.unary (.of main_c_1 : TRef sig ⟨S_, .i32⟩) main_call1.v0 id,
    TRef.unary main_call1.v0 main_call1.v1 (broadcastInDim S1048576 ![] bcast_S_S1048576),
    TRef.binary main_call1.v1 (.of main_v4 : TRef sig ⟨S1048576, .i32⟩) main_call1.v2 maxsi ]

abbrev pAl1_W : List (Ref sig .tc) := [main_c_0, main_v5, main_c_1, main_call1_v0, main_call1_v1, main_v6]

abbrev pAs1 : List (HloOp τ sig (Elt F)) :=
  [ nullary main_c_2 (constantI S_ 32 0#32),
    unary main_c_2 main_v7 (broadcastInDim S1048576 ![] bcast_S_S1048576 : (⟨S_, .i32⟩ : BufTy).Contents (Elt F) → (⟨S1048576, .i32⟩ : BufTy).Contents (Elt F)),
    binary main_v6 main_v7 main_v8 (cmpi .slt : (⟨S1048576, .i32⟩ : BufTy).Contents (Elt F) → (⟨S1048576, .i32⟩ : BufTy).Contents (Elt F) → (⟨S1048576, .i1⟩ : BufTy).Contents (Elt F)),
    nullary main_c_3 (constantI S_ 32 1048576#32),
    unary main_c_3 main_v9 (broadcastInDim S1048576 ![] bcast_S_S1048576 : (⟨S_, .i32⟩ : BufTy).Contents (Elt F) → (⟨S1048576, .i32⟩ : BufTy).Contents (Elt F)),
    binary main_v6 main_v9 main_v10 (addi : (⟨S1048576, .i32⟩ : BufTy).Contents (Elt F) → (⟨S1048576, .i32⟩ : BufTy).Contents (Elt F) → (⟨S1048576, .i32⟩ : BufTy).Contents (Elt F)),
    ternary main_v8 main_v10 main_v6 main_v11 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v11 main_v12 (broadcastInDim S1048576x1 ![0] bcast_S1048576_S1048576x1_0 : (⟨S1048576, .i32⟩ : BufTy).Contents (Elt F) → (⟨S1048576x1, .i32⟩ : BufTy).Contents (Elt F)),
    nullary main_c_4 (constantI S_ 32 1#32),
    unary main_c_4 main_v13 (broadcastInDim S1048576 ![] bcast_S_S1048576 : (⟨S_, .i32⟩ : BufTy).Contents (Elt F) → (⟨S1048576, .i32⟩ : BufTy).Contents (Elt F)),
    ternary main_v5 main_v12 main_v13 main_v14 ((fun x i u => Host.scatter scatter_S1048576_S1048576x1_S1048576_n_0_0_1 IntOp.addi x i u) : (⟨S1048576, .i32⟩ : BufTy).Contents (Elt F) → (⟨S1048576x1, .i32⟩ : BufTy).Contents (Elt F) → (⟨S1048576, .i32⟩ : BufTy).Contents (Elt F) → (⟨S1048576, .i32⟩ : BufTy).Contents (Elt F)) ]

abbrev pAs1_W : List (Ref sig .tc) := [main_c_2, main_v7, main_v8, main_c_3, main_v9, main_v10, main_v11, main_v12, main_c_4, main_v13, main_v14]

abbrev pAf1 : List (HloOp τ sig (Elt F)) :=
  [ TRef.nullary main_call2.call0.c (constantI S_ 32 0#32),
    TRef.unary main_call2.call0.c main_call2.call0.v0 (broadcastInDim S_ ![] bcast_S_S_),
    TRef.binary (.of main_v14 : TRef sig ⟨S1048576, .i32⟩) main_call2.call0.v0 main_call2.call0.v1 (fun x v => Host.reduceWindow IntOp.addi ![1048576] ![1] ![1048575] ![0] x v reduceWindows_S1048576_S1048576_w1048576s1p1048575_0 h_S_) ]

abbrev pAf1_W : List (Ref sig .tc) := [main_call2_call0_c, main_call2_call0_v0, main_v15]

abbrev pB1 : List (HloOp τ sig (Elt F)) :=
  [ nullary main_c_5 (constantI S_ 32 1024#32),
    TRef.unary (.of main_c_5 : TRef sig ⟨S_, .i32⟩) main_call3.v0 (broadcastInDim S1048576 ![] bcast_S_S1048576),
    TRef.binary (.of main_v15 : TRef sig ⟨S1048576, .i32⟩) main_call3.v0 main_call3.v1 Host.divsi,
    TRef.unary (.of main_v15 : TRef sig ⟨S1048576, .i32⟩) main_call3.v2 signi,
    TRef.unary (.of main_c_5 : TRef sig ⟨S_, .i32⟩) main_call3.v3 signi,
    TRef.unary main_call3.v3 main_call3.v4 (broadcastInDim S1048576 ![] bcast_S_S1048576),
    TRef.binary main_call3.v2 main_call3.v4 main_call3.v5 (cmpi .ne),
    TRef.unary (.of main_c_5 : TRef sig ⟨S_, .i32⟩) main_call3.v6 (broadcastInDim S1048576 ![] bcast_S_S1048576),
    TRef.binary (.of main_v15 : TRef sig ⟨S1048576, .i32⟩) main_call3.v6 main_call3.v7 Host.remsi,
    TRef.nullary main_call3.c (constantI S_ 32 0#32),
    TRef.unary main_call3.c main_call3.v8 (broadcastInDim S1048576 ![] bcast_S_S1048576),
    TRef.binary main_call3.v7 main_call3.v8 main_call3.v9 (cmpi .ne),
    TRef.binary main_call3.v5 main_call3.v9 main_call3.v10 andi,
    TRef.nullary main_call3.c_0 (constantI S_ 32 1#32),
    TRef.unary main_call3.c_0 main_call3.v11 (broadcastInDim S1048576 ![] bcast_S_S1048576),
    TRef.binary main_call3.v1 main_call3.v11 main_call3.v12 subi,
    TRef.ternary (main_call3.v10 : TRef sig ⟨S1048576, .i1⟩) (main_call3.v12 : TRef sig ⟨S1048576, .i32⟩) (main_call3.v1 : TRef sig ⟨S1048576, .i32⟩) main_call3.call0.v0 select,
    nullary main_c_6 (constantI S_ 32 1024#32),
    TRef.unary (.of main_c_6 : TRef sig ⟨S_, .i32⟩) main_call4.v0 id,
    TRef.nullary main_call4.c (constantI S_ 32 0#32),
    TRef.binary main_call4.v0 main_call4.c main_call4.v1 (cmpi .eq),
    TRef.nullary main_call4.c_0 (constantI S_ 32 1#32),
    TRef.ternary (main_call4.v1 : TRef sig ⟨S_, .i1⟩) (main_call4.c_0 : TRef sig ⟨S_, .i32⟩) (main_call4.v0 : TRef sig ⟨S_, .i32⟩) main_call4.call0.v0 select,
    TRef.unary main_call4.call0.v0 main_call4.v3 (broadcastInDim S1048576 ![] bcast_S_S1048576),
    TRef.binary (.of main_v16 : TRef sig ⟨S1048576, .i32⟩) main_call4.v3 main_call4.v4 Host.remsi,
    TRef.nullary main_call4.c_1 (constantI S_ 32 0#32),
    TRef.unary main_call4.c_1 main_call4.v5 (broadcastInDim S1048576 ![] bcast_S_S1048576),
    TRef.binary main_call4.v4 main_call4.v5 main_call4.v6 (cmpi .ne),
    TRef.nullary main_call4.c_2 (constantI S_ 32 0#32),
    TRef.unary main_call4.c_2 main_call4.v7 (broadcastInDim S1048576 ![] bcast_S_S1048576),
    TRef.binary main_call4.v4 main_call4.v7 main_call4.v8 (cmpi .slt),
    TRef.nullary main_call4.c_3 (constantI S_ 32 0#32),
    TRef.binary main_call4.call0.v0 main_call4.c_3 main_call4.v9 (cmpi .slt),
    TRef.unary main_call4.v9 main_call4.v10 (broadcastInDim S1048576 ![] bcast_S_S1048576),
    TRef.binary main_call4.v8 main_call4.v10 main_call4.v11 (cmpi .ne),
    TRef.binary main_call4.v11 main_call4.v6 main_call4.v12 andi,
    TRef.unary main_call4.call0.v0 main_call4.v13 (broadcastInDim S1048576 ![] bcast_S_S1048576),
    TRef.binary main_call4.v4 main_call4.v13 main_call4.v14 addi,
    TRef.ternary main_call4.v12 main_call4.v14 main_call4.v4 main_call4.v15 select ]

abbrev pB1_W : List (Ref sig .tc) := [main_c_5, main_call3_v0, main_call3_v1, main_call3_v2, main_call3_v3, main_call3_v4, main_call3_v5, main_call3_v6, main_call3_v7, main_call3_c, main_call3_v8, main_call3_v9, main_call3_v10, main_call3_c_0, main_call3_v11, main_call3_v12, main_v16, main_c_6, main_call4_v0, main_call4_c, main_call4_v1, main_call4_c_0, main_call4_v2, main_call4_v3, main_call4_v4, main_call4_c_1, main_call4_v5, main_call4_v6, main_call4_c_2, main_call4_v7, main_call4_v8, main_call4_c_3, main_call4_v9, main_call4_v10, main_call4_v11, main_call4_v12, main_call4_v13, main_call4_v14, main_v17]

abbrev pC1 : List (HloOp τ sig (Elt F)) :=
  [ nullary main_c_7 (constantI S_ 32 1#32),
    TRef.unary (.of main_c_7 : TRef sig ⟨S_, .i32⟩) main_call5.v0 (broadcastInDim S1048576 ![] bcast_S_S1048576),
    TRef.binary (.of main_v15 : TRef sig ⟨S1048576, .i32⟩) main_call5.v0 main_call5.v1 Host.divsi,
    TRef.unary (.of main_v15 : TRef sig ⟨S1048576, .i32⟩) main_call5.v2 signi,
    TRef.unary (.of main_c_7 : TRef sig ⟨S_, .i32⟩) main_call5.v3 signi,
    TRef.unary main_call5.v3 main_call5.v4 (broadcastInDim S1048576 ![] bcast_S_S1048576),
    TRef.binary main_call5.v2 main_call5.v4 main_call5.v5 (cmpi .ne),
    TRef.unary (.of main_c_7 : TRef sig ⟨S_, .i32⟩) main_call5.v6 (broadcastInDim S1048576 ![] bcast_S_S1048576),
    TRef.binary (.of main_v15 : TRef sig ⟨S1048576, .i32⟩) main_call5.v6 main_call5.v7 Host.remsi,
    TRef.nullary main_call5.c (constantI S_ 32 0#32),
    TRef.unary main_call5.c main_call5.v8 (broadcastInDim S1048576 ![] bcast_S_S1048576),
    TRef.binary main_call5.v7 main_call5.v8 main_call5.v9 (cmpi .ne),
    TRef.binary main_call5.v5 main_call5.v9 main_call5.v10 andi,
    TRef.nullary main_call5.c_0 (constantI S_ 32 1#32),
    TRef.unary main_call5.c_0 main_call5.v11 (broadcastInDim S1048576 ![] bcast_S_S1048576),
    TRef.binary main_call5.v1 main_call5.v11 main_call5.v12 subi,
    TRef.ternary (main_call5.v10 : TRef sig ⟨S1048576, .i1⟩) (main_call5.v12 : TRef sig ⟨S1048576, .i32⟩) (main_call5.v1 : TRef sig ⟨S1048576, .i32⟩) main_call5.call0.v0 select,
    nullary main_c_8 (constantI S_ 32 1024#32),
    TRef.unary (.of main_c_8 : TRef sig ⟨S_, .i32⟩) main_call6.v0 id,
    TRef.nullary main_call6.c (constantI S_ 32 0#32),
    TRef.binary main_call6.v0 main_call6.c main_call6.v1 (cmpi .eq),
    TRef.nullary main_call6.c_0 (constantI S_ 32 1#32),
    TRef.ternary (main_call6.v1 : TRef sig ⟨S_, .i1⟩) (main_call6.c_0 : TRef sig ⟨S_, .i32⟩) (main_call6.v0 : TRef sig ⟨S_, .i32⟩) main_call6.call0.v0 select,
    TRef.unary main_call6.call0.v0 main_call6.v3 (broadcastInDim S1048576 ![] bcast_S_S1048576),
    TRef.binary (.of main_v18 : TRef sig ⟨S1048576, .i32⟩) main_call6.v3 main_call6.v4 Host.remsi,
    TRef.nullary main_call6.c_1 (constantI S_ 32 0#32),
    TRef.unary main_call6.c_1 main_call6.v5 (broadcastInDim S1048576 ![] bcast_S_S1048576),
    TRef.binary main_call6.v4 main_call6.v5 main_call6.v6 (cmpi .ne),
    TRef.nullary main_call6.c_2 (constantI S_ 32 0#32),
    TRef.unary main_call6.c_2 main_call6.v7 (broadcastInDim S1048576 ![] bcast_S_S1048576),
    TRef.binary main_call6.v4 main_call6.v7 main_call6.v8 (cmpi .slt),
    TRef.nullary main_call6.c_3 (constantI S_ 32 0#32),
    TRef.binary main_call6.call0.v0 main_call6.c_3 main_call6.v9 (cmpi .slt),
    TRef.unary main_call6.v9 main_call6.v10 (broadcastInDim S1048576 ![] bcast_S_S1048576),
    TRef.binary main_call6.v8 main_call6.v10 main_call6.v11 (cmpi .ne),
    TRef.binary main_call6.v11 main_call6.v6 main_call6.v12 andi,
    TRef.unary main_call6.call0.v0 main_call6.v13 (broadcastInDim S1048576 ![] bcast_S_S1048576),
    TRef.binary main_call6.v4 main_call6.v13 main_call6.v14 addi,
    TRef.ternary main_call6.v12 main_call6.v14 main_call6.v4 main_call6.v15 select ]

abbrev pC1_W : List (Ref sig .tc) := [main_c_7, main_call5_v0, main_call5_v1, main_call5_v2, main_call5_v3, main_call5_v4, main_call5_v5, main_call5_v6, main_call5_v7, main_call5_c, main_call5_v8, main_call5_v9, main_call5_v10, main_call5_c_0, main_call5_v11, main_call5_v12, main_v18, main_c_8, main_call6_v0, main_call6_c, main_call6_v1, main_call6_c_0, main_call6_v2, main_call6_v3, main_call6_v4, main_call6_c_1, main_call6_v5, main_call6_v6, main_call6_c_2, main_call6_v7, main_call6_v8, main_call6_c_3, main_call6_v9, main_call6_v10, main_call6_v11, main_call6_v12, main_call6_v13, main_call6_v14, main_v19]

abbrev pDt1 : List (HloOp τ sig (Elt F)) :=
  [ nullary main_v20 (iotaInDim S1048576 32 0),
    unary main_v3 main_v21 ((extui 32 · natLt_1_32) : (⟨S1024x1024, .i1⟩ : BufTy).Contents (Elt F) → (⟨S1024x1024, .i32⟩ : BufTy).Contents (Elt F)),
    nullary main_c_9 (constantI S_ 32 0#32),
    binary main_v21 main_c_9 main_v22 ((fun x v => Host.reduce IntOp.addi x v reducesTo_S1024x1024_S_d0_1 h_S_) : (⟨S1024x1024, .i32⟩ : BufTy).Contents (Elt F) → (⟨S_, .i32⟩ : BufTy).Contents (Elt F) → (⟨S_, .i32⟩ : BufTy).Contents (Elt F)) ]

abbrev pDt1_W : List (Ref sig .tc) := [main_v20, main_v21, main_c_9, main_v22]

abbrev pDs1 : List (HloOp τ sig (Elt F)) :=
  [ unary main_v22 main_v23 (broadcastInDim S1048576 ![] bcast_S_S1048576 : (⟨S_, .i32⟩ : BufTy).Contents (Elt F) → (⟨S1048576, .i32⟩ : BufTy).Contents (Elt F)),
    binary main_v20 main_v23 main_v24 (cmpi .sge : (⟨S1048576, .i32⟩ : BufTy).Contents (Elt F) → (⟨S1048576, .i32⟩ : BufTy).Contents (Elt F) → (⟨S1048576, .i1⟩ : BufTy).Contents (Elt F)),
    nullary main_c_10 (constantI S_ 32 0#32),
    TRef.unary (.of main_c_10 : TRef sig ⟨S_, .i32⟩) main_call7.v0 id,
    TRef.unary main_call7.v0 main_call7.v1 (broadcastInDim S1048576 ![] bcast_S_S1048576),
    TRef.ternary (.of main_v24 : TRef sig ⟨S1048576, .i1⟩) main_call7.v1 (.of main_v17 : TRef sig ⟨S1048576, .i32⟩) main_call7.v2 select,
    nullary main_c_11 (constantI S_ 32 1024#32),
    TRef.unary (.of main_c_11 : TRef sig ⟨S_, .i32⟩) main_call8.v0 id,
    TRef.unary main_call8.v0 main_call8.v1 (broadcastInDim S1048576 ![] bcast_S_S1048576),
    TRef.ternary (.of main_v24 : TRef sig ⟨S1048576, .i1⟩) main_call8.v1 (.of main_v19 : TRef sig ⟨S1048576, .i32⟩) main_call8.v2 select ]

abbrev pDs1_W : List (Ref sig .tc) := [main_v23, main_v24, main_c_10, main_call7_v0, main_call7_v1, main_v25, main_c_11, main_call8_v0, main_call8_v1, main_v26]

abbrev pAm2 : List (HloOp τ sig (Elt F)) :=
  [ unary main_arg2 main_v27 ((extractStridedSlice S1x1024x1024 ![0, 0, 0] · slices_S2x1024x1024_S1x1024x1024_0_0_0) : (⟨S2x1024x1024, .i32⟩ : BufTy).Contents (Elt F) → (⟨S1x1024x1024, .i32⟩ : BufTy).Contents (Elt F)),
    reshape main_v27 main_v28 rfl shapeCasts_S1x1024x1024_S1024x1024,
    nullary main_c_12 (constantI S_ 32 0#32),
    unary main_c_12 main_v29 (broadcastInDim S1024x1024 ![] bcast_S_S1024x1024 : (⟨S_, .i32⟩ : BufTy).Contents (Elt F) → (⟨S1024x1024, .i32⟩ : BufTy).Contents (Elt F)),
    binary main_v28 main_v29 main_v30 (cmpi .ne : (⟨S1024x1024, .i32⟩ : BufTy).Contents (Elt F) → (⟨S1024x1024, .i32⟩ : BufTy).Contents (Elt F) → (⟨S1024x1024, .i1⟩ : BufTy).Contents (Elt F)) ]

abbrev pAm2_W : List (Ref sig .tc) := [main_v27, main_v28, main_c_12, main_v29, main_v30]

abbrev pAu2 : List (HloOp τ sig (Elt F)) :=
  [ TRef.reshape (.of main_v30 : TRef sig ⟨S1024x1024, .i1⟩) main_call9.v0 rfl shapeCasts_S1024x1024_S1048576,
    TRef.unary main_call9.v0 main_call9.v1 (extui 32 · natLt_1_32),
    TRef.nullary main_call9.call0.c (constantI S_ 32 0#32),
    TRef.unary main_call9.call0.c main_call9.call0.v0 (broadcastInDim S_ ![] bcast_S_S_),
    TRef.binary (main_call9.v1 : TRef sig ⟨S1048576, .i32⟩) main_call9.call0.v0 main_call9.call0.v1 (fun x v => Host.reduceWindow IntOp.addi ![1048576] ![1] ![1048575] ![0] x v reduceWindows_S1048576_S1048576_w1048576s1p1048575_0 h_S_) ]

abbrev pAu2_W : List (Ref sig .tc) := [main_call9_v0, main_call9_v1, main_call9_call0_c, main_call9_call0_v0, main_v31]

abbrev pAl2 : List (HloOp τ sig (Elt F)) :=
  [ nullary main_c_13 (constantI S_ 32 0#32),
    unary main_c_13 main_v32 (broadcastInDim S1048576 ![] bcast_S_S1048576 : (⟨S_, .i32⟩ : BufTy).Contents (Elt F) → (⟨S1048576, .i32⟩ : BufTy).Contents (Elt F)),
    nullary main_c_14 (constantI S_ 32 0#32),
    TRef.unary (.of main_c_14 : TRef sig ⟨S_, .i32⟩) main_call10.v0 id,
    TRef.unary main_call10.v0 main_call10.v1 (broadcastInDim S1048576 ![] bcast_S_S1048576),
    TRef.binary main_call10.v1 (.of main_v31 : TRef sig ⟨S1048576, .i32⟩) main_call10.v2 maxsi ]

abbrev pAl2_W : List (Ref sig .tc) := [main_c_13, main_v32, main_c_14, main_call10_v0, main_call10_v1, main_v33]

abbrev pAs2a : List (HloOp τ sig (Elt F)) :=
  [ nullary main_c_15 (constantI S_ 32 0#32),
    unary main_c_15 main_v34 (broadcastInDim S1048576 ![] bcast_S_S1048576 : (⟨S_, .i32⟩ : BufTy).Contents (Elt F) → (⟨S1048576, .i32⟩ : BufTy).Contents (Elt F)),
    binary main_v33 main_v34 main_v35 (cmpi .slt : (⟨S1048576, .i32⟩ : BufTy).Contents (Elt F) → (⟨S1048576, .i32⟩ : BufTy).Contents (Elt F) → (⟨S1048576, .i1⟩ : BufTy).Contents (Elt F)),
    nullary main_c_16 (constantI S_ 32 1048576#32),
    unary main_c_16 main_v36 (broadcastInDim S1048576 ![] bcast_S_S1048576 : (⟨S_, .i32⟩ : BufTy).Contents (Elt F) → (⟨S1048576, .i32⟩ : BufTy).Contents (Elt F)),
    binary main_v33 main_v36 main_v37 (addi : (⟨S1048576, .i32⟩ : BufTy).Contents (Elt F) → (⟨S1048576, .i32⟩ : BufTy).Contents (Elt F) → (⟨S1048576, .i32⟩ : BufTy).Contents (Elt F)),
    ternary main_v35 main_v37 main_v33 main_v38 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v38 main_v39 (broadcastInDim S1048576x1 ![0] bcast_S1048576_S1048576x1_0 : (⟨S1048576, .i32⟩ : BufTy).Contents (Elt F) → (⟨S1048576x1, .i32⟩ : BufTy).Contents (Elt F)),
    nullary main_c_17 (constantI S_ 32 1#32),
    unary main_c_17 main_v40 (broadcastInDim S1048576 ![] bcast_S_S1048576 : (⟨S_, .i32⟩ : BufTy).Contents (Elt F) → (⟨S1048576, .i32⟩ : BufTy).Contents (Elt F)) ]

abbrev pAs2a_W : List (Ref sig .tc) := [main_c_15, main_v34, main_v35, main_c_16, main_v36, main_v37, main_v38, main_v39, main_c_17, main_v40]

end Cert.ReferenceIdeal.Stages

end
-- ==== Proof.RefRunEq0.lean ====
/-
  The first window of the reference's @main is the straight line of its operations: each outlined function's definition
  unfolded at its call over that call's buffers, and the sequencing reassociated, leaves one chain of host operations,
  which is the chain `seq` builds from the list.
-/
import proofs.«121984_g44616120271338_cont_sun_m_526_12_alg».proof.Proof.RefRunOps0

noncomputable section

namespace Cert.ReferenceIdeal.Stages

open Idealize.ShloMosaic Idealize.ShloMosaic.TcCoe Idealize.SL.Sem Idealize.ShloMosaic.StableHlo Cert.ReferenceIdeal Cert.ReferenceIdeal.Facts₀

variable {F : FTy → Type} [FloatOps F]

set_option maxRecDepth 8192 in
set_option maxHeartbeats 4000000 in
theorem main_part0_eq (c : Dev nD) :
    main_part0 (F := F) c = seq (pAm1 ++ pAu1 ++ pAl1 ++ pAs1 ++ pAf1 ++ pB1 ++ pC1 ++ pDt1 ++ pDs1 ++ pAm2 ++ pAu2 ++ pAl2 ++ pAs2a) := by
  simp only [main_part0, fn_cumsum.body, fn_cumsum_0.body, fn_cumsum_1.body, fn_clip.body, fn_floor_divide.body, fn_where.body,
    fn_remainder.body, fn_where_2.body, fn_where_3.body, bind_assoc, pure_bind]
  rfl

end Cert.ReferenceIdeal.Stages

end
-- ==== Proof.RefRunOps1.lean ====
/- GENERATED by: bun scratch/mkops.js proof/Proof — a TABLE: the operations of window 1 of the program's @main, in order, each callee's operations
   written at its call site over that call's buffer record, cut into consecutive pieces; and the references each piece writes. -/
import proofs.«121984_g44616120271338_cont_sun_m_526_12_alg».proof.Proof.RefStages
import Idealize.ShloMosaic.Lib.StableHlo.Run

noncomputable section

namespace Cert.ReferenceIdeal.Stages

open Idealize.ShloMosaic Idealize.ShloMosaic.TcCoe Idealize.SL.Sem Idealize.ShloMosaic.StableHlo Cert.ReferenceIdeal Cert.ReferenceIdeal.Facts₀

variable {F : FTy → Type} [FloatOps F]

abbrev pAs2b : List (HloOp τ sig (Elt F)) :=
  [ ternary main_v32 main_v39 main_v40 main_v41 ((fun x i u => Host.scatter scatter_S1048576_S1048576x1_S1048576_n_0_0_1 IntOp.addi x i u) : (⟨S1048576, .i32⟩ : BufTy).Contents (Elt F) → (⟨S1048576x1, .i32⟩ : BufTy).Contents (Elt F) → (⟨S1048576, .i32⟩ : BufTy).Contents (Elt F) → (⟨S1048576, .i32⟩ : BufTy).Contents (Elt F)) ]

abbrev pAs2b_W : List (Ref sig .tc) := [main_v41]

abbrev pAf2 : List (HloOp τ sig (Elt F)) :=
  [ TRef.nullary main_call11.call0.c (constantI S_ 32 0#32),
    TRef.unary main_call11.call0.c main_call11.call0.v0 (broadcastInDim S_ ![] bcast_S_S_),
    TRef.binary (.of main_v41 : TRef sig ⟨S1048576, .i32⟩) main_call11.call0.v0 main_call11.call0.v1 (fun x v => Host.reduceWindow IntOp.addi ![1048576] ![1] ![1048575] ![0] x v reduceWindows_S1048576_S1048576_w1048576s1p1048575_0 h_S_) ]

abbrev pAf2_W : List (Ref sig .tc) := [main_call11_call0_c, main_call11_call0_v0, main_v42]

abbrev pB2 : List (HloOp τ sig (Elt F)) :=
  [ nullary main_c_18 (constantI S_ 32 1024#32),
    TRef.unary (.of main_c_18 : TRef sig ⟨S_, .i32⟩) main_call12.v0 (broadcastInDim S1048576 ![] bcast_S_S1048576),
    TRef.binary (.of main_v42 : TRef sig ⟨S1048576, .i32⟩) main_call12.v0 main_call12.v1 Host.divsi,
    TRef.unary (.of main_v42 : TRef sig ⟨S1048576, .i32⟩) main_call12.v2 signi,
    TRef.unary (.of main_c_18 : TRef sig ⟨S_, .i32⟩) main_call12.v3 signi,
    TRef.unary main_call12.v3 main_call12.v4 (broadcastInDim S1048576 ![] bcast_S_S1048576),
    TRef.binary main_call12.v2 main_call12.v4 main_call12.v5 (cmpi .ne),
    TRef.unary (.of main_c_18 : TRef sig ⟨S_, .i32⟩) main_call12.v6 (broadcastInDim S1048576 ![] bcast_S_S1048576),
    TRef.binary (.of main_v42 : TRef sig ⟨S1048576, .i32⟩) main_call12.v6 main_call12.v7 Host.remsi,
    TRef.nullary main_call12.c (constantI S_ 32 0#32),
    TRef.unary main_call12.c main_call12.v8 (broadcastInDim S1048576 ![] bcast_S_S1048576),
    TRef.binary main_call12.v7 main_call12.v8 main_call12.v9 (cmpi .ne),
    TRef.binary main_call12.v5 main_call12.v9 main_call12.v10 andi,
    TRef.nullary main_call12.c_0 (constantI S_ 32 1#32),
    TRef.unary main_call12.c_0 main_call12.v11 (broadcastInDim S1048576 ![] bcast_S_S1048576),
    TRef.binary main_call12.v1 main_call12.v11 main_call12.v12 subi,
    TRef.ternary (main_call12.v10 : TRef sig ⟨S1048576, .i1⟩) (main_call12.v12 : TRef sig ⟨S1048576, .i32⟩) (main_call12.v1 : TRef sig ⟨S1048576, .i32⟩) main_call12.call0.v0 select,
    nullary main_c_19 (constantI S_ 32 1024#32),
    TRef.unary (.of main_c_19 : TRef sig ⟨S_, .i32⟩) main_call13.v0 id,
    TRef.nullary main_call13.c (constantI S_ 32 0#32),
    TRef.binary main_call13.v0 main_call13.c main_call13.v1 (cmpi .eq),
    TRef.nullary main_call13.c_0 (constantI S_ 32 1#32),
    TRef.ternary (main_call13.v1 : TRef sig ⟨S_, .i1⟩) (main_call13.c_0 : TRef sig ⟨S_, .i32⟩) (main_call13.v0 : TRef sig ⟨S_, .i32⟩) main_call13.call0.v0 select,
    TRef.unary main_call13.call0.v0 main_call13.v3 (broadcastInDim S1048576 ![] bcast_S_S1048576),
    TRef.binary (.of main_v43 : TRef sig ⟨S1048576, .i32⟩) main_call13.v3 main_call13.v4 Host.remsi,
    TRef.nullary main_call13.c_1 (constantI S_ 32 0#32),
    TRef.unary main_call13.c_1 main_call13.v5 (broadcastInDim S1048576 ![] bcast_S_S1048576),
    TRef.binary main_call13.v4 main_call13.v5 main_call13.v6 (cmpi .ne),
    TRef.nullary main_call13.c_2 (constantI S_ 32 0#32),
    TRef.unary main_call13.c_2 main_call13.v7 (broadcastInDim S1048576 ![] bcast_S_S1048576),
    TRef.binary main_call13.v4 main_call13.v7 main_call13.v8 (cmpi .slt),
    TRef.nullary main_call13.c_3 (constantI S_ 32 0#32),
    TRef.binary main_call13.call0.v0 main_call13.c_3 main_call13.v9 (cmpi .slt),
    TRef.unary main_call13.v9 main_call13.v10 (broadcastInDim S1048576 ![] bcast_S_S1048576),
    TRef.binary main_call13.v8 main_call13.v10 main_call13.v11 (cmpi .ne),
    TRef.binary main_call13.v11 main_call13.v6 main_call13.v12 andi,
    TRef.unary main_call13.call0.v0 main_call13.v13 (broadcastInDim S1048576 ![] bcast_S_S1048576),
    TRef.binary main_call13.v4 main_call13.v13 main_call13.v14 addi,
    TRef.ternary main_call13.v12 main_call13.v14 main_call13.v4 main_call13.v15 select ]

abbrev pB2_W : List (Ref sig .tc) := [main_c_18, main_call12_v0, main_call12_v1, main_call12_v2, main_call12_v3, main_call12_v4, main_call12_v5, main_call12_v6, main_call12_v7, main_call12_c, main_call12_v8, main_call12_v9, main_call12_v10, main_call12_c_0, main_call12_v11, main_call12_v12, main_v43, main_c_19, main_call13_v0, main_call13_c, main_call13_v1, main_call13_c_0, main_call13_v2, main_call13_v3, main_call13_v4, main_call13_c_1, main_call13_v5, main_call13_v6, main_call13_c_2, main_call13_v7, main_call13_v8, main_call13_c_3, main_call13_v9, main_call13_v10, main_call13_v11, main_call13_v12, main_call13_v13, main_call13_v14, main_v44]

abbrev pC2 : List (HloOp τ sig (Elt F)) :=
  [ nullary main_c_20 (constantI S_ 32 1#32),
    TRef.unary (.of main_c_20 : TRef sig ⟨S_, .i32⟩) main_call14.v0 (broadcastInDim S1048576 ![] bcast_S_S1048576),
    TRef.binary (.of main_v42 : TRef sig ⟨S1048576, .i32⟩) main_call14.v0 main_call14.v1 Host.divsi,
    TRef.unary (.of main_v42 : TRef sig ⟨S1048576, .i32⟩) main_call14.v2 signi,
    TRef.unary (.of main_c_20 : TRef sig ⟨S_, .i32⟩) main_call14.v3 signi,
    TRef.unary main_call14.v3 main_call14.v4 (broadcastInDim S1048576 ![] bcast_S_S1048576),
    TRef.binary main_call14.v2 main_call14.v4 main_call14.v5 (cmpi .ne),
    TRef.unary (.of main_c_20 : TRef sig ⟨S_, .i32⟩) main_call14.v6 (broadcastInDim S1048576 ![] bcast_S_S1048576),
    TRef.binary (.of main_v42 : TRef sig ⟨S1048576, .i32⟩) main_call14.v6 main_call14.v7 Host.remsi,
    TRef.nullary main_call14.c (constantI S_ 32 0#32),
    TRef.unary main_call14.c main_call14.v8 (broadcastInDim S1048576 ![] bcast_S_S1048576),
    TRef.binary main_call14.v7 main_call14.v8 main_call14.v9 (cmpi .ne),
    TRef.binary main_call14.v5 main_call14.v9 main_call14.v10 andi,
    TRef.nullary main_call14.c_0 (constantI S_ 32 1#32),
    TRef.unary main_call14.c_0 main_call14.v11 (broadcastInDim S1048576 ![] bcast_S_S1048576),
    TRef.binary main_call14.v1 main_call14.v11 main_call14.v12 subi,
    TRef.ternary (main_call14.v10 : TRef sig ⟨S1048576, .i1⟩) (main_call14.v12 : TRef sig ⟨S1048576, .i32⟩) (main_call14.v1 : TRef sig ⟨S1048576, .i32⟩) main_call14.call0.v0 select,
    nullary main_c_21 (constantI S_ 32 1024#32),
    TRef.unary (.of main_c_21 : TRef sig ⟨S_, .i32⟩) main_call15.v0 id,
    TRef.nullary main_call15.c (constantI S_ 32 0#32),
    TRef.binary main_call15.v0 main_call15.c main_call15.v1 (cmpi .eq),
    TRef.nullary main_call15.c_0 (constantI S_ 32 1#32),
    TRef.ternary (main_call15.v1 : TRef sig ⟨S_, .i1⟩) (main_call15.c_0 : TRef sig ⟨S_, .i32⟩) (main_call15.v0 : TRef sig ⟨S_, .i32⟩) main_call15.call0.v0 select,
    TRef.unary main_call15.call0.v0 main_call15.v3 (broadcastInDim S1048576 ![] bcast_S_S1048576),
    TRef.binary (.of main_v45 : TRef sig ⟨S1048576, .i32⟩) main_call15.v3 main_call15.v4 Host.remsi,
    TRef.nullary main_call15.c_1 (constantI S_ 32 0#32),
    TRef.unary main_call15.c_1 main_call15.v5 (broadcastInDim S1048576 ![] bcast_S_S1048576),
    TRef.binary main_call15.v4 main_call15.v5 main_call15.v6 (cmpi .ne),
    TRef.nullary main_call15.c_2 (constantI S_ 32 0#32),
    TRef.unary main_call15.c_2 main_call15.v7 (broadcastInDim S1048576 ![] bcast_S_S1048576),
    TRef.binary main_call15.v4 main_call15.v7 main_call15.v8 (cmpi .slt),
    TRef.nullary main_call15.c_3 (constantI S_ 32 0#32),
    TRef.binary main_call15.call0.v0 main_call15.c_3 main_call15.v9 (cmpi .slt),
    TRef.unary main_call15.v9 main_call15.v10 (broadcastInDim S1048576 ![] bcast_S_S1048576),
    TRef.binary main_call15.v8 main_call15.v10 main_call15.v11 (cmpi .ne),
    TRef.binary main_call15.v11 main_call15.v6 main_call15.v12 andi,
    TRef.unary main_call15.call0.v0 main_call15.v13 (broadcastInDim S1048576 ![] bcast_S_S1048576),
    TRef.binary main_call15.v4 main_call15.v13 main_call15.v14 addi,
    TRef.ternary main_call15.v12 main_call15.v14 main_call15.v4 main_call15.v15 select ]

abbrev pC2_W : List (Ref sig .tc) := [main_c_20, main_call14_v0, main_call14_v1, main_call14_v2, main_call14_v3, main_call14_v4, main_call14_v5, main_call14_v6, main_call14_v7, main_call14_c, main_call14_v8, main_call14_v9, main_call14_v10, main_call14_c_0, main_call14_v11, main_call14_v12, main_v45, main_c_21, main_call15_v0, main_call15_c, main_call15_v1, main_call15_c_0, main_call15_v2, main_call15_v3, main_call15_v4, main_call15_c_1, main_call15_v5, main_call15_v6, main_call15_c_2, main_call15_v7, main_call15_v8, main_call15_c_3, main_call15_v9, main_call15_v10, main_call15_v11, main_call15_v12, main_call15_v13, main_call15_v14, main_v46]

abbrev pDt2 : List (HloOp τ sig (Elt F)) :=
  [ nullary main_v47 (iotaInDim S1048576 32 0),
    unary main_v30 main_v48 ((extui 32 · natLt_1_32) : (⟨S1024x1024, .i1⟩ : BufTy).Contents (Elt F) → (⟨S1024x1024, .i32⟩ : BufTy).Contents (Elt F)),
    nullary main_c_22 (constantI S_ 32 0#32),
    binary main_v48 main_c_22 main_v49 ((fun x v => Host.reduce IntOp.addi x v reducesTo_S1024x1024_S_d0_1 h_S_) : (⟨S1024x1024, .i32⟩ : BufTy).Contents (Elt F) → (⟨S_, .i32⟩ : BufTy).Contents (Elt F) → (⟨S_, .i32⟩ : BufTy).Contents (Elt F)) ]

abbrev pDt2_W : List (Ref sig .tc) := [main_v47, main_v48, main_c_22, main_v49]

abbrev pDs2 : List (HloOp τ sig (Elt F)) :=
  [ unary main_v49 main_v50 (broadcastInDim S1048576 ![] bcast_S_S1048576 : (⟨S_, .i32⟩ : BufTy).Contents (Elt F) → (⟨S1048576, .i32⟩ : BufTy).Contents (Elt F)),
    binary main_v47 main_v50 main_v51 (cmpi .sge : (⟨S1048576, .i32⟩ : BufTy).Contents (Elt F) → (⟨S1048576, .i32⟩ : BufTy).Contents (Elt F) → (⟨S1048576, .i1⟩ : BufTy).Contents (Elt F)),
    nullary main_c_23 (constantI S_ 32 0#32),
    TRef.unary (.of main_c_23 : TRef sig ⟨S_, .i32⟩) main_call16.v0 id,
    TRef.unary main_call16.v0 main_call16.v1 (broadcastInDim S1048576 ![] bcast_S_S1048576),
    TRef.ternary (.of main_v51 : TRef sig ⟨S1048576, .i1⟩) main_call16.v1 (.of main_v44 : TRef sig ⟨S1048576, .i32⟩) main_call16.v2 select,
    nullary main_c_24 (constantI S_ 32 1024#32),
    TRef.unary (.of main_c_24 : TRef sig ⟨S_, .i32⟩) main_call17.v0 id,
    TRef.unary main_call17.v0 main_call17.v1 (broadcastInDim S1048576 ![] bcast_S_S1048576),
    TRef.ternary (.of main_v51 : TRef sig ⟨S1048576, .i1⟩) main_call17.v1 (.of main_v46 : TRef sig ⟨S1048576, .i32⟩) main_call17.v2 select ]

abbrev pDs2_W : List (Ref sig .tc) := [main_v50, main_v51, main_c_23, main_call16_v0, main_call16_v1, main_v52, main_c_24, main_call17_v0, main_call17_v1, main_v53]

abbrev pGd1 : List (HloOp τ sig (Elt F)) :=
  [ unary main_arg3 main_v54 ((extractStridedSlice S1x128x64 ![0, 0, 0] · slices_S2x128x64_S1x128x64_0_0_0) : (⟨S2x128x64, .f32⟩ : BufTy).Contents (Elt F) → (⟨S1x128x64, .f32⟩ : BufTy).Contents (Elt F)),
    reshape main_v54 main_v55 rfl shapeCasts_S1x128x64_S128x64,
    unary main_arg4 main_v56 ((extractStridedSlice S1x64 ![0, 0] · slices_S2x64_S1x64_0_0) : (⟨S2x64, .f32⟩ : BufTy).Contents (Elt F) → (⟨S1x64, .f32⟩ : BufTy).Contents (Elt F)),
    reshape main_v56 main_v57 rfl shapeCasts_S1x64_S64,
    binary main_arg0 main_v55 main_v58 ((fun l r => Host.dotGeneral dot_S1024x128_S128x64_S1024x64_1_0_0_1_n_n none l r) : (⟨S1024x128, .f32⟩ : BufTy).Contents (Elt F) → (⟨S128x64, .f32⟩ : BufTy).Contents (Elt F) → (⟨S1024x64, .f32⟩ : BufTy).Contents (Elt F)) ]

abbrev pGd1_W : List (Ref sig .tc) := [main_v54, main_v55, main_v56, main_v57, main_v58]

abbrev pGg1 : List (HloOp τ sig (Elt F)) :=
  [ unary main_v57 main_v59 (broadcastInDim S1x64 ![1] bcast_S64_S1x64_1 : (⟨S64, .f32⟩ : BufTy).Contents (Elt F) → (⟨S1x64, .f32⟩ : BufTy).Contents (Elt F)),
    unary main_v59 main_v60 (broadcastInDim S1024x64 ![0, 1] bcast_S1x64_S1024x64_0_1 : (⟨S1x64, .f32⟩ : BufTy).Contents (Elt F) → (⟨S1024x64, .f32⟩ : BufTy).Contents (Elt F)),
    binary main_v58 main_v60 main_v61 (addf : (⟨S1024x64, .f32⟩ : BufTy).Contents (Elt F) → (⟨S1024x64, .f32⟩ : BufTy).Contents (Elt F) → (⟨S1024x64, .f32⟩ : BufTy).Contents (Elt F)),
    nullary main_c_25 (constantI S_ 32 0#32),
    unary main_c_25 main_v62 (broadcastInDim S1048576 ![] bcast_S_S1048576 : (⟨S_, .i32⟩ : BufTy).Contents (Elt F) → (⟨S1048576, .i32⟩ : BufTy).Contents (Elt F)),
    binary main_v25 main_v62 main_v63 (cmpi .slt : (⟨S1048576, .i32⟩ : BufTy).Contents (Elt F) → (⟨S1048576, .i32⟩ : BufTy).Contents (Elt F) → (⟨S1048576, .i1⟩ : BufTy).Contents (Elt F)),
    nullary main_c_26 (constantI S_ 32 1024#32),
    unary main_c_26 main_v64 (broadcastInDim S1048576 ![] bcast_S_S1048576 : (⟨S_, .i32⟩ : BufTy).Contents (Elt F) → (⟨S1048576, .i32⟩ : BufTy).Contents (Elt F)),
    binary main_v25 main_v64 main_v65 (addi : (⟨S1048576, .i32⟩ : BufTy).Contents (Elt F) → (⟨S1048576, .i32⟩ : BufTy).Contents (Elt F) → (⟨S1048576, .i32⟩ : BufTy).Contents (Elt F)),
    ternary main_v63 main_v65 main_v25 main_v66 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v66 main_v67 (broadcastInDim S1048576x1 ![0] bcast_S1048576_S1048576x1_0 : (⟨S1048576, .i32⟩ : BufTy).Contents (Elt F) → (⟨S1048576x1, .i32⟩ : BufTy).Contents (Elt F)),
    binary main_v61 main_v67 main_v68 ((fun x i => Host.gather gather_S1024x64_S1048576x1_S1048576x64_1_0_n_n_0_1_164 x i) : (⟨S1024x64, .f32⟩ : BufTy).Contents (Elt F) → (⟨S1048576x1, .i32⟩ : BufTy).Contents (Elt F) → (⟨S1048576x64, .f32⟩ : BufTy).Contents (Elt F)) ]

abbrev pGg1_W : List (Ref sig .tc) := [main_v59, main_v60, main_v61, main_c_25, main_v62, main_v63, main_c_26, main_v64, main_v65, main_v66, main_v67, main_v68]

abbrev pGs1 : List (HloOp τ sig (Elt F)) :=
  [ nullary main_cst (constant S_ .f32 0x00000000#32),
    unary main_cst main_v69 (broadcastInDim S1024x64 ![] bcast_S_S1024x64 : (⟨S_, .f32⟩ : BufTy).Contents (Elt F) → (⟨S1024x64, .f32⟩ : BufTy).Contents (Elt F)),
    unary main_v26 main_v70 (broadcastInDim S1048576x1 ![0] bcast_S1048576_S1048576x1_0 : (⟨S1048576, .i32⟩ : BufTy).Contents (Elt F) → (⟨S1048576x1, .i32⟩ : BufTy).Contents (Elt F)),
    ternary main_v69 main_v70 main_v68 main_v71 ((fun x i u => Host.scatterAdd scatter_S1024x64_S1048576x1_S1048576x64_1_0_0_1 x i u) : (⟨S1024x64, .f32⟩ : BufTy).Contents (Elt F) → (⟨S1048576x1, .i32⟩ : BufTy).Contents (Elt F) → (⟨S1048576x64, .f32⟩ : BufTy).Contents (Elt F) → (⟨S1024x64, .f32⟩ : BufTy).Contents (Elt F)) ]

abbrev pGs1_W : List (Ref sig .tc) := [main_cst, main_v69, main_v70, main_v71]

abbrev pGr1 : List (HloOp τ sig (Elt F)) :=
  [ TRef.nullary main_call18.cst (constant S_ .f32 0x00000000#32),
    TRef.unary main_call18.cst main_call18.v0 (broadcastInDim S1024x64 ![] bcast_S_S1024x64),
    TRef.binary (.of main_v71 : TRef sig ⟨S1024x64, .f32⟩) main_call18.v0 main_call18.v1 maximumf ]

abbrev pGr1_W : List (Ref sig .tc) := [main_call18_cst, main_call18_v0, main_v72]

abbrev pGd2 : List (HloOp τ sig (Elt F)) :=
  [ unary main_arg5 main_v73 ((extractStridedSlice S1x128x64 ![0, 0, 0] · slices_S2x128x64_S1x128x64_0_0_0) : (⟨S2x128x64, .f32⟩ : BufTy).Contents (Elt F) → (⟨S1x128x64, .f32⟩ : BufTy).Contents (Elt F)),
    reshape main_v73 main_v74 rfl shapeCasts_S1x128x64_S128x64,
    unary main_arg6 main_v75 ((extractStridedSlice S1x64 ![0, 0] · slices_S2x64_S1x64_0_0) : (⟨S2x64, .f32⟩ : BufTy).Contents (Elt F) → (⟨S1x64, .f32⟩ : BufTy).Contents (Elt F)),
    reshape main_v75 main_v76 rfl shapeCasts_S1x64_S64,
    binary main_arg0 main_v74 main_v77 ((fun l r => Host.dotGeneral dot_S1024x128_S128x64_S1024x64_1_0_0_1_n_n none l r) : (⟨S1024x128, .f32⟩ : BufTy).Contents (Elt F) → (⟨S128x64, .f32⟩ : BufTy).Contents (Elt F) → (⟨S1024x64, .f32⟩ : BufTy).Contents (Elt F)) ]

abbrev pGd2_W : List (Ref sig .tc) := [main_v73, main_v74, main_v75, main_v76, main_v77]

abbrev pGg2 : List (HloOp τ sig (Elt F)) :=
  [ unary main_v76 main_v78 (broadcastInDim S1x64 ![1] bcast_S64_S1x64_1 : (⟨S64, .f32⟩ : BufTy).Contents (Elt F) → (⟨S1x64, .f32⟩ : BufTy).Contents (Elt F)),
    unary main_v78 main_v79 (broadcastInDim S1024x64 ![0, 1] bcast_S1x64_S1024x64_0_1 : (⟨S1x64, .f32⟩ : BufTy).Contents (Elt F) → (⟨S1024x64, .f32⟩ : BufTy).Contents (Elt F)),
    binary main_v77 main_v79 main_v80 (addf : (⟨S1024x64, .f32⟩ : BufTy).Contents (Elt F) → (⟨S1024x64, .f32⟩ : BufTy).Contents (Elt F) → (⟨S1024x64, .f32⟩ : BufTy).Contents (Elt F)),
    nullary main_c_27 (constantI S_ 32 0#32),
    unary main_c_27 main_v81 (broadcastInDim S1048576 ![] bcast_S_S1048576 : (⟨S_, .i32⟩ : BufTy).Contents (Elt F) → (⟨S1048576, .i32⟩ : BufTy).Contents (Elt F)),
    binary main_v52 main_v81 main_v82 (cmpi .slt : (⟨S1048576, .i32⟩ : BufTy).Contents (Elt F) → (⟨S1048576, .i32⟩ : BufTy).Contents (Elt F) → (⟨S1048576, .i1⟩ : BufTy).Contents (Elt F)),
    nullary main_c_28 (constantI S_ 32 1024#32),
    unary main_c_28 main_v83 (broadcastInDim S1048576 ![] bcast_S_S1048576 : (⟨S_, .i32⟩ : BufTy).Contents (Elt F) → (⟨S1048576, .i32⟩ : BufTy).Contents (Elt F)),
    binary main_v52 main_v83 main_v84 (addi : (⟨S1048576, .i32⟩ : BufTy).Contents (Elt F) → (⟨S1048576, .i32⟩ : BufTy).Contents (Elt F) → (⟨S1048576, .i32⟩ : BufTy).Contents (Elt F)),
    ternary main_v82 main_v84 main_v52 main_v85 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v85 main_v86 (broadcastInDim S1048576x1 ![0] bcast_S1048576_S1048576x1_0 : (⟨S1048576, .i32⟩ : BufTy).Contents (Elt F) → (⟨S1048576x1, .i32⟩ : BufTy).Contents (Elt F)),
    binary main_v80 main_v86 main_v87 ((fun x i => Host.gather gather_S1024x64_S1048576x1_S1048576x64_1_0_n_n_0_1_164 x i) : (⟨S1024x64, .f32⟩ : BufTy).Contents (Elt F) → (⟨S1048576x1, .i32⟩ : BufTy).Contents (Elt F) → (⟨S1048576x64, .f32⟩ : BufTy).Contents (Elt F)) ]

abbrev pGg2_W : List (Ref sig .tc) := [main_v78, main_v79, main_v80, main_c_27, main_v81, main_v82, main_c_28, main_v83, main_v84, main_v85, main_v86, main_v87]

abbrev pGs2a : List (HloOp τ sig (Elt F)) :=
  [ nullary main_cst_29 (constant S_ .f32 0x00000000#32) ]

abbrev pGs2a_W : List (Ref sig .tc) := [main_cst_29]

end Cert.ReferenceIdeal.Stages

end
-- ==== Proof.RefRunEq1.lean ====
/-
  The second window of the reference's @main is the straight line of its operations: each outlined function's definition
  unfolded at its call over that call's buffers, and the sequencing reassociated, leaves one chain of host operations,
  which is the chain `seq` builds from the list.
-/
import proofs.«121984_g44616120271338_cont_sun_m_526_12_alg».proof.Proof.RefRunOps1

noncomputable section

namespace Cert.ReferenceIdeal.Stages

open Idealize.ShloMosaic Idealize.ShloMosaic.TcCoe Idealize.SL.Sem Idealize.ShloMosaic.StableHlo Cert.ReferenceIdeal Cert.ReferenceIdeal.Facts₀

variable {F : FTy → Type} [FloatOps F]

set_option maxRecDepth 8192 in
set_option maxHeartbeats 4000000 in
theorem main_part1_eq (c : Dev nD) :
    main_part1 (F := F) c = seq (pAs2b ++ pAf2 ++ pB2 ++ pC2 ++ pDt2 ++ pDs2 ++ pGd1 ++ pGg1 ++ pGs1 ++ pGr1 ++ pGd2 ++ pGg2 ++ pGs2a) := by
  simp only [main_part1, fn_cumsum.body, fn_cumsum_0.body, fn_cumsum_1.body, fn_clip.body, fn_floor_divide.body, fn_where.body,
    fn_remainder.body, fn_where_2.body, fn_where_3.body, fn_relu.body, fn_relu_4.body, bind_assoc, pure_bind]
  rfl

end Cert.ReferenceIdeal.Stages

end
-- ==== Proof.RefRunOps2.lean ====
/- GENERATED by: bun scratch/mkops.js proof/Proof — a TABLE: the operations of window 2 of the program's @main, in order, each callee's operations
   written at its call site over that call's buffer record, cut into consecutive pieces; and the references each piece writes. -/
import proofs.«121984_g44616120271338_cont_sun_m_526_12_alg».proof.Proof.RefStages
import Idealize.ShloMosaic.Lib.StableHlo.Run

noncomputable section

namespace Cert.ReferenceIdeal.Stages

open Idealize.ShloMosaic Idealize.ShloMosaic.TcCoe Idealize.SL.Sem Idealize.ShloMosaic.StableHlo Cert.ReferenceIdeal Cert.ReferenceIdeal.Facts₀

variable {F : FTy → Type} [FloatOps F]

abbrev pGs2b : List (HloOp τ sig (Elt F)) :=
  [ unary main_cst_29 main_v88 (broadcastInDim S1024x64 ![] bcast_S_S1024x64 : (⟨S_, .f32⟩ : BufTy).Contents (Elt F) → (⟨S1024x64, .f32⟩ : BufTy).Contents (Elt F)),
    unary main_v53 main_v89 (broadcastInDim S1048576x1 ![0] bcast_S1048576_S1048576x1_0 : (⟨S1048576, .i32⟩ : BufTy).Contents (Elt F) → (⟨S1048576x1, .i32⟩ : BufTy).Contents (Elt F)),
    ternary main_v88 main_v89 main_v87 main_v90 ((fun x i u => Host.scatterAdd scatter_S1024x64_S1048576x1_S1048576x64_1_0_0_1 x i u) : (⟨S1024x64, .f32⟩ : BufTy).Contents (Elt F) → (⟨S1048576x1, .i32⟩ : BufTy).Contents (Elt F) → (⟨S1048576x64, .f32⟩ : BufTy).Contents (Elt F) → (⟨S1024x64, .f32⟩ : BufTy).Contents (Elt F)) ]

abbrev pGs2b_W : List (Ref sig .tc) := [main_v88, main_v89, main_v90]

abbrev pGr2 : List (HloOp τ sig (Elt F)) :=
  [ TRef.nullary main_call19.cst (constant S_ .f32 0x00000000#32),
    TRef.unary main_call19.cst main_call19.v0 (broadcastInDim S1024x64 ![] bcast_S_S1024x64),
    TRef.binary (.of main_v90 : TRef sig ⟨S1024x64, .f32⟩) main_call19.v0 main_call19.v1 maximumf ]

abbrev pGr2_W : List (Ref sig .tc) := [main_call19_cst, main_call19_v0, main_v91]

abbrev pH : List (HloOp τ sig (Elt F)) :=
  [ binary main_v91 main_v72 main_v92 ((fun a b => concatenate S1024x128 1 [⟨S1024x64, a⟩, ⟨S1024x64, b⟩] concatenates_S1024x64_S1024x64_S1024x128_d1) : (⟨S1024x64, .f32⟩ : BufTy).Contents (Elt F) → (⟨S1024x64, .f32⟩ : BufTy).Contents (Elt F) → (⟨S1024x128, .f32⟩ : BufTy).Contents (Elt F)) ]

abbrev pH_W : List (Ref sig .tc) := [main_v92]

abbrev pAm3 : List (HloOp τ sig (Elt F)) :=
  [ unary main_arg1 main_v93 ((extractStridedSlice S1x1024x1024 ![1, 0, 0] · slices_S2x1024x1024_S1x1024x1024_1_0_0) : (⟨S2x1024x1024, .i32⟩ : BufTy).Contents (Elt F) → (⟨S1x1024x1024, .i32⟩ : BufTy).Contents (Elt F)),
    reshape main_v93 main_v94 rfl shapeCasts_S1x1024x1024_S1024x1024,
    nullary main_c_30 (constantI S_ 32 0#32),
    unary main_c_30 main_v95 (broadcastInDim S1024x1024 ![] bcast_S_S1024x1024 : (⟨S_, .i32⟩ : BufTy).Contents (Elt F) → (⟨S1024x1024, .i32⟩ : BufTy).Contents (Elt F)),
    binary main_v94 main_v95 main_v96 (cmpi .ne : (⟨S1024x1024, .i32⟩ : BufTy).Contents (Elt F) → (⟨S1024x1024, .i32⟩ : BufTy).Contents (Elt F) → (⟨S1024x1024, .i1⟩ : BufTy).Contents (Elt F)) ]

abbrev pAm3_W : List (Ref sig .tc) := [main_v93, main_v94, main_c_30, main_v95, main_v96]

abbrev pAu3 : List (HloOp τ sig (Elt F)) :=
  [ TRef.reshape (.of main_v96 : TRef sig ⟨S1024x1024, .i1⟩) main_call20.v0 rfl shapeCasts_S1024x1024_S1048576,
    TRef.unary main_call20.v0 main_call20.v1 (extui 32 · natLt_1_32),
    TRef.nullary main_call20.call0.c (constantI S_ 32 0#32),
    TRef.unary main_call20.call0.c main_call20.call0.v0 (broadcastInDim S_ ![] bcast_S_S_),
    TRef.binary (main_call20.v1 : TRef sig ⟨S1048576, .i32⟩) main_call20.call0.v0 main_call20.call0.v1 (fun x v => Host.reduceWindow IntOp.addi ![1048576] ![1] ![1048575] ![0] x v reduceWindows_S1048576_S1048576_w1048576s1p1048575_0 h_S_) ]

abbrev pAu3_W : List (Ref sig .tc) := [main_call20_v0, main_call20_v1, main_call20_call0_c, main_call20_call0_v0, main_v97]

abbrev pAl3 : List (HloOp τ sig (Elt F)) :=
  [ nullary main_c_31 (constantI S_ 32 0#32),
    unary main_c_31 main_v98 (broadcastInDim S1048576 ![] bcast_S_S1048576 : (⟨S_, .i32⟩ : BufTy).Contents (Elt F) → (⟨S1048576, .i32⟩ : BufTy).Contents (Elt F)),
    nullary main_c_32 (constantI S_ 32 0#32),
    TRef.unary (.of main_c_32 : TRef sig ⟨S_, .i32⟩) main_call21.v0 id,
    TRef.unary main_call21.v0 main_call21.v1 (broadcastInDim S1048576 ![] bcast_S_S1048576),
    TRef.binary main_call21.v1 (.of main_v97 : TRef sig ⟨S1048576, .i32⟩) main_call21.v2 maxsi ]

abbrev pAl3_W : List (Ref sig .tc) := [main_c_31, main_v98, main_c_32, main_call21_v0, main_call21_v1, main_v99]

abbrev pAs3 : List (HloOp τ sig (Elt F)) :=
  [ nullary main_c_33 (constantI S_ 32 0#32),
    unary main_c_33 main_v100 (broadcastInDim S1048576 ![] bcast_S_S1048576 : (⟨S_, .i32⟩ : BufTy).Contents (Elt F) → (⟨S1048576, .i32⟩ : BufTy).Contents (Elt F)),
    binary main_v99 main_v100 main_v101 (cmpi .slt : (⟨S1048576, .i32⟩ : BufTy).Contents (Elt F) → (⟨S1048576, .i32⟩ : BufTy).Contents (Elt F) → (⟨S1048576, .i1⟩ : BufTy).Contents (Elt F)),
    nullary main_c_34 (constantI S_ 32 1048576#32),
    unary main_c_34 main_v102 (broadcastInDim S1048576 ![] bcast_S_S1048576 : (⟨S_, .i32⟩ : BufTy).Contents (Elt F) → (⟨S1048576, .i32⟩ : BufTy).Contents (Elt F)),
    binary main_v99 main_v102 main_v103 (addi : (⟨S1048576, .i32⟩ : BufTy).Contents (Elt F) → (⟨S1048576, .i32⟩ : BufTy).Contents (Elt F) → (⟨S1048576, .i32⟩ : BufTy).Contents (Elt F)),
    ternary main_v101 main_v103 main_v99 main_v104 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v104 main_v105 (broadcastInDim S1048576x1 ![0] bcast_S1048576_S1048576x1_0 : (⟨S1048576, .i32⟩ : BufTy).Contents (Elt F) → (⟨S1048576x1, .i32⟩ : BufTy).Contents (Elt F)),
    nullary main_c_35 (constantI S_ 32 1#32),
    unary main_c_35 main_v106 (broadcastInDim S1048576 ![] bcast_S_S1048576 : (⟨S_, .i32⟩ : BufTy).Contents (Elt F) → (⟨S1048576, .i32⟩ : BufTy).Contents (Elt F)),
    ternary main_v98 main_v105 main_v106 main_v107 ((fun x i u => Host.scatter scatter_S1048576_S1048576x1_S1048576_n_0_0_1 IntOp.addi x i u) : (⟨S1048576, .i32⟩ : BufTy).Contents (Elt F) → (⟨S1048576x1, .i32⟩ : BufTy).Contents (Elt F) → (⟨S1048576, .i32⟩ : BufTy).Contents (Elt F) → (⟨S1048576, .i32⟩ : BufTy).Contents (Elt F)) ]

abbrev pAs3_W : List (Ref sig .tc) := [main_c_33, main_v100, main_v101, main_c_34, main_v102, main_v103, main_v104, main_v105, main_c_35, main_v106, main_v107]

abbrev pAf3 : List (HloOp τ sig (Elt F)) :=
  [ TRef.nullary main_call22.call0.c (constantI S_ 32 0#32),
    TRef.unary main_call22.call0.c main_call22.call0.v0 (broadcastInDim S_ ![] bcast_S_S_),
    TRef.binary (.of main_v107 : TRef sig ⟨S1048576, .i32⟩) main_call22.call0.v0 main_call22.call0.v1 (fun x v => Host.reduceWindow IntOp.addi ![1048576] ![1] ![1048575] ![0] x v reduceWindows_S1048576_S1048576_w1048576s1p1048575_0 h_S_) ]

abbrev pAf3_W : List (Ref sig .tc) := [main_call22_call0_c, main_call22_call0_v0, main_v108]

abbrev pB3 : List (HloOp τ sig (Elt F)) :=
  [ nullary main_c_36 (constantI S_ 32 1024#32),
    TRef.unary (.of main_c_36 : TRef sig ⟨S_, .i32⟩) main_call23.v0 (broadcastInDim S1048576 ![] bcast_S_S1048576),
    TRef.binary (.of main_v108 : TRef sig ⟨S1048576, .i32⟩) main_call23.v0 main_call23.v1 Host.divsi,
    TRef.unary (.of main_v108 : TRef sig ⟨S1048576, .i32⟩) main_call23.v2 signi,
    TRef.unary (.of main_c_36 : TRef sig ⟨S_, .i32⟩) main_call23.v3 signi,
    TRef.unary main_call23.v3 main_call23.v4 (broadcastInDim S1048576 ![] bcast_S_S1048576),
    TRef.binary main_call23.v2 main_call23.v4 main_call23.v5 (cmpi .ne),
    TRef.unary (.of main_c_36 : TRef sig ⟨S_, .i32⟩) main_call23.v6 (broadcastInDim S1048576 ![] bcast_S_S1048576),
    TRef.binary (.of main_v108 : TRef sig ⟨S1048576, .i32⟩) main_call23.v6 main_call23.v7 Host.remsi,
    TRef.nullary main_call23.c (constantI S_ 32 0#32),
    TRef.unary main_call23.c main_call23.v8 (broadcastInDim S1048576 ![] bcast_S_S1048576),
    TRef.binary main_call23.v7 main_call23.v8 main_call23.v9 (cmpi .ne),
    TRef.binary main_call23.v5 main_call23.v9 main_call23.v10 andi,
    TRef.nullary main_call23.c_0 (constantI S_ 32 1#32),
    TRef.unary main_call23.c_0 main_call23.v11 (broadcastInDim S1048576 ![] bcast_S_S1048576),
    TRef.binary main_call23.v1 main_call23.v11 main_call23.v12 subi,
    TRef.ternary (main_call23.v10 : TRef sig ⟨S1048576, .i1⟩) (main_call23.v12 : TRef sig ⟨S1048576, .i32⟩) (main_call23.v1 : TRef sig ⟨S1048576, .i32⟩) main_call23.call0.v0 select,
    nullary main_c_37 (constantI S_ 32 1024#32),
    TRef.unary (.of main_c_37 : TRef sig ⟨S_, .i32⟩) main_call24.v0 id,
    TRef.nullary main_call24.c (constantI S_ 32 0#32),
    TRef.binary main_call24.v0 main_call24.c main_call24.v1 (cmpi .eq),
    TRef.nullary main_call24.c_0 (constantI S_ 32 1#32),
    TRef.ternary (main_call24.v1 : TRef sig ⟨S_, .i1⟩) (main_call24.c_0 : TRef sig ⟨S_, .i32⟩) (main_call24.v0 : TRef sig ⟨S_, .i32⟩) main_call24.call0.v0 select,
    TRef.unary main_call24.call0.v0 main_call24.v3 (broadcastInDim S1048576 ![] bcast_S_S1048576),
    TRef.binary (.of main_v109 : TRef sig ⟨S1048576, .i32⟩) main_call24.v3 main_call24.v4 Host.remsi,
    TRef.nullary main_call24.c_1 (constantI S_ 32 0#32),
    TRef.unary main_call24.c_1 main_call24.v5 (broadcastInDim S1048576 ![] bcast_S_S1048576),
    TRef.binary main_call24.v4 main_call24.v5 main_call24.v6 (cmpi .ne),
    TRef.nullary main_call24.c_2 (constantI S_ 32 0#32),
    TRef.unary main_call24.c_2 main_call24.v7 (broadcastInDim S1048576 ![] bcast_S_S1048576),
    TRef.binary main_call24.v4 main_call24.v7 main_call24.v8 (cmpi .slt),
    TRef.nullary main_call24.c_3 (constantI S_ 32 0#32),
    TRef.binary main_call24.call0.v0 main_call24.c_3 main_call24.v9 (cmpi .slt),
    TRef.unary main_call24.v9 main_call24.v10 (broadcastInDim S1048576 ![] bcast_S_S1048576),
    TRef.binary main_call24.v8 main_call24.v10 main_call24.v11 (cmpi .ne),
    TRef.binary main_call24.v11 main_call24.v6 main_call24.v12 andi,
    TRef.unary main_call24.call0.v0 main_call24.v13 (broadcastInDim S1048576 ![] bcast_S_S1048576),
    TRef.binary main_call24.v4 main_call24.v13 main_call24.v14 addi,
    TRef.ternary main_call24.v12 main_call24.v14 main_call24.v4 main_call24.v15 select ]

abbrev pB3_W : List (Ref sig .tc) := [main_c_36, main_call23_v0, main_call23_v1, main_call23_v2, main_call23_v3, main_call23_v4, main_call23_v5, main_call23_v6, main_call23_v7, main_call23_c, main_call23_v8, main_call23_v9, main_call23_v10, main_call23_c_0, main_call23_v11, main_call23_v12, main_v109, main_c_37, main_call24_v0, main_call24_c, main_call24_v1, main_call24_c_0, main_call24_v2, main_call24_v3, main_call24_v4, main_call24_c_1, main_call24_v5, main_call24_v6, main_call24_c_2, main_call24_v7, main_call24_v8, main_call24_c_3, main_call24_v9, main_call24_v10, main_call24_v11, main_call24_v12, main_call24_v13, main_call24_v14, main_v110]

abbrev pC3 : List (HloOp τ sig (Elt F)) :=
  [ nullary main_c_38 (constantI S_ 32 1#32),
    TRef.unary (.of main_c_38 : TRef sig ⟨S_, .i32⟩) main_call25.v0 (broadcastInDim S1048576 ![] bcast_S_S1048576),
    TRef.binary (.of main_v108 : TRef sig ⟨S1048576, .i32⟩) main_call25.v0 main_call25.v1 Host.divsi,
    TRef.unary (.of main_v108 : TRef sig ⟨S1048576, .i32⟩) main_call25.v2 signi,
    TRef.unary (.of main_c_38 : TRef sig ⟨S_, .i32⟩) main_call25.v3 signi,
    TRef.unary main_call25.v3 main_call25.v4 (broadcastInDim S1048576 ![] bcast_S_S1048576),
    TRef.binary main_call25.v2 main_call25.v4 main_call25.v5 (cmpi .ne),
    TRef.unary (.of main_c_38 : TRef sig ⟨S_, .i32⟩) main_call25.v6 (broadcastInDim S1048576 ![] bcast_S_S1048576),
    TRef.binary (.of main_v108 : TRef sig ⟨S1048576, .i32⟩) main_call25.v6 main_call25.v7 Host.remsi,
    TRef.nullary main_call25.c (constantI S_ 32 0#32),
    TRef.unary main_call25.c main_call25.v8 (broadcastInDim S1048576 ![] bcast_S_S1048576),
    TRef.binary main_call25.v7 main_call25.v8 main_call25.v9 (cmpi .ne),
    TRef.binary main_call25.v5 main_call25.v9 main_call25.v10 andi,
    TRef.nullary main_call25.c_0 (constantI S_ 32 1#32),
    TRef.unary main_call25.c_0 main_call25.v11 (broadcastInDim S1048576 ![] bcast_S_S1048576),
    TRef.binary main_call25.v1 main_call25.v11 main_call25.v12 subi,
    TRef.ternary (main_call25.v10 : TRef sig ⟨S1048576, .i1⟩) (main_call25.v12 : TRef sig ⟨S1048576, .i32⟩) (main_call25.v1 : TRef sig ⟨S1048576, .i32⟩) main_call25.call0.v0 select,
    nullary main_c_39 (constantI S_ 32 1024#32),
    TRef.unary (.of main_c_39 : TRef sig ⟨S_, .i32⟩) main_call26.v0 id,
    TRef.nullary main_call26.c (constantI S_ 32 0#32),
    TRef.binary main_call26.v0 main_call26.c main_call26.v1 (cmpi .eq),
    TRef.nullary main_call26.c_0 (constantI S_ 32 1#32),
    TRef.ternary (main_call26.v1 : TRef sig ⟨S_, .i1⟩) (main_call26.c_0 : TRef sig ⟨S_, .i32⟩) (main_call26.v0 : TRef sig ⟨S_, .i32⟩) main_call26.call0.v0 select,
    TRef.unary main_call26.call0.v0 main_call26.v3 (broadcastInDim S1048576 ![] bcast_S_S1048576),
    TRef.binary (.of main_v111 : TRef sig ⟨S1048576, .i32⟩) main_call26.v3 main_call26.v4 Host.remsi,
    TRef.nullary main_call26.c_1 (constantI S_ 32 0#32),
    TRef.unary main_call26.c_1 main_call26.v5 (broadcastInDim S1048576 ![] bcast_S_S1048576),
    TRef.binary main_call26.v4 main_call26.v5 main_call26.v6 (cmpi .ne),
    TRef.nullary main_call26.c_2 (constantI S_ 32 0#32),
    TRef.unary main_call26.c_2 main_call26.v7 (broadcastInDim S1048576 ![] bcast_S_S1048576),
    TRef.binary main_call26.v4 main_call26.v7 main_call26.v8 (cmpi .slt),
    TRef.nullary main_call26.c_3 (constantI S_ 32 0#32),
    TRef.binary main_call26.call0.v0 main_call26.c_3 main_call26.v9 (cmpi .slt),
    TRef.unary main_call26.v9 main_call26.v10 (broadcastInDim S1048576 ![] bcast_S_S1048576),
    TRef.binary main_call26.v8 main_call26.v10 main_call26.v11 (cmpi .ne),
    TRef.binary main_call26.v11 main_call26.v6 main_call26.v12 andi,
    TRef.unary main_call26.call0.v0 main_call26.v13 (broadcastInDim S1048576 ![] bcast_S_S1048576),
    TRef.binary main_call26.v4 main_call26.v13 main_call26.v14 addi,
    TRef.ternary main_call26.v12 main_call26.v14 main_call26.v4 main_call26.v15 select ]

abbrev pC3_W : List (Ref sig .tc) := [main_c_38, main_call25_v0, main_call25_v1, main_call25_v2, main_call25_v3, main_call25_v4, main_call25_v5, main_call25_v6, main_call25_v7, main_call25_c, main_call25_v8, main_call25_v9, main_call25_v10, main_call25_c_0, main_call25_v11, main_call25_v12, main_v111, main_c_39, main_call26_v0, main_call26_c, main_call26_v1, main_call26_c_0, main_call26_v2, main_call26_v3, main_call26_v4, main_call26_c_1, main_call26_v5, main_call26_v6, main_call26_c_2, main_call26_v7, main_call26_v8, main_call26_c_3, main_call26_v9, main_call26_v10, main_call26_v11, main_call26_v12, main_call26_v13, main_call26_v14, main_v112]

abbrev pDt3 : List (HloOp τ sig (Elt F)) :=
  [ nullary main_v113 (iotaInDim S1048576 32 0),
    unary main_v96 main_v114 ((extui 32 · natLt_1_32) : (⟨S1024x1024, .i1⟩ : BufTy).Contents (Elt F) → (⟨S1024x1024, .i32⟩ : BufTy).Contents (Elt F)),
    nullary main_c_40 (constantI S_ 32 0#32),
    binary main_v114 main_c_40 main_v115 ((fun x v => Host.reduce IntOp.addi x v reducesTo_S1024x1024_S_d0_1 h_S_) : (⟨S1024x1024, .i32⟩ : BufTy).Contents (Elt F) → (⟨S_, .i32⟩ : BufTy).Contents (Elt F) → (⟨S_, .i32⟩ : BufTy).Contents (Elt F)) ]

abbrev pDt3_W : List (Ref sig .tc) := [main_v113, main_v114, main_c_40, main_v115]

abbrev pDs3 : List (HloOp τ sig (Elt F)) :=
  [ unary main_v115 main_v116 (broadcastInDim S1048576 ![] bcast_S_S1048576 : (⟨S_, .i32⟩ : BufTy).Contents (Elt F) → (⟨S1048576, .i32⟩ : BufTy).Contents (Elt F)),
    binary main_v113 main_v116 main_v117 (cmpi .sge : (⟨S1048576, .i32⟩ : BufTy).Contents (Elt F) → (⟨S1048576, .i32⟩ : BufTy).Contents (Elt F) → (⟨S1048576, .i1⟩ : BufTy).Contents (Elt F)),
    nullary main_c_41 (constantI S_ 32 0#32),
    TRef.unary (.of main_c_41 : TRef sig ⟨S_, .i32⟩) main_call27.v0 id,
    TRef.unary main_call27.v0 main_call27.v1 (broadcastInDim S1048576 ![] bcast_S_S1048576),
    TRef.ternary (.of main_v117 : TRef sig ⟨S1048576, .i1⟩) main_call27.v1 (.of main_v110 : TRef sig ⟨S1048576, .i32⟩) main_call27.v2 select,
    nullary main_c_42 (constantI S_ 32 1024#32),
    TRef.unary (.of main_c_42 : TRef sig ⟨S_, .i32⟩) main_call28.v0 id,
    TRef.unary main_call28.v0 main_call28.v1 (broadcastInDim S1048576 ![] bcast_S_S1048576),
    TRef.ternary (.of main_v117 : TRef sig ⟨S1048576, .i1⟩) main_call28.v1 (.of main_v112 : TRef sig ⟨S1048576, .i32⟩) main_call28.v2 select ]

abbrev pDs3_W : List (Ref sig .tc) := [main_v116, main_v117, main_c_41, main_call27_v0, main_call27_v1, main_v118, main_c_42, main_call28_v0, main_call28_v1, main_v119]

abbrev pAm4 : List (HloOp τ sig (Elt F)) :=
  [ unary main_arg2 main_v120 ((extractStridedSlice S1x1024x1024 ![1, 0, 0] · slices_S2x1024x1024_S1x1024x1024_1_0_0) : (⟨S2x1024x1024, .i32⟩ : BufTy).Contents (Elt F) → (⟨S1x1024x1024, .i32⟩ : BufTy).Contents (Elt F)),
    reshape main_v120 main_v121 rfl shapeCasts_S1x1024x1024_S1024x1024,
    nullary main_c_43 (constantI S_ 32 0#32),
    unary main_c_43 main_v122 (broadcastInDim S1024x1024 ![] bcast_S_S1024x1024 : (⟨S_, .i32⟩ : BufTy).Contents (Elt F) → (⟨S1024x1024, .i32⟩ : BufTy).Contents (Elt F)),
    binary main_v121 main_v122 main_v123 (cmpi .ne : (⟨S1024x1024, .i32⟩ : BufTy).Contents (Elt F) → (⟨S1024x1024, .i32⟩ : BufTy).Contents (Elt F) → (⟨S1024x1024, .i1⟩ : BufTy).Contents (Elt F)) ]

abbrev pAm4_W : List (Ref sig .tc) := [main_v120, main_v121, main_c_43, main_v122, main_v123]

abbrev pAu4 : List (HloOp τ sig (Elt F)) :=
  [ TRef.reshape (.of main_v123 : TRef sig ⟨S1024x1024, .i1⟩) main_call29.v0 rfl shapeCasts_S1024x1024_S1048576,
    TRef.unary main_call29.v0 main_call29.v1 (extui 32 · natLt_1_32),
    TRef.nullary main_call29.call0.c (constantI S_ 32 0#32),
    TRef.unary main_call29.call0.c main_call29.call0.v0 (broadcastInDim S_ ![] bcast_S_S_),
    TRef.binary (main_call29.v1 : TRef sig ⟨S1048576, .i32⟩) main_call29.call0.v0 main_call29.call0.v1 (fun x v => Host.reduceWindow IntOp.addi ![1048576] ![1] ![1048575] ![0] x v reduceWindows_S1048576_S1048576_w1048576s1p1048575_0 h_S_) ]

abbrev pAu4_W : List (Ref sig .tc) := [main_call29_v0, main_call29_v1, main_call29_call0_c, main_call29_call0_v0, main_v124]

abbrev pAl4 : List (HloOp τ sig (Elt F)) :=
  [ nullary main_c_44 (constantI S_ 32 0#32),
    unary main_c_44 main_v125 (broadcastInDim S1048576 ![] bcast_S_S1048576 : (⟨S_, .i32⟩ : BufTy).Contents (Elt F) → (⟨S1048576, .i32⟩ : BufTy).Contents (Elt F)),
    nullary main_c_45 (constantI S_ 32 0#32),
    TRef.unary (.of main_c_45 : TRef sig ⟨S_, .i32⟩) main_call30.v0 id,
    TRef.unary main_call30.v0 main_call30.v1 (broadcastInDim S1048576 ![] bcast_S_S1048576),
    TRef.binary main_call30.v1 (.of main_v124 : TRef sig ⟨S1048576, .i32⟩) main_call30.v2 maxsi ]

abbrev pAl4_W : List (Ref sig .tc) := [main_c_44, main_v125, main_c_45, main_call30_v0, main_call30_v1, main_v126]

abbrev pAs4a : List (HloOp τ sig (Elt F)) :=
  [ nullary main_c_46 (constantI S_ 32 0#32),
    unary main_c_46 main_v127 (broadcastInDim S1048576 ![] bcast_S_S1048576 : (⟨S_, .i32⟩ : BufTy).Contents (Elt F) → (⟨S1048576, .i32⟩ : BufTy).Contents (Elt F)),
    binary main_v126 main_v127 main_v128 (cmpi .slt : (⟨S1048576, .i32⟩ : BufTy).Contents (Elt F) → (⟨S1048576, .i32⟩ : BufTy).Contents (Elt F) → (⟨S1048576, .i1⟩ : BufTy).Contents (Elt F)),
    nullary main_c_47 (constantI S_ 32 1048576#32),
    unary main_c_47 main_v129 (broadcastInDim S1048576 ![] bcast_S_S1048576 : (⟨S_, .i32⟩ : BufTy).Contents (Elt F) → (⟨S1048576, .i32⟩ : BufTy).Contents (Elt F)) ]

abbrev pAs4a_W : List (Ref sig .tc) := [main_c_46, main_v127, main_v128, main_c_47, main_v129]

end Cert.ReferenceIdeal.Stages

end
-- ==== Proof.RefRunEq2.lean ====
/-
  The third window of the reference's @main is the straight line of its operations: each outlined function's definition
  unfolded at its call over that call's buffers, and the sequencing reassociated, leaves one chain of host operations,
  which is the chain `seq` builds from the list.
-/
import proofs.«121984_g44616120271338_cont_sun_m_526_12_alg».proof.Proof.RefRunOps2

noncomputable section

namespace Cert.ReferenceIdeal.Stages

open Idealize.ShloMosaic Idealize.ShloMosaic.TcCoe Idealize.SL.Sem Idealize.ShloMosaic.StableHlo Cert.ReferenceIdeal Cert.ReferenceIdeal.Facts₀

variable {F : FTy → Type} [FloatOps F]

set_option maxRecDepth 8192 in
set_option maxHeartbeats 4000000 in
theorem main_part2_eq (c : Dev nD) :
    main_part2 (F := F) c = seq (pGs2b ++ pGr2 ++ pH ++ pAm3 ++ pAu3 ++ pAl3 ++ pAs3 ++ pAf3 ++ pB3 ++ pC3 ++ pDt3 ++ pDs3 ++ pAm4 ++ pAu4 ++ pAl4 ++ pAs4a) := by
  simp only [main_part2, fn_cumsum.body, fn_cumsum_0.body, fn_cumsum_1.body, fn_clip.body, fn_floor_divide.body, fn_where.body,
    fn_remainder.body, fn_where_2.body, fn_where_3.body, fn_relu.body, fn_relu_4.body, bind_assoc, pure_bind]
  rfl

end Cert.ReferenceIdeal.Stages

end
-- ==== Proof.RefRunOps3.lean ====
/- GENERATED by: bun scratch/mkops.js proof/Proof — a TABLE: the operations of window 3 of the program's @main, in order, each callee's operations
   written at its call site over that call's buffer record, cut into consecutive pieces; and the references each piece writes. -/
import proofs.«121984_g44616120271338_cont_sun_m_526_12_alg».proof.Proof.RefStages
import Idealize.ShloMosaic.Lib.StableHlo.Run

noncomputable section

namespace Cert.ReferenceIdeal.Stages

open Idealize.ShloMosaic Idealize.ShloMosaic.TcCoe Idealize.SL.Sem Idealize.ShloMosaic.StableHlo Cert.ReferenceIdeal Cert.ReferenceIdeal.Facts₀

variable {F : FTy → Type} [FloatOps F]

abbrev pAs4b : List (HloOp τ sig (Elt F)) :=
  [ binary main_v126 main_v129 main_v130 (addi : (⟨S1048576, .i32⟩ : BufTy).Contents (Elt F) → (⟨S1048576, .i32⟩ : BufTy).Contents (Elt F) → (⟨S1048576, .i32⟩ : BufTy).Contents (Elt F)),
    ternary main_v128 main_v130 main_v126 main_v131 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v131 main_v132 (broadcastInDim S1048576x1 ![0] bcast_S1048576_S1048576x1_0 : (⟨S1048576, .i32⟩ : BufTy).Contents (Elt F) → (⟨S1048576x1, .i32⟩ : BufTy).Contents (Elt F)),
    nullary main_c_48 (constantI S_ 32 1#32),
    unary main_c_48 main_v133 (broadcastInDim S1048576 ![] bcast_S_S1048576 : (⟨S_, .i32⟩ : BufTy).Contents (Elt F) → (⟨S1048576, .i32⟩ : BufTy).Contents (Elt F)),
    ternary main_v125 main_v132 main_v133 main_v134 ((fun x i u => Host.scatter scatter_S1048576_S1048576x1_S1048576_n_0_0_1 IntOp.addi x i u) : (⟨S1048576, .i32⟩ : BufTy).Contents (Elt F) → (⟨S1048576x1, .i32⟩ : BufTy).Contents (Elt F) → (⟨S1048576, .i32⟩ : BufTy).Contents (Elt F) → (⟨S1048576, .i32⟩ : BufTy).Contents (Elt F)) ]

abbrev pAs4b_W : List (Ref sig .tc) := [main_v130, main_v131, main_v132, main_c_48, main_v133, main_v134]

abbrev pAf4 : List (HloOp τ sig (Elt F)) :=
  [ TRef.nullary main_call31.call0.c (constantI S_ 32 0#32),
    TRef.unary main_call31.call0.c main_call31.call0.v0 (broadcastInDim S_ ![] bcast_S_S_),
    TRef.binary (.of main_v134 : TRef sig ⟨S1048576, .i32⟩) main_call31.call0.v0 main_call31.call0.v1 (fun x v => Host.reduceWindow IntOp.addi ![1048576] ![1] ![1048575] ![0] x v reduceWindows_S1048576_S1048576_w1048576s1p1048575_0 h_S_) ]

abbrev pAf4_W : List (Ref sig .tc) := [main_call31_call0_c, main_call31_call0_v0, main_v135]

abbrev pB4 : List (HloOp τ sig (Elt F)) :=
  [ nullary main_c_49 (constantI S_ 32 1024#32),
    TRef.unary (.of main_c_49 : TRef sig ⟨S_, .i32⟩) main_call32.v0 (broadcastInDim S1048576 ![] bcast_S_S1048576),
    TRef.binary (.of main_v135 : TRef sig ⟨S1048576, .i32⟩) main_call32.v0 main_call32.v1 Host.divsi,
    TRef.unary (.of main_v135 : TRef sig ⟨S1048576, .i32⟩) main_call32.v2 signi,
    TRef.unary (.of main_c_49 : TRef sig ⟨S_, .i32⟩) main_call32.v3 signi,
    TRef.unary main_call32.v3 main_call32.v4 (broadcastInDim S1048576 ![] bcast_S_S1048576),
    TRef.binary main_call32.v2 main_call32.v4 main_call32.v5 (cmpi .ne),
    TRef.unary (.of main_c_49 : TRef sig ⟨S_, .i32⟩) main_call32.v6 (broadcastInDim S1048576 ![] bcast_S_S1048576),
    TRef.binary (.of main_v135 : TRef sig ⟨S1048576, .i32⟩) main_call32.v6 main_call32.v7 Host.remsi,
    TRef.nullary main_call32.c (constantI S_ 32 0#32),
    TRef.unary main_call32.c main_call32.v8 (broadcastInDim S1048576 ![] bcast_S_S1048576),
    TRef.binary main_call32.v7 main_call32.v8 main_call32.v9 (cmpi .ne),
    TRef.binary main_call32.v5 main_call32.v9 main_call32.v10 andi,
    TRef.nullary main_call32.c_0 (constantI S_ 32 1#32),
    TRef.unary main_call32.c_0 main_call32.v11 (broadcastInDim S1048576 ![] bcast_S_S1048576),
    TRef.binary main_call32.v1 main_call32.v11 main_call32.v12 subi,
    TRef.ternary (main_call32.v10 : TRef sig ⟨S1048576, .i1⟩) (main_call32.v12 : TRef sig ⟨S1048576, .i32⟩) (main_call32.v1 : TRef sig ⟨S1048576, .i32⟩) main_call32.call0.v0 select,
    nullary main_c_50 (constantI S_ 32 1024#32),
    TRef.unary (.of main_c_50 : TRef sig ⟨S_, .i32⟩) main_call33.v0 id,
    TRef.nullary main_call33.c (constantI S_ 32 0#32),
    TRef.binary main_call33.v0 main_call33.c main_call33.v1 (cmpi .eq),
    TRef.nullary main_call33.c_0 (constantI S_ 32 1#32),
    TRef.ternary (main_call33.v1 : TRef sig ⟨S_, .i1⟩) (main_call33.c_0 : TRef sig ⟨S_, .i32⟩) (main_call33.v0 : TRef sig ⟨S_, .i32⟩) main_call33.call0.v0 select,
    TRef.unary main_call33.call0.v0 main_call33.v3 (broadcastInDim S1048576 ![] bcast_S_S1048576),
    TRef.binary (.of main_v136 : TRef sig ⟨S1048576, .i32⟩) main_call33.v3 main_call33.v4 Host.remsi,
    TRef.nullary main_call33.c_1 (constantI S_ 32 0#32),
    TRef.unary main_call33.c_1 main_call33.v5 (broadcastInDim S1048576 ![] bcast_S_S1048576),
    TRef.binary main_call33.v4 main_call33.v5 main_call33.v6 (cmpi .ne),
    TRef.nullary main_call33.c_2 (constantI S_ 32 0#32),
    TRef.unary main_call33.c_2 main_call33.v7 (broadcastInDim S1048576 ![] bcast_S_S1048576),
    TRef.binary main_call33.v4 main_call33.v7 main_call33.v8 (cmpi .slt),
    TRef.nullary main_call33.c_3 (constantI S_ 32 0#32),
    TRef.binary main_call33.call0.v0 main_call33.c_3 main_call33.v9 (cmpi .slt),
    TRef.unary main_call33.v9 main_call33.v10 (broadcastInDim S1048576 ![] bcast_S_S1048576),
    TRef.binary main_call33.v8 main_call33.v10 main_call33.v11 (cmpi .ne),
    TRef.binary main_call33.v11 main_call33.v6 main_call33.v12 andi,
    TRef.unary main_call33.call0.v0 main_call33.v13 (broadcastInDim S1048576 ![] bcast_S_S1048576),
    TRef.binary main_call33.v4 main_call33.v13 main_call33.v14 addi,
    TRef.ternary main_call33.v12 main_call33.v14 main_call33.v4 main_call33.v15 select ]

abbrev pB4_W : List (Ref sig .tc) := [main_c_49, main_call32_v0, main_call32_v1, main_call32_v2, main_call32_v3, main_call32_v4, main_call32_v5, main_call32_v6, main_call32_v7, main_call32_c, main_call32_v8, main_call32_v9, main_call32_v10, main_call32_c_0, main_call32_v11, main_call32_v12, main_v136, main_c_50, main_call33_v0, main_call33_c, main_call33_v1, main_call33_c_0, main_call33_v2, main_call33_v3, main_call33_v4, main_call33_c_1, main_call33_v5, main_call33_v6, main_call33_c_2, main_call33_v7, main_call33_v8, main_call33_c_3, main_call33_v9, main_call33_v10, main_call33_v11, main_call33_v12, main_call33_v13, main_call33_v14, main_v137]

abbrev pC4 : List (HloOp τ sig (Elt F)) :=
  [ nullary main_c_51 (constantI S_ 32 1#32),
    TRef.unary (.of main_c_51 : TRef sig ⟨S_, .i32⟩) main_call34.v0 (broadcastInDim S1048576 ![] bcast_S_S1048576),
    TRef.binary (.of main_v135 : TRef sig ⟨S1048576, .i32⟩) main_call34.v0 main_call34.v1 Host.divsi,
    TRef.unary (.of main_v135 : TRef sig ⟨S1048576, .i32⟩) main_call34.v2 signi,
    TRef.unary (.of main_c_51 : TRef sig ⟨S_, .i32⟩) main_call34.v3 signi,
    TRef.unary main_call34.v3 main_call34.v4 (broadcastInDim S1048576 ![] bcast_S_S1048576),
    TRef.binary main_call34.v2 main_call34.v4 main_call34.v5 (cmpi .ne),
    TRef.unary (.of main_c_51 : TRef sig ⟨S_, .i32⟩) main_call34.v6 (broadcastInDim S1048576 ![] bcast_S_S1048576),
    TRef.binary (.of main_v135 : TRef sig ⟨S1048576, .i32⟩) main_call34.v6 main_call34.v7 Host.remsi,
    TRef.nullary main_call34.c (constantI S_ 32 0#32),
    TRef.unary main_call34.c main_call34.v8 (broadcastInDim S1048576 ![] bcast_S_S1048576),
    TRef.binary main_call34.v7 main_call34.v8 main_call34.v9 (cmpi .ne),
    TRef.binary main_call34.v5 main_call34.v9 main_call34.v10 andi,
    TRef.nullary main_call34.c_0 (constantI S_ 32 1#32),
    TRef.unary main_call34.c_0 main_call34.v11 (broadcastInDim S1048576 ![] bcast_S_S1048576),
    TRef.binary main_call34.v1 main_call34.v11 main_call34.v12 subi,
    TRef.ternary (main_call34.v10 : TRef sig ⟨S1048576, .i1⟩) (main_call34.v12 : TRef sig ⟨S1048576, .i32⟩) (main_call34.v1 : TRef sig ⟨S1048576, .i32⟩) main_call34.call0.v0 select,
    nullary main_c_52 (constantI S_ 32 1024#32),
    TRef.unary (.of main_c_52 : TRef sig ⟨S_, .i32⟩) main_call35.v0 id,
    TRef.nullary main_call35.c (constantI S_ 32 0#32),
    TRef.binary main_call35.v0 main_call35.c main_call35.v1 (cmpi .eq),
    TRef.nullary main_call35.c_0 (constantI S_ 32 1#32),
    TRef.ternary (main_call35.v1 : TRef sig ⟨S_, .i1⟩) (main_call35.c_0 : TRef sig ⟨S_, .i32⟩) (main_call35.v0 : TRef sig ⟨S_, .i32⟩) main_call35.call0.v0 select,
    TRef.unary main_call35.call0.v0 main_call35.v3 (broadcastInDim S1048576 ![] bcast_S_S1048576),
    TRef.binary (.of main_v138 : TRef sig ⟨S1048576, .i32⟩) main_call35.v3 main_call35.v4 Host.remsi,
    TRef.nullary main_call35.c_1 (constantI S_ 32 0#32),
    TRef.unary main_call35.c_1 main_call35.v5 (broadcastInDim S1048576 ![] bcast_S_S1048576),
    TRef.binary main_call35.v4 main_call35.v5 main_call35.v6 (cmpi .ne),
    TRef.nullary main_call35.c_2 (constantI S_ 32 0#32),
    TRef.unary main_call35.c_2 main_call35.v7 (broadcastInDim S1048576 ![] bcast_S_S1048576),
    TRef.binary main_call35.v4 main_call35.v7 main_call35.v8 (cmpi .slt),
    TRef.nullary main_call35.c_3 (constantI S_ 32 0#32),
    TRef.binary main_call35.call0.v0 main_call35.c_3 main_call35.v9 (cmpi .slt),
    TRef.unary main_call35.v9 main_call35.v10 (broadcastInDim S1048576 ![] bcast_S_S1048576),
    TRef.binary main_call35.v8 main_call35.v10 main_call35.v11 (cmpi .ne),
    TRef.binary main_call35.v11 main_call35.v6 main_call35.v12 andi,
    TRef.unary main_call35.call0.v0 main_call35.v13 (broadcastInDim S1048576 ![] bcast_S_S1048576),
    TRef.binary main_call35.v4 main_call35.v13 main_call35.v14 addi,
    TRef.ternary main_call35.v12 main_call35.v14 main_call35.v4 main_call35.v15 select ]

abbrev pC4_W : List (Ref sig .tc) := [main_c_51, main_call34_v0, main_call34_v1, main_call34_v2, main_call34_v3, main_call34_v4, main_call34_v5, main_call34_v6, main_call34_v7, main_call34_c, main_call34_v8, main_call34_v9, main_call34_v10, main_call34_c_0, main_call34_v11, main_call34_v12, main_v138, main_c_52, main_call35_v0, main_call35_c, main_call35_v1, main_call35_c_0, main_call35_v2, main_call35_v3, main_call35_v4, main_call35_c_1, main_call35_v5, main_call35_v6, main_call35_c_2, main_call35_v7, main_call35_v8, main_call35_c_3, main_call35_v9, main_call35_v10, main_call35_v11, main_call35_v12, main_call35_v13, main_call35_v14, main_v139]

abbrev pDt4 : List (HloOp τ sig (Elt F)) :=
  [ nullary main_v140 (iotaInDim S1048576 32 0),
    unary main_v123 main_v141 ((extui 32 · natLt_1_32) : (⟨S1024x1024, .i1⟩ : BufTy).Contents (Elt F) → (⟨S1024x1024, .i32⟩ : BufTy).Contents (Elt F)),
    nullary main_c_53 (constantI S_ 32 0#32),
    binary main_v141 main_c_53 main_v142 ((fun x v => Host.reduce IntOp.addi x v reducesTo_S1024x1024_S_d0_1 h_S_) : (⟨S1024x1024, .i32⟩ : BufTy).Contents (Elt F) → (⟨S_, .i32⟩ : BufTy).Contents (Elt F) → (⟨S_, .i32⟩ : BufTy).Contents (Elt F)) ]

abbrev pDt4_W : List (Ref sig .tc) := [main_v140, main_v141, main_c_53, main_v142]

abbrev pDs4 : List (HloOp τ sig (Elt F)) :=
  [ unary main_v142 main_v143 (broadcastInDim S1048576 ![] bcast_S_S1048576 : (⟨S_, .i32⟩ : BufTy).Contents (Elt F) → (⟨S1048576, .i32⟩ : BufTy).Contents (Elt F)),
    binary main_v140 main_v143 main_v144 (cmpi .sge : (⟨S1048576, .i32⟩ : BufTy).Contents (Elt F) → (⟨S1048576, .i32⟩ : BufTy).Contents (Elt F) → (⟨S1048576, .i1⟩ : BufTy).Contents (Elt F)),
    nullary main_c_54 (constantI S_ 32 0#32),
    TRef.unary (.of main_c_54 : TRef sig ⟨S_, .i32⟩) main_call36.v0 id,
    TRef.unary main_call36.v0 main_call36.v1 (broadcastInDim S1048576 ![] bcast_S_S1048576),
    TRef.ternary (.of main_v144 : TRef sig ⟨S1048576, .i1⟩) main_call36.v1 (.of main_v137 : TRef sig ⟨S1048576, .i32⟩) main_call36.v2 select,
    nullary main_c_55 (constantI S_ 32 1024#32),
    TRef.unary (.of main_c_55 : TRef sig ⟨S_, .i32⟩) main_call37.v0 id,
    TRef.unary main_call37.v0 main_call37.v1 (broadcastInDim S1048576 ![] bcast_S_S1048576),
    TRef.ternary (.of main_v144 : TRef sig ⟨S1048576, .i1⟩) main_call37.v1 (.of main_v139 : TRef sig ⟨S1048576, .i32⟩) main_call37.v2 select ]

abbrev pDs4_W : List (Ref sig .tc) := [main_v143, main_v144, main_c_54, main_call36_v0, main_call36_v1, main_v145, main_c_55, main_call37_v0, main_call37_v1, main_v146]

abbrev pGd3 : List (HloOp τ sig (Elt F)) :=
  [ unary main_arg3 main_v147 ((extractStridedSlice S1x128x64 ![1, 0, 0] · slices_S2x128x64_S1x128x64_1_0_0) : (⟨S2x128x64, .f32⟩ : BufTy).Contents (Elt F) → (⟨S1x128x64, .f32⟩ : BufTy).Contents (Elt F)),
    reshape main_v147 main_v148 rfl shapeCasts_S1x128x64_S128x64,
    unary main_arg4 main_v149 ((extractStridedSlice S1x64 ![1, 0] · slices_S2x64_S1x64_1_0) : (⟨S2x64, .f32⟩ : BufTy).Contents (Elt F) → (⟨S1x64, .f32⟩ : BufTy).Contents (Elt F)),
    reshape main_v149 main_v150 rfl shapeCasts_S1x64_S64,
    binary main_arg0 main_v148 main_v151 ((fun l r => Host.dotGeneral dot_S1024x128_S128x64_S1024x64_1_0_0_1_n_n none l r) : (⟨S1024x128, .f32⟩ : BufTy).Contents (Elt F) → (⟨S128x64, .f32⟩ : BufTy).Contents (Elt F) → (⟨S1024x64, .f32⟩ : BufTy).Contents (Elt F)) ]

abbrev pGd3_W : List (Ref sig .tc) := [main_v147, main_v148, main_v149, main_v150, main_v151]

abbrev pGg3 : List (HloOp τ sig (Elt F)) :=
  [ unary main_v150 main_v152 (broadcastInDim S1x64 ![1] bcast_S64_S1x64_1 : (⟨S64, .f32⟩ : BufTy).Contents (Elt F) → (⟨S1x64, .f32⟩ : BufTy).Contents (Elt F)),
    unary main_v152 main_v153 (broadcastInDim S1024x64 ![0, 1] bcast_S1x64_S1024x64_0_1 : (⟨S1x64, .f32⟩ : BufTy).Contents (Elt F) → (⟨S1024x64, .f32⟩ : BufTy).Contents (Elt F)),
    binary main_v151 main_v153 main_v154 (addf : (⟨S1024x64, .f32⟩ : BufTy).Contents (Elt F) → (⟨S1024x64, .f32⟩ : BufTy).Contents (Elt F) → (⟨S1024x64, .f32⟩ : BufTy).Contents (Elt F)),
    nullary main_c_56 (constantI S_ 32 0#32),
    unary main_c_56 main_v155 (broadcastInDim S1048576 ![] bcast_S_S1048576 : (⟨S_, .i32⟩ : BufTy).Contents (Elt F) → (⟨S1048576, .i32⟩ : BufTy).Contents (Elt F)),
    binary main_v118 main_v155 main_v156 (cmpi .slt : (⟨S1048576, .i32⟩ : BufTy).Contents (Elt F) → (⟨S1048576, .i32⟩ : BufTy).Contents (Elt F) → (⟨S1048576, .i1⟩ : BufTy).Contents (Elt F)),
    nullary main_c_57 (constantI S_ 32 1024#32),
    unary main_c_57 main_v157 (broadcastInDim S1048576 ![] bcast_S_S1048576 : (⟨S_, .i32⟩ : BufTy).Contents (Elt F) → (⟨S1048576, .i32⟩ : BufTy).Contents (Elt F)),
    binary main_v118 main_v157 main_v158 (addi : (⟨S1048576, .i32⟩ : BufTy).Contents (Elt F) → (⟨S1048576, .i32⟩ : BufTy).Contents (Elt F) → (⟨S1048576, .i32⟩ : BufTy).Contents (Elt F)),
    ternary main_v156 main_v158 main_v118 main_v159 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v159 main_v160 (broadcastInDim S1048576x1 ![0] bcast_S1048576_S1048576x1_0 : (⟨S1048576, .i32⟩ : BufTy).Contents (Elt F) → (⟨S1048576x1, .i32⟩ : BufTy).Contents (Elt F)),
    binary main_v154 main_v160 main_v161 ((fun x i => Host.gather gather_S1024x64_S1048576x1_S1048576x64_1_0_n_n_0_1_164 x i) : (⟨S1024x64, .f32⟩ : BufTy).Contents (Elt F) → (⟨S1048576x1, .i32⟩ : BufTy).Contents (Elt F) → (⟨S1048576x64, .f32⟩ : BufTy).Contents (Elt F)) ]

abbrev pGg3_W : List (Ref sig .tc) := [main_v152, main_v153, main_v154, main_c_56, main_v155, main_v156, main_c_57, main_v157, main_v158, main_v159, main_v160, main_v161]

abbrev pGs3 : List (HloOp τ sig (Elt F)) :=
  [ nullary main_cst_58 (constant S_ .f32 0x00000000#32),
    unary main_cst_58 main_v162 (broadcastInDim S1024x64 ![] bcast_S_S1024x64 : (⟨S_, .f32⟩ : BufTy).Contents (Elt F) → (⟨S1024x64, .f32⟩ : BufTy).Contents (Elt F)),
    unary main_v119 main_v163 (broadcastInDim S1048576x1 ![0] bcast_S1048576_S1048576x1_0 : (⟨S1048576, .i32⟩ : BufTy).Contents (Elt F) → (⟨S1048576x1, .i32⟩ : BufTy).Contents (Elt F)),
    ternary main_v162 main_v163 main_v161 main_v164 ((fun x i u => Host.scatterAdd scatter_S1024x64_S1048576x1_S1048576x64_1_0_0_1 x i u) : (⟨S1024x64, .f32⟩ : BufTy).Contents (Elt F) → (⟨S1048576x1, .i32⟩ : BufTy).Contents (Elt F) → (⟨S1048576x64, .f32⟩ : BufTy).Contents (Elt F) → (⟨S1024x64, .f32⟩ : BufTy).Contents (Elt F)) ]

abbrev pGs3_W : List (Ref sig .tc) := [main_cst_58, main_v162, main_v163, main_v164]

abbrev pGr3 : List (HloOp τ sig (Elt F)) :=
  [ TRef.nullary main_call38.cst (constant S_ .f32 0x00000000#32),
    TRef.unary main_call38.cst main_call38.v0 (broadcastInDim S1024x64 ![] bcast_S_S1024x64),
    TRef.binary (.of main_v164 : TRef sig ⟨S1024x64, .f32⟩) main_call38.v0 main_call38.v1 maximumf ]

abbrev pGr3_W : List (Ref sig .tc) := [main_call38_cst, main_call38_v0, main_v165]

abbrev pGd4 : List (HloOp τ sig (Elt F)) :=
  [ unary main_arg5 main_v166 ((extractStridedSlice S1x128x64 ![1, 0, 0] · slices_S2x128x64_S1x128x64_1_0_0) : (⟨S2x128x64, .f32⟩ : BufTy).Contents (Elt F) → (⟨S1x128x64, .f32⟩ : BufTy).Contents (Elt F)),
    reshape main_v166 main_v167 rfl shapeCasts_S1x128x64_S128x64,
    unary main_arg6 main_v168 ((extractStridedSlice S1x64 ![1, 0] · slices_S2x64_S1x64_1_0) : (⟨S2x64, .f32⟩ : BufTy).Contents (Elt F) → (⟨S1x64, .f32⟩ : BufTy).Contents (Elt F)),
    reshape main_v168 main_v169 rfl shapeCasts_S1x64_S64,
    binary main_arg0 main_v167 main_v170 ((fun l r => Host.dotGeneral dot_S1024x128_S128x64_S1024x64_1_0_0_1_n_n none l r) : (⟨S1024x128, .f32⟩ : BufTy).Contents (Elt F) → (⟨S128x64, .f32⟩ : BufTy).Contents (Elt F) → (⟨S1024x64, .f32⟩ : BufTy).Contents (Elt F)) ]

abbrev pGd4_W : List (Ref sig .tc) := [main_v166, main_v167, main_v168, main_v169, main_v170]

abbrev pGg4a : List (HloOp τ sig (Elt F)) :=
  [ unary main_v169 main_v171 (broadcastInDim S1x64 ![1] bcast_S64_S1x64_1 : (⟨S64, .f32⟩ : BufTy).Contents (Elt F) → (⟨S1x64, .f32⟩ : BufTy).Contents (Elt F)),
    unary main_v171 main_v172 (broadcastInDim S1024x64 ![0, 1] bcast_S1x64_S1024x64_0_1 : (⟨S1x64, .f32⟩ : BufTy).Contents (Elt F) → (⟨S1024x64, .f32⟩ : BufTy).Contents (Elt F)),
    binary main_v170 main_v172 main_v173 (addf : (⟨S1024x64, .f32⟩ : BufTy).Contents (Elt F) → (⟨S1024x64, .f32⟩ : BufTy).Contents (Elt F) → (⟨S1024x64, .f32⟩ : BufTy).Contents (Elt F)),
    nullary main_c_59 (constantI S_ 32 0#32),
    unary main_c_59 main_v174 (broadcastInDim S1048576 ![] bcast_S_S1048576 : (⟨S_, .i32⟩ : BufTy).Contents (Elt F) → (⟨S1048576, .i32⟩ : BufTy).Contents (Elt F)),
    binary main_v145 main_v174 main_v175 (cmpi .slt : (⟨S1048576, .i32⟩ : BufTy).Contents (Elt F) → (⟨S1048576, .i32⟩ : BufTy).Contents (Elt F) → (⟨S1048576, .i1⟩ : BufTy).Contents (Elt F)),
    nullary main_c_60 (constantI S_ 32 1024#32),
    unary main_c_60 main_v176 (broadcastInDim S1048576 ![] bcast_S_S1048576 : (⟨S_, .i32⟩ : BufTy).Contents (Elt F) → (⟨S1048576, .i32⟩ : BufTy).Contents (Elt F)) ]

abbrev pGg4a_W : List (Ref sig .tc) := [main_v171, main_v172, main_v173, main_c_59, main_v174, main_v175, main_c_60, main_v176]

end Cert.ReferenceIdeal.Stages

end
-- ==== Proof.RefRunEq3.lean ====
/-
  The fourth window of the reference's @main is the straight line of its operations: each outlined function's definition
  unfolded at its call over that call's buffers, and the sequencing reassociated, leaves one chain of host operations,
  which is the chain `seq` builds from the list.
-/
import proofs.«121984_g44616120271338_cont_sun_m_526_12_alg».proof.Proof.RefRunOps3

noncomputable section

namespace Cert.ReferenceIdeal.Stages

open Idealize.ShloMosaic Idealize.ShloMosaic.TcCoe Idealize.SL.Sem Idealize.ShloMosaic.StableHlo Cert.ReferenceIdeal Cert.ReferenceIdeal.Facts₀

variable {F : FTy → Type} [FloatOps F]

set_option maxRecDepth 8192 in
set_option maxHeartbeats 4000000 in
theorem main_part3_eq (c : Dev nD) :
    main_part3 (F := F) c = seq (pAs4b ++ pAf4 ++ pB4 ++ pC4 ++ pDt4 ++ pDs4 ++ pGd3 ++ pGg3 ++ pGs3 ++ pGr3 ++ pGd4 ++ pGg4a) := by
  simp only [main_part3, fn_cumsum.body, fn_cumsum_0.body, fn_cumsum_1.body, fn_clip.body, fn_floor_divide.body, fn_where.body,
    fn_remainder.body, fn_where_2.body, fn_where_3.body, fn_relu.body, fn_relu_4.body, bind_assoc, pure_bind]
  rfl

end Cert.ReferenceIdeal.Stages

end
-- ==== Proof.RefRunOps4.lean ====
/- GENERATED by: bun scratch/mkops.js proof/Proof — a TABLE: the operations of window 4 of the program's @main, in order, each callee's operations
   written at its call site over that call's buffer record, cut into consecutive pieces; and the references each piece writes. -/
import proofs.«121984_g44616120271338_cont_sun_m_526_12_alg».proof.Proof.RefStages
import Idealize.ShloMosaic.Lib.StableHlo.Run

noncomputable section

namespace Cert.ReferenceIdeal.Stages

open Idealize.ShloMosaic Idealize.ShloMosaic.TcCoe Idealize.SL.Sem Idealize.ShloMosaic.StableHlo Cert.ReferenceIdeal Cert.ReferenceIdeal.Facts₀

variable {F : FTy → Type} [FloatOps F]

abbrev pGg4b : List (HloOp τ sig (Elt F)) :=
  [ binary main_v145 main_v176 main_v177 (addi : (⟨S1048576, .i32⟩ : BufTy).Contents (Elt F) → (⟨S1048576, .i32⟩ : BufTy).Contents (Elt F) → (⟨S1048576, .i32⟩ : BufTy).Contents (Elt F)),
    ternary main_v175 main_v177 main_v145 main_v178 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v178 main_v179 (broadcastInDim S1048576x1 ![0] bcast_S1048576_S1048576x1_0 : (⟨S1048576, .i32⟩ : BufTy).Contents (Elt F) → (⟨S1048576x1, .i32⟩ : BufTy).Contents (Elt F)),
    binary main_v173 main_v179 main_v180 ((fun x i => Host.gather gather_S1024x64_S1048576x1_S1048576x64_1_0_n_n_0_1_164 x i) : (⟨S1024x64, .f32⟩ : BufTy).Contents (Elt F) → (⟨S1048576x1, .i32⟩ : BufTy).Contents (Elt F) → (⟨S1048576x64, .f32⟩ : BufTy).Contents (Elt F)) ]

abbrev pGg4b_W : List (Ref sig .tc) := [main_v177, main_v178, main_v179, main_v180]

abbrev pGs4 : List (HloOp τ sig (Elt F)) :=
  [ nullary main_cst_61 (constant S_ .f32 0x00000000#32),
    unary main_cst_61 main_v181 (broadcastInDim S1024x64 ![] bcast_S_S1024x64 : (⟨S_, .f32⟩ : BufTy).Contents (Elt F) → (⟨S1024x64, .f32⟩ : BufTy).Contents (Elt F)),
    unary main_v146 main_v182 (broadcastInDim S1048576x1 ![0] bcast_S1048576_S1048576x1_0 : (⟨S1048576, .i32⟩ : BufTy).Contents (Elt F) → (⟨S1048576x1, .i32⟩ : BufTy).Contents (Elt F)),
    ternary main_v181 main_v182 main_v180 main_v183 ((fun x i u => Host.scatterAdd scatter_S1024x64_S1048576x1_S1048576x64_1_0_0_1 x i u) : (⟨S1024x64, .f32⟩ : BufTy).Contents (Elt F) → (⟨S1048576x1, .i32⟩ : BufTy).Contents (Elt F) → (⟨S1048576x64, .f32⟩ : BufTy).Contents (Elt F) → (⟨S1024x64, .f32⟩ : BufTy).Contents (Elt F)) ]

abbrev pGs4_W : List (Ref sig .tc) := [main_cst_61, main_v181, main_v182, main_v183]

abbrev pGr4 : List (HloOp τ sig (Elt F)) :=
  [ TRef.nullary main_call39.cst (constant S_ .f32 0x00000000#32),
    TRef.unary main_call39.cst main_call39.v0 (broadcastInDim S1024x64 ![] bcast_S_S1024x64),
    TRef.binary (.of main_v183 : TRef sig ⟨S1024x64, .f32⟩) main_call39.v0 main_call39.v1 maximumf ]

abbrev pGr4_W : List (Ref sig .tc) := [main_call39_cst, main_call39_v0, main_v184]

abbrev pZa : List (HloOp τ sig (Elt F)) :=
  [ binary main_v184 main_v165 main_v185 ((fun a b => concatenate S1024x128 1 [⟨S1024x64, a⟩, ⟨S1024x64, b⟩] concatenates_S1024x64_S1024x64_S1024x128_d1) : (⟨S1024x64, .f32⟩ : BufTy).Contents (Elt F) → (⟨S1024x64, .f32⟩ : BufTy).Contents (Elt F) → (⟨S1024x128, .f32⟩ : BufTy).Contents (Elt F)) ]

abbrev pZa_W : List (Ref sig .tc) := [main_v185]

abbrev pZb : List (HloOp τ sig (Elt F)) :=
  [ unary main_v92 main_v186 (broadcastInDim S1x1024x128 ![1, 2] bcast_S1024x128_S1x1024x128_1_2 : (⟨S1024x128, .f32⟩ : BufTy).Contents (Elt F) → (⟨S1x1024x128, .f32⟩ : BufTy).Contents (Elt F)),
    unary main_v185 main_v187 (broadcastInDim S1x1024x128 ![1, 2] bcast_S1024x128_S1x1024x128_1_2 : (⟨S1024x128, .f32⟩ : BufTy).Contents (Elt F) → (⟨S1x1024x128, .f32⟩ : BufTy).Contents (Elt F)),
    binary main_v186 main_v187 main_v188 ((fun a b => concatenate S2x1024x128 0 [⟨S1x1024x128, a⟩, ⟨S1x1024x128, b⟩] concatenates_S1x1024x128_S1x1024x128_S2x1024x128_d0) : (⟨S1x1024x128, .f32⟩ : BufTy).Contents (Elt F) → (⟨S1x1024x128, .f32⟩ : BufTy).Contents (Elt F) → (⟨S2x1024x128, .f32⟩ : BufTy).Contents (Elt F)) ]

abbrev pZb_W : List (Ref sig .tc) := [main_v186, main_v187, main_v188]

abbrev pZc : List (HloOp τ sig (Elt F)) :=
  [ nullary main_cst_62 (constant S_ .f32 0x00000000#32),
    binary main_v188 main_cst_62 main_v189 ((fun x v => Host.reduceAdd x v reducesTo_S2x1024x128_S1024x128_d0 h_S_) : (⟨S2x1024x128, .f32⟩ : BufTy).Contents (Elt F) → (⟨S_, .f32⟩ : BufTy).Contents (Elt F) → (⟨S1024x128, .f32⟩ : BufTy).Contents (Elt F)) ]

abbrev pZc_W : List (Ref sig .tc) := [main_cst_62, main_v189]

abbrev pZd : List (HloOp τ sig (Elt F)) :=
  [ TRef.nullary main_call40.cst (constant S_ .f32 0x00000000#32),
    TRef.unary main_call40.cst main_call40.v0 (broadcastInDim S1024x128 ![] bcast_S_S1024x128),
    TRef.binary (.of main_v189 : TRef sig ⟨S1024x128, .f32⟩) main_call40.v0 main_call40.v1 maximumf,
    binary main_v190 main_arg7 main_v191 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)) ]

abbrev pZd_W : List (Ref sig .tc) := [main_call40_cst, main_call40_v0, main_v190, main_v191]

abbrev pZe : List (HloOp τ sig (Elt F)) :=
  [ unary main_arg8 main_v192 (broadcastInDim S1x128 ![1] bcast_S128_S1x128_1 : (⟨S128, .f32⟩ : BufTy).Contents (Elt F) → (⟨S1x128, .f32⟩ : BufTy).Contents (Elt F)),
    unary main_v192 main_v193 (broadcastInDim S1024x128 ![0, 1] bcast_S1x128_S1024x128_0_1 : (⟨S1x128, .f32⟩ : BufTy).Contents (Elt F) → (⟨S1024x128, .f32⟩ : BufTy).Contents (Elt F)),
    binary main_v191 main_v193 main_v194 (addf : (⟨S1024x128, .f32⟩ : BufTy).Contents (Elt F) → (⟨S1024x128, .f32⟩ : BufTy).Contents (Elt F) → (⟨S1024x128, .f32⟩ : BufTy).Contents (Elt F)),
    binary main_v194 main_arg0 main_v195 (addf : (⟨S1024x128, .f32⟩ : BufTy).Contents (Elt F) → (⟨S1024x128, .f32⟩ : BufTy).Contents (Elt F) → (⟨S1024x128, .f32⟩ : BufTy).Contents (Elt F)) ]

abbrev pZe_W : List (Ref sig .tc) := [main_v192, main_v193, main_v194, main_v195]

end Cert.ReferenceIdeal.Stages

end
-- ==== Proof.RefRunEq4.lean ====
/-
  The fifth window of the reference's @main is the straight line of its operations: each outlined function's definition
  unfolded at its call over that call's buffers, and the sequencing reassociated, leaves one chain of host operations,
  which is the chain `seq` builds from the list.
-/
import proofs.«121984_g44616120271338_cont_sun_m_526_12_alg».proof.Proof.RefRunOps4

noncomputable section

namespace Cert.ReferenceIdeal.Stages

open Idealize.ShloMosaic Idealize.ShloMosaic.TcCoe Idealize.SL.Sem Idealize.ShloMosaic.StableHlo Cert.ReferenceIdeal Cert.ReferenceIdeal.Facts₀

variable {F : FTy → Type} [FloatOps F]

set_option maxRecDepth 8192 in
set_option maxHeartbeats 4000000 in
theorem main_part4_eq (c : Dev nD) :
    main_part4 (F := F) c = seq (pGg4b ++ pGs4 ++ pGr4 ++ pZa ++ pZb ++ pZc ++ pZd ++ pZe) := by
  simp only [main_part4, fn_cumsum.body, fn_cumsum_0.body, fn_cumsum_1.body, fn_clip.body, fn_floor_divide.body, fn_where.body,
    fn_remainder.body, fn_where_2.body, fn_where_3.body, fn_relu.body, fn_relu_4.body, bind_assoc, pure_bind]
  rfl

end Cert.ReferenceIdeal.Stages

end
-- ==== Proof.RefRunMain.lean ====
/-
  The reference's @main as ONE straight line of host operations, and its run.

  @main is five windows run one after the other; each window is the straight line of the pieces listed for it, so @main is
  the straight line of the concatenation of all the pieces. Every operation reads and writes TensorCore references only and
  determines its results, and the signature scopes no buffer and no semaphore: so every weakly fair execution terminates with
  each buffer at the fold of the operations' results over the launch contents.
-/
import proofs.«121984_g44616120271338_cont_sun_m_526_12_alg».proof.Proof.RefRunEq0
import proofs.«121984_g44616120271338_cont_sun_m_526_12_alg».proof.Proof.RefRunEq1
import proofs.«121984_g44616120271338_cont_sun_m_526_12_alg».proof.Proof.RefRunEq2
import proofs.«121984_g44616120271338_cont_sun_m_526_12_alg».proof.Proof.RefRunEq3
import proofs.«121984_g44616120271338_cont_sun_m_526_12_alg».proof.Proof.RefRunEq4
import Idealize.ShloMosaic.Lib.StableHlo.Run

noncomputable section

namespace Cert.ReferenceIdeal.Stages

open Idealize.ShloMosaic Idealize.ShloMosaic.TcCoe Idealize.SL.Sem Idealize.ShloMosaic.StableHlo Cert.ReferenceIdeal Cert.ReferenceIdeal.Facts₀

variable {F : FTy → Type} [FloatOps F]

abbrev w0 : List (HloOp τ sig (Elt F)) := pAm1 ++ pAu1 ++ pAl1 ++ pAs1 ++ pAf1 ++ pB1 ++ pC1 ++ pDt1 ++ pDs1 ++ pAm2 ++ pAu2 ++ pAl2 ++ pAs2a
abbrev w1 : List (HloOp τ sig (Elt F)) := pAs2b ++ pAf2 ++ pB2 ++ pC2 ++ pDt2 ++ pDs2 ++ pGd1 ++ pGg1 ++ pGs1 ++ pGr1 ++ pGd2 ++ pGg2 ++ pGs2a
abbrev w2 : List (HloOp τ sig (Elt F)) := pGs2b ++ pGr2 ++ pH ++ pAm3 ++ pAu3 ++ pAl3 ++ pAs3 ++ pAf3 ++ pB3 ++ pC3 ++ pDt3 ++ pDs3 ++ pAm4 ++ pAu4 ++ pAl4 ++ pAs4a
abbrev w3 : List (HloOp τ sig (Elt F)) := pAs4b ++ pAf4 ++ pB4 ++ pC4 ++ pDt4 ++ pDs4 ++ pGd3 ++ pGg3 ++ pGs3 ++ pGr3 ++ pGd4 ++ pGg4a
abbrev w4 : List (HloOp τ sig (Elt F)) := pGg4b ++ pGs4 ++ pGr4 ++ pZa ++ pZb ++ pZc ++ pZd ++ pZe
abbrev ops : List (HloOp τ sig (Elt F)) := w0 ++ (w1 ++ (w2 ++ (w3 ++ w4)))

/-- @main is the straight line of all its operations: window by window, the windows joined. -/
theorem main_eq (c : Dev nD) : main (F := F) c = seq ops := by
  show main (F := F) c = seq (w0 ++ (w1 ++ (w2 ++ (w3 ++ w4))))
  rw [seq_append w0, seq_append w1, seq_append w2, seq_append w3]
  rw [← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_append {α : Type} {P : α → Prop} {l₁ l₂ : List α} (h₁ : l₁.Forall P) (h₂ : l₂.Forall P) : (l₁ ++ l₂).Forall P := by
  rw [List.forall_iff_forall_mem] at h₁ h₂ ⊢
  intro x hx
  rcases List.mem_append.mp hx with h | h
  exacts [h₁ x h, h₂ x h]

/-! ## Every operation touches TensorCore references only -/

set_option maxRecDepth 8192 in
theorem pAm1_sub : (pAm1 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pAu1_sub : (pAu1 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pAl1_sub : (pAl1 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pAs1_sub : (pAs1 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pAf1_sub : (pAf1 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pB1_sub : (pB1 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pC1_sub : (pC1 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pDt1_sub : (pDt1 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pDs1_sub : (pDs1 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pAm2_sub : (pAm2 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pAu2_sub : (pAu2 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pAl2_sub : (pAl2 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pAs2a_sub : (pAs2a : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pAs2b_sub : (pAs2b : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pAf2_sub : (pAf2 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pB2_sub : (pB2 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pC2_sub : (pC2 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pDt2_sub : (pDt2 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pDs2_sub : (pDs2 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pGd1_sub : (pGd1 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pGg1_sub : (pGg1 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pGs1_sub : (pGs1 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pGr1_sub : (pGr1 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pGd2_sub : (pGd2 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pGg2_sub : (pGg2 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pGs2a_sub : (pGs2a : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pGs2b_sub : (pGs2b : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pGr2_sub : (pGr2 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pH_sub : (pH : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pAm3_sub : (pAm3 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pAu3_sub : (pAu3 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pAl3_sub : (pAl3 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pAs3_sub : (pAs3 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pAf3_sub : (pAf3 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pB3_sub : (pB3 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pC3_sub : (pC3 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pDt3_sub : (pDt3 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pDs3_sub : (pDs3 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pAm4_sub : (pAm4 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pAu4_sub : (pAu4 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pAl4_sub : (pAl4 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pAs4a_sub : (pAs4a : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pAs4b_sub : (pAs4b : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pAf4_sub : (pAf4 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pB4_sub : (pB4 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pC4_sub : (pC4 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pDt4_sub : (pDt4 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pDs4_sub : (pDs4 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pGd3_sub : (pGd3 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pGg3_sub : (pGg3 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pGs3_sub : (pGs3 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pGr3_sub : (pGr3 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pGd4_sub : (pGd4 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pGg4a_sub : (pGg4a : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pGg4b_sub : (pGg4b : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pGs4_sub : (pGs4 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pGr4_sub : (pGr4 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pZa_sub : (pZa : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pZb_sub : (pZb : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pZc_sub : (pZc : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pZd_sub : (pZd : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem pZe_sub : (pZe : List (HloOp τ sig (Elt F))).Forall fun op => op.bufs ⊆ tcRefs τ sig := by
  simp only [List.Forall, nullary_bufs_sub, unary_bufs_sub, binary_bufs_sub, ternary_bufs_sub, reshape_bufs_sub, and_self]

theorem w0_sub : (w0 : List (HloOp τ sig (Elt F))).Forall fun op => op.bufs ⊆ tcRefs τ sig := by
  have h1 := forall_append (pAm1_sub (F := F)) (pAu1_sub (F := F))
  have h2 := forall_append h1 (pAl1_sub (F := F))
  have h3 := forall_append h2 (pAs1_sub (F := F))
  have h4 := forall_append h3 (pAf1_sub (F := F))
  have h5 := forall_append h4 (pB1_sub (F := F))
  have h6 := forall_append h5 (pC1_sub (F := F))
  have h7 := forall_append h6 (pDt1_sub (F := F))
  have h8 := forall_append h7 (pDs1_sub (F := F))
  have h9 := forall_append h8 (pAm2_sub (F := F))
  have h10 := forall_append h9 (pAu2_sub (F := F))
  have h11 := forall_append h10 (pAl2_sub (F := F))
  have h12 := forall_append h11 (pAs2a_sub (F := F))
  exact h12

theorem w1_sub : (w1 : List (HloOp τ sig (Elt F))).Forall fun op => op.bufs ⊆ tcRefs τ sig := by
  have h1 := forall_append (pAs2b_sub (F := F)) (pAf2_sub (F := F))
  have h2 := forall_append h1 (pB2_sub (F := F))
  have h3 := forall_append h2 (pC2_sub (F := F))
  have h4 := forall_append h3 (pDt2_sub (F := F))
  have h5 := forall_append h4 (pDs2_sub (F := F))
  have h6 := forall_append h5 (pGd1_sub (F := F))
  have h7 := forall_append h6 (pGg1_sub (F := F))
  have h8 := forall_append h7 (pGs1_sub (F := F))
  have h9 := forall_append h8 (pGr1_sub (F := F))
  have h10 := forall_append h9 (pGd2_sub (F := F))
  have h11 := forall_append h10 (pGg2_sub (F := F))
  have h12 := forall_append h11 (pGs2a_sub (F := F))
  exact h12

theorem w2_sub : (w2 : List (HloOp τ sig (Elt F))).Forall fun op => op.bufs ⊆ tcRefs τ sig := by
  have h1 := forall_append (pGs2b_sub (F := F)) (pGr2_sub (F := F))
  have h2 := forall_append h1 (pH_sub (F := F))
  have h3 := forall_append h2 (pAm3_sub (F := F))
  have h4 := forall_append h3 (pAu3_sub (F := F))
  have h5 := forall_append h4 (pAl3_sub (F := F))
  have h6 := forall_append h5 (pAs3_sub (F := F))
  have h7 := forall_append h6 (pAf3_sub (F := F))
  have h8 := forall_append h7 (pB3_sub (F := F))
  have h9 := forall_append h8 (pC3_sub (F := F))
  have h10 := forall_append h9 (pDt3_sub (F := F))
  have h11 := forall_append h10 (pDs3_sub (F := F))
  have h12 := forall_append h11 (pAm4_sub (F := F))
  have h13 := forall_append h12 (pAu4_sub (F := F))
  have h14 := forall_append h13 (pAl4_sub (F := F))
  have h15 := forall_append h14 (pAs4a_sub (F := F))
  exact h15

theorem w3_sub : (w3 : List (HloOp τ sig (Elt F))).Forall fun op => op.bufs ⊆ tcRefs τ sig := by
  have h1 := forall_append (pAs4b_sub (F := F)) (pAf4_sub (F := F))
  have h2 := forall_append h1 (pB4_sub (F := F))
  have h3 := forall_append h2 (pC4_sub (F := F))
  have h4 := forall_append h3 (pDt4_sub (F := F))
  have h5 := forall_append h4 (pDs4_sub (F := F))
  have h6 := forall_append h5 (pGd3_sub (F := F))
  have h7 := forall_append h6 (pGg3_sub (F := F))
  have h8 := forall_append h7 (pGs3_sub (F := F))
  have h9 := forall_append h8 (pGr3_sub (F := F))
  have h10 := forall_append h9 (pGd4_sub (F := F))
  have h11 := forall_append h10 (pGg4a_sub (F := F))
  exact h11

theorem w4_sub : (w4 : List (HloOp τ sig (Elt F))).Forall fun op => op.bufs ⊆ tcRefs τ sig := by
  have h1 := forall_append (pGg4b_sub (F := F)) (pGs4_sub (F := F))
  have h2 := forall_append h1 (pGr4_sub (F := F))
  have h3 := forall_append h2 (pZa_sub (F := F))
  have h4 := forall_append h3 (pZb_sub (F := F))
  have h5 := forall_append h4 (pZc_sub (F := F))
  have h6 := forall_append h5 (pZd_sub (F := F))
  have h7 := forall_append h6 (pZe_sub (F := F))
  exact h7

theorem ops_sub : (ops : List (HloOp τ sig (Elt F))).Forall fun op => op.bufs ⊆ tcRefs τ sig := by
  rw [List.forall_iff_forall_mem]
  intro op h
  rcases List.mem_append.mp h with h | h
  · exact List.forall_iff_forall_mem.mp (w0_sub (F := F)) op h
  rcases List.mem_append.mp h with h | h
  · exact List.forall_iff_forall_mem.mp (w1_sub (F := F)) op h
  rcases List.mem_append.mp h with h | h
  · exact List.forall_iff_forall_mem.mp (w2_sub (F := F)) op h
  rcases List.mem_append.mp h with h | h
  · exact List.forall_iff_forall_mem.mp (w3_sub (F := F)) op h
  · exact List.forall_iff_forall_mem.mp (w4_sub (F := F)) op h

/-! ## Every operation determines its results -/

set_option maxRecDepth 8192 in
theorem pAm1_fresh : (pAm1 : List (HloOp τ sig (Elt F))).Forall fun op => op.fresh = ∅ := by
  simp only [List.Forall]
  repeat' constructor

set_option maxRecDepth 8192 in
theorem pAu1_fresh : (pAu1 : List (HloOp τ sig (Elt F))).Forall fun op => op.fresh = ∅ := by
  simp only [List.Forall]
  repeat' constructor

set_option maxRecDepth 8192 in
theorem pAl1_fresh : (pAl1 : List (HloOp τ sig (Elt F))).Forall fun op => op.fresh = ∅ := by
  simp only [List.Forall]
  repeat' constructor

set_option maxRecDepth 8192 in
theorem pAs1_fresh : (pAs1 : List (HloOp τ sig (Elt F))).Forall fun op => op.fresh = ∅ := by
  simp only [List.Forall]
  repeat' constructor

set_option maxRecDepth 8192 in
theorem pAf1_fresh : (pAf1 : List (HloOp τ sig (Elt F))).Forall fun op => op.fresh = ∅ := by
  simp only [List.Forall]
  repeat' constructor

set_option maxRecDepth 8192 in
theorem pB1_fresh : (pB1 : List (HloOp τ sig (Elt F))).Forall fun op => op.fresh = ∅ := by
  simp only [List.Forall]
  repeat' constructor

set_option maxRecDepth 8192 in
theorem pC1_fresh : (pC1 : List (HloOp τ sig (Elt F))).Forall fun op => op.fresh = ∅ := by
  simp only [List.Forall]
  repeat' constructor

set_option maxRecDepth 8192 in
theorem pDt1_fresh : (pDt1 : List (HloOp τ sig (Elt F))).Forall fun op => op.fresh = ∅ := by
  simp only [List.Forall]
  repeat' constructor

set_option maxRecDepth 8192 in
theorem pDs1_fresh : (pDs1 : List (HloOp τ sig (Elt F))).Forall fun op => op.fresh = ∅ := by
  simp only [List.Forall]
  repeat' constructor

set_option maxRecDepth 8192 in
theorem pAm2_fresh : (pAm2 : List (HloOp τ sig (Elt F))).Forall fun op => op.fresh = ∅ := by
  simp only [List.Forall]
  repeat' constructor

set_option maxRecDepth 8192 in
theorem pAu2_fresh : (pAu2 : List (HloOp τ sig (Elt F))).Forall fun op => op.fresh = ∅ := by
  simp only [List.Forall]
  repeat' constructor

set_option maxRecDepth 8192 in
theorem pAl2_fresh : (pAl2 : List (HloOp τ sig (Elt F))).Forall fun op => op.fresh = ∅ := by
  simp only [List.Forall]
  repeat' constructor

set_option maxRecDepth 8192 in
theorem pAs2a_fresh : (pAs2a : List (HloOp τ sig (Elt F))).Forall fun op => op.fresh = ∅ := by
  simp only [List.Forall]
  repeat' constructor

set_option maxRecDepth 8192 in
theorem pAs2b_fresh : (pAs2b : List (HloOp τ sig (Elt F))).Forall fun op => op.fresh = ∅ := by
  simp only [List.Forall]
  repeat' constructor

set_option maxRecDepth 8192 in
theorem pAf2_fresh : (pAf2 : List (HloOp τ sig (Elt F))).Forall fun op => op.fresh = ∅ := by
  simp only [List.Forall]
  repeat' constructor

set_option maxRecDepth 8192 in
theorem pB2_fresh : (pB2 : List (HloOp τ sig (Elt F))).Forall fun op => op.fresh = ∅ := by
  simp only [List.Forall]
  repeat' constructor

set_option maxRecDepth 8192 in
theorem pC2_fresh : (pC2 : List (HloOp τ sig (Elt F))).Forall fun op => op.fresh = ∅ := by
  simp only [List.Forall]
  repeat' constructor

set_option maxRecDepth 8192 in
theorem pDt2_fresh : (pDt2 : List (HloOp τ sig (Elt F))).Forall fun op => op.fresh = ∅ := by
  simp only [List.Forall]
  repeat' constructor

set_option maxRecDepth 8192 in
theorem pDs2_fresh : (pDs2 : List (HloOp τ sig (Elt F))).Forall fun op => op.fresh = ∅ := by
  simp only [List.Forall]
  repeat' constructor

set_option maxRecDepth 8192 in
theorem pGd1_fresh : (pGd1 : List (HloOp τ sig (Elt F))).Forall fun op => op.fresh = ∅ := by
  simp only [List.Forall]
  repeat' constructor

set_option maxRecDepth 8192 in
theorem pGg1_fresh : (pGg1 : List (HloOp τ sig (Elt F))).Forall fun op => op.fresh = ∅ := by
  simp only [List.Forall]
  repeat' constructor

set_option maxRecDepth 8192 in
theorem pGs1_fresh : (pGs1 : List (HloOp τ sig (Elt F))).Forall fun op => op.fresh = ∅ := by
  simp only [List.Forall]
  repeat' constructor

set_option maxRecDepth 8192 in
theorem pGr1_fresh : (pGr1 : List (HloOp τ sig (Elt F))).Forall fun op => op.fresh = ∅ := by
  simp only [List.Forall]
  repeat' constructor

set_option maxRecDepth 8192 in
theorem pGd2_fresh : (pGd2 : List (HloOp τ sig (Elt F))).Forall fun op => op.fresh = ∅ := by
  simp only [List.Forall]
  repeat' constructor

set_option maxRecDepth 8192 in
theorem pGg2_fresh : (pGg2 : List (HloOp τ sig (Elt F))).Forall fun op => op.fresh = ∅ := by
  simp only [List.Forall]
  repeat' constructor

set_option maxRecDepth 8192 in
theorem pGs2a_fresh : (pGs2a : List (HloOp τ sig (Elt F))).Forall fun op => op.fresh = ∅ := by
  simp only [List.Forall]
  repeat' constructor

set_option maxRecDepth 8192 in
theorem pGs2b_fresh : (pGs2b : List (HloOp τ sig (Elt F))).Forall fun op => op.fresh = ∅ := by
  simp only [List.Forall]
  repeat' constructor

set_option maxRecDepth 8192 in
theorem pGr2_fresh : (pGr2 : List (HloOp τ sig (Elt F))).Forall fun op => op.fresh = ∅ := by
  simp only [List.Forall]
  repeat' constructor

set_option maxRecDepth 8192 in
theorem pH_fresh : (pH : List (HloOp τ sig (Elt F))).Forall fun op => op.fresh = ∅ := by
  simp only [List.Forall]
  repeat' constructor

set_option maxRecDepth 8192 in
theorem pAm3_fresh : (pAm3 : List (HloOp τ sig (Elt F))).Forall fun op => op.fresh = ∅ := by
  simp only [List.Forall]
  repeat' constructor

set_option maxRecDepth 8192 in
theorem pAu3_fresh : (pAu3 : List (HloOp τ sig (Elt F))).Forall fun op => op.fresh = ∅ := by
  simp only [List.Forall]
  repeat' constructor

set_option maxRecDepth 8192 in
theorem pAl3_fresh : (pAl3 : List (HloOp τ sig (Elt F))).Forall fun op => op.fresh = ∅ := by
  simp only [List.Forall]
  repeat' constructor

set_option maxRecDepth 8192 in
theorem pAs3_fresh : (pAs3 : List (HloOp τ sig (Elt F))).Forall fun op => op.fresh = ∅ := by
  simp only [List.Forall]
  repeat' constructor

set_option maxRecDepth 8192 in
theorem pAf3_fresh : (pAf3 : List (HloOp τ sig (Elt F))).Forall fun op => op.fresh = ∅ := by
  simp only [List.Forall]
  repeat' constructor

set_option maxRecDepth 8192 in
theorem pB3_fresh : (pB3 : List (HloOp τ sig (Elt F))).Forall fun op => op.fresh = ∅ := by
  simp only [List.Forall]
  repeat' constructor

set_option maxRecDepth 8192 in
theorem pC3_fresh : (pC3 : List (HloOp τ sig (Elt F))).Forall fun op => op.fresh = ∅ := by
  simp only [List.Forall]
  repeat' constructor

set_option maxRecDepth 8192 in
theorem pDt3_fresh : (pDt3 : List (HloOp τ sig (Elt F))).Forall fun op => op.fresh = ∅ := by
  simp only [List.Forall]
  repeat' constructor

set_option maxRecDepth 8192 in
theorem pDs3_fresh : (pDs3 : List (HloOp τ sig (Elt F))).Forall fun op => op.fresh = ∅ := by
  simp only [List.Forall]
  repeat' constructor

set_option maxRecDepth 8192 in
theorem pAm4_fresh : (pAm4 : List (HloOp τ sig (Elt F))).Forall fun op => op.fresh = ∅ := by
  simp only [List.Forall]
  repeat' constructor

set_option maxRecDepth 8192 in
theorem pAu4_fresh : (pAu4 : List (HloOp τ sig (Elt F))).Forall fun op => op.fresh = ∅ := by
  simp only [List.Forall]
  repeat' constructor

set_option maxRecDepth 8192 in
theorem pAl4_fresh : (pAl4 : List (HloOp τ sig (Elt F))).Forall fun op => op.fresh = ∅ := by
  simp only [List.Forall]
  repeat' constructor

set_option maxRecDepth 8192 in
theorem pAs4a_fresh : (pAs4a : List (HloOp τ sig (Elt F))).Forall fun op => op.fresh = ∅ := by
  simp only [List.Forall]
  repeat' constructor

set_option maxRecDepth 8192 in
theorem pAs4b_fresh : (pAs4b : List (HloOp τ sig (Elt F))).Forall fun op => op.fresh = ∅ := by
  simp only [List.Forall]
  repeat' constructor

set_option maxRecDepth 8192 in
theorem pAf4_fresh : (pAf4 : List (HloOp τ sig (Elt F))).Forall fun op => op.fresh = ∅ := by
  simp only [List.Forall]
  repeat' constructor

set_option maxRecDepth 8192 in
theorem pB4_fresh : (pB4 : List (HloOp τ sig (Elt F))).Forall fun op => op.fresh = ∅ := by
  simp only [List.Forall]
  repeat' constructor

set_option maxRecDepth 8192 in
theorem pC4_fresh : (pC4 : List (HloOp τ sig (Elt F))).Forall fun op => op.fresh = ∅ := by
  simp only [List.Forall]
  repeat' constructor

set_option maxRecDepth 8192 in
theorem pDt4_fresh : (pDt4 : List (HloOp τ sig (Elt F))).Forall fun op => op.fresh = ∅ := by
  simp only [List.Forall]
  repeat' constructor

set_option maxRecDepth 8192 in
theorem pDs4_fresh : (pDs4 : List (HloOp τ sig (Elt F))).Forall fun op => op.fresh = ∅ := by
  simp only [List.Forall]
  repeat' constructor

set_option maxRecDepth 8192 in
theorem pGd3_fresh : (pGd3 : List (HloOp τ sig (Elt F))).Forall fun op => op.fresh = ∅ := by
  simp only [List.Forall]
  repeat' constructor

set_option maxRecDepth 8192 in
theorem pGg3_fresh : (pGg3 : List (HloOp τ sig (Elt F))).Forall fun op => op.fresh = ∅ := by
  simp only [List.Forall]
  repeat' constructor

set_option maxRecDepth 8192 in
theorem pGs3_fresh : (pGs3 : List (HloOp τ sig (Elt F))).Forall fun op => op.fresh = ∅ := by
  simp only [List.Forall]
  repeat' constructor

set_option maxRecDepth 8192 in
theorem pGr3_fresh : (pGr3 : List (HloOp τ sig (Elt F))).Forall fun op => op.fresh = ∅ := by
  simp only [List.Forall]
  repeat' constructor

set_option maxRecDepth 8192 in
theorem pGd4_fresh : (pGd4 : List (HloOp τ sig (Elt F))).Forall fun op => op.fresh = ∅ := by
  simp only [List.Forall]
  repeat' constructor

set_option maxRecDepth 8192 in
theorem pGg4a_fresh : (pGg4a : List (HloOp τ sig (Elt F))).Forall fun op => op.fresh = ∅ := by
  simp only [List.Forall]
  repeat' constructor

set_option maxRecDepth 8192 in
theorem pGg4b_fresh : (pGg4b : List (HloOp τ sig (Elt F))).Forall fun op => op.fresh = ∅ := by
  simp only [List.Forall]
  repeat' constructor

set_option maxRecDepth 8192 in
theorem pGs4_fresh : (pGs4 : List (HloOp τ sig (Elt F))).Forall fun op => op.fresh = ∅ := by
  simp only [List.Forall]
  repeat' constructor

set_option maxRecDepth 8192 in
theorem pGr4_fresh : (pGr4 : List (HloOp τ sig (Elt F))).Forall fun op => op.fresh = ∅ := by
  simp only [List.Forall]
  repeat' constructor

set_option maxRecDepth 8192 in
theorem pZa_fresh : (pZa : List (HloOp τ sig (Elt F))).Forall fun op => op.fresh = ∅ := by
  simp only [List.Forall]
  repeat' constructor

set_option maxRecDepth 8192 in
theorem pZb_fresh : (pZb : List (HloOp τ sig (Elt F))).Forall fun op => op.fresh = ∅ := by
  simp only [List.Forall]
  repeat' constructor

set_option maxRecDepth 8192 in
theorem pZc_fresh : (pZc : List (HloOp τ sig (Elt F))).Forall fun op => op.fresh = ∅ := by
  simp only [List.Forall]
  repeat' constructor

set_option maxRecDepth 8192 in
theorem pZd_fresh : (pZd : List (HloOp τ sig (Elt F))).Forall fun op => op.fresh = ∅ := by
  simp only [List.Forall]
  repeat' constructor

set_option maxRecDepth 8192 in
theorem pZe_fresh : (pZe : List (HloOp τ sig (Elt F))).Forall fun op => op.fresh = ∅ := by
  simp only [List.Forall]
  repeat' constructor

theorem w0_fresh : (w0 : List (HloOp τ sig (Elt F))).Forall fun op => op.fresh = ∅ := by
  have h1 := forall_append (pAm1_fresh (F := F)) (pAu1_fresh (F := F))
  have h2 := forall_append h1 (pAl1_fresh (F := F))
  have h3 := forall_append h2 (pAs1_fresh (F := F))
  have h4 := forall_append h3 (pAf1_fresh (F := F))
  have h5 := forall_append h4 (pB1_fresh (F := F))
  have h6 := forall_append h5 (pC1_fresh (F := F))
  have h7 := forall_append h6 (pDt1_fresh (F := F))
  have h8 := forall_append h7 (pDs1_fresh (F := F))
  have h9 := forall_append h8 (pAm2_fresh (F := F))
  have h10 := forall_append h9 (pAu2_fresh (F := F))
  have h11 := forall_append h10 (pAl2_fresh (F := F))
  have h12 := forall_append h11 (pAs2a_fresh (F := F))
  exact h12

theorem w1_fresh : (w1 : List (HloOp τ sig (Elt F))).Forall fun op => op.fresh = ∅ := by
  have h1 := forall_append (pAs2b_fresh (F := F)) (pAf2_fresh (F := F))
  have h2 := forall_append h1 (pB2_fresh (F := F))
  have h3 := forall_append h2 (pC2_fresh (F := F))
  have h4 := forall_append h3 (pDt2_fresh (F := F))
  have h5 := forall_append h4 (pDs2_fresh (F := F))
  have h6 := forall_append h5 (pGd1_fresh (F := F))
  have h7 := forall_append h6 (pGg1_fresh (F := F))
  have h8 := forall_append h7 (pGs1_fresh (F := F))
  have h9 := forall_append h8 (pGr1_fresh (F := F))
  have h10 := forall_append h9 (pGd2_fresh (F := F))
  have h11 := forall_append h10 (pGg2_fresh (F := F))
  have h12 := forall_append h11 (pGs2a_fresh (F := F))
  exact h12

theorem w2_fresh : (w2 : List (HloOp τ sig (Elt F))).Forall fun op => op.fresh = ∅ := by
  have h1 := forall_append (pGs2b_fresh (F := F)) (pGr2_fresh (F := F))
  have h2 := forall_append h1 (pH_fresh (F := F))
  have h3 := forall_append h2 (pAm3_fresh (F := F))
  have h4 := forall_append h3 (pAu3_fresh (F := F))
  have h5 := forall_append h4 (pAl3_fresh (F := F))
  have h6 := forall_append h5 (pAs3_fresh (F := F))
  have h7 := forall_append h6 (pAf3_fresh (F := F))
  have h8 := forall_append h7 (pB3_fresh (F := F))
  have h9 := forall_append h8 (pC3_fresh (F := F))
  have h10 := forall_append h9 (pDt3_fresh (F := F))
  have h11 := forall_append h10 (pDs3_fresh (F := F))
  have h12 := forall_append h11 (pAm4_fresh (F := F))
  have h13 := forall_append h12 (pAu4_fresh (F := F))
  have h14 := forall_append h13 (pAl4_fresh (F := F))
  have h15 := forall_append h14 (pAs4a_fresh (F := F))
  exact h15

theorem w3_fresh : (w3 : List (HloOp τ sig (Elt F))).Forall fun op => op.fresh = ∅ := by
  have h1 := forall_append (pAs4b_fresh (F := F)) (pAf4_fresh (F := F))
  have h2 := forall_append h1 (pB4_fresh (F := F))
  have h3 := forall_append h2 (pC4_fresh (F := F))
  have h4 := forall_append h3 (pDt4_fresh (F := F))
  have h5 := forall_append h4 (pDs4_fresh (F := F))
  have h6 := forall_append h5 (pGd3_fresh (F := F))
  have h7 := forall_append h6 (pGg3_fresh (F := F))
  have h8 := forall_append h7 (pGs3_fresh (F := F))
  have h9 := forall_append h8 (pGr3_fresh (F := F))
  have h10 := forall_append h9 (pGd4_fresh (F := F))
  have h11 := forall_append h10 (pGg4a_fresh (F := F))
  exact h11

theorem w4_fresh : (w4 : List (HloOp τ sig (Elt F))).Forall fun op => op.fresh = ∅ := by
  have h1 := forall_append (pGg4b_fresh (F := F)) (pGs4_fresh (F := F))
  have h2 := forall_append h1 (pGr4_fresh (F := F))
  have h3 := forall_append h2 (pZa_fresh (F := F))
  have h4 := forall_append h3 (pZb_fresh (F := F))
  have h5 := forall_append h4 (pZc_fresh (F := F))
  have h6 := forall_append h5 (pZd_fresh (F := F))
  have h7 := forall_append h6 (pZe_fresh (F := F))
  exact h7

theorem ops_fresh : (ops : List (HloOp τ sig (Elt F))).Forall fun op => op.fresh = ∅ := by
  rw [List.forall_iff_forall_mem]
  intro op h
  rcases List.mem_append.mp h with h | h
  · exact List.forall_iff_forall_mem.mp (w0_fresh (F := F)) op h
  rcases List.mem_append.mp h with h | h
  · exact List.forall_iff_forall_mem.mp (w1_fresh (F := F)) op h
  rcases List.mem_append.mp h with h | h
  · exact List.forall_iff_forall_mem.mp (w2_fresh (F := F)) op h
  rcases List.mem_append.mp h with h | h
  · exact List.forall_iff_forall_mem.mp (w3_fresh (F := F)) op h
  · exact List.forall_iff_forall_mem.mp (w4_fresh (F := F)) op h

/-! ## The run -/

/-- At the compiled mesh, for any float values, from any memory with zero counters: every weakly fair execution of @main on
    the TensorCores terminates, and every final state has each TensorCore buffer at the operations' fold over the launch
    contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ op h => List.forall_iff_forall_mem.mp ops_fresh op h)

end Cert.ReferenceIdeal.Stages

end
-- ==== Proof.RefRunAux.lean ====
/-
  Two intermediate forms of the stage functions, stated over the values a stretch of the program reads rather than over
  the adjacency matrix, and the facts about operation lists the stretch-by-stretch reading uses.

  * `fillSel mk w x`: x below the number of ones of the mask mk, the word w from there on — the last step of the
    enumeration, so that `nzRow A` is `fillSel (mask A) 0 (row part)` and `nzCol A` is `fillSel (mask A) 1024 (column part)`.
  * `clippedOf mk`, `countsOf z c`: the clamped running count as a function of the mask, and the scatter of ones as a function
    of its start vector and positions, so that `flat A` is `cum (countsOf (splat 0) (clippedOf (mask A)))`.
  * `gnnRaw r c h`: the rows of h gathered at the (wrapped) sources r, summed into the destinations c, clamped below at 0,
    so that `gnn A h` is `gnnRaw (nzRow A) (nzCol A) h`.
  * The contents after two lists run one after the other are the second's over the first's; and a bound on what each of
    two lists writes bounds what their concatenation writes.
-/
import proofs.«121984_g44616120271338_cont_sun_m_526_12_alg».proof.Proof.RefStages
import Idealize.ShloMosaic.Lib.StableHlo.Run

noncomputable section

namespace Cert.ReferenceIdeal.Stages

open Idealize.ShloMosaic Idealize.ShloMosaic.TcCoe Idealize.SL.Sem Idealize.ShloMosaic.StableHlo Cert.ReferenceIdeal Cert.ReferenceIdeal.Facts₀

variable {F : FTy → Type} [FloatOps F]

/-- x below the number of ones of the mask, the word w from there on. -/
def fillSel (mk : IVec S1024x1024 1) (w : BitVec 32) (x : IVec S1048576 32) : IVec S1048576 32 :=
  select
    (cmpi .sge (iotaInDim S1048576 32 0)
      (broadcastInDim S1048576 ![] bcast_S_S1048576
        (Host.reduce IntOp.addi (extui 32 mk natLt_1_32) (constantI S_ 32 0#32) reducesTo_S1024x1024_S_d0_1 h_S_)))
    (broadcastInDim S1048576 ![] bcast_S_S1048576 (id (constantI S_ 32 w))) x

theorem nzRow_eq (A : IVec S1024x1024 32) :
    nzRow A = fillSel (mask A) 0#32 (pyRem (floorDiv (flat A) 1024#32) 1024#32) := rfl

theorem nzCol_eq (A : IVec S1024x1024 32) :
    nzCol A = fillSel (mask A) 1024#32 (pyRem (floorDiv (flat A) 1#32) 1024#32) := rfl

/-- The running count of the ones of a mask, clamped below at 0. -/
def clippedOf (mk : IVec S1024x1024 1) : IVec S1048576 32 :=
  maxsi (broadcastInDim S1048576 ![] bcast_S_S1048576 (id (constantI S_ 32 0#32)))
    (cum (extui 32 (shapeCast S1048576 mk shapeCasts_S1024x1024_S1048576) natLt_1_32))

theorem clipped_eq (A : IVec S1024x1024 32) : clipped A = clippedOf (mask A) := rfl

theorem clippedOf_eq (mk : IVec S1024x1024 1) :
    clippedOf mk = maxsi (broadcastInDim S1048576 ![] bcast_S_S1048576 (id (constantI S_ 32 0#32)))
      (cum (extui 32 (shapeCast S1048576 mk shapeCasts_S1024x1024_S1048576) natLt_1_32)) := rfl

/-- The number of ones of a mask. -/
def totalOf (mk : IVec S1024x1024 1) : IVec S_ 32 :=
  Host.reduce IntOp.addi (extui 32 mk natLt_1_32) (constantI S_ 32 0#32) reducesTo_S1024x1024_S_d0_1 h_S_

/-- x where the position io is below the count t, the word w from there on. -/
def fillSelV (io : IVec S1048576 32) (t : IVec S_ 32) (w : BitVec 32) (x : IVec S1048576 32) : IVec S1048576 32 :=
  select (cmpi .sge io (broadcastInDim S1048576 ![] bcast_S_S1048576 t))
    (broadcastInDim S1048576 ![] bcast_S_S1048576 (id (constantI S_ 32 w))) x

theorem fillSel_eq (mk : IVec S1024x1024 1) (w : BitVec 32) (x : IVec S1048576 32) :
    fillSel mk w x = fillSelV (iotaInDim S1048576 32 0) (totalOf mk) w x := rfl

/-- Ones scattered (summed) into the start vector z at the positions c, a negative position wrapped by 2^20. -/
def countsOf (z c : IVec S1048576 32) : IVec S1048576 32 :=
  Host.scatter scatter_S1048576_S1048576x1_S1048576_n_0_0_1 IntOp.addi z
    (broadcastInDim S1048576x1 ![0] bcast_S1048576_S1048576x1_0
      (select (cmpi .slt c (splat 0#32)) (addi c (splat 1048576#32)) c))
    (splat 1#32)

theorem counts_eq (A : IVec S1024x1024 32) : counts A = countsOf (splat 0#32) (clipped A) := rfl

theorem flat_eq (A : IVec S1024x1024 32) : flat A = cum (counts A) := rfl

/-- One graph convolution over explicit source and destination vectors. -/
def gnnRaw (r c : IVec S1048576 32) (h : FVec F S1024x64 .f32) : FVec F S1024x64 .f32 :=
  maximumf
    (Host.scatterAdd scatter_S1024x64_S1048576x1_S1048576x64_1_0_0_1 zeros64
      (broadcastInDim S1048576x1 ![0] bcast_S1048576_S1048576x1_0 c)
      (Host.gather gather_S1024x64_S1048576x1_S1048576x64_1_0_n_n_0_1_164 h
        (broadcastInDim S1048576x1 ![0] bcast_S1048576_S1048576x1_0 (normIdx r))))
    zeros64

theorem gnn_eq (A : IVec S1024x1024 32) (h : FVec F S1024x64 .f32) : gnn A h = gnnRaw (nzRow A) (nzCol A) h := rfl

theorem gnnRaw_eq (r c : IVec S1048576 32) (h : FVec F S1024x64 .f32) :
    gnnRaw r c h = maximumf
      (Host.scatterAdd scatter_S1024x64_S1048576x1_S1048576x64_1_0_0_1 zeros64
        (broadcastInDim S1048576x1 ![0] bcast_S1048576_S1048576x1_0 c)
        (Host.gather gather_S1024x64_S1048576x1_S1048576x64_1_0_n_n_0_1_164 h
          (broadcastInDim S1048576x1 ![0] bcast_S1048576_S1048576x1_0 (normIdx r))))
      zeros64 := rfl

theorem feat0_eq (x : FVec F S1024x128 .f32) (W : FVec F S2x128x64 .f32) (b : FVec F S2x64 .f32) :
    feat0 x W b = addf
      (Host.dotGeneral dot_S1024x128_S128x64_S1024x64_1_0_0_1_n_n none x
        (shapeCast S128x64 (extractStridedSlice S1x128x64 ![0, 0, 0] W slices_S2x128x64_S1x128x64_0_0_0) shapeCasts_S1x128x64_S128x64))
      (broadcastInDim S1024x64 ![0, 1] bcast_S1x64_S1024x64_0_1
        (broadcastInDim S1x64 ![1] bcast_S64_S1x64_1
          (shapeCast S64 (extractStridedSlice S1x64 ![0, 0] b slices_S2x64_S1x64_0_0) shapeCasts_S1x64_S64))) := rfl

theorem feat1_eq (x : FVec F S1024x128 .f32) (W : FVec F S2x128x64 .f32) (b : FVec F S2x64 .f32) :
    feat1 x W b = addf
      (Host.dotGeneral dot_S1024x128_S128x64_S1024x64_1_0_0_1_n_n none x
        (shapeCast S128x64 (extractStridedSlice S1x128x64 ![1, 0, 0] W slices_S2x128x64_S1x128x64_1_0_0) shapeCasts_S1x128x64_S128x64))
      (broadcastInDim S1024x64 ![0, 1] bcast_S1x64_S1024x64_0_1
        (broadcastInDim S1x64 ![1] bcast_S64_S1x64_1
          (shapeCast S64 (extractStridedSlice S1x64 ![1, 0] b slices_S2x64_S1x64_1_0) shapeCasts_S1x64_S64))) := rfl

/-- The contents after two lists of operations run one after the other. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- If every operation of l₁ writes inside W₁ and every operation of l₂ inside W₂, every operation of l₁ ++ l₂ writes
    inside W₁ ++ W₂. -/
theorem writes_append {l₁ l₂ : List (HloOp τ sig (Elt F))} {W₁ W₂ : List (Ref sig .tc)}
    (h₁ : l₁.Forall fun op => op.writes ⊆ (W₁.map (Proc.devRef (τ := τ) .tc)).toFinset)
    (h₂ : l₂.Forall fun op => op.writes ⊆ (W₂.map (Proc.devRef (τ := τ) .tc)).toFinset) :
    (l₁ ++ l₂).Forall fun op => op.writes ⊆ ((W₁ ++ W₂).map (Proc.devRef (τ := τ) .tc)).toFinset := by
  rw [List.forall_iff_forall_mem] at h₁ h₂ ⊢
  intro op hop
  rcases List.mem_append.mp hop with h | h
  · exact (h₁ op h).trans fun x hx => by
      simp only [List.map_append, List.toFinset_append, Finset.mem_union]; exact Or.inl hx
  · exact (h₂ op h).trans fun x hx => by
      simp only [List.map_append, List.toFinset_append, Finset.mem_union]; exact Or.inr hx

end Cert.ReferenceIdeal.Stages

end
-- ==== Proof.RefRunValE1.lean ====
/-
  The first enumeration stretch of the reference, read part by part from ANY contents W of the device's buffers: the
  nonzero entries of view0 of argument 1 enumerated.

  Each part ends right after an operation that folds over the array (a running sum, a scatter, a reduction), and each part's
  lemma states what it leaves as a function of the VALUES it reads, the earlier parts' results among them as they stand in W:
  * the mask of nonzero words (main_v3); the running sum of the flattened mask (main_v4); that sum clamped below at 0 (main_v6)
    beside the all-zero start vector (main_v5); ones scattered at the clamped sums (main_v14); the running sum of those (main_v15);
  * main_v15 divided (floor division) by 1024 resp. 1 and reduced modulo 1024 (main_v17, main_v19);
  * the positions 0, 1, 2, … (main_v20) and the number of ones of the mask (main_v22); then both results replaced by the fill words
    0 and 1024 from that number on (main_v25, main_v26).
  Composed by rewriting alone, main_v25 ends at `nzRow` of the view and main_v26 at `nzCol` of the view; a buffer no part writes
  keeps its contents. No equation compares a pointwise operation over a fold with anything: the folds are only ever named.
-/
import proofs.«121984_g44616120271338_cont_sun_m_526_12_alg».proof.Proof.RefRunOps0
import proofs.«121984_g44616120271338_cont_sun_m_526_12_alg».proof.Proof.RefRunAux
import Idealize.ShloMosaic.Lib.StableHlo.Run

noncomputable section

namespace Cert.ReferenceIdeal.Stages

open Idealize.ShloMosaic Idealize.ShloMosaic.TcCoe Idealize.SL.Sem Idealize.ShloMosaic.StableHlo Cert.ReferenceIdeal Cert.ReferenceIdeal.Facts₀

variable {F : FTy → Type} [FloatOps F]

/-- The scatter part (cut where the printed program's window ends), the five parts that end at `flat`, and the whole stretch;
    and the references each writes. -/
abbrev cAs1 : List (HloOp τ sig (Elt F)) := pAs1
abbrev cAs1_W : List (Ref sig .tc) := pAs1_W
abbrev cA1 : List (HloOp τ sig (Elt F)) := pAm1 ++ (pAu1 ++ (pAl1 ++ (cAs1 ++ pAf1)))
abbrev cA1_W : List (Ref sig .tc) := pAm1_W ++ (pAu1_W ++ (pAl1_W ++ (cAs1_W ++ pAf1_W)))
abbrev cE1 : List (HloOp τ sig (Elt F)) := cA1 ++ (pB1 ++ (pC1 ++ (pDt1 ++ pDs1)))
abbrev cE1_W : List (Ref sig .tc) := cA1_W ++ (pB1_W ++ (pC1_W ++ (pDt1_W ++ pDs1_W)))

/-! ## What each part writes -/

set_option maxRecDepth 8192 in
theorem pAm1_writes : (pAm1 : List (HloOp τ sig (Elt F))).Forall fun op =>
    op.writes ⊆ (pAm1_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pAu1_writes : (pAu1 : List (HloOp τ sig (Elt F))).Forall fun op =>
    op.writes ⊆ (pAu1_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pAl1_writes : (pAl1 : List (HloOp τ sig (Elt F))).Forall fun op =>
    op.writes ⊆ (pAl1_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pAs1_writes : (pAs1 : List (HloOp τ sig (Elt F))).Forall fun op =>
    op.writes ⊆ (pAs1_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pAf1_writes : (pAf1 : List (HloOp τ sig (Elt F))).Forall fun op =>
    op.writes ⊆ (pAf1_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pB1_writes : (pB1 : List (HloOp τ sig (Elt F))).Forall fun op =>
    op.writes ⊆ (pB1_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pC1_writes : (pC1 : List (HloOp τ sig (Elt F))).Forall fun op =>
    op.writes ⊆ (pC1_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pDt1_writes : (pDt1 : List (HloOp τ sig (Elt F))).Forall fun op =>
    op.writes ⊆ (pDt1_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pDs1_writes : (pDs1 : List (HloOp τ sig (Elt F))).Forall fun op =>
    op.writes ⊆ (pDs1_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

theorem cAs1_writes : (cAs1 : List (HloOp τ sig (Elt F))).Forall fun op =>
    op.writes ⊆ (cAs1_W.map (Proc.devRef (τ := τ) .tc)).toFinset :=
  pAs1_writes

theorem cA1_writes : (cA1 : List (HloOp τ sig (Elt F))).Forall fun op =>
    op.writes ⊆ (cA1_W.map (Proc.devRef (τ := τ) .tc)).toFinset :=
  writes_append pAm1_writes (writes_append pAu1_writes (writes_append pAl1_writes (writes_append cAs1_writes pAf1_writes)))

theorem cE1_writes : (cE1 : List (HloOp τ sig (Elt F))).Forall fun op =>
    op.writes ⊆ (cE1_W.map (Proc.devRef (τ := τ) .tc)).toFinset :=
  writes_append cA1_writes (writes_append pB1_writes (writes_append pC1_writes (writes_append pDt1_writes pDs1_writes)))

theorem pAm1_keep (W : Valuation τ sig (Elt F)) (r : Ref sig .tc) (h : r ∉ pAm1_W) :
    after pAm1 W (Proc.devRef .tc r) = W (Proc.devRef .tc r) :=
  after_of_writes_sub pAm1 W pAm1_writes h

theorem pAu1_keep (W : Valuation τ sig (Elt F)) (r : Ref sig .tc) (h : r ∉ pAu1_W) :
    after pAu1 W (Proc.devRef .tc r) = W (Proc.devRef .tc r) :=
  after_of_writes_sub pAu1 W pAu1_writes h

theorem pAl1_keep (W : Valuation τ sig (Elt F)) (r : Ref sig .tc) (h : r ∉ pAl1_W) :
    after pAl1 W (Proc.devRef .tc r) = W (Proc.devRef .tc r) :=
  after_of_writes_sub pAl1 W pAl1_writes h

theorem cAs1_keep (W : Valuation τ sig (Elt F)) (r : Ref sig .tc) (h : r ∉ cAs1_W) :
    after cAs1 W (Proc.devRef .tc r) = W (Proc.devRef .tc r) :=
  after_of_writes_sub cAs1 W cAs1_writes h

theorem pAf1_keep (W : Valuation τ sig (Elt F)) (r : Ref sig .tc) (h : r ∉ pAf1_W) :
    after pAf1 W (Proc.devRef .tc r) = W (Proc.devRef .tc r) :=
  after_of_writes_sub pAf1 W pAf1_writes h

theorem pB1_keep (W : Valuation τ sig (Elt F)) (r : Ref sig .tc) (h : r ∉ pB1_W) :
    after pB1 W (Proc.devRef .tc r) = W (Proc.devRef .tc r) :=
  after_of_writes_sub pB1 W pB1_writes h

theorem pC1_keep (W : Valuation τ sig (Elt F)) (r : Ref sig .tc) (h : r ∉ pC1_W) :
    after pC1 W (Proc.devRef .tc r) = W (Proc.devRef .tc r) :=
  after_of_writes_sub pC1 W pC1_writes h

theorem pDt1_keep (W : Valuation τ sig (Elt F)) (r : Ref sig .tc) (h : r ∉ pDt1_W) :
    after pDt1 W (Proc.devRef .tc r) = W (Proc.devRef .tc r) :=
  after_of_writes_sub pDt1 W pDt1_writes h

theorem pDs1_keep (W : Valuation τ sig (Elt F)) (r : Ref sig .tc) (h : r ∉ pDs1_W) :
    after pDs1 W (Proc.devRef .tc r) = W (Proc.devRef .tc r) :=
  after_of_writes_sub pDs1 W pDs1_writes h

theorem cE1_keep (W : Valuation τ sig (Elt F)) (r : Ref sig .tc) (h : r ∉ cE1_W) :
    after cE1 W (Proc.devRef .tc r) = W (Proc.devRef .tc r) :=
  after_of_writes_sub cE1 W cE1_writes h

/-! ## What each part computes -/

attribute [local irreducible] Host.reduceWindow Host.scatter Host.reduce Host.divsi Host.remsi shapeCast extractStridedSlice
  broadcastInDim iotaInDim

set_option maxRecDepth 8192 in
set_option maxHeartbeats 1000000 in
theorem pAm1_mask (W : Valuation τ sig (Elt F)) :
    after pAm1 W (Proc.devRef .tc main_v3) = mask (view0 (W (Proc.devRef .tc main_arg1))) := by
  after_results_simp
  rfl

set_option maxRecDepth 8192 in
set_option maxHeartbeats 1000000 in
theorem pAu1_cum (W : Valuation τ sig (Elt F)) :
    after pAu1 W (Proc.devRef .tc main_v4) = cum (extui 32 (shapeCast S1048576 (W (Proc.devRef .tc main_v3)) shapeCasts_S1024x1024_S1048576) natLt_1_32) := by
  after_results_simp
  rfl

set_option maxRecDepth 8192 in
set_option maxHeartbeats 1000000 in
theorem pAl1_clip (W : Valuation τ sig (Elt F)) :
    after pAl1 W (Proc.devRef .tc main_v6) = maxsi (broadcastInDim S1048576 ![] bcast_S_S1048576 (id (constantI S_ 32 0#32))) (W (Proc.devRef .tc main_v4)) := by
  after_results_simp
  rfl

set_option maxRecDepth 8192 in
set_option maxHeartbeats 1000000 in
theorem pAl1_zero (W : Valuation τ sig (Elt F)) :
    after pAl1 W (Proc.devRef .tc main_v5) = splat 0#32 := by
  after_results_simp
  rfl

set_option maxRecDepth 8192 in
set_option maxHeartbeats 1000000 in
theorem cAs1_counts (W : Valuation τ sig (Elt F)) :
    after cAs1 W (Proc.devRef .tc main_v14) = countsOf (W (Proc.devRef .tc main_v5)) (W (Proc.devRef .tc main_v6)) := by
  simp only [cAs1, pAs1, List.cons_append, List.nil_append]
  after_results_simp
  rfl

set_option maxRecDepth 8192 in
set_option maxHeartbeats 1000000 in
theorem pAf1_flat (W : Valuation τ sig (Elt F)) :
    after pAf1 W (Proc.devRef .tc main_v15) = cum (W (Proc.devRef .tc main_v14)) := by
  after_results_simp
  rfl

set_option maxRecDepth 8192 in
set_option maxHeartbeats 1000000 in
theorem pB1_row (W : Valuation τ sig (Elt F)) :
    after pB1 W (Proc.devRef .tc main_v17) = pyRem (floorDiv (W (Proc.devRef .tc main_v15)) 1024#32) 1024#32 := by
  after_results_simp
  rfl

set_option maxRecDepth 8192 in
set_option maxHeartbeats 1000000 in
theorem pC1_col (W : Valuation τ sig (Elt F)) :
    after pC1 W (Proc.devRef .tc main_v19) = pyRem (floorDiv (W (Proc.devRef .tc main_v15)) 1#32) 1024#32 := by
  after_results_simp
  rfl

set_option maxRecDepth 8192 in
set_option maxHeartbeats 1000000 in
theorem pDt1_iota (W : Valuation τ sig (Elt F)) :
    after pDt1 W (Proc.devRef .tc main_v20) = iotaInDim S1048576 32 0 := by
  after_results_simp

set_option maxRecDepth 8192 in
set_option maxHeartbeats 1000000 in
theorem pDt1_total (W : Valuation τ sig (Elt F)) :
    after pDt1 W (Proc.devRef .tc main_v22) = totalOf (W (Proc.devRef .tc main_v3)) := by
  after_results_simp
  rfl

set_option maxRecDepth 8192 in
set_option maxHeartbeats 1000000 in
theorem pDs1_row (W : Valuation τ sig (Elt F)) :
    after pDs1 W (Proc.devRef .tc main_v25) = fillSelV (W (Proc.devRef .tc main_v20)) (W (Proc.devRef .tc main_v22)) 0#32 (W (Proc.devRef .tc main_v17)) := by
  after_results_simp
  rfl

set_option maxRecDepth 8192 in
set_option maxHeartbeats 1000000 in
theorem pDs1_col (W : Valuation τ sig (Elt F)) :
    after pDs1 W (Proc.devRef .tc main_v26) = fillSelV (W (Proc.devRef .tc main_v20)) (W (Proc.devRef .tc main_v22)) 1024#32 (W (Proc.devRef .tc main_v19)) := by
  after_results_simp
  rfl

/-! ## The five parts that end at `flat` -/

theorem cA1_mask (W : Valuation τ sig (Elt F)) :
    after cA1 W (Proc.devRef .tc main_v3) = mask (view0 (W (Proc.devRef .tc main_arg1))) := by
  rw [after_app, after_app, after_app, after_app, pAf1_keep _ main_v3 (by decide), cAs1_keep _ main_v3 (by decide),
    pAl1_keep _ main_v3 (by decide), pAu1_keep _ main_v3 (by decide), pAm1_mask]

theorem cA1_flat (W : Valuation τ sig (Elt F)) :
    after cA1 W (Proc.devRef .tc main_v15) = flat (view0 (W (Proc.devRef .tc main_arg1))) := by
  rw [after_app, after_app, after_app, after_app, pAf1_flat, cAs1_counts, pAl1_zero, pAl1_clip, pAu1_cum, pAm1_mask,
    flat_eq, counts_eq, clipped_eq, clippedOf_eq]

/-! ## The stretch -/

theorem cE1_row (W : Valuation τ sig (Elt F)) :
    after cE1 W (Proc.devRef .tc main_v25) = nzRow (view0 (W (Proc.devRef .tc main_arg1))) := by
  rw [after_app, after_app, after_app, after_app, pDs1_row, pDt1_iota, pDt1_total,
    pC1_keep _ main_v3 (by decide), pB1_keep _ main_v3 (by decide), cA1_mask,
    pDt1_keep _ main_v17 (by decide), pC1_keep _ main_v17 (by decide), pB1_row, cA1_flat, nzRow_eq, fillSel_eq]

theorem cE1_col (W : Valuation τ sig (Elt F)) :
    after cE1 W (Proc.devRef .tc main_v26) = nzCol (view0 (W (Proc.devRef .tc main_arg1))) := by
  rw [after_app, after_app, after_app, after_app, pDs1_col, pDt1_iota, pDt1_total,
    pC1_keep _ main_v3 (by decide), pB1_keep _ main_v3 (by decide), cA1_mask,
    pDt1_keep _ main_v19 (by decide), pC1_col, pB1_keep _ main_v15 (by decide), cA1_flat, nzCol_eq, fillSel_eq]

end Cert.ReferenceIdeal.Stages

end
-- ==== Proof.RefRunValE2.lean ====
/-
  The second enumeration stretch of the reference, read part by part from ANY contents W of the device's buffers: the
  nonzero entries of view0 of argument 2 enumerated.

  Each part ends right after an operation that folds over the array (a running sum, a scatter, a reduction), and each part's
  lemma states what it leaves as a function of the VALUES it reads, the earlier parts' results among them as they stand in W:
  * the mask of nonzero words (main_v30); the running sum of the flattened mask (main_v31); that sum clamped below at 0 (main_v33)
    beside the all-zero start vector (main_v32); ones scattered at the clamped sums (main_v41); the running sum of those (main_v42);
  * main_v42 divided (floor division) by 1024 resp. 1 and reduced modulo 1024 (main_v44, main_v46);
  * the positions 0, 1, 2, … (main_v47) and the number of ones of the mask (main_v49); then both results replaced by the fill words
    0 and 1024 from that number on (main_v52, main_v53).
  Composed by rewriting alone, main_v52 ends at `nzRow` of the view and main_v53 at `nzCol` of the view; a buffer no part writes
  keeps its contents. No equation compares a pointwise operation over a fold with anything: the folds are only ever named.
-/
import proofs.«121984_g44616120271338_cont_sun_m_526_12_alg».proof.Proof.RefRunOps0
import proofs.«121984_g44616120271338_cont_sun_m_526_12_alg».proof.Proof.RefRunOps1
import proofs.«121984_g44616120271338_cont_sun_m_526_12_alg».proof.Proof.RefRunAux
import Idealize.ShloMosaic.Lib.StableHlo.Run

noncomputable section

namespace Cert.ReferenceIdeal.Stages

open Idealize.ShloMosaic Idealize.ShloMosaic.TcCoe Idealize.SL.Sem Idealize.ShloMosaic.StableHlo Cert.ReferenceIdeal Cert.ReferenceIdeal.Facts₀

variable {F : FTy → Type} [FloatOps F]

/-- The scatter part (cut where the printed program's window ends), the five parts that end at `flat`, and the whole stretch;
    and the references each writes. -/
abbrev cAs2 : List (HloOp τ sig (Elt F)) := pAs2a ++ pAs2b
abbrev cAs2_W : List (Ref sig .tc) := pAs2a_W ++ pAs2b_W
abbrev cA2 : List (HloOp τ sig (Elt F)) := pAm2 ++ (pAu2 ++ (pAl2 ++ (cAs2 ++ pAf2)))
abbrev cA2_W : List (Ref sig .tc) := pAm2_W ++ (pAu2_W ++ (pAl2_W ++ (cAs2_W ++ pAf2_W)))
abbrev cE2 : List (HloOp τ sig (Elt F)) := cA2 ++ (pB2 ++ (pC2 ++ (pDt2 ++ pDs2)))
abbrev cE2_W : List (Ref sig .tc) := cA2_W ++ (pB2_W ++ (pC2_W ++ (pDt2_W ++ pDs2_W)))

/-! ## What each part writes -/

set_option maxRecDepth 8192 in
theorem pAm2_writes : (pAm2 : List (HloOp τ sig (Elt F))).Forall fun op =>
    op.writes ⊆ (pAm2_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pAu2_writes : (pAu2 : List (HloOp τ sig (Elt F))).Forall fun op =>
    op.writes ⊆ (pAu2_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pAl2_writes : (pAl2 : List (HloOp τ sig (Elt F))).Forall fun op =>
    op.writes ⊆ (pAl2_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pAs2a_writes : (pAs2a : List (HloOp τ sig (Elt F))).Forall fun op =>
    op.writes ⊆ (pAs2a_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pAs2b_writes : (pAs2b : List (HloOp τ sig (Elt F))).Forall fun op =>
    op.writes ⊆ (pAs2b_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pAf2_writes : (pAf2 : List (HloOp τ sig (Elt F))).Forall fun op =>
    op.writes ⊆ (pAf2_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pB2_writes : (pB2 : List (HloOp τ sig (Elt F))).Forall fun op =>
    op.writes ⊆ (pB2_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pC2_writes : (pC2 : List (HloOp τ sig (Elt F))).Forall fun op =>
    op.writes ⊆ (pC2_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pDt2_writes : (pDt2 : List (HloOp τ sig (Elt F))).Forall fun op =>
    op.writes ⊆ (pDt2_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pDs2_writes : (pDs2 : List (HloOp τ sig (Elt F))).Forall fun op =>
    op.writes ⊆ (pDs2_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

theorem cAs2_writes : (cAs2 : List (HloOp τ sig (Elt F))).Forall fun op =>
    op.writes ⊆ (cAs2_W.map (Proc.devRef (τ := τ) .tc)).toFinset :=
  writes_append pAs2a_writes pAs2b_writes

theorem cA2_writes : (cA2 : List (HloOp τ sig (Elt F))).Forall fun op =>
    op.writes ⊆ (cA2_W.map (Proc.devRef (τ := τ) .tc)).toFinset :=
  writes_append pAm2_writes (writes_append pAu2_writes (writes_append pAl2_writes (writes_append cAs2_writes pAf2_writes)))

theorem cE2_writes : (cE2 : List (HloOp τ sig (Elt F))).Forall fun op =>
    op.writes ⊆ (cE2_W.map (Proc.devRef (τ := τ) .tc)).toFinset :=
  writes_append cA2_writes (writes_append pB2_writes (writes_append pC2_writes (writes_append pDt2_writes pDs2_writes)))

theorem pAm2_keep (W : Valuation τ sig (Elt F)) (r : Ref sig .tc) (h : r ∉ pAm2_W) :
    after pAm2 W (Proc.devRef .tc r) = W (Proc.devRef .tc r) :=
  after_of_writes_sub pAm2 W pAm2_writes h

theorem pAu2_keep (W : Valuation τ sig (Elt F)) (r : Ref sig .tc) (h : r ∉ pAu2_W) :
    after pAu2 W (Proc.devRef .tc r) = W (Proc.devRef .tc r) :=
  after_of_writes_sub pAu2 W pAu2_writes h

theorem pAl2_keep (W : Valuation τ sig (Elt F)) (r : Ref sig .tc) (h : r ∉ pAl2_W) :
    after pAl2 W (Proc.devRef .tc r) = W (Proc.devRef .tc r) :=
  after_of_writes_sub pAl2 W pAl2_writes h

theorem cAs2_keep (W : Valuation τ sig (Elt F)) (r : Ref sig .tc) (h : r ∉ cAs2_W) :
    after cAs2 W (Proc.devRef .tc r) = W (Proc.devRef .tc r) :=
  after_of_writes_sub cAs2 W cAs2_writes h

theorem pAf2_keep (W : Valuation τ sig (Elt F)) (r : Ref sig .tc) (h : r ∉ pAf2_W) :
    after pAf2 W (Proc.devRef .tc r) = W (Proc.devRef .tc r) :=
  after_of_writes_sub pAf2 W pAf2_writes h

theorem pB2_keep (W : Valuation τ sig (Elt F)) (r : Ref sig .tc) (h : r ∉ pB2_W) :
    after pB2 W (Proc.devRef .tc r) = W (Proc.devRef .tc r) :=
  after_of_writes_sub pB2 W pB2_writes h

theorem pC2_keep (W : Valuation τ sig (Elt F)) (r : Ref sig .tc) (h : r ∉ pC2_W) :
    after pC2 W (Proc.devRef .tc r) = W (Proc.devRef .tc r) :=
  after_of_writes_sub pC2 W pC2_writes h

theorem pDt2_keep (W : Valuation τ sig (Elt F)) (r : Ref sig .tc) (h : r ∉ pDt2_W) :
    after pDt2 W (Proc.devRef .tc r) = W (Proc.devRef .tc r) :=
  after_of_writes_sub pDt2 W pDt2_writes h

theorem pDs2_keep (W : Valuation τ sig (Elt F)) (r : Ref sig .tc) (h : r ∉ pDs2_W) :
    after pDs2 W (Proc.devRef .tc r) = W (Proc.devRef .tc r) :=
  after_of_writes_sub pDs2 W pDs2_writes h

theorem cE2_keep (W : Valuation τ sig (Elt F)) (r : Ref sig .tc) (h : r ∉ cE2_W) :
    after cE2 W (Proc.devRef .tc r) = W (Proc.devRef .tc r) :=
  after_of_writes_sub cE2 W cE2_writes h

/-! ## What each part computes -/

attribute [local irreducible] Host.reduceWindow Host.scatter Host.reduce Host.divsi Host.remsi shapeCast extractStridedSlice
  broadcastInDim iotaInDim

set_option maxRecDepth 8192 in
set_option maxHeartbeats 1000000 in
theorem pAm2_mask (W : Valuation τ sig (Elt F)) :
    after pAm2 W (Proc.devRef .tc main_v30) = mask (view0 (W (Proc.devRef .tc main_arg2))) := by
  after_results_simp
  rfl

set_option maxRecDepth 8192 in
set_option maxHeartbeats 1000000 in
theorem pAu2_cum (W : Valuation τ sig (Elt F)) :
    after pAu2 W (Proc.devRef .tc main_v31) = cum (extui 32 (shapeCast S1048576 (W (Proc.devRef .tc main_v30)) shapeCasts_S1024x1024_S1048576) natLt_1_32) := by
  after_results_simp
  rfl

set_option maxRecDepth 8192 in
set_option maxHeartbeats 1000000 in
theorem pAl2_clip (W : Valuation τ sig (Elt F)) :
    after pAl2 W (Proc.devRef .tc main_v33) = maxsi (broadcastInDim S1048576 ![] bcast_S_S1048576 (id (constantI S_ 32 0#32))) (W (Proc.devRef .tc main_v31)) := by
  after_results_simp
  rfl

set_option maxRecDepth 8192 in
set_option maxHeartbeats 1000000 in
theorem pAl2_zero (W : Valuation τ sig (Elt F)) :
    after pAl2 W (Proc.devRef .tc main_v32) = splat 0#32 := by
  after_results_simp
  rfl

set_option maxRecDepth 8192 in
set_option maxHeartbeats 1000000 in
theorem cAs2_counts (W : Valuation τ sig (Elt F)) :
    after cAs2 W (Proc.devRef .tc main_v41) = countsOf (W (Proc.devRef .tc main_v32)) (W (Proc.devRef .tc main_v33)) := by
  simp only [cAs2, pAs2a, pAs2b, List.cons_append, List.nil_append]
  after_results_simp
  rfl

set_option maxRecDepth 8192 in
set_option maxHeartbeats 1000000 in
theorem pAf2_flat (W : Valuation τ sig (Elt F)) :
    after pAf2 W (Proc.devRef .tc main_v42) = cum (W (Proc.devRef .tc main_v41)) := by
  after_results_simp
  rfl

set_option maxRecDepth 8192 in
set_option maxHeartbeats 1000000 in
theorem pB2_row (W : Valuation τ sig (Elt F)) :
    after pB2 W (Proc.devRef .tc main_v44) = pyRem (floorDiv (W (Proc.devRef .tc main_v42)) 1024#32) 1024#32 := by
  after_results_simp
  rfl

set_option maxRecDepth 8192 in
set_option maxHeartbeats 1000000 in
theorem pC2_col (W : Valuation τ sig (Elt F)) :
    after pC2 W (Proc.devRef .tc main_v46) = pyRem (floorDiv (W (Proc.devRef .tc main_v42)) 1#32) 1024#32 := by
  after_results_simp
  rfl

set_option maxRecDepth 8192 in
set_option maxHeartbeats 1000000 in
theorem pDt2_iota (W : Valuation τ sig (Elt F)) :
    after pDt2 W (Proc.devRef .tc main_v47) = iotaInDim S1048576 32 0 := by
  after_results_simp

set_option maxRecDepth 8192 in
set_option maxHeartbeats 1000000 in
theorem pDt2_total (W : Valuation τ sig (Elt F)) :
    after pDt2 W (Proc.devRef .tc main_v49) = totalOf (W (Proc.devRef .tc main_v30)) := by
  after_results_simp
  rfl

set_option maxRecDepth 8192 in
set_option maxHeartbeats 1000000 in
theorem pDs2_row (W : Valuation τ sig (Elt F)) :
    after pDs2 W (Proc.devRef .tc main_v52) = fillSelV (W (Proc.devRef .tc main_v47)) (W (Proc.devRef .tc main_v49)) 0#32 (W (Proc.devRef .tc main_v44)) := by
  after_results_simp
  rfl

set_option maxRecDepth 8192 in
set_option maxHeartbeats 1000000 in
theorem pDs2_col (W : Valuation τ sig (Elt F)) :
    after pDs2 W (Proc.devRef .tc main_v53) = fillSelV (W (Proc.devRef .tc main_v47)) (W (Proc.devRef .tc main_v49)) 1024#32 (W (Proc.devRef .tc main_v46)) := by
  after_results_simp
  rfl

/-! ## The five parts that end at `flat` -/

theorem cA2_mask (W : Valuation τ sig (Elt F)) :
    after cA2 W (Proc.devRef .tc main_v30) = mask (view0 (W (Proc.devRef .tc main_arg2))) := by
  rw [after_app, after_app, after_app, after_app, pAf2_keep _ main_v30 (by decide), cAs2_keep _ main_v30 (by decide),
    pAl2_keep _ main_v30 (by decide), pAu2_keep _ main_v30 (by decide), pAm2_mask]

theorem cA2_flat (W : Valuation τ sig (Elt F)) :
    after cA2 W (Proc.devRef .tc main_v42) = flat (view0 (W (Proc.devRef .tc main_arg2))) := by
  rw [after_app, after_app, after_app, after_app, pAf2_flat, cAs2_counts, pAl2_zero, pAl2_clip, pAu2_cum, pAm2_mask,
    flat_eq, counts_eq, clipped_eq, clippedOf_eq]

/-! ## The stretch -/

theorem cE2_row (W : Valuation τ sig (Elt F)) :
    after cE2 W (Proc.devRef .tc main_v52) = nzRow (view0 (W (Proc.devRef .tc main_arg2))) := by
  rw [after_app, after_app, after_app, after_app, pDs2_row, pDt2_iota, pDt2_total,
    pC2_keep _ main_v30 (by decide), pB2_keep _ main_v30 (by decide), cA2_mask,
    pDt2_keep _ main_v44 (by decide), pC2_keep _ main_v44 (by decide), pB2_row, cA2_flat, nzRow_eq, fillSel_eq]

theorem cE2_col (W : Valuation τ sig (Elt F)) :
    after cE2 W (Proc.devRef .tc main_v53) = nzCol (view0 (W (Proc.devRef .tc main_arg2))) := by
  rw [after_app, after_app, after_app, after_app, pDs2_col, pDt2_iota, pDt2_total,
    pC2_keep _ main_v30 (by decide), pB2_keep _ main_v30 (by decide), cA2_mask,
    pDt2_keep _ main_v46 (by decide), pC2_col, pB2_keep _ main_v42 (by decide), cA2_flat, nzCol_eq, fillSel_eq]

end Cert.ReferenceIdeal.Stages

end
-- ==== Proof.RefRunValE3.lean ====
/-
  The third enumeration stretch of the reference, read part by part from ANY contents W of the device's buffers: the
  nonzero entries of view1 of argument 1 enumerated.

  Each part ends right after an operation that folds over the array (a running sum, a scatter, a reduction), and each part's
  lemma states what it leaves as a function of the VALUES it reads, the earlier parts' results among them as they stand in W:
  * the mask of nonzero words (main_v96); the running sum of the flattened mask (main_v97); that sum clamped below at 0 (main_v99)
    beside the all-zero start vector (main_v98); ones scattered at the clamped sums (main_v107); the running sum of those (main_v108);
  * main_v108 divided (floor division) by 1024 resp. 1 and reduced modulo 1024 (main_v110, main_v112);
  * the positions 0, 1, 2, … (main_v113) and the number of ones of the mask (main_v115); then both results replaced by the fill words
    0 and 1024 from that number on (main_v118, main_v119).
  Composed by rewriting alone, main_v118 ends at `nzRow` of the view and main_v119 at `nzCol` of the view; a buffer no part writes
  keeps its contents. No equation compares a pointwise operation over a fold with anything: the folds are only ever named.
-/
import proofs.«121984_g44616120271338_cont_sun_m_526_12_alg».proof.Proof.RefRunOps2
import proofs.«121984_g44616120271338_cont_sun_m_526_12_alg».proof.Proof.RefRunAux
import Idealize.ShloMosaic.Lib.StableHlo.Run

noncomputable section

namespace Cert.ReferenceIdeal.Stages

open Idealize.ShloMosaic Idealize.ShloMosaic.TcCoe Idealize.SL.Sem Idealize.ShloMosaic.StableHlo Cert.ReferenceIdeal Cert.ReferenceIdeal.Facts₀

variable {F : FTy → Type} [FloatOps F]

/-- The scatter part (cut where the printed program's window ends), the five parts that end at `flat`, and the whole stretch;
    and the references each writes. -/
abbrev cAs3 : List (HloOp τ sig (Elt F)) := pAs3
abbrev cAs3_W : List (Ref sig .tc) := pAs3_W
abbrev cA3 : List (HloOp τ sig (Elt F)) := pAm3 ++ (pAu3 ++ (pAl3 ++ (cAs3 ++ pAf3)))
abbrev cA3_W : List (Ref sig .tc) := pAm3_W ++ (pAu3_W ++ (pAl3_W ++ (cAs3_W ++ pAf3_W)))
abbrev cE3 : List (HloOp τ sig (Elt F)) := cA3 ++ (pB3 ++ (pC3 ++ (pDt3 ++ pDs3)))
abbrev cE3_W : List (Ref sig .tc) := cA3_W ++ (pB3_W ++ (pC3_W ++ (pDt3_W ++ pDs3_W)))

/-! ## What each part writes -/

set_option maxRecDepth 8192 in
theorem pAm3_writes : (pAm3 : List (HloOp τ sig (Elt F))).Forall fun op =>
    op.writes ⊆ (pAm3_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pAu3_writes : (pAu3 : List (HloOp τ sig (Elt F))).Forall fun op =>
    op.writes ⊆ (pAu3_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pAl3_writes : (pAl3 : List (HloOp τ sig (Elt F))).Forall fun op =>
    op.writes ⊆ (pAl3_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pAs3_writes : (pAs3 : List (HloOp τ sig (Elt F))).Forall fun op =>
    op.writes ⊆ (pAs3_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pAf3_writes : (pAf3 : List (HloOp τ sig (Elt F))).Forall fun op =>
    op.writes ⊆ (pAf3_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pB3_writes : (pB3 : List (HloOp τ sig (Elt F))).Forall fun op =>
    op.writes ⊆ (pB3_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pC3_writes : (pC3 : List (HloOp τ sig (Elt F))).Forall fun op =>
    op.writes ⊆ (pC3_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pDt3_writes : (pDt3 : List (HloOp τ sig (Elt F))).Forall fun op =>
    op.writes ⊆ (pDt3_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pDs3_writes : (pDs3 : List (HloOp τ sig (Elt F))).Forall fun op =>
    op.writes ⊆ (pDs3_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

theorem cAs3_writes : (cAs3 : List (HloOp τ sig (Elt F))).Forall fun op =>
    op.writes ⊆ (cAs3_W.map (Proc.devRef (τ := τ) .tc)).toFinset :=
  pAs3_writes

theorem cA3_writes : (cA3 : List (HloOp τ sig (Elt F))).Forall fun op =>
    op.writes ⊆ (cA3_W.map (Proc.devRef (τ := τ) .tc)).toFinset :=
  writes_append pAm3_writes (writes_append pAu3_writes (writes_append pAl3_writes (writes_append cAs3_writes pAf3_writes)))

theorem cE3_writes : (cE3 : List (HloOp τ sig (Elt F))).Forall fun op =>
    op.writes ⊆ (cE3_W.map (Proc.devRef (τ := τ) .tc)).toFinset :=
  writes_append cA3_writes (writes_append pB3_writes (writes_append pC3_writes (writes_append pDt3_writes pDs3_writes)))

theorem pAm3_keep (W : Valuation τ sig (Elt F)) (r : Ref sig .tc) (h : r ∉ pAm3_W) :
    after pAm3 W (Proc.devRef .tc r) = W (Proc.devRef .tc r) :=
  after_of_writes_sub pAm3 W pAm3_writes h

theorem pAu3_keep (W : Valuation τ sig (Elt F)) (r : Ref sig .tc) (h : r ∉ pAu3_W) :
    after pAu3 W (Proc.devRef .tc r) = W (Proc.devRef .tc r) :=
  after_of_writes_sub pAu3 W pAu3_writes h

theorem pAl3_keep (W : Valuation τ sig (Elt F)) (r : Ref sig .tc) (h : r ∉ pAl3_W) :
    after pAl3 W (Proc.devRef .tc r) = W (Proc.devRef .tc r) :=
  after_of_writes_sub pAl3 W pAl3_writes h

theorem cAs3_keep (W : Valuation τ sig (Elt F)) (r : Ref sig .tc) (h : r ∉ cAs3_W) :
    after cAs3 W (Proc.devRef .tc r) = W (Proc.devRef .tc r) :=
  after_of_writes_sub cAs3 W cAs3_writes h

theorem pAf3_keep (W : Valuation τ sig (Elt F)) (r : Ref sig .tc) (h : r ∉ pAf3_W) :
    after pAf3 W (Proc.devRef .tc r) = W (Proc.devRef .tc r) :=
  after_of_writes_sub pAf3 W pAf3_writes h

theorem pB3_keep (W : Valuation τ sig (Elt F)) (r : Ref sig .tc) (h : r ∉ pB3_W) :
    after pB3 W (Proc.devRef .tc r) = W (Proc.devRef .tc r) :=
  after_of_writes_sub pB3 W pB3_writes h

theorem pC3_keep (W : Valuation τ sig (Elt F)) (r : Ref sig .tc) (h : r ∉ pC3_W) :
    after pC3 W (Proc.devRef .tc r) = W (Proc.devRef .tc r) :=
  after_of_writes_sub pC3 W pC3_writes h

theorem pDt3_keep (W : Valuation τ sig (Elt F)) (r : Ref sig .tc) (h : r ∉ pDt3_W) :
    after pDt3 W (Proc.devRef .tc r) = W (Proc.devRef .tc r) :=
  after_of_writes_sub pDt3 W pDt3_writes h

theorem pDs3_keep (W : Valuation τ sig (Elt F)) (r : Ref sig .tc) (h : r ∉ pDs3_W) :
    after pDs3 W (Proc.devRef .tc r) = W (Proc.devRef .tc r) :=
  after_of_writes_sub pDs3 W pDs3_writes h

theorem cE3_keep (W : Valuation τ sig (Elt F)) (r : Ref sig .tc) (h : r ∉ cE3_W) :
    after cE3 W (Proc.devRef .tc r) = W (Proc.devRef .tc r) :=
  after_of_writes_sub cE3 W cE3_writes h

/-! ## What each part computes -/

attribute [local irreducible] Host.reduceWindow Host.scatter Host.reduce Host.divsi Host.remsi shapeCast extractStridedSlice
  broadcastInDim iotaInDim

set_option maxRecDepth 8192 in
set_option maxHeartbeats 1000000 in
theorem pAm3_mask (W : Valuation τ sig (Elt F)) :
    after pAm3 W (Proc.devRef .tc main_v96) = mask (view1 (W (Proc.devRef .tc main_arg1))) := by
  after_results_simp
  rfl

set_option maxRecDepth 8192 in
set_option maxHeartbeats 1000000 in
theorem pAu3_cum (W : Valuation τ sig (Elt F)) :
    after pAu3 W (Proc.devRef .tc main_v97) = cum (extui 32 (shapeCast S1048576 (W (Proc.devRef .tc main_v96)) shapeCasts_S1024x1024_S1048576) natLt_1_32) := by
  after_results_simp
  rfl

set_option maxRecDepth 8192 in
set_option maxHeartbeats 1000000 in
theorem pAl3_clip (W : Valuation τ sig (Elt F)) :
    after pAl3 W (Proc.devRef .tc main_v99) = maxsi (broadcastInDim S1048576 ![] bcast_S_S1048576 (id (constantI S_ 32 0#32))) (W (Proc.devRef .tc main_v97)) := by
  after_results_simp
  rfl

set_option maxRecDepth 8192 in
set_option maxHeartbeats 1000000 in
theorem pAl3_zero (W : Valuation τ sig (Elt F)) :
    after pAl3 W (Proc.devRef .tc main_v98) = splat 0#32 := by
  after_results_simp
  rfl

set_option maxRecDepth 8192 in
set_option maxHeartbeats 1000000 in
theorem cAs3_counts (W : Valuation τ sig (Elt F)) :
    after cAs3 W (Proc.devRef .tc main_v107) = countsOf (W (Proc.devRef .tc main_v98)) (W (Proc.devRef .tc main_v99)) := by
  simp only [cAs3, pAs3, List.cons_append, List.nil_append]
  after_results_simp
  rfl

set_option maxRecDepth 8192 in
set_option maxHeartbeats 1000000 in
theorem pAf3_flat (W : Valuation τ sig (Elt F)) :
    after pAf3 W (Proc.devRef .tc main_v108) = cum (W (Proc.devRef .tc main_v107)) := by
  after_results_simp
  rfl

set_option maxRecDepth 8192 in
set_option maxHeartbeats 1000000 in
theorem pB3_row (W : Valuation τ sig (Elt F)) :
    after pB3 W (Proc.devRef .tc main_v110) = pyRem (floorDiv (W (Proc.devRef .tc main_v108)) 1024#32) 1024#32 := by
  after_results_simp
  rfl

set_option maxRecDepth 8192 in
set_option maxHeartbeats 1000000 in
theorem pC3_col (W : Valuation τ sig (Elt F)) :
    after pC3 W (Proc.devRef .tc main_v112) = pyRem (floorDiv (W (Proc.devRef .tc main_v108)) 1#32) 1024#32 := by
  after_results_simp
  rfl

set_option maxRecDepth 8192 in
set_option maxHeartbeats 1000000 in
theorem pDt3_iota (W : Valuation τ sig (Elt F)) :
    after pDt3 W (Proc.devRef .tc main_v113) = iotaInDim S1048576 32 0 := by
  after_results_simp

set_option maxRecDepth 8192 in
set_option maxHeartbeats 1000000 in
theorem pDt3_total (W : Valuation τ sig (Elt F)) :
    after pDt3 W (Proc.devRef .tc main_v115) = totalOf (W (Proc.devRef .tc main_v96)) := by
  after_results_simp
  rfl

set_option maxRecDepth 8192 in
set_option maxHeartbeats 1000000 in
theorem pDs3_row (W : Valuation τ sig (Elt F)) :
    after pDs3 W (Proc.devRef .tc main_v118) = fillSelV (W (Proc.devRef .tc main_v113)) (W (Proc.devRef .tc main_v115)) 0#32 (W (Proc.devRef .tc main_v110)) := by
  after_results_simp
  rfl

set_option maxRecDepth 8192 in
set_option maxHeartbeats 1000000 in
theorem pDs3_col (W : Valuation τ sig (Elt F)) :
    after pDs3 W (Proc.devRef .tc main_v119) = fillSelV (W (Proc.devRef .tc main_v113)) (W (Proc.devRef .tc main_v115)) 1024#32 (W (Proc.devRef .tc main_v112)) := by
  after_results_simp
  rfl

/-! ## The five parts that end at `flat` -/

theorem cA3_mask (W : Valuation τ sig (Elt F)) :
    after cA3 W (Proc.devRef .tc main_v96) = mask (view1 (W (Proc.devRef .tc main_arg1))) := by
  rw [after_app, after_app, after_app, after_app, pAf3_keep _ main_v96 (by decide), cAs3_keep _ main_v96 (by decide),
    pAl3_keep _ main_v96 (by decide), pAu3_keep _ main_v96 (by decide), pAm3_mask]

theorem cA3_flat (W : Valuation τ sig (Elt F)) :
    after cA3 W (Proc.devRef .tc main_v108) = flat (view1 (W (Proc.devRef .tc main_arg1))) := by
  rw [after_app, after_app, after_app, after_app, pAf3_flat, cAs3_counts, pAl3_zero, pAl3_clip, pAu3_cum, pAm3_mask,
    flat_eq, counts_eq, clipped_eq, clippedOf_eq]

/-! ## The stretch -/

theorem cE3_row (W : Valuation τ sig (Elt F)) :
    after cE3 W (Proc.devRef .tc main_v118) = nzRow (view1 (W (Proc.devRef .tc main_arg1))) := by
  rw [after_app, after_app, after_app, after_app, pDs3_row, pDt3_iota, pDt3_total,
    pC3_keep _ main_v96 (by decide), pB3_keep _ main_v96 (by decide), cA3_mask,
    pDt3_keep _ main_v110 (by decide), pC3_keep _ main_v110 (by decide), pB3_row, cA3_flat, nzRow_eq, fillSel_eq]

theorem cE3_col (W : Valuation τ sig (Elt F)) :
    after cE3 W (Proc.devRef .tc main_v119) = nzCol (view1 (W (Proc.devRef .tc main_arg1))) := by
  rw [after_app, after_app, after_app, after_app, pDs3_col, pDt3_iota, pDt3_total,
    pC3_keep _ main_v96 (by decide), pB3_keep _ main_v96 (by decide), cA3_mask,
    pDt3_keep _ main_v112 (by decide), pC3_col, pB3_keep _ main_v108 (by decide), cA3_flat, nzCol_eq, fillSel_eq]

end Cert.ReferenceIdeal.Stages

end
-- ==== Proof.RefRunValE4.lean ====
/-
  The fourth enumeration stretch of the reference, read part by part from ANY contents W of the device's buffers: the
  nonzero entries of view1 of argument 2 enumerated.

  Each part ends right after an operation that folds over the array (a running sum, a scatter, a reduction), and each part's
  lemma states what it leaves as a function of the VALUES it reads, the earlier parts' results among them as they stand in W:
  * the mask of nonzero words (main_v123); the running sum of the flattened mask (main_v124); that sum clamped below at 0 (main_v126)
    beside the all-zero start vector (main_v125); ones scattered at the clamped sums (main_v134); the running sum of those (main_v135);
  * main_v135 divided (floor division) by 1024 resp. 1 and reduced modulo 1024 (main_v137, main_v139);
  * the positions 0, 1, 2, … (main_v140) and the number of ones of the mask (main_v142); then both results replaced by the fill words
    0 and 1024 from that number on (main_v145, main_v146).
  Composed by rewriting alone, main_v145 ends at `nzRow` of the view and main_v146 at `nzCol` of the view; a buffer no part writes
  keeps its contents. No equation compares a pointwise operation over a fold with anything: the folds are only ever named.
-/
import proofs.«121984_g44616120271338_cont_sun_m_526_12_alg».proof.Proof.RefRunOps2
import proofs.«121984_g44616120271338_cont_sun_m_526_12_alg».proof.Proof.RefRunOps3
import proofs.«121984_g44616120271338_cont_sun_m_526_12_alg».proof.Proof.RefRunAux
import Idealize.ShloMosaic.Lib.StableHlo.Run

noncomputable section

namespace Cert.ReferenceIdeal.Stages

open Idealize.ShloMosaic Idealize.ShloMosaic.TcCoe Idealize.SL.Sem Idealize.ShloMosaic.StableHlo Cert.ReferenceIdeal Cert.ReferenceIdeal.Facts₀

variable {F : FTy → Type} [FloatOps F]

/-- The scatter part (cut where the printed program's window ends), the five parts that end at `flat`, and the whole stretch;
    and the references each writes. -/
abbrev cAs4 : List (HloOp τ sig (Elt F)) := pAs4a ++ pAs4b
abbrev cAs4_W : List (Ref sig .tc) := pAs4a_W ++ pAs4b_W
abbrev cA4 : List (HloOp τ sig (Elt F)) := pAm4 ++ (pAu4 ++ (pAl4 ++ (cAs4 ++ pAf4)))
abbrev cA4_W : List (Ref sig .tc) := pAm4_W ++ (pAu4_W ++ (pAl4_W ++ (cAs4_W ++ pAf4_W)))
abbrev cE4 : List (HloOp τ sig (Elt F)) := cA4 ++ (pB4 ++ (pC4 ++ (pDt4 ++ pDs4)))
abbrev cE4_W : List (Ref sig .tc) := cA4_W ++ (pB4_W ++ (pC4_W ++ (pDt4_W ++ pDs4_W)))

/-! ## What each part writes -/

set_option maxRecDepth 8192 in
theorem pAm4_writes : (pAm4 : List (HloOp τ sig (Elt F))).Forall fun op =>
    op.writes ⊆ (pAm4_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pAu4_writes : (pAu4 : List (HloOp τ sig (Elt F))).Forall fun op =>
    op.writes ⊆ (pAu4_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pAl4_writes : (pAl4 : List (HloOp τ sig (Elt F))).Forall fun op =>
    op.writes ⊆ (pAl4_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pAs4a_writes : (pAs4a : List (HloOp τ sig (Elt F))).Forall fun op =>
    op.writes ⊆ (pAs4a_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pAs4b_writes : (pAs4b : List (HloOp τ sig (Elt F))).Forall fun op =>
    op.writes ⊆ (pAs4b_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pAf4_writes : (pAf4 : List (HloOp τ sig (Elt F))).Forall fun op =>
    op.writes ⊆ (pAf4_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pB4_writes : (pB4 : List (HloOp τ sig (Elt F))).Forall fun op =>
    op.writes ⊆ (pB4_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pC4_writes : (pC4 : List (HloOp τ sig (Elt F))).Forall fun op =>
    op.writes ⊆ (pC4_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pDt4_writes : (pDt4 : List (HloOp τ sig (Elt F))).Forall fun op =>
    op.writes ⊆ (pDt4_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pDs4_writes : (pDs4 : List (HloOp τ sig (Elt F))).Forall fun op =>
    op.writes ⊆ (pDs4_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

theorem cAs4_writes : (cAs4 : List (HloOp τ sig (Elt F))).Forall fun op =>
    op.writes ⊆ (cAs4_W.map (Proc.devRef (τ := τ) .tc)).toFinset :=
  writes_append pAs4a_writes pAs4b_writes

theorem cA4_writes : (cA4 : List (HloOp τ sig (Elt F))).Forall fun op =>
    op.writes ⊆ (cA4_W.map (Proc.devRef (τ := τ) .tc)).toFinset :=
  writes_append pAm4_writes (writes_append pAu4_writes (writes_append pAl4_writes (writes_append cAs4_writes pAf4_writes)))

theorem cE4_writes : (cE4 : List (HloOp τ sig (Elt F))).Forall fun op =>
    op.writes ⊆ (cE4_W.map (Proc.devRef (τ := τ) .tc)).toFinset :=
  writes_append cA4_writes (writes_append pB4_writes (writes_append pC4_writes (writes_append pDt4_writes pDs4_writes)))

theorem pAm4_keep (W : Valuation τ sig (Elt F)) (r : Ref sig .tc) (h : r ∉ pAm4_W) :
    after pAm4 W (Proc.devRef .tc r) = W (Proc.devRef .tc r) :=
  after_of_writes_sub pAm4 W pAm4_writes h

theorem pAu4_keep (W : Valuation τ sig (Elt F)) (r : Ref sig .tc) (h : r ∉ pAu4_W) :
    after pAu4 W (Proc.devRef .tc r) = W (Proc.devRef .tc r) :=
  after_of_writes_sub pAu4 W pAu4_writes h

theorem pAl4_keep (W : Valuation τ sig (Elt F)) (r : Ref sig .tc) (h : r ∉ pAl4_W) :
    after pAl4 W (Proc.devRef .tc r) = W (Proc.devRef .tc r) :=
  after_of_writes_sub pAl4 W pAl4_writes h

theorem cAs4_keep (W : Valuation τ sig (Elt F)) (r : Ref sig .tc) (h : r ∉ cAs4_W) :
    after cAs4 W (Proc.devRef .tc r) = W (Proc.devRef .tc r) :=
  after_of_writes_sub cAs4 W cAs4_writes h

theorem pAf4_keep (W : Valuation τ sig (Elt F)) (r : Ref sig .tc) (h : r ∉ pAf4_W) :
    after pAf4 W (Proc.devRef .tc r) = W (Proc.devRef .tc r) :=
  after_of_writes_sub pAf4 W pAf4_writes h

theorem pB4_keep (W : Valuation τ sig (Elt F)) (r : Ref sig .tc) (h : r ∉ pB4_W) :
    after pB4 W (Proc.devRef .tc r) = W (Proc.devRef .tc r) :=
  after_of_writes_sub pB4 W pB4_writes h

theorem pC4_keep (W : Valuation τ sig (Elt F)) (r : Ref sig .tc) (h : r ∉ pC4_W) :
    after pC4 W (Proc.devRef .tc r) = W (Proc.devRef .tc r) :=
  after_of_writes_sub pC4 W pC4_writes h

theorem pDt4_keep (W : Valuation τ sig (Elt F)) (r : Ref sig .tc) (h : r ∉ pDt4_W) :
    after pDt4 W (Proc.devRef .tc r) = W (Proc.devRef .tc r) :=
  after_of_writes_sub pDt4 W pDt4_writes h

theorem pDs4_keep (W : Valuation τ sig (Elt F)) (r : Ref sig .tc) (h : r ∉ pDs4_W) :
    after pDs4 W (Proc.devRef .tc r) = W (Proc.devRef .tc r) :=
  after_of_writes_sub pDs4 W pDs4_writes h

theorem cE4_keep (W : Valuation τ sig (Elt F)) (r : Ref sig .tc) (h : r ∉ cE4_W) :
    after cE4 W (Proc.devRef .tc r) = W (Proc.devRef .tc r) :=
  after_of_writes_sub cE4 W cE4_writes h

/-! ## What each part computes -/

attribute [local irreducible] Host.reduceWindow Host.scatter Host.reduce Host.divsi Host.remsi shapeCast extractStridedSlice
  broadcastInDim iotaInDim

set_option maxRecDepth 8192 in
set_option maxHeartbeats 1000000 in
theorem pAm4_mask (W : Valuation τ sig (Elt F)) :
    after pAm4 W (Proc.devRef .tc main_v123) = mask (view1 (W (Proc.devRef .tc main_arg2))) := by
  after_results_simp
  rfl

set_option maxRecDepth 8192 in
set_option maxHeartbeats 1000000 in
theorem pAu4_cum (W : Valuation τ sig (Elt F)) :
    after pAu4 W (Proc.devRef .tc main_v124) = cum (extui 32 (shapeCast S1048576 (W (Proc.devRef .tc main_v123)) shapeCasts_S1024x1024_S1048576) natLt_1_32) := by
  after_results_simp
  rfl

set_option maxRecDepth 8192 in
set_option maxHeartbeats 1000000 in
theorem pAl4_clip (W : Valuation τ sig (Elt F)) :
    after pAl4 W (Proc.devRef .tc main_v126) = maxsi (broadcastInDim S1048576 ![] bcast_S_S1048576 (id (constantI S_ 32 0#32))) (W (Proc.devRef .tc main_v124)) := by
  after_results_simp
  rfl

set_option maxRecDepth 8192 in
set_option maxHeartbeats 1000000 in
theorem pAl4_zero (W : Valuation τ sig (Elt F)) :
    after pAl4 W (Proc.devRef .tc main_v125) = splat 0#32 := by
  after_results_simp
  rfl

set_option maxRecDepth 8192 in
set_option maxHeartbeats 1000000 in
theorem cAs4_counts (W : Valuation τ sig (Elt F)) :
    after cAs4 W (Proc.devRef .tc main_v134) = countsOf (W (Proc.devRef .tc main_v125)) (W (Proc.devRef .tc main_v126)) := by
  simp only [cAs4, pAs4a, pAs4b, List.cons_append, List.nil_append]
  after_results_simp
  rfl

set_option maxRecDepth 8192 in
set_option maxHeartbeats 1000000 in
theorem pAf4_flat (W : Valuation τ sig (Elt F)) :
    after pAf4 W (Proc.devRef .tc main_v135) = cum (W (Proc.devRef .tc main_v134)) := by
  after_results_simp
  rfl

set_option maxRecDepth 8192 in
set_option maxHeartbeats 1000000 in
theorem pB4_row (W : Valuation τ sig (Elt F)) :
    after pB4 W (Proc.devRef .tc main_v137) = pyRem (floorDiv (W (Proc.devRef .tc main_v135)) 1024#32) 1024#32 := by
  after_results_simp
  rfl

set_option maxRecDepth 8192 in
set_option maxHeartbeats 1000000 in
theorem pC4_col (W : Valuation τ sig (Elt F)) :
    after pC4 W (Proc.devRef .tc main_v139) = pyRem (floorDiv (W (Proc.devRef .tc main_v135)) 1#32) 1024#32 := by
  after_results_simp
  rfl

set_option maxRecDepth 8192 in
set_option maxHeartbeats 1000000 in
theorem pDt4_iota (W : Valuation τ sig (Elt F)) :
    after pDt4 W (Proc.devRef .tc main_v140) = iotaInDim S1048576 32 0 := by
  after_results_simp

set_option maxRecDepth 8192 in
set_option maxHeartbeats 1000000 in
theorem pDt4_total (W : Valuation τ sig (Elt F)) :
    after pDt4 W (Proc.devRef .tc main_v142) = totalOf (W (Proc.devRef .tc main_v123)) := by
  after_results_simp
  rfl

set_option maxRecDepth 8192 in
set_option maxHeartbeats 1000000 in
theorem pDs4_row (W : Valuation τ sig (Elt F)) :
    after pDs4 W (Proc.devRef .tc main_v145) = fillSelV (W (Proc.devRef .tc main_v140)) (W (Proc.devRef .tc main_v142)) 0#32 (W (Proc.devRef .tc main_v137)) := by
  after_results_simp
  rfl

set_option maxRecDepth 8192 in
set_option maxHeartbeats 1000000 in
theorem pDs4_col (W : Valuation τ sig (Elt F)) :
    after pDs4 W (Proc.devRef .tc main_v146) = fillSelV (W (Proc.devRef .tc main_v140)) (W (Proc.devRef .tc main_v142)) 1024#32 (W (Proc.devRef .tc main_v139)) := by
  after_results_simp
  rfl

/-! ## The five parts that end at `flat` -/

theorem cA4_mask (W : Valuation τ sig (Elt F)) :
    after cA4 W (Proc.devRef .tc main_v123) = mask (view1 (W (Proc.devRef .tc main_arg2))) := by
  rw [after_app, after_app, after_app, after_app, pAf4_keep _ main_v123 (by decide), cAs4_keep _ main_v123 (by decide),
    pAl4_keep _ main_v123 (by decide), pAu4_keep _ main_v123 (by decide), pAm4_mask]

theorem cA4_flat (W : Valuation τ sig (Elt F)) :
    after cA4 W (Proc.devRef .tc main_v135) = flat (view1 (W (Proc.devRef .tc main_arg2))) := by
  rw [after_app, after_app, after_app, after_app, pAf4_flat, cAs4_counts, pAl4_zero, pAl4_clip, pAu4_cum, pAm4_mask,
    flat_eq, counts_eq, clipped_eq, clippedOf_eq]

/-! ## The stretch -/

theorem cE4_row (W : Valuation τ sig (Elt F)) :
    after cE4 W (Proc.devRef .tc main_v145) = nzRow (view1 (W (Proc.devRef .tc main_arg2))) := by
  rw [after_app, after_app, after_app, after_app, pDs4_row, pDt4_iota, pDt4_total,
    pC4_keep _ main_v123 (by decide), pB4_keep _ main_v123 (by decide), cA4_mask,
    pDt4_keep _ main_v137 (by decide), pC4_keep _ main_v137 (by decide), pB4_row, cA4_flat, nzRow_eq, fillSel_eq]

theorem cE4_col (W : Valuation τ sig (Elt F)) :
    after cE4 W (Proc.devRef .tc main_v146) = nzCol (view1 (W (Proc.devRef .tc main_arg2))) := by
  rw [after_app, after_app, after_app, after_app, pDs4_col, pDt4_iota, pDt4_total,
    pC4_keep _ main_v123 (by decide), pB4_keep _ main_v123 (by decide), cA4_mask,
    pDt4_keep _ main_v139 (by decide), pC4_col, pB4_keep _ main_v135 (by decide), cA4_flat, nzCol_eq, fillSel_eq]

end Cert.ReferenceIdeal.Stages

end
-- ==== Proof.RefRunValG1.lean ====
/-
  The first feature / gather / scatter stretch of the reference (forward adjacency, view 0), read part by part from ANY contents W of the
  device's buffers. Each part ends right after the operation that folds over an array:
  * the weight slice contracted with the input (main_v58) beside the bias row (main_v57);
  * the rows of (contraction + bias) gathered at the wrapped sources (main_v68);
  * those rows summed into the destinations, from the all-zero array (main_v71);
  * that sum clamped below at 0 (main_v72).
  Composed by rewriting alone, main_v72 ends at one graph convolution `gnnRaw` of the enumerated sources main_v25 and destinations
  main_v26 as they stand in W and `feat0` of the arguments; a buffer no part writes keeps its contents.
-/
import proofs.«121984_g44616120271338_cont_sun_m_526_12_alg».proof.Proof.RefRunOps1
import proofs.«121984_g44616120271338_cont_sun_m_526_12_alg».proof.Proof.RefRunAux
import Idealize.ShloMosaic.Lib.StableHlo.Run

noncomputable section

namespace Cert.ReferenceIdeal.Stages

open Idealize.ShloMosaic Idealize.ShloMosaic.TcCoe Idealize.SL.Sem Idealize.ShloMosaic.StableHlo Cert.ReferenceIdeal Cert.ReferenceIdeal.Facts₀

variable {F : FTy → Type} [FloatOps F]

abbrev cG1 : List (HloOp τ sig (Elt F)) := pGd1 ++ (pGg1 ++ (pGs1 ++ pGr1))
abbrev cG1_W : List (Ref sig .tc) := pGd1_W ++ (pGg1_W ++ (pGs1_W ++ pGr1_W))

/-! ## What each part writes -/

set_option maxRecDepth 8192 in
theorem pGd1_writes : (pGd1 : List (HloOp τ sig (Elt F))).Forall fun op =>
    op.writes ⊆ (pGd1_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pGg1_writes : (pGg1 : List (HloOp τ sig (Elt F))).Forall fun op =>
    op.writes ⊆ (pGg1_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pGs1_writes : (pGs1 : List (HloOp τ sig (Elt F))).Forall fun op =>
    op.writes ⊆ (pGs1_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pGr1_writes : (pGr1 : List (HloOp τ sig (Elt F))).Forall fun op =>
    op.writes ⊆ (pGr1_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

theorem cG1_writes : (cG1 : List (HloOp τ sig (Elt F))).Forall fun op =>
    op.writes ⊆ (cG1_W.map (Proc.devRef (τ := τ) .tc)).toFinset :=
  writes_append pGd1_writes (writes_append pGg1_writes (writes_append pGs1_writes pGr1_writes))

theorem pGd1_keep (W : Valuation τ sig (Elt F)) (r : Ref sig .tc) (h : r ∉ pGd1_W) :
    after pGd1 W (Proc.devRef .tc r) = W (Proc.devRef .tc r) :=
  after_of_writes_sub pGd1 W pGd1_writes h

theorem pGg1_keep (W : Valuation τ sig (Elt F)) (r : Ref sig .tc) (h : r ∉ pGg1_W) :
    after pGg1 W (Proc.devRef .tc r) = W (Proc.devRef .tc r) :=
  after_of_writes_sub pGg1 W pGg1_writes h

theorem pGs1_keep (W : Valuation τ sig (Elt F)) (r : Ref sig .tc) (h : r ∉ pGs1_W) :
    after pGs1 W (Proc.devRef .tc r) = W (Proc.devRef .tc r) :=
  after_of_writes_sub pGs1 W pGs1_writes h

theorem pGr1_keep (W : Valuation τ sig (Elt F)) (r : Ref sig .tc) (h : r ∉ pGr1_W) :
    after pGr1 W (Proc.devRef .tc r) = W (Proc.devRef .tc r) :=
  after_of_writes_sub pGr1 W pGr1_writes h

theorem cG1_keep (W : Valuation τ sig (Elt F)) (r : Ref sig .tc) (h : r ∉ cG1_W) :
    after cG1 W (Proc.devRef .tc r) = W (Proc.devRef .tc r) :=
  after_of_writes_sub cG1 W cG1_writes h

/-! ## What each part computes -/

attribute [local irreducible] Host.gather Host.scatterAdd shapeCast extractStridedSlice broadcastInDim

set_option maxRecDepth 8192 in
set_option maxHeartbeats 1000000 in
theorem pGd1_dot (W : Valuation τ sig (Elt F)) :
    after pGd1 W (Proc.devRef .tc main_v58) = Host.dotGeneral dot_S1024x128_S128x64_S1024x64_1_0_0_1_n_n none (W (Proc.devRef .tc main_arg0))
      (shapeCast S128x64 (extractStridedSlice S1x128x64 ![0, 0, 0] (W (Proc.devRef .tc main_arg3)) slices_S2x128x64_S1x128x64_0_0_0) shapeCasts_S1x128x64_S128x64) := by
  after_results_simp
  rfl

set_option maxRecDepth 8192 in
set_option maxHeartbeats 1000000 in
theorem pGd1_bias (W : Valuation τ sig (Elt F)) :
    after pGd1 W (Proc.devRef .tc main_v57) = shapeCast S64 (extractStridedSlice S1x64 ![0, 0] (W (Proc.devRef .tc main_arg4)) slices_S2x64_S1x64_0_0) shapeCasts_S1x64_S64 := by
  after_results_simp
  rfl

set_option maxRecDepth 8192 in
set_option maxHeartbeats 1000000 in
theorem pGg1_gather (W : Valuation τ sig (Elt F)) :
    after pGg1 W (Proc.devRef .tc main_v68) = Host.gather gather_S1024x64_S1048576x1_S1048576x64_1_0_n_n_0_1_164
      (addf (W (Proc.devRef .tc main_v58)) (broadcastInDim S1024x64 ![0, 1] bcast_S1x64_S1024x64_0_1 (broadcastInDim S1x64 ![1] bcast_S64_S1x64_1 (W (Proc.devRef .tc main_v57)))))
      (broadcastInDim S1048576x1 ![0] bcast_S1048576_S1048576x1_0 (normIdx (W (Proc.devRef .tc main_v25)))) := by
  after_results_simp
  rfl

set_option maxRecDepth 8192 in
set_option maxHeartbeats 1000000 in
theorem pGs1_sum (W : Valuation τ sig (Elt F)) :
    after pGs1 W (Proc.devRef .tc main_v71) = Host.scatterAdd scatter_S1024x64_S1048576x1_S1048576x64_1_0_0_1 zeros64
      (broadcastInDim S1048576x1 ![0] bcast_S1048576_S1048576x1_0 (W (Proc.devRef .tc main_v26))) (W (Proc.devRef .tc main_v68)) := by
  after_results_simp
  rfl

set_option maxRecDepth 8192 in
set_option maxHeartbeats 1000000 in
theorem pGr1_relu (W : Valuation τ sig (Elt F)) :
    after pGr1 W (Proc.devRef .tc main_v72) = maximumf (W (Proc.devRef .tc main_v71)) zeros64 := by
  after_results_simp
  rfl

/-! ## The stretch -/

theorem cG1_out (W : Valuation τ sig (Elt F)) :
    after cG1 W (Proc.devRef .tc main_v72)
      = gnnRaw (W (Proc.devRef .tc main_v25)) (W (Proc.devRef .tc main_v26)) (feat0 (W (Proc.devRef .tc main_arg0)) (W (Proc.devRef .tc main_arg3)) (W (Proc.devRef .tc main_arg4))) := by
  rw [after_app, after_app, after_app, pGr1_relu, pGs1_sum, pGg1_keep _ main_v26 (by decide), pGd1_keep _ main_v26 (by decide),
    pGg1_gather, pGd1_dot, pGd1_bias, pGd1_keep _ main_v25 (by decide), gnnRaw_eq, feat0_eq]

end Cert.ReferenceIdeal.Stages

end
-- ==== Proof.RefRunValG2.lean ====
/-
  The second feature / gather / scatter stretch of the reference (backward adjacency, view 0), read part by part from ANY contents W of the
  device's buffers. Each part ends right after the operation that folds over an array:
  * the weight slice contracted with the input (main_v77) beside the bias row (main_v76);
  * the rows of (contraction + bias) gathered at the wrapped sources (main_v87);
  * those rows summed into the destinations, from the all-zero array (main_v90);
  * that sum clamped below at 0 (main_v91).
  Composed by rewriting alone, main_v91 ends at one graph convolution `gnnRaw` of the enumerated sources main_v52 and destinations
  main_v53 as they stand in W and `feat0` of the arguments; a buffer no part writes keeps its contents.
-/
import proofs.«121984_g44616120271338_cont_sun_m_526_12_alg».proof.Proof.RefRunOps1
import proofs.«121984_g44616120271338_cont_sun_m_526_12_alg».proof.Proof.RefRunOps2
import proofs.«121984_g44616120271338_cont_sun_m_526_12_alg».proof.Proof.RefRunAux
import Idealize.ShloMosaic.Lib.StableHlo.Run

noncomputable section

namespace Cert.ReferenceIdeal.Stages

open Idealize.ShloMosaic Idealize.ShloMosaic.TcCoe Idealize.SL.Sem Idealize.ShloMosaic.StableHlo Cert.ReferenceIdeal Cert.ReferenceIdeal.Facts₀

variable {F : FTy → Type} [FloatOps F]

abbrev cGs2 : List (HloOp τ sig (Elt F)) := pGs2a ++ pGs2b
abbrev cGs2_W : List (Ref sig .tc) := pGs2a_W ++ pGs2b_W
abbrev cG2 : List (HloOp τ sig (Elt F)) := pGd2 ++ (pGg2 ++ (cGs2 ++ pGr2))
abbrev cG2_W : List (Ref sig .tc) := pGd2_W ++ (pGg2_W ++ (cGs2_W ++ pGr2_W))

/-! ## What each part writes -/

set_option maxRecDepth 8192 in
theorem pGd2_writes : (pGd2 : List (HloOp τ sig (Elt F))).Forall fun op =>
    op.writes ⊆ (pGd2_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pGg2_writes : (pGg2 : List (HloOp τ sig (Elt F))).Forall fun op =>
    op.writes ⊆ (pGg2_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pGs2a_writes : (pGs2a : List (HloOp τ sig (Elt F))).Forall fun op =>
    op.writes ⊆ (pGs2a_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pGs2b_writes : (pGs2b : List (HloOp τ sig (Elt F))).Forall fun op =>
    op.writes ⊆ (pGs2b_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pGr2_writes : (pGr2 : List (HloOp τ sig (Elt F))).Forall fun op =>
    op.writes ⊆ (pGr2_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

theorem cGs2_writes : (cGs2 : List (HloOp τ sig (Elt F))).Forall fun op =>
    op.writes ⊆ (cGs2_W.map (Proc.devRef (τ := τ) .tc)).toFinset :=
  writes_append pGs2a_writes pGs2b_writes

theorem cG2_writes : (cG2 : List (HloOp τ sig (Elt F))).Forall fun op =>
    op.writes ⊆ (cG2_W.map (Proc.devRef (τ := τ) .tc)).toFinset :=
  writes_append pGd2_writes (writes_append pGg2_writes (writes_append cGs2_writes pGr2_writes))

theorem pGd2_keep (W : Valuation τ sig (Elt F)) (r : Ref sig .tc) (h : r ∉ pGd2_W) :
    after pGd2 W (Proc.devRef .tc r) = W (Proc.devRef .tc r) :=
  after_of_writes_sub pGd2 W pGd2_writes h

theorem pGg2_keep (W : Valuation τ sig (Elt F)) (r : Ref sig .tc) (h : r ∉ pGg2_W) :
    after pGg2 W (Proc.devRef .tc r) = W (Proc.devRef .tc r) :=
  after_of_writes_sub pGg2 W pGg2_writes h

theorem cGs2_keep (W : Valuation τ sig (Elt F)) (r : Ref sig .tc) (h : r ∉ cGs2_W) :
    after cGs2 W (Proc.devRef .tc r) = W (Proc.devRef .tc r) :=
  after_of_writes_sub cGs2 W cGs2_writes h

theorem pGr2_keep (W : Valuation τ sig (Elt F)) (r : Ref sig .tc) (h : r ∉ pGr2_W) :
    after pGr2 W (Proc.devRef .tc r) = W (Proc.devRef .tc r) :=
  after_of_writes_sub pGr2 W pGr2_writes h

theorem cG2_keep (W : Valuation τ sig (Elt F)) (r : Ref sig .tc) (h : r ∉ cG2_W) :
    after cG2 W (Proc.devRef .tc r) = W (Proc.devRef .tc r) :=
  after_of_writes_sub cG2 W cG2_writes h

/-! ## What each part computes -/

attribute [local irreducible] Host.gather Host.scatterAdd shapeCast extractStridedSlice broadcastInDim

set_option maxRecDepth 8192 in
set_option maxHeartbeats 1000000 in
theorem pGd2_dot (W : Valuation τ sig (Elt F)) :
    after pGd2 W (Proc.devRef .tc main_v77) = Host.dotGeneral dot_S1024x128_S128x64_S1024x64_1_0_0_1_n_n none (W (Proc.devRef .tc main_arg0))
      (shapeCast S128x64 (extractStridedSlice S1x128x64 ![0, 0, 0] (W (Proc.devRef .tc main_arg5)) slices_S2x128x64_S1x128x64_0_0_0) shapeCasts_S1x128x64_S128x64) := by
  after_results_simp
  rfl

set_option maxRecDepth 8192 in
set_option maxHeartbeats 1000000 in
theorem pGd2_bias (W : Valuation τ sig (Elt F)) :
    after pGd2 W (Proc.devRef .tc main_v76) = shapeCast S64 (extractStridedSlice S1x64 ![0, 0] (W (Proc.devRef .tc main_arg6)) slices_S2x64_S1x64_0_0) shapeCasts_S1x64_S64 := by
  after_results_simp
  rfl

set_option maxRecDepth 8192 in
set_option maxHeartbeats 1000000 in
theorem pGg2_gather (W : Valuation τ sig (Elt F)) :
    after pGg2 W (Proc.devRef .tc main_v87) = Host.gather gather_S1024x64_S1048576x1_S1048576x64_1_0_n_n_0_1_164
      (addf (W (Proc.devRef .tc main_v77)) (broadcastInDim S1024x64 ![0, 1] bcast_S1x64_S1024x64_0_1 (broadcastInDim S1x64 ![1] bcast_S64_S1x64_1 (W (Proc.devRef .tc main_v76)))))
      (broadcastInDim S1048576x1 ![0] bcast_S1048576_S1048576x1_0 (normIdx (W (Proc.devRef .tc main_v52)))) := by
  after_results_simp
  rfl

set_option maxRecDepth 8192 in
set_option maxHeartbeats 1000000 in
theorem cGs2_sum (W : Valuation τ sig (Elt F)) :
    after cGs2 W (Proc.devRef .tc main_v90) = Host.scatterAdd scatter_S1024x64_S1048576x1_S1048576x64_1_0_0_1 zeros64
      (broadcastInDim S1048576x1 ![0] bcast_S1048576_S1048576x1_0 (W (Proc.devRef .tc main_v53))) (W (Proc.devRef .tc main_v87)) := by
  simp only [cGs2, pGs2a, pGs2b, List.cons_append, List.nil_append]
  after_results_simp
  rfl

set_option maxRecDepth 8192 in
set_option maxHeartbeats 1000000 in
theorem pGr2_relu (W : Valuation τ sig (Elt F)) :
    after pGr2 W (Proc.devRef .tc main_v91) = maximumf (W (Proc.devRef .tc main_v90)) zeros64 := by
  after_results_simp
  rfl

/-! ## The stretch -/

theorem cG2_out (W : Valuation τ sig (Elt F)) :
    after cG2 W (Proc.devRef .tc main_v91)
      = gnnRaw (W (Proc.devRef .tc main_v52)) (W (Proc.devRef .tc main_v53)) (feat0 (W (Proc.devRef .tc main_arg0)) (W (Proc.devRef .tc main_arg5)) (W (Proc.devRef .tc main_arg6))) := by
  rw [after_app, after_app, after_app, pGr2_relu, cGs2_sum, pGg2_keep _ main_v53 (by decide), pGd2_keep _ main_v53 (by decide),
    pGg2_gather, pGd2_dot, pGd2_bias, pGd2_keep _ main_v52 (by decide), gnnRaw_eq, feat0_eq]

end Cert.ReferenceIdeal.Stages

end
-- ==== Proof.RefRunValG3.lean ====
/-
  The third feature / gather / scatter stretch of the reference (forward adjacency, view 1), read part by part from ANY contents W of the
  device's buffers. Each part ends right after the operation that folds over an array:
  * the weight slice contracted with the input (main_v151) beside the bias row (main_v150);
  * the rows of (contraction + bias) gathered at the wrapped sources (main_v161);
  * those rows summed into the destinations, from the all-zero array (main_v164);
  * that sum clamped below at 0 (main_v165).
  Composed by rewriting alone, main_v165 ends at one graph convolution `gnnRaw` of the enumerated sources main_v118 and destinations
  main_v119 as they stand in W and `feat1` of the arguments; a buffer no part writes keeps its contents.
-/
import proofs.«121984_g44616120271338_cont_sun_m_526_12_alg».proof.Proof.RefRunOps3
import proofs.«121984_g44616120271338_cont_sun_m_526_12_alg».proof.Proof.RefRunAux
import Idealize.ShloMosaic.Lib.StableHlo.Run

noncomputable section

namespace Cert.ReferenceIdeal.Stages

open Idealize.ShloMosaic Idealize.ShloMosaic.TcCoe Idealize.SL.Sem Idealize.ShloMosaic.StableHlo Cert.ReferenceIdeal Cert.ReferenceIdeal.Facts₀

variable {F : FTy → Type} [FloatOps F]

abbrev cG3 : List (HloOp τ sig (Elt F)) := pGd3 ++ (pGg3 ++ (pGs3 ++ pGr3))
abbrev cG3_W : List (Ref sig .tc) := pGd3_W ++ (pGg3_W ++ (pGs3_W ++ pGr3_W))

/-! ## What each part writes -/

set_option maxRecDepth 8192 in
theorem pGd3_writes : (pGd3 : List (HloOp τ sig (Elt F))).Forall fun op =>
    op.writes ⊆ (pGd3_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pGg3_writes : (pGg3 : List (HloOp τ sig (Elt F))).Forall fun op =>
    op.writes ⊆ (pGg3_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pGs3_writes : (pGs3 : List (HloOp τ sig (Elt F))).Forall fun op =>
    op.writes ⊆ (pGs3_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pGr3_writes : (pGr3 : List (HloOp τ sig (Elt F))).Forall fun op =>
    op.writes ⊆ (pGr3_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

theorem cG3_writes : (cG3 : List (HloOp τ sig (Elt F))).Forall fun op =>
    op.writes ⊆ (cG3_W.map (Proc.devRef (τ := τ) .tc)).toFinset :=
  writes_append pGd3_writes (writes_append pGg3_writes (writes_append pGs3_writes pGr3_writes))

theorem pGd3_keep (W : Valuation τ sig (Elt F)) (r : Ref sig .tc) (h : r ∉ pGd3_W) :
    after pGd3 W (Proc.devRef .tc r) = W (Proc.devRef .tc r) :=
  after_of_writes_sub pGd3 W pGd3_writes h

theorem pGg3_keep (W : Valuation τ sig (Elt F)) (r : Ref sig .tc) (h : r ∉ pGg3_W) :
    after pGg3 W (Proc.devRef .tc r) = W (Proc.devRef .tc r) :=
  after_of_writes_sub pGg3 W pGg3_writes h

theorem pGs3_keep (W : Valuation τ sig (Elt F)) (r : Ref sig .tc) (h : r ∉ pGs3_W) :
    after pGs3 W (Proc.devRef .tc r) = W (Proc.devRef .tc r) :=
  after_of_writes_sub pGs3 W pGs3_writes h

theorem pGr3_keep (W : Valuation τ sig (Elt F)) (r : Ref sig .tc) (h : r ∉ pGr3_W) :
    after pGr3 W (Proc.devRef .tc r) = W (Proc.devRef .tc r) :=
  after_of_writes_sub pGr3 W pGr3_writes h

theorem cG3_keep (W : Valuation τ sig (Elt F)) (r : Ref sig .tc) (h : r ∉ cG3_W) :
    after cG3 W (Proc.devRef .tc r) = W (Proc.devRef .tc r) :=
  after_of_writes_sub cG3 W cG3_writes h

/-! ## What each part computes -/

attribute [local irreducible] Host.gather Host.scatterAdd shapeCast extractStridedSlice broadcastInDim

set_option maxRecDepth 8192 in
set_option maxHeartbeats 1000000 in
theorem pGd3_dot (W : Valuation τ sig (Elt F)) :
    after pGd3 W (Proc.devRef .tc main_v151) = Host.dotGeneral dot_S1024x128_S128x64_S1024x64_1_0_0_1_n_n none (W (Proc.devRef .tc main_arg0))
      (shapeCast S128x64 (extractStridedSlice S1x128x64 ![1, 0, 0] (W (Proc.devRef .tc main_arg3)) slices_S2x128x64_S1x128x64_1_0_0) shapeCasts_S1x128x64_S128x64) := by
  after_results_simp
  rfl

set_option maxRecDepth 8192 in
set_option maxHeartbeats 1000000 in
theorem pGd3_bias (W : Valuation τ sig (Elt F)) :
    after pGd3 W (Proc.devRef .tc main_v150) = shapeCast S64 (extractStridedSlice S1x64 ![1, 0] (W (Proc.devRef .tc main_arg4)) slices_S2x64_S1x64_1_0) shapeCasts_S1x64_S64 := by
  after_results_simp
  rfl

set_option maxRecDepth 8192 in
set_option maxHeartbeats 1000000 in
theorem pGg3_gather (W : Valuation τ sig (Elt F)) :
    after pGg3 W (Proc.devRef .tc main_v161) = Host.gather gather_S1024x64_S1048576x1_S1048576x64_1_0_n_n_0_1_164
      (addf (W (Proc.devRef .tc main_v151)) (broadcastInDim S1024x64 ![0, 1] bcast_S1x64_S1024x64_0_1 (broadcastInDim S1x64 ![1] bcast_S64_S1x64_1 (W (Proc.devRef .tc main_v150)))))
      (broadcastInDim S1048576x1 ![0] bcast_S1048576_S1048576x1_0 (normIdx (W (Proc.devRef .tc main_v118)))) := by
  after_results_simp
  rfl

set_option maxRecDepth 8192 in
set_option maxHeartbeats 1000000 in
theorem pGs3_sum (W : Valuation τ sig (Elt F)) :
    after pGs3 W (Proc.devRef .tc main_v164) = Host.scatterAdd scatter_S1024x64_S1048576x1_S1048576x64_1_0_0_1 zeros64
      (broadcastInDim S1048576x1 ![0] bcast_S1048576_S1048576x1_0 (W (Proc.devRef .tc main_v119))) (W (Proc.devRef .tc main_v161)) := by
  after_results_simp
  rfl

set_option maxRecDepth 8192 in
set_option maxHeartbeats 1000000 in
theorem pGr3_relu (W : Valuation τ sig (Elt F)) :
    after pGr3 W (Proc.devRef .tc main_v165) = maximumf (W (Proc.devRef .tc main_v164)) zeros64 := by
  after_results_simp
  rfl

/-! ## The stretch -/

theorem cG3_out (W : Valuation τ sig (Elt F)) :
    after cG3 W (Proc.devRef .tc main_v165)
      = gnnRaw (W (Proc.devRef .tc main_v118)) (W (Proc.devRef .tc main_v119)) (feat1 (W (Proc.devRef .tc main_arg0)) (W (Proc.devRef .tc main_arg3)) (W (Proc.devRef .tc main_arg4))) := by
  rw [after_app, after_app, after_app, pGr3_relu, pGs3_sum, pGg3_keep _ main_v119 (by decide), pGd3_keep _ main_v119 (by decide),
    pGg3_gather, pGd3_dot, pGd3_bias, pGd3_keep _ main_v118 (by decide), gnnRaw_eq, feat1_eq]

end Cert.ReferenceIdeal.Stages

end
-- ==== Proof.RefRunValG4.lean ====
/-
  The fourth feature / gather / scatter stretch of the reference (backward adjacency, view 1), read part by part from ANY contents W of the
  device's buffers. Each part ends right after the operation that folds over an array:
  * the weight slice contracted with the input (main_v170) beside the bias row (main_v169);
  * the rows of (contraction + bias) gathered at the wrapped sources (main_v180);
  * those rows summed into the destinations, from the all-zero array (main_v183);
  * that sum clamped below at 0 (main_v184).
  Composed by rewriting alone, main_v184 ends at one graph convolution `gnnRaw` of the enumerated sources main_v145 and destinations
  main_v146 as they stand in W and `feat1` of the arguments; a buffer no part writes keeps its contents.
-/
import proofs.«121984_g44616120271338_cont_sun_m_526_12_alg».proof.Proof.RefRunOps3
import proofs.«121984_g44616120271338_cont_sun_m_526_12_alg».proof.Proof.RefRunOps4
import proofs.«121984_g44616120271338_cont_sun_m_526_12_alg».proof.Proof.RefRunAux
import Idealize.ShloMosaic.Lib.StableHlo.Run

noncomputable section

namespace Cert.ReferenceIdeal.Stages

open Idealize.ShloMosaic Idealize.ShloMosaic.TcCoe Idealize.SL.Sem Idealize.ShloMosaic.StableHlo Cert.ReferenceIdeal Cert.ReferenceIdeal.Facts₀

variable {F : FTy → Type} [FloatOps F]

abbrev cGg4 : List (HloOp τ sig (Elt F)) := pGg4a ++ pGg4b
abbrev cGg4_W : List (Ref sig .tc) := pGg4a_W ++ pGg4b_W
abbrev cG4 : List (HloOp τ sig (Elt F)) := pGd4 ++ (cGg4 ++ (pGs4 ++ pGr4))
abbrev cG4_W : List (Ref sig .tc) := pGd4_W ++ (cGg4_W ++ (pGs4_W ++ pGr4_W))

/-! ## What each part writes -/

set_option maxRecDepth 8192 in
theorem pGd4_writes : (pGd4 : List (HloOp τ sig (Elt F))).Forall fun op =>
    op.writes ⊆ (pGd4_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pGg4a_writes : (pGg4a : List (HloOp τ sig (Elt F))).Forall fun op =>
    op.writes ⊆ (pGg4a_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pGg4b_writes : (pGg4b : List (HloOp τ sig (Elt F))).Forall fun op =>
    op.writes ⊆ (pGg4b_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pGs4_writes : (pGs4 : List (HloOp τ sig (Elt F))).Forall fun op =>
    op.writes ⊆ (pGs4_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pGr4_writes : (pGr4 : List (HloOp τ sig (Elt F))).Forall fun op =>
    op.writes ⊆ (pGr4_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

theorem cGg4_writes : (cGg4 : List (HloOp τ sig (Elt F))).Forall fun op =>
    op.writes ⊆ (cGg4_W.map (Proc.devRef (τ := τ) .tc)).toFinset :=
  writes_append pGg4a_writes pGg4b_writes

theorem cG4_writes : (cG4 : List (HloOp τ sig (Elt F))).Forall fun op =>
    op.writes ⊆ (cG4_W.map (Proc.devRef (τ := τ) .tc)).toFinset :=
  writes_append pGd4_writes (writes_append cGg4_writes (writes_append pGs4_writes pGr4_writes))

theorem pGd4_keep (W : Valuation τ sig (Elt F)) (r : Ref sig .tc) (h : r ∉ pGd4_W) :
    after pGd4 W (Proc.devRef .tc r) = W (Proc.devRef .tc r) :=
  after_of_writes_sub pGd4 W pGd4_writes h

theorem cGg4_keep (W : Valuation τ sig (Elt F)) (r : Ref sig .tc) (h : r ∉ cGg4_W) :
    after cGg4 W (Proc.devRef .tc r) = W (Proc.devRef .tc r) :=
  after_of_writes_sub cGg4 W cGg4_writes h

theorem pGs4_keep (W : Valuation τ sig (Elt F)) (r : Ref sig .tc) (h : r ∉ pGs4_W) :
    after pGs4 W (Proc.devRef .tc r) = W (Proc.devRef .tc r) :=
  after_of_writes_sub pGs4 W pGs4_writes h

theorem pGr4_keep (W : Valuation τ sig (Elt F)) (r : Ref sig .tc) (h : r ∉ pGr4_W) :
    after pGr4 W (Proc.devRef .tc r) = W (Proc.devRef .tc r) :=
  after_of_writes_sub pGr4 W pGr4_writes h

theorem cG4_keep (W : Valuation τ sig (Elt F)) (r : Ref sig .tc) (h : r ∉ cG4_W) :
    after cG4 W (Proc.devRef .tc r) = W (Proc.devRef .tc r) :=
  after_of_writes_sub cG4 W cG4_writes h

/-! ## What each part computes -/

attribute [local irreducible] Host.gather Host.scatterAdd shapeCast extractStridedSlice broadcastInDim

set_option maxRecDepth 8192 in
set_option maxHeartbeats 1000000 in
theorem pGd4_dot (W : Valuation τ sig (Elt F)) :
    after pGd4 W (Proc.devRef .tc main_v170) = Host.dotGeneral dot_S1024x128_S128x64_S1024x64_1_0_0_1_n_n none (W (Proc.devRef .tc main_arg0))
      (shapeCast S128x64 (extractStridedSlice S1x128x64 ![1, 0, 0] (W (Proc.devRef .tc main_arg5)) slices_S2x128x64_S1x128x64_1_0_0) shapeCasts_S1x128x64_S128x64) := by
  after_results_simp
  rfl

set_option maxRecDepth 8192 in
set_option maxHeartbeats 1000000 in
theorem pGd4_bias (W : Valuation τ sig (Elt F)) :
    after pGd4 W (Proc.devRef .tc main_v169) = shapeCast S64 (extractStridedSlice S1x64 ![1, 0] (W (Proc.devRef .tc main_arg6)) slices_S2x64_S1x64_1_0) shapeCasts_S1x64_S64 := by
  after_results_simp
  rfl

set_option maxRecDepth 8192 in
set_option maxHeartbeats 1000000 in
theorem cGg4_gather (W : Valuation τ sig (Elt F)) :
    after cGg4 W (Proc.devRef .tc main_v180) = Host.gather gather_S1024x64_S1048576x1_S1048576x64_1_0_n_n_0_1_164
      (addf (W (Proc.devRef .tc main_v170)) (broadcastInDim S1024x64 ![0, 1] bcast_S1x64_S1024x64_0_1 (broadcastInDim S1x64 ![1] bcast_S64_S1x64_1 (W (Proc.devRef .tc main_v169)))))
      (broadcastInDim S1048576x1 ![0] bcast_S1048576_S1048576x1_0 (normIdx (W (Proc.devRef .tc main_v145)))) := by
  simp only [cGg4, pGg4a, pGg4b, List.cons_append, List.nil_append]
  after_results_simp
  rfl

set_option maxRecDepth 8192 in
set_option maxHeartbeats 1000000 in
theorem pGs4_sum (W : Valuation τ sig (Elt F)) :
    after pGs4 W (Proc.devRef .tc main_v183) = Host.scatterAdd scatter_S1024x64_S1048576x1_S1048576x64_1_0_0_1 zeros64
      (broadcastInDim S1048576x1 ![0] bcast_S1048576_S1048576x1_0 (W (Proc.devRef .tc main_v146))) (W (Proc.devRef .tc main_v180)) := by
  after_results_simp
  rfl

set_option maxRecDepth 8192 in
set_option maxHeartbeats 1000000 in
theorem pGr4_relu (W : Valuation τ sig (Elt F)) :
    after pGr4 W (Proc.devRef .tc main_v184) = maximumf (W (Proc.devRef .tc main_v183)) zeros64 := by
  after_results_simp
  rfl

/-! ## The stretch -/

theorem cG4_out (W : Valuation τ sig (Elt F)) :
    after cG4 W (Proc.devRef .tc main_v184)
      = gnnRaw (W (Proc.devRef .tc main_v145)) (W (Proc.devRef .tc main_v146)) (feat1 (W (Proc.devRef .tc main_arg0)) (W (Proc.devRef .tc main_arg5)) (W (Proc.devRef .tc main_arg6))) := by
  rw [after_app, after_app, after_app, pGr4_relu, pGs4_sum, cGg4_keep _ main_v146 (by decide), pGd4_keep _ main_v146 (by decide),
    cGg4_gather, pGd4_dot, pGd4_bias, pGd4_keep _ main_v145 (by decide), gnnRaw_eq, feat1_eq]

end Cert.ReferenceIdeal.Stages

end
-- ==== Proof.RefRunValHZ.lean ====
/-
  The first concatenate and the tail of the reference, read part by part from ANY contents W of the device's buffers.

  * view 0's output (main_v92): the backward half main_v91 beside the forward half main_v72.
  * the tail: view 1's output (main_v185); the two views' outputs stacked (main_v188); the stack summed over the views from 0
    (main_v189); that sum clamped below at 0 and contracted with the output weights (main_v191); the bias row and the input added
    (main_v195). Each part ends right after the operation that folds over an array and reads the fold before it as it stands in W.
  Composed by rewriting alone, main_v195 ends at the output layer of the sum of the two views' outputs; a buffer no part writes
  keeps its contents.
-/
import proofs.«121984_g44616120271338_cont_sun_m_526_12_alg».proof.Proof.RefRunOps2
import proofs.«121984_g44616120271338_cont_sun_m_526_12_alg».proof.Proof.RefRunOps4
import proofs.«121984_g44616120271338_cont_sun_m_526_12_alg».proof.Proof.RefRunAux
import Idealize.ShloMosaic.Lib.StableHlo.Run

noncomputable section

namespace Cert.ReferenceIdeal.Stages

open Idealize.ShloMosaic Idealize.ShloMosaic.TcCoe Idealize.SL.Sem Idealize.ShloMosaic.StableHlo Cert.ReferenceIdeal Cert.ReferenceIdeal.Facts₀

variable {F : FTy → Type} [FloatOps F]

abbrev cZ : List (HloOp τ sig (Elt F)) := pZa ++ (pZb ++ (pZc ++ (pZd ++ pZe)))
abbrev cZ_W : List (Ref sig .tc) := pZa_W ++ (pZb_W ++ (pZc_W ++ (pZd_W ++ pZe_W)))

/-! ## What each part writes -/

set_option maxRecDepth 8192 in
theorem pH_writes : (pH : List (HloOp τ sig (Elt F))).Forall fun op =>
    op.writes ⊆ (pH_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pZa_writes : (pZa : List (HloOp τ sig (Elt F))).Forall fun op =>
    op.writes ⊆ (pZa_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pZb_writes : (pZb : List (HloOp τ sig (Elt F))).Forall fun op =>
    op.writes ⊆ (pZb_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pZc_writes : (pZc : List (HloOp τ sig (Elt F))).Forall fun op =>
    op.writes ⊆ (pZc_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pZd_writes : (pZd : List (HloOp τ sig (Elt F))).Forall fun op =>
    op.writes ⊆ (pZd_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

set_option maxRecDepth 8192 in
theorem pZe_writes : (pZe : List (HloOp τ sig (Elt F))).Forall fun op =>
    op.writes ⊆ (pZe_W.map (Proc.devRef (τ := τ) .tc)).toFinset := by
  simp only [List.Forall, nullary_writes, unary_writes, binary_writes, ternary_writes, reshape_writes,
    Finset.singleton_subset_iff, List.mem_toFinset]
  repeat' refine And.intro ?_ ?_
  all_goals exact List.mem_map_of_mem (by decide)

theorem cZ_writes : (cZ : List (HloOp τ sig (Elt F))).Forall fun op =>
    op.writes ⊆ (cZ_W.map (Proc.devRef (τ := τ) .tc)).toFinset :=
  writes_append pZa_writes (writes_append pZb_writes (writes_append pZc_writes (writes_append pZd_writes pZe_writes)))

theorem pH_keep (W : Valuation τ sig (Elt F)) (r : Ref sig .tc) (h : r ∉ pH_W) :
    after pH W (Proc.devRef .tc r) = W (Proc.devRef .tc r) :=
  after_of_writes_sub pH W pH_writes h

theorem pZa_keep (W : Valuation τ sig (Elt F)) (r : Ref sig .tc) (h : r ∉ pZa_W) :
    after pZa W (Proc.devRef .tc r) = W (Proc.devRef .tc r) :=
  after_of_writes_sub pZa W pZa_writes h

theorem pZb_keep (W : Valuation τ sig (Elt F)) (r : Ref sig .tc) (h : r ∉ pZb_W) :
    after pZb W (Proc.devRef .tc r) = W (Proc.devRef .tc r) :=
  after_of_writes_sub pZb W pZb_writes h

theorem pZc_keep (W : Valuation τ sig (Elt F)) (r : Ref sig .tc) (h : r ∉ pZc_W) :
    after pZc W (Proc.devRef .tc r) = W (Proc.devRef .tc r) :=
  after_of_writes_sub pZc W pZc_writes h

theorem pZd_keep (W : Valuation τ sig (Elt F)) (r : Ref sig .tc) (h : r ∉ pZd_W) :
    after pZd W (Proc.devRef .tc r) = W (Proc.devRef .tc r) :=
  after_of_writes_sub pZd W pZd_writes h

theorem pZe_keep (W : Valuation τ sig (Elt F)) (r : Ref sig .tc) (h : r ∉ pZe_W) :
    after pZe W (Proc.devRef .tc r) = W (Proc.devRef .tc r) :=
  after_of_writes_sub pZe W pZe_writes h

theorem cZ_keep (W : Valuation τ sig (Elt F)) (r : Ref sig .tc) (h : r ∉ cZ_W) :
    after cZ W (Proc.devRef .tc r) = W (Proc.devRef .tc r) :=
  after_of_writes_sub cZ W cZ_writes h

/-! ## The stage definitions unfolded one step -/

theorem viewOut_eq (bw fw : FVec F S1024x64 .f32) :
    viewOut bw fw = concatenate S1024x128 1 [⟨S1024x64, bw⟩, ⟨S1024x64, fw⟩] concatenates_S1024x64_S1024x64_S1024x128_d1 := rfl

theorem viewSum_eq (o0 o1 : FVec F S1024x128 .f32) :
    viewSum o0 o1 = Host.reduceAdd
      (concatenate S2x1024x128 0
        [⟨S1x1024x128, broadcastInDim S1x1024x128 ![1, 2] bcast_S1024x128_S1x1024x128_1_2 o0⟩,
         ⟨S1x1024x128, broadcastInDim S1x1024x128 ![1, 2] bcast_S1024x128_S1x1024x128_1_2 o1⟩]
        concatenates_S1x1024x128_S1x1024x128_S2x1024x128_d0)
      (constant S_ .f32 0x00000000#32) reducesTo_S2x1024x128_S1024x128_d0 h_S_ := rfl

theorem outLayer_eq (s x : FVec F S1024x128 .f32) (W1 : FVec F S128x128 .f32) (b1 : FVec F S128 .f32) :
    outLayer s x W1 b1 = addf
      (addf
        (Host.dotGeneral dot_S1024x128_S128x128_S1024x128_1_0_0_1_n_n none
          (maximumf s (broadcastInDim S1024x128 ![] bcast_S_S1024x128 (constant S_ .f32 0x00000000#32))) W1)
        (broadcastInDim S1024x128 ![0, 1] bcast_S1x128_S1024x128_0_1 (broadcastInDim S1x128 ![1] bcast_S128_S1x128_1 b1)))
      x := rfl

/-! ## What each part computes -/

attribute [local irreducible] Host.reduceAdd concatenate broadcastInDim

set_option maxRecDepth 8192 in
set_option maxHeartbeats 1000000 in
theorem pH_out (W : Valuation τ sig (Elt F)) :
    after pH W (Proc.devRef .tc main_v92) = viewOut (W (Proc.devRef .tc main_v91)) (W (Proc.devRef .tc main_v72)) := by
  after_results_simp
  rfl

set_option maxRecDepth 8192 in
set_option maxHeartbeats 1000000 in
theorem pZa_out (W : Valuation τ sig (Elt F)) :
    after pZa W (Proc.devRef .tc main_v185) = viewOut (W (Proc.devRef .tc main_v184)) (W (Proc.devRef .tc main_v165)) := by
  after_results_simp
  rfl

set_option maxRecDepth 8192 in
set_option maxHeartbeats 1000000 in
theorem pZb_out (W : Valuation τ sig (Elt F)) :
    after pZb W (Proc.devRef .tc main_v188) = concatenate S2x1024x128 0
      [⟨S1x1024x128, broadcastInDim S1x1024x128 ![1, 2] bcast_S1024x128_S1x1024x128_1_2 (W (Proc.devRef .tc main_v92))⟩,
       ⟨S1x1024x128, broadcastInDim S1x1024x128 ![1, 2] bcast_S1024x128_S1x1024x128_1_2 (W (Proc.devRef .tc main_v185))⟩]
      concatenates_S1x1024x128_S1x1024x128_S2x1024x128_d0 := by
  after_results_simp
  rfl

set_option maxRecDepth 8192 in
set_option maxHeartbeats 1000000 in
theorem pZc_out (W : Valuation τ sig (Elt F)) :
    after pZc W (Proc.devRef .tc main_v189) = Host.reduceAdd (W (Proc.devRef .tc main_v188)) (constant S_ .f32 0x00000000#32) reducesTo_S2x1024x128_S1024x128_d0 h_S_ := by
  after_results_simp

set_option maxRecDepth 8192 in
set_option maxHeartbeats 1000000 in
theorem pZd_out (W : Valuation τ sig (Elt F)) :
    after pZd W (Proc.devRef .tc main_v191) = Host.dotGeneral dot_S1024x128_S128x128_S1024x128_1_0_0_1_n_n none
      (maximumf (W (Proc.devRef .tc main_v189)) (broadcastInDim S1024x128 ![] bcast_S_S1024x128 (constant S_ .f32 0x00000000#32))) (W (Proc.devRef .tc main_arg7)) := by
  after_results_simp
  rfl

set_option maxRecDepth 8192 in
set_option maxHeartbeats 1000000 in
theorem pZe_out (W : Valuation τ sig (Elt F)) :
    after pZe W (Proc.devRef .tc main_v195) = addf (addf (W (Proc.devRef .tc main_v191))
      (broadcastInDim S1024x128 ![0, 1] bcast_S1x128_S1024x128_0_1 (broadcastInDim S1x128 ![1] bcast_S128_S1x128_1 (W (Proc.devRef .tc main_arg8))))) (W (Proc.devRef .tc main_arg0)) := by
  after_results_simp

/-! ## The tail -/

theorem cZ_out (W : Valuation τ sig (Elt F)) :
    after cZ W (Proc.devRef .tc main_v195)
      = outLayer (viewSum (W (Proc.devRef .tc main_v92)) (viewOut (W (Proc.devRef .tc main_v184)) (W (Proc.devRef .tc main_v165)))) (W (Proc.devRef .tc main_arg0)) (W (Proc.devRef .tc main_arg7)) (W (Proc.devRef .tc main_arg8)) := by
  rw [after_app, after_app, after_app, after_app, pZe_out, pZd_out,
    pZd_keep _ main_arg8 (by decide), pZd_keep _ main_arg0 (by decide), pZc_out,
    pZc_keep _ main_arg7 (by decide), pZc_keep _ main_arg8 (by decide), pZc_keep _ main_arg0 (by decide), pZb_out,
    pZb_keep _ main_arg7 (by decide), pZb_keep _ main_arg8 (by decide), pZb_keep _ main_arg0 (by decide), pZa_out,
    pZa_keep _ main_v92 (by decide), pZa_keep _ main_arg7 (by decide), pZa_keep _ main_arg8 (by decide), pZa_keep _ main_arg0 (by decide),
    outLayer_eq, viewSum_eq]

end Cert.ReferenceIdeal.Stages

end
-- ==== Proof.RefRunStage.lean ====
/-
  The two view stages of the reference, from ANY contents W of the device's buffers, composed from their stretches by
  rewriting alone.

  * View 0: the forward and the backward adjacency enumerated, each convolved with its features, the two halves set side
    by side: main_v92 ends at `viewOut (gnn (view0 A_bw) (feat0 x W_bw b_bw)) (gnn (view0 A_fw) (feat0 x W_fw b_fw))`.
  * View 1: the same over the second slices: main_v165 ends at the forward half, main_v184 at the backward half.
  A stretch reads an earlier stretch's result where that stretch left it: the stretches between write other buffers (each
  stretch's list of written references decides it), so the value is carried through them unchanged; the arguments are
  written by no one.
-/
import proofs.«121984_g44616120271338_cont_sun_m_526_12_alg».proof.Proof.RefRunValE1
import proofs.«121984_g44616120271338_cont_sun_m_526_12_alg».proof.Proof.RefRunValE2
import proofs.«121984_g44616120271338_cont_sun_m_526_12_alg».proof.Proof.RefRunValE3
import proofs.«121984_g44616120271338_cont_sun_m_526_12_alg».proof.Proof.RefRunValE4
import proofs.«121984_g44616120271338_cont_sun_m_526_12_alg».proof.Proof.RefRunValG1
import proofs.«121984_g44616120271338_cont_sun_m_526_12_alg».proof.Proof.RefRunValG2
import proofs.«121984_g44616120271338_cont_sun_m_526_12_alg».proof.Proof.RefRunValG3
import proofs.«121984_g44616120271338_cont_sun_m_526_12_alg».proof.Proof.RefRunValG4
import proofs.«121984_g44616120271338_cont_sun_m_526_12_alg».proof.Proof.RefRunValHZ
import Idealize.ShloMosaic.Lib.StableHlo.Run

noncomputable section

namespace Cert.ReferenceIdeal.Stages

open Idealize.ShloMosaic Idealize.ShloMosaic.TcCoe Idealize.SL.Sem Idealize.ShloMosaic.StableHlo Cert.ReferenceIdeal Cert.ReferenceIdeal.Facts₀

variable {F : FTy → Type} [FloatOps F]

abbrev cS0 : List (HloOp τ sig (Elt F)) := cE1 ++ (cE2 ++ (cG1 ++ (cG2 ++ pH)))
abbrev cS0_W : List (Ref sig .tc) := cE1_W ++ (cE2_W ++ (cG1_W ++ (cG2_W ++ pH_W)))
abbrev cS1 : List (HloOp τ sig (Elt F)) := cE3 ++ (cE4 ++ (cG3 ++ cG4))
abbrev cS1_W : List (Ref sig .tc) := cE3_W ++ (cE4_W ++ (cG3_W ++ cG4_W))

theorem cS0_writes : (cS0 : List (HloOp τ sig (Elt F))).Forall fun op =>
    op.writes ⊆ (cS0_W.map (Proc.devRef (τ := τ) .tc)).toFinset :=
  writes_append cE1_writes (writes_append cE2_writes (writes_append cG1_writes (writes_append cG2_writes pH_writes)))

theorem cS1_writes : (cS1 : List (HloOp τ sig (Elt F))).Forall fun op =>
    op.writes ⊆ (cS1_W.map (Proc.devRef (τ := τ) .tc)).toFinset :=
  writes_append cE3_writes (writes_append cE4_writes (writes_append cG3_writes cG4_writes))

theorem cS0_keep (W : Valuation τ sig (Elt F)) (r : Ref sig .tc) (h : r ∉ cS0_W) :
    after cS0 W (Proc.devRef .tc r) = W (Proc.devRef .tc r) :=
  after_of_writes_sub cS0 W cS0_writes h

theorem cS1_keep (W : Valuation τ sig (Elt F)) (r : Ref sig .tc) (h : r ∉ cS1_W) :
    after cS1 W (Proc.devRef .tc r) = W (Proc.devRef .tc r) :=
  after_of_writes_sub cS1 W cS1_writes h

/-- View 0. -/
theorem cS0_out (W : Valuation τ sig (Elt F)) :
    after cS0 W (Proc.devRef .tc main_v92)
      = viewOut (gnn (view0 (W (Proc.devRef .tc main_arg2))) (feat0 (W (Proc.devRef .tc main_arg0)) (W (Proc.devRef .tc main_arg5)) (W (Proc.devRef .tc main_arg6))))
          (gnn (view0 (W (Proc.devRef .tc main_arg1))) (feat0 (W (Proc.devRef .tc main_arg0)) (W (Proc.devRef .tc main_arg3)) (W (Proc.devRef .tc main_arg4)))) := by
  rw [after_app, after_app, after_app, after_app, pH_out, cG2_out, cG2_keep _ main_v72 (by decide), cG1_out,
    -- the backward half: its sources and destinations come from the second enumeration, through the first convolution
    cG1_keep _ main_v52 (by decide), cE2_row, cG1_keep _ main_v53 (by decide), cE2_col,
    cG1_keep _ main_arg0 (by decide), cG1_keep _ main_arg5 (by decide), cG1_keep _ main_arg6 (by decide),
    -- the forward half: from the first enumeration, through the second
    cE2_keep _ main_v25 (by decide), cE1_row, cE2_keep _ main_v26 (by decide), cE1_col,
    cE2_keep _ main_arg0 (by decide), cE2_keep _ main_arg3 (by decide), cE2_keep _ main_arg4 (by decide), cE2_keep _ main_arg5 (by decide), cE2_keep _ main_arg6 (by decide),
    cE1_keep _ main_arg0 (by decide), cE1_keep _ main_arg2 (by decide), cE1_keep _ main_arg3 (by decide), cE1_keep _ main_arg4 (by decide), cE1_keep _ main_arg5 (by decide), cE1_keep _ main_arg6 (by decide),
    ← gnn_eq, ← gnn_eq]

/-- View 1, the forward half. -/
theorem cS1_fw (W : Valuation τ sig (Elt F)) :
    after cS1 W (Proc.devRef .tc main_v165) = gnn (view1 (W (Proc.devRef .tc main_arg1))) (feat1 (W (Proc.devRef .tc main_arg0)) (W (Proc.devRef .tc main_arg3)) (W (Proc.devRef .tc main_arg4))) := by
  rw [after_app, after_app, after_app, cG4_keep _ main_v165 (by decide), cG3_out,
    cE4_keep _ main_v118 (by decide), cE3_row, cE4_keep _ main_v119 (by decide), cE3_col,
    cE4_keep _ main_arg0 (by decide), cE4_keep _ main_arg3 (by decide), cE4_keep _ main_arg4 (by decide),
    cE3_keep _ main_arg0 (by decide), cE3_keep _ main_arg3 (by decide), cE3_keep _ main_arg4 (by decide), ← gnn_eq]

/-- View 1, the backward half. -/
theorem cS1_bw (W : Valuation τ sig (Elt F)) :
    after cS1 W (Proc.devRef .tc main_v184) = gnn (view1 (W (Proc.devRef .tc main_arg2))) (feat1 (W (Proc.devRef .tc main_arg0)) (W (Proc.devRef .tc main_arg5)) (W (Proc.devRef .tc main_arg6))) := by
  rw [after_app, after_app, after_app, cG4_out,
    cG3_keep _ main_v145 (by decide), cE4_row, cG3_keep _ main_v146 (by decide), cE4_col,
    cG3_keep _ main_arg0 (by decide), cG3_keep _ main_arg5 (by decide), cG3_keep _ main_arg6 (by decide),
    cE4_keep _ main_arg0 (by decide), cE4_keep _ main_arg5 (by decide), cE4_keep _ main_arg6 (by decide),
    cE3_keep _ main_arg0 (by decide), cE3_keep _ main_arg2 (by decide), cE3_keep _ main_arg5 (by decide), cE3_keep _ main_arg6 (by decide), ← gnn_eq]

end Cert.ReferenceIdeal.Stages

end
-- ==== Proof.RefRun.lean ====
/-
  The reference's run.

  The operation list of @main is the view-0 stage, the view-1 stage and the tail one after the other (the same pieces in the
  same order, the concatenations re-associated). Reading the three in turn from ANY contents V: the tail's result main_v195 is
  the output layer over the sum of the two views' outputs, each view's output the backward convolution beside the forward one —
  which is `refOut` of the nine arguments as they stand in V; and a reference none of the three writes, an argument in
  particular, keeps its contents. The run itself — every weakly fair execution terminates with each buffer at the operations'
  fold over the launch contents — is `run_main`; at the launch contents the nine arguments are the memory's.
-/
import proofs.«121984_g44616120271338_cont_sun_m_526_12_alg».proof.Proof.RefRunMain
import proofs.«121984_g44616120271338_cont_sun_m_526_12_alg».proof.Proof.RefRunStage
import Idealize.ShloMosaic.Lib.StableHlo.Run

noncomputable section

namespace Cert.ReferenceIdeal.Stages

open Idealize.ShloMosaic Idealize.ShloMosaic.TcCoe Idealize.SL.Sem Idealize.ShloMosaic.StableHlo Cert.ReferenceIdeal Cert.ReferenceIdeal.Facts₀

variable {F : FTy → Type} [FloatOps F]

/-- The whole list, stage by stage. -/
theorem ops_chunks : (ops : List (HloOp τ sig (Elt F))) = cS0 ++ (cS1 ++ cZ) := by
  simp only [ops, w0, w1, w2, w3, w4, cS0, cS1, cZ, cE1, cE2, cE3, cE4, cA1, cA2, cA3, cA4, cAs1, cAs2, cAs3, cAs4,
    cG1, cG2, cG3, cG4, cGs2, cGg4, List.append_assoc]

theorem refOut_eq (x : FVec F S1024x128 .f32) (afw abw : IVec S2x1024x1024 32) (Wfw : FVec F S2x128x64 .f32) (bfw : FVec F S2x64 .f32)
    (Wbw : FVec F S2x128x64 .f32) (bbw : FVec F S2x64 .f32) (W1 : FVec F S128x128 .f32) (b1 : FVec F S128 .f32) :
    refOut x afw abw Wfw bfw Wbw bbw W1 b1
      = outLayer
          (viewSum
            (viewOut (gnn (view0 abw) (feat0 x Wbw bbw)) (gnn (view0 afw) (feat0 x Wfw bfw)))
            (viewOut (gnn (view1 abw) (feat1 x Wbw bbw)) (gnn (view1 afw) (feat1 x Wfw bfw))))
          x W1 b1 := rfl

/-- A reference none of the three writes keeps its contents through the whole list. -/
theorem ops_keep (V : Valuation τ sig (Elt F)) (r : Ref sig .tc) (h0 : r ∉ cS0_W) (h1 : r ∉ cS1_W) (hz : r ∉ cZ_W) :
    after ops V (Proc.devRef .tc r) = V (Proc.devRef .tc r) := by
  rw [ops_chunks, after_app, after_app, cZ_keep _ r hz, cS1_keep _ r h1, cS0_keep _ r h0]

/-- The result buffer after the whole list. -/
theorem ops_out (V : Valuation τ sig (Elt F)) :
    after ops V (Proc.devRef .tc main_v195) = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [ops_chunks, after_app, after_app, cZ_out, cS1_keep _ main_v92 (by decide), cS0_out, cS1_bw, cS1_fw,
    cS1_keep _ main_arg0 (by decide), cS1_keep _ main_arg7 (by decide), cS1_keep _ main_arg8 (by decide),
    cS0_keep _ main_arg0 (by decide), cS0_keep _ main_arg1 (by decide), cS0_keep _ main_arg2 (by decide), cS0_keep _ main_arg3 (by decide), cS0_keep _ main_arg4 (by decide), cS0_keep _ main_arg5 (by decide), cS0_keep _ main_arg6 (by decide), cS0_keep _ main_arg7 (by decide), cS0_keep _ main_arg8 (by decide), refOut_eq]

/-- On every device, for any float values, from any memory with zero counters: every weakly fair execution of @main
    terminates with the result buffer at `refOut` of the arguments and the arguments unchanged. -/
theorem ref_run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v195)
        = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v195).trans (ops_out _),
      (h c main_arg0).trans (ops_keep _ main_arg0 (by decide) (by decide) (by decide)),
      (h c main_arg1).trans (ops_keep _ main_arg1 (by decide) (by decide) (by decide)),
      (h c main_arg2).trans (ops_keep _ main_arg2 (by decide) (by decide) (by decide)),
      (h c main_arg3).trans (ops_keep _ main_arg3 (by decide) (by decide) (by decide)),
      (h c main_arg4).trans (ops_keep _ main_arg4 (by decide) (by decide) (by decide)),
      (h c main_arg5).trans (ops_keep _ main_arg5 (by decide) (by decide) (by decide)),
      (h c main_arg6).trans (ops_keep _ main_arg6 (by decide) (by decide) (by decide)),
      (h c main_arg7).trans (ops_keep _ main_arg7 (by decide) (by decide) (by decide)),
      (h c main_arg8).trans (ops_keep _ main_arg8 (by decide) (by decide) (by decide))⟩)
    (run_main m ρ)

end Cert.ReferenceIdeal.Stages

end
-- ==== Proof.lean ====
/-
  The certificate of the bidirectional two-view graph layer.

  Both idealized programs compute, entry by entry over the extended reals, the one function `Cert.BiGnn.G` of the nine
  argument arrays (Proof/Spec.lean): with h_i = x · W_i + b_i per view and direction, hidden unit k of node p is
  Σ_i max(Σ_{s : A_i(s,p) ≠ 0} h_i(s, ·), 0) — backward direction in units 0–63, forward in 64–127 — and the output is
  that times W1, plus b1, plus x.
  * The kernel multiplies the transposed features by the adjacency words read as numbers; the precondition makes
    every adjacency word 0 or 1, so each product is the feature or 0 (Proof/KernelRun.lean).
  * The reference enumerates the nonzero adjacency entries (running sums, a count by scatter, a running sum of the
    counts, quotient and remainder by 1024), gathers the features at the sources and sums them into the destinations;
    the enumeration law (Proof/NzLaw.lean) turns that into the same sum over the nonzero words, and the second clamp
    is the identity on a sum of clamped values (Proof/RefRead.lean); its run is Proof/RefRun.lean.
  No finiteness of the float arguments is used: x · 0 = 0 and x · 1 = x hold on all of the extended reals.
  The idealization rewrote no operation, so `preserves` is trivial; the kernels' frames are the generated ones, and
  the reference's frame is its run with the result dropped.
-/
import proofs.«121984_g44616120271338_cont_sun_m_526_12_alg».proof.Defs
import proofs.«121984_g44616120271338_cont_sun_m_526_12_alg».proof.Proof.Gen.Kernel
import proofs.«121984_g44616120271338_cont_sun_m_526_12_alg».proof.Proof.Gen.Kernel.Skeleton
import proofs.«121984_g44616120271338_cont_sun_m_526_12_alg».proof.Proof.Gen.Kernel.Launch
import proofs.«121984_g44616120271338_cont_sun_m_526_12_alg».proof.Proof.Gen.Kernel.Points
import proofs.«121984_g44616120271338_cont_sun_m_526_12_alg».proof.Proof.Gen.Kernel.Frame
import proofs.«121984_g44616120271338_cont_sun_m_526_12_alg».proof.Proof.Gen.KernelIdeal
import proofs.«121984_g44616120271338_cont_sun_m_526_12_alg».proof.Proof.Gen.KernelIdeal.Skeleton
import proofs.«121984_g44616120271338_cont_sun_m_526_12_alg».proof.Proof.Gen.KernelIdeal.Launch
import proofs.«121984_g44616120271338_cont_sun_m_526_12_alg».proof.Proof.Gen.KernelIdeal.Points
import proofs.«121984_g44616120271338_cont_sun_m_526_12_alg».proof.Proof.Gen.KernelIdeal.Frame
import proofs.«121984_g44616120271338_cont_sun_m_526_12_alg».proof.Proof.Gen.KernelIdeal.Value
import proofs.«121984_g44616120271338_cont_sun_m_526_12_alg».proof.Proof.Gen.ReferenceIdeal
import proofs.«121984_g44616120271338_cont_sun_m_526_12_alg».proof.Proof.Gen.Pre_finite_inputs
import proofs.«121984_g44616120271338_cont_sun_m_526_12_alg».proof.Proof.Spec
import proofs.«121984_g44616120271338_cont_sun_m_526_12_alg».proof.Proof.PreDecode
import proofs.«121984_g44616120271338_cont_sun_m_526_12_alg».proof.Proof.KernelRun
import proofs.«121984_g44616120271338_cont_sun_m_526_12_alg».proof.Proof.NzLaw
import proofs.«121984_g44616120271338_cont_sun_m_526_12_alg».proof.Proof.RefRead
import proofs.«121984_g44616120271338_cont_sun_m_526_12_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Stages.ref_run m ρ)

/-- Both idealized programs end at the specification's array of arguments that agree. -/
theorem algebraic : Cert.algebraic_KernelIdeal_ReferenceIdeal := by
  intro m ρ m' ρ' hpre hagree
  have h01 := fun c : Dev Cert.KernelIdeal.nD =>
    Cert.BiGnn.adj01_of_pre (F := Ideal) _ _ _ _ _ _ _ _ _ (hpre c)
  refine ⟨fun c => Cert.BiGnn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.BiGnn.kernel_run m ρ (fun c i => (h01 c).1 i) (fun c i => (h01 c).2 i), ?_⟩
  refine (θ_run Cert.ReferenceIdeal.defs _ _).mono (fun _ h c => ⟨(h c).1.trans ?_, (h c).2⟩)
    (Cert.ReferenceIdeal.Stages.ref_run m' ρ')
  rw [Cert.ReferenceIdeal.Stages.refOut_eq_G _ _ _ _ _ _ _ _ _ (fun A g hg => Cert.ReferenceIdeal.Stages.nz_sum A g hg)]
  obtain ⟨e0, e1, e2, e3, e4, e5, e6, e7, e8⟩ := hagree c
  rw [e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
